-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x4x4 : Shape := ⟨4, ![512, 512, 4, 4]⟩
abbrev S512x512 : Shape := ⟨2, ![512, 512]⟩
abbrev S4x256 : Shape := ⟨2, ![4, 256]⟩
abbrev S256 : Shape := ⟨1, ![256]⟩
abbrev S256x256 : Shape := ⟨2, ![256, 256]⟩
abbrev S_ : Shape := ⟨0, ![]⟩

class Facts : Prop where
  bcast_S_S512x512x4x4 : S_.BroadcastsInDim S512x512x4x4 (![] : Fin 0 → Fin S512x512x4x4.rank)
  reducesTo_S512x512x4x4_S_d0_1_2_3 : S512x512x4x4.ReducesTo [0, 1, 2, 3] S_
  h_S_ : 0 < S_.numel
  bcast_S_S4x256 : S_.BroadcastsInDim S4x256 (![] : Fin 0 → Fin S4x256.rank)
  reducesTo_S4x256_S_d0_1 : S4x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg8 : FVec F S256 .f32) (main_arg9 : FVec F S256 .f32) (main_arg10 : FVec F S256x256 .f32) (main_arg11 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S512x512x4x4 .f32) (main_arg1 : IVec S512x512 1) (main_arg2 : FVec F S4x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) : IVec S_ 1 :=
  let main_v0 : FVec F S512x512x4x4 .f32 := Host.absf main_arg0
  let main_cst : FVec F S_ .f32 := constant S_ .f32 0x7F800000#32
  let main_v1 : FVec F S512x512x4x4 .f32 := broadcastInDim S512x512x4x4 ![] bcast_S_S512x512x4x4 main_cst
  let main_v2 : IVec S512x512x4x4 1 := cmpf .olt main_v0 main_v1
  let main_c : IVec S_ 1 := constantI S_ 1 1#1
  let main_v3 : IVec S_ 1 := (fun x v => Host.reduce IntOp.andi x v reducesTo_S512x512x4x4_S_d0_1_2_3 h_S_) main_v2 main_c
  let main_v4 : FVec F S4x256 .f32 := Host.absf main_arg2
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_v13 main_v16
-- ==== Kernel.lean ====
abbrev S512x512x4x4 : Shape := ⟨4, ![512, 512, 4, 4]⟩
abbrev S512x512 : Shape := ⟨2, ![512, 512]⟩
abbrev S4x256 : Shape := ⟨2, ![4, 256]⟩
abbrev S256 : Shape := ⟨1, ![256]⟩
abbrev S256x256 : Shape := ⟨2, ![256, 256]⟩
abbrev S512x512x1x4 : Shape := ⟨4, ![512, 512, 1, 4]⟩
abbrev S512x512x4 : Shape := ⟨3, ![512, 512, 4]⟩
abbrev S262144x4 : Shape := ⟨2, ![262144, 4]⟩
abbrev S262144x1 : Shape := ⟨2, ![262144, 1]⟩
abbrev S_ : Shape := ⟨0, ![]⟩
abbrev S1x256 : Shape := ⟨2, ![1, 256]⟩
abbrev S4096x4 : Shape := ⟨2, ![4096, 4]⟩
abbrev S4096x1 : Shape := ⟨2, ![4096, 1]⟩
abbrev S4096x256 : Shape := ⟨2, ![4096, 256]⟩
abbrev S262144x256 : Shape := ⟨2, ![262144, 256]⟩
abbrev S512x512x256 : Shape := ⟨3, ![512, 512, 256]⟩

abbrev nBuf : Space → Nat
  | .hbm => 48
  | .vmem => 46
  | .smem => 0
  | _ => 0

abbrev bufTy : (tb : Table) → Fin (tcTables nBuf tb) → BufTy
  | .hbm, ⟨0, _⟩ => ⟨S512x512x4x4, .f32⟩
  | .hbm, ⟨1, _⟩ => ⟨S512x512, .i1⟩
  | .hbm, ⟨2, _⟩ => ⟨S4x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S512x512x1x4, .f32⟩
  | .hbm, ⟨13, _⟩ => ⟨S512x512x4, .f32⟩
  | .hbm, ⟨14, _⟩ => ⟨S262144x4, .f32⟩
  | .hbm, ⟨15, _⟩ => ⟨S262144x1, .i1⟩
  | .hbm, ⟨16, _⟩ => ⟨S262144x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S256x256, .bf16⟩
  | .hbm, ⟨29, _⟩ => ⟨S256x256, .bf16⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S262144x256, .f32⟩
  | .hbm, ⟨47, _⟩ => ⟨S512x512x256, .f32⟩
  | .local _ .vmem, ⟨0, _⟩ => ⟨S4096x4, .f32⟩
  | .local _ .vmem, ⟨1, _⟩ => ⟨S4096x4, .f32⟩
  | .local _ .vmem, ⟨2, _⟩ => ⟨S4096x1, .f32⟩
  | .local _ .vmem, ⟨3, _⟩ => ⟨S4096x1, .f32⟩
  | .local _ .vmem, ⟨4, _⟩ => ⟨S4x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S4096x4, .f32⟩
  | .local _ .vmem, ⟨11, _⟩ => ⟨S4096x4, .f32⟩
  | .local _ .vmem, ⟨12, _⟩ => ⟨S4096x1, .f32⟩
  | .local _ .vmem, ⟨13, _⟩ => ⟨S4096x1, .f32⟩
  | .local _ .vmem, ⟨14, _⟩ => ⟨S4x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S256x256, .bf16⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S4096x4, .f32⟩
  | .local _ .vmem, ⟨27, _⟩ => ⟨S4096x4, .f32⟩
  | .local _ .vmem, ⟨28, _⟩ => ⟨S4096x1, .f32⟩
  | .local _ .vmem, ⟨29, _⟩ => ⟨S4096x1, .f32⟩
  | .local _ .vmem, ⟨30, _⟩ => ⟨S4x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S256x256, .bf16⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S256x256, .bf16⟩
  | .local _ .vmem, ⟨43, _⟩ => ⟨S1x256, .f32⟩
  | .local _ .vmem, ⟨44, _⟩ => ⟨S4096x256, .f32⟩
  | .local _ .vmem, ⟨45, _⟩ => ⟨S4096x256, .f32⟩
  | _, _ => ⟨S512x512x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_scratch0 : Ref sig .tc := ⟨.vmem, 24, rfl⟩
abbrev cc1_scratch1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg10_0 : Ref sig .tc := ⟨.vmem, 38, rfl⟩
abbrev cc2_stg11_0 : Ref sig .tc := ⟨.vmem, 39, rfl⟩
abbrev cc2_stg12_0 : Ref sig .tc := ⟨.vmem, 40, rfl⟩
abbrev cc2_stg13_0 : Ref sig .tc := ⟨.vmem, 41, rfl⟩
abbrev cc2_stg14_0 : Ref sig .tc := ⟨.vmem, 42, rfl⟩
abbrev cc2_stg15_0 : Ref sig .tc := ⟨.vmem, 43, rfl⟩
abbrev cc2_stg16_0 : Ref sig .tc := ⟨.vmem, 44, rfl⟩
abbrev cc2_stg16_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem13_0 : DmaSem sig := 37
abbrev cc2_sem14_0 : DmaSem sig := 38
abbrev cc2_sem15_0 : DmaSem sig := 39
abbrev cc2_sem16_0 : DmaSem sig := 40
abbrev cc2_sem16_1 : DmaSem sig := 41

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v30 : BitVec 1 := Scalar.cmpi .eq arg0 c63_i32
  let v31 : BitVec 32 := Scalar.extui v30
  let c0_i32_18 : BitVec 32 := 0#32
  let v32 : BitVec 1 := Scalar.cmpi .ne v31 c0_i32_18
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v59 : BitVec 1 := Scalar.cmpi .eq arg0 c63_i32
  let v60 : BitVec 32 := Scalar.extui v59
  let c0_i32_33 : BitVec 32 := 0#32
  let v61 : BitVec 1 := Scalar.cmpi .ne v60 c0_i32_33
  v61

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x256 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S256x256 .bf16 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x256 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 2 → Memref sig .tc .vmem S4096x256 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

class Facts₀ : Prop where
  slices_S512x512x4x4_S512x512x1x4_0_0_0_0 : S512x512x4x4.Slices ![0, 0, 0, 0] S512x512x1x4
  shapeCasts_S512x512x1x4_S512x512x4 : S512x512x1x4.ShapeCasts S512x512x4
  shapeCasts_S512x512x4_S262144x4 : S512x512x4.ShapeCasts S262144x4
  shapeCasts_S512x512_S262144x1 : S512x512.ShapeCasts S262144x1
  reducesTo_S262144x1_S_d0_1 : S262144x1.ReducesTo [0, 1] S_
  h_S_ : 0 < S_.numel
  shapeCasts_S256_S1x256 : S256.ShapeCasts S1x256
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4096x4_S4096x4_0_0 : ∀ a, (![0, 0] : Fin 2 → Nat) a + S4096x4.size a ≤ S4096x4.size a
  h_S4096x4 : 0 < S4096x4.numel
  shapeCasts_S4096x4_S4096x4 : S4096x4.ShapeCasts S4096x4
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4x256_S4x256_0_0 : ∀ a, (![0, 0] : Fin 2 → Nat) a + S4x256.size a ≤ S4x256.size a
  h_S4x256 : 0 < S4x256.numel
  broadcasts_S1x256_S4096x256 : S1x256.Broadcasts S4096x256
  broadcasts_S4096x1_S4096x256 : S4096x1.Broadcasts S4096x256
  reduces_S4096x256_S256 : S4096x256.Reduces [0] S256
  bcast_S_S1x256 : S_.BroadcastsInDim S1x256 (![] : Fin 0 → Fin S1x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  shapeCasts_S262144x256_S512x512x256 : S262144x256.ShapeCasts S512x512x256
  dot_S4096x4_S4x256_S4096x256_1_0_0_1_n_n_wf : DotDims.WF S4096x4 S4x256 S4096x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S262144x4.size a
  hwx0_0 : ∀ i : grid0.Coords, EltTy.bits .f32 = 32 ∨ (Rect.block (s := S262144x4) S4096x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .f32 = 32 ∨ (Rect.block (s := S262144x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x256.size a
  hwx0_2 : ∀ i : grid0.Coords, EltTy.bits .f32 = 32 ∨ (Rect.block (s := S4x256) S4x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x4.size a ≤ S262144x4.size a
  hwx1_0 : ∀ i : grid1.Coords, EltTy.bits .f32 = 32 ∨ (Rect.block (s := S262144x4) S4096x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S262144x1.size a
  hwx1_1 : ∀ i : grid1.Coords, EltTy.bits .f32 = 32 ∨ (Rect.block (s := S262144x1) S4096x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x256.size a ≤ S4x256.size a
  hwx1_2 : ∀ i : grid1.Coords, EltTy.bits .f32 = 32 ∨ (Rect.block (s := S4x256) S4x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x256.size a ≤ S256x256.size a
  hwx1_8 : ∀ i : grid1.Coords, EltTy.bits .bf16 = 32 ∨ (Rect.block (s := S256x256) S256x256.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x4.size a ≤ S262144x4.size a
  hwx2_0 : ∀ i : grid2.Coords, EltTy.bits .f32 = 32 ∨ (Rect.block (s := S262144x4) S4096x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S262144x1.size a
  hwx2_1 : ∀ i : grid2.Coords, EltTy.bits .f32 = 32 ∨ (Rect.block (s := S262144x1) S4096x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x256.size a ≤ S4x256.size a
  hwx2_2 : ∀ i : grid2.Coords, EltTy.bits .f32 = 32 ∨ (Rect.block (s := S4x256) S4x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x256.size a ≤ S256x256.size a
  hwx2_8 : ∀ i : grid2.Coords, EltTy.bits .bf16 = 32 ∨ (Rect.block (s := S256x256) S256x256.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x256.size a ≤ S1x256.size a
  hwx2_10 : ∀ i : grid2.Coords, EltTy.bits .f32 = 32 ∨ (Rect.block (s := S1x256) S1x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x256.size a ≤ S1x256.size a
  hwx2_11 : ∀ i : grid2.Coords, EltTy.bits .f32 = 32 ∨ (Rect.block (s := S1x256) S1x256.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x256.size a ≤ S1x256.size a
  hwx2_12 : ∀ i : grid2.Coords, EltTy.bits .f32 = 32 ∨ (Rect.block (s := S1x256) S1x256.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x256.size a ≤ S1x256.size a
  hwx2_13 : ∀ i : grid2.Coords, EltTy.bits .f32 = 32 ∨ (Rect.block (s := S1x256) S1x256.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S256x256.size a ≤ S256x256.size a
  hwx2_14 : ∀ i : grid2.Coords, EltTy.bits .bf16 = 32 ∨ (Rect.block (s := S256x256) S256x256.size (cc2_transform_14 i) (hinb2_14 i)).WholeWords (EltTy.packing .bf16)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S1x256.size a ≤ S1x256.size a
  hwx2_15 : ∀ i : grid2.Coords, EltTy.bits .f32 = 32 ∨ (Rect.block (s := S1x256) S1x256.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S4096x256.size a ≤ S262144x256.size a
  hwx2_16 : ∀ i : grid2.Coords, EltTy.bits .f32 = 32 ∨ (Rect.block (s := S262144x256) S4096x256.size (cc2_transform_16 i) (hinb2_16 i)).WholeWords (EltTy.packing .f32)

variable [Facts₀]

def dot_S4096x4_S4x256_S4096x256_1_0_0_1_n_n : DotDims S4096x4 S4x256 S4096x256 where
  lhsContracting := [1]
  rhsContracting := [0]
  lhsNonContracting := [0]
  rhsNonContracting := [1]
  lhsBatch := []
  rhsBatch := []
  wf := dot_S4096x4_S4x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v2) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S1x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S1x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v2) S4096x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v14) S256x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v10) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v23_0) S1x256.size cc1_transform_10 reads1_10 true true 1 stage1_10 sem1_10
    hrank1 hreads1_10 hinb1_10 nbuf1_10 (Memref.isWhole_whole _) hwx1_10 hstage1_10

abbrev win1_11 : Pipeline.Window sig grid1 :=
  Pipeline.Window.ofSpec (Memref.whole main_v23_1) S1x256.size cc1_transform_11 reads1_11 true true 1 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | 11 => fun i => !(k1_cond2 i == 1#1) | ⟨_ + 12, h⟩ => absurd h (Nat.not_lt.2 (Nat.le_add_left _ _))

abbrev win2_0 : Pipeline.Window sig grid2 :=
  Pipeline.Window.ofSpec (Memref.whole main_v2) S4096x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S4x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v9) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v14) S256x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v10) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v25) S1x256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v29) S1x256.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v11) S1x256.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v12) S1x256.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v15) S256x256.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v13) S1x256.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v30) S4096x256.size cc2_transform_16 reads2_16 true false 2 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

class Facts : Prop extends Facts₀ where

variable [Facts]
-- ==== ReferenceIdeal.lean ====
abbrev S512x512x4x4 : Shape := ⟨4, ![512, 512, 4, 4]⟩
abbrev S512x512 : Shape := ⟨2, ![512, 512]⟩
abbrev S4x256 : Shape := ⟨2, ![4, 256]⟩
abbrev S256 : Shape := ⟨1, ![256]⟩
abbrev S256x256 : Shape := ⟨2, ![256, 256]⟩
abbrev S512x512x1x4 : Shape := ⟨4, ![512, 512, 1, 4]⟩
abbrev S512x512x4 : Shape := ⟨3, ![512, 512, 4]⟩
abbrev S262144x4 : Shape := ⟨2, ![262144, 4]⟩
abbrev S262144 : Shape := ⟨1, ![262144]⟩
abbrev S262144x1 : Shape := ⟨2, ![262144, 1]⟩
abbrev S_ : Shape := ⟨0, ![]⟩
abbrev S262144x256 : Shape := ⟨2, ![262144, 256]⟩
abbrev S1x256 : Shape := ⟨2, ![1, 256]⟩
abbrev S512x512x256 : Shape := ⟨3, ![512, 512, 256]⟩

abbrev nBuf : Space → Nat
  | .hbm => 107
  | .vmem => 0
  | .smem => 0
  | _ => 0

abbrev bufTy : (tb : Table) → Fin (tcTables nBuf tb) → BufTy
  | .hbm, ⟨0, _⟩ => ⟨S512x512x4x4, .f32⟩
  | .hbm, ⟨1, _⟩ => ⟨S512x512, .i1⟩
  | .hbm, ⟨2, _⟩ => ⟨S4x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S512x512x1x4, .f32⟩
  | .hbm, ⟨13, _⟩ => ⟨S512x512x4, .f32⟩
  | .hbm, ⟨14, _⟩ => ⟨S262144x4, .f32⟩
  | .hbm, ⟨15, _⟩ => ⟨S262144, .i1⟩
  | .hbm, ⟨16, _⟩ => ⟨S262144, .f32⟩
  | .hbm, ⟨17, _⟩ => ⟨S262144x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S262144x256, .f32⟩
  | .hbm, ⟨23, _⟩ => ⟨S1x256, .f32⟩
  | .hbm, ⟨24, _⟩ => ⟨S262144x256, .f32⟩
  | .hbm, ⟨25, _⟩ => ⟨S262144x256, .f32⟩
  | .hbm, ⟨26, _⟩ => ⟨S262144x256, .f32⟩
  | .hbm, ⟨27, _⟩ => ⟨S262144x256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S1x256, .f32⟩
  | .hbm, ⟨33, _⟩ => ⟨S262144x256, .f32⟩
  | .hbm, ⟨34, _⟩ => ⟨S262144x256, .f32⟩
  | .hbm, ⟨35, _⟩ => ⟨S262144x256, .f32⟩
  | .hbm, ⟨36, _⟩ => ⟨S262144x256, .f32⟩
  | .hbm, ⟨37, _⟩ => ⟨S262144x256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S1x256, .f32⟩
  | .hbm, ⟨43, _⟩ => ⟨S262144x256, .f32⟩
  | .hbm, ⟨44, _⟩ => ⟨S262144x256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S1x256, .f32⟩
  | .hbm, ⟨50, _⟩ => ⟨S262144x256, .f32⟩
  | .hbm, ⟨51, _⟩ => ⟨S262144x256, .f32⟩
  | .hbm, ⟨52, _⟩ => ⟨S1x256, .f32⟩
  | .hbm, ⟨53, _⟩ => ⟨S262144x256, .f32⟩
  | .hbm, ⟨54, _⟩ => ⟨S262144x256, .f32⟩
  | .hbm, ⟨55, _⟩ => ⟨S1x256, .f32⟩
  | .hbm, ⟨56, _⟩ => ⟨S262144x256, .f32⟩
  | .hbm, ⟨57, _⟩ => ⟨S262144x256, .f32⟩
  | .hbm, ⟨58, _⟩ => ⟨S_, .f32⟩
  | .hbm, ⟨59, _⟩ => ⟨S262144x256, .f32⟩
  | .hbm, ⟨60, _⟩ => ⟨S262144x256, .f32⟩
  | .hbm, ⟨61, _⟩ => ⟨S262144x256, .f32⟩
  | .hbm, ⟨62, _⟩ => ⟨S1x256, .f32⟩
  | .hbm, ⟨63, _⟩ => ⟨S262144x256, .f32⟩
  | .hbm, ⟨64, _⟩ => ⟨S262144x256, .f32⟩
  | .hbm, ⟨65, _⟩ => ⟨S262144x256, .f32⟩
  | .hbm, ⟨66, _⟩ => ⟨S262144x256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S256, .f32⟩
  | .hbm, ⟨71, _⟩ => ⟨S1x256, .f32⟩
  | .hbm, ⟨72, _⟩ => ⟨S262144x256, .f32⟩
  | .hbm, ⟨73, _⟩ => ⟨S262144x256, .f32⟩
  | .hbm, ⟨74, _⟩ => ⟨S262144x256, .f32⟩
  | .hbm, ⟨75, _⟩ => ⟨S262144x256, .f32⟩
  | .hbm, ⟨76, _⟩ => ⟨S262144x256, .f32⟩
  | .hbm, ⟨77, _⟩ => ⟨S_, .f32⟩
  | .hbm, ⟨78, _⟩ => ⟨S256, .f32⟩
  | .hbm, ⟨79, _⟩ => ⟨S256, .f32⟩
  | .hbm, ⟨80, _⟩ => ⟨S256, .f32⟩
  | .hbm, ⟨81, _⟩ => ⟨S1x256, .f32⟩
  | .hbm, ⟨82, _⟩ => ⟨S262144x256, .f32⟩
  | .hbm, ⟨83, _⟩ => ⟨S262144x256, .f32⟩
  | .hbm, ⟨84, _⟩ => ⟨S_, .f32⟩
  | .hbm, ⟨85, _⟩ => ⟨S256, .f32⟩
  | .hbm, ⟨86, _⟩ => ⟨S256, .f32⟩
  | .hbm, ⟨87, _⟩ => ⟨S256, .f32⟩
  | .hbm, ⟨88, _⟩ => ⟨S1x256, .f32⟩
  | .hbm, ⟨89, _⟩ => ⟨S262144x256, .f32⟩
  | .hbm, ⟨90, _⟩ => ⟨S262144x256, .f32⟩
  | .hbm, ⟨91, _⟩ => ⟨S1x256, .f32⟩
  | .hbm, ⟨92, _⟩ => ⟨S262144x256, .f32⟩
  | .hbm, ⟨93, _⟩ => ⟨S262144x256, .f32⟩
  | .hbm, ⟨94, _⟩ => ⟨S1x256, .f32⟩
  | .hbm, ⟨95, _⟩ => ⟨S262144x256, .f32⟩
  | .hbm, ⟨96, _⟩ => ⟨S262144x256, .f32⟩
  | .hbm, ⟨97, _⟩ => ⟨S_, .f32⟩
  | .hbm, ⟨98, _⟩ => ⟨S262144x256, .f32⟩
  | .hbm, ⟨99, _⟩ => ⟨S262144x256, .f32⟩
  | .hbm, ⟨100, _⟩ => ⟨S262144x256, .f32⟩
  | .hbm, ⟨101, _⟩ => ⟨S1x256, .f32⟩
  | .hbm, ⟨102, _⟩ => ⟨S262144x256, .f32⟩
  | .hbm, ⟨103, _⟩ => ⟨S262144x256, .f32⟩
  | .hbm, ⟨104, _⟩ => ⟨S262144x256, .f32⟩
  | .hbm, ⟨105, _⟩ => ⟨S262144x256, .f32⟩
  | .hbm, ⟨106, _⟩ => ⟨S512x512x256, .f32⟩
  | _, _ => ⟨S512x512x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_cst : Ref sig .tc := ⟨.hbm, 58, rfl⟩
abbrev main_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_5 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_6 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩

abbrev nD : Nat := 1
abbrev τ : Topo := Topo.v7x

variable {F : FTy → Type} [FloatOps F]

class Facts₀ : Prop where
  slices_S512x512x4x4_S512x512x1x4_0_0_0_0 : S512x512x4x4.Slices ![0, 0, 0, 0] S512x512x1x4
  shapeCasts_S512x512x1x4_S512x512x4 : S512x512x1x4.ShapeCasts S512x512x4
  shapeCasts_S512x512x4_S262144x4 : S512x512x4.ShapeCasts S262144x4
  shapeCasts_S512x512_S262144 : S512x512.ShapeCasts S262144
  bcast_S262144_S262144x1_0 : S262144.BroadcastsInDim S262144x1 (![0] : Fin 1 → Fin S262144x1.rank)
  reducesTo_S262144x1_S_d0_1 : S262144x1.ReducesTo [0, 1] S_
  h_S_ : 0 < S_.numel
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S262144x1_S262144x256_0_1 : S262144x1.BroadcastsInDim S262144x256 (![0, 1] : Fin 2 → Fin S262144x256.rank)
  reducesTo_S262144x256_S256_d0 : S262144x256.ReducesTo [0] S256
  bcast_S_S256 : S_.BroadcastsInDim S256 (![] : Fin 0 → Fin S256.rank)
  bcast_S_S262144x256 : S_.BroadcastsInDim S262144x256 (![] : Fin 0 → Fin S262144x256.rank)
  shapeCasts_S262144x256_S512x512x256 : S262144x256.ShapeCasts S512x512x256
  dot_S262144x4_S4x256_S262144x256_1_0_0_1_n_n_wf : DotDims.WF S262144x4 S4x256 S262144x256 [1] [0] [0] [1] [] []
  dot_S262144x256_S256x256_S262144x256_1_0_0_1_n_n_wf : DotDims.WF S262144x256 S256x256 S262144x256 [1] [0] [0] [1] [] []

variable [Facts₀]

def dot_S262144x4_S4x256_S262144x256_1_0_0_1_n_n : DotDims S262144x4 S4x256 S262144x256 where
  lhsContracting := [1]
  rhsContracting := [0]
  lhsNonContracting := [0]
  rhsNonContracting := [1]
  lhsBatch := []
  rhsBatch := []
  wf := dot_S262144x4_S4x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.KFrameR0Defs.lean ====
/-
  Region 0 of the program, a statistics pass over the rows: what its runs share. The body branches twice on the grid
  coordinate: at the first point it clears its two accumulators, and at the last point it copies them to the two
  outputs; at every point it adds the block's masked column sums, and sums of squares, to the accumulators. The two
  conditions are decided over the 64 grid points in closed form. The outputs are idle, and not written back, at every
  point but the last.
-/
import proofs.«171056_j68092411510797_1_alg».proof.Proof.Gen.Kernel.Launch
import proofs.«171056_j68092411510797_1_alg».proof.Proof.Gen.Kernel.Skeleton
import proofs.«171056_j68092411510797_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the grid coordinate is zero. -/
abbrev cond0_first (i : grid0.Coords) : Prop := (Scalar.cmpi .ne (Scalar.extui (Scalar.cmpi .eq (BitVec.ofNat 32 (i 0).val) 0#32)) 0#32) = 1#1
/-- It holds at the first point only. -/
theorem hcond0_first : ∀ t : Fin cfg0.N, cond0_first (grid0.coords t) ↔ t.val % 64 = 0 :=
  (by decide +kernel : ∀ t : Fin grid0.N, cond0_first (grid0.coords t) ↔ t.val % 64 = 0)

/-- The second branch's condition: the grid coordinate is the last one. -/
abbrev cond0_last (i : grid0.Coords) : Prop := k0_cond2 i = 1#1
/-- It holds at the last point only. -/
theorem hcond0_last : ∀ t : Fin cfg0.N, cond0_last (grid0.coords t) ↔ t.val % 64 = 63 :=
  (by decide +kernel : ∀ t : Fin grid0.N, cond0_last (grid0.coords t) ↔ t.val % 64 = 63)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point output 4 is idle and not written back; at the last point it is live. -/
theorem idleAt0_4 : ∀ t : Fin cfg0.N, ¬cond0_last (grid0.coords t) → cfg0.idle 4 (grid0.coords t) = true := by decide +kernel
theorem noFlush0_4 : ∀ t : Fin cfg0.N, ¬cond0_last (grid0.coords t) → (cfg0.win 4).flush t = false := by decide +kernel
theorem liveAt0_4 : ∀ t : Fin cfg0.N, cond0_last (grid0.coords t) → cfg0.idle 4 (grid0.coords t) = false := by decide +kernel
/-- Away from the last point output 5 is idle and not written back; at the last point it is live. -/
theorem idleAt0_5 : ∀ t : Fin cfg0.N, ¬cond0_last (grid0.coords t) → cfg0.idle 5 (grid0.coords t) = true := by decide +kernel
theorem noFlush0_5 : ∀ t : Fin cfg0.N, ¬cond0_last (grid0.coords t) → (cfg0.win 5).flush t = false := by decide +kernel
theorem liveAt0_5 : ∀ t : Fin cfg0.N, cond0_last (grid0.coords t) → cfg0.idle 5 (grid0.coords t) = false := by decide +kernel

/-- One staging buffer of each output window, through which its contents are stated. -/
abbrev VO0_0 : View sig .tc .vmem S1x256 .f32 := (Memref.whole cc0_stg4_0 : Memref sig .tc .vmem S1x256 .f32).view
abbrev VO0_1 : View sig .tc .vmem S1x256 .f32 := (Memref.whole cc0_stg5_0 : Memref sig .tc .vmem S1x256 .f32).view
abbrev ms0_0 (t : Fin cfg0.N) : Memref sig .tc .vmem S4096x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
/-- The two accumulators: whole scoped buffers of the kernel's own, carried from point to point. -/
abbrev scM0_0 : Memref sig .tc .vmem S1x256 .f32 := Memref.whole cc0_scratch0
abbrev scM0_1 : Memref sig .tc .vmem S1x256 .f32 := Memref.whole cc0_scratch1
abbrev VS0_0 : View sig .tc .vmem S1x256 .f32 := scM0_0.view
abbrev VS0_1 : View sig .tc .vmem S1x256 .f32 := scM0_1.view

/-- The region's invariant before the first point, with the two accumulators as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Frame

end
-- ==== Proof.KFrameR0RunA.lean ====
/-
  Region 0, the body's run at the first point (the accumulators are cleared, then added to; the outputs are left alone):
  the pieces each buffer ends with are found by running the body.
-/
import proofs.«171056_j68092411510797_1_alg».proof.Proof.KFrameR0Defs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the proof that on whole memrefs the body runs to the continuation holding
    the inputs' as they were and each stored buffer with its pieces written. -/
noncomputable def kernelRun0_A (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond0_first i) (hc1 : ¬cond0_last i)
    (x0 : Vec F S4096x4 .f32) (x1 : Vec F S4096x1 .f32) (x2 : Vec F S4x256 .f32) (x3 : Vec F S1x256 .f32) :
    Σ' (LS0 : List (View.Piece (Elt F) S1x256 .f32)), { LS1 : List (View.Piece (Elt F) S1x256 .f32) //
      ∀ (xo0 xo1 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo0 ∗ owns (c : Thread nD τ) arg6 fullShare xo1 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo0 ∗ owns (c : Thread nD τ) arg6 fullShare xo1 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7 arg8 harg8) K } := by
  refine ⟨?_, ?_, fun xo0 xo1 E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%f3, %hf3, H3⟩, ⟨%fo0, %hfo0, HO0⟩, ⟨%fo1, %hfo1, HO1⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hfo0; obtain rfl := harg6.eq_unread hfo1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; isplitr; · ipureintro; exact harg5.read_unread _
      iexact HO0
    isplitl [HO1]
    · iexists _; isplitr; · ipureintro; exact harg6.read_unread _
      iexact HO1
    isplitl [HS0]; · iexists _; iexact HS0
    iexists _; iexact HS1

end Cert.Kernel.Frame

end
-- ==== Proof.KFrameR0RunB.lean ====
/-
  Region 0, the body's run at a middle point (the accumulators are added to; the outputs are left alone):
  the pieces each buffer ends with are found by running the body.
-/
import proofs.«171056_j68092411510797_1_alg».proof.Proof.KFrameR0RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the proof that on whole memrefs the body runs to the continuation holding
    the inputs' as they were and each stored buffer with its pieces written. -/
noncomputable def kernelRun0_B (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : ¬cond0_last i)
    (x0 : Vec F S4096x4 .f32) (x1 : Vec F S4096x1 .f32) (x2 : Vec F S4x256 .f32) (x3 : Vec F S1x256 .f32) (xs0 xs1 : Vec F S1x256 .f32) :
    Σ' (LS0 : List (View.Piece (Elt F) S1x256 .f32)), { LS1 : List (View.Piece (Elt F) S1x256 .f32) //
      ∀ (xo0 xo1 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo0 ∗ owns (c : Thread nD τ) arg6 fullShare xo1 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo0 ∗ owns (c : Thread nD τ) arg6 fullShare xo1 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7 arg8 harg8) K } := by
  refine ⟨?_, ?_, fun xo0 xo1 E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%f3, %hf3, H3⟩, ⟨%fo0, %hfo0, HO0⟩, ⟨%fo1, %hfo1, HO1⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfo0; obtain rfl := harg6.eq_unread hfo1; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; isplitr; · ipureintro; exact harg5.read_unread _
      iexact HO0
    isplitl [HO1]
    · iexists _; isplitr; · ipureintro; exact harg6.read_unread _
      iexact HO1
    isplitl [HS0]; · iexists _; iexact HS0
    iexists _; iexact HS1

end Cert.Kernel.Frame

end
-- ==== Proof.KFrameR0RunC.lean ====
/-
  Region 0, the body's run at the last point (the accumulators are added to, then copied to the outputs):
  the pieces each buffer ends with are found by running the body.
-/
import proofs.«171056_j68092411510797_1_alg».proof.Proof.KFrameR0RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the proof that on whole memrefs the body runs to the continuation holding
    the inputs' as they were and each stored buffer with its pieces written. -/
noncomputable def kernelRun0_C (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i)
    (x0 : Vec F S4096x4 .f32) (x1 : Vec F S4096x1 .f32) (x2 : Vec F S4x256 .f32) (x3 : Vec F S1x256 .f32) (xs0 xs1 : Vec F S1x256 .f32) :
    Σ' (L0 : List (View.Piece (Elt F) S1x256 .f32)) (L1 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7 arg8 harg8) K } := by
  refine ⟨?_, ?_, ?_, ?_, fun E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%f3, %hf3, H3⟩, ⟨%do0, %fo0, -, HO0⟩, ⟨%do1, %fo1, -, HO1⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    isplitl [HO1]; · iexists _; iexact HO1
    isplitl [HS0]; · iexists _; iexact HS0
    iexists _; iexact HS1

end Cert.Kernel.Frame

end
-- ==== Proof.KFrameR0Body.lean ====
/-
  Region 0: what the two accumulators and the two outputs hold after each grid point, the proof data, and the body
  obligation. After the first point the accumulators hold the first block's masked sums; after each later point, what the
  point before left plus that block's; at the last point the outputs receive the accumulators. Between points the
  region's invariant holds the two accumulators at exactly those contents.
-/
import proofs.«171056_j68092411510797_1_alg».proof.Proof.KFrameR0RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem scover0_A_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond0_first i) (hc1 : ¬cond0_last i) (x0 : Vec F S4096x4 .f32) (x1 : Vec F S4096x1 .f32) (x2 : Vec F S4x256 .f32) (x3 : Vec F S1x256 .f32) (y : S1x256.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S1x256.size (by sl_kernel_rfl) y
def sout0_A_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond0_first i) (hc1 : ¬cond0_last i) (x0 : Vec F S4096x4 .f32) (x1 : Vec F S4096x1 .f32) (x2 : Vec F S4x256 .f32) (x3 : Vec F S1x256 .f32) : Vec F S1x256 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3).1)
theorem scover0_A_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond0_first i) (hc1 : ¬cond0_last i) (x0 : Vec F S4096x4 .f32) (x1 : Vec F S4096x1 .f32) (x2 : Vec F S4x256 .f32) (x3 : Vec F S1x256 .f32) (y : S1x256.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S1x256.size (by sl_kernel_rfl) y
def sout0_A_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond0_first i) (hc1 : ¬cond0_last i) (x0 : Vec F S4096x4 .f32) (x1 : Vec F S4096x1 .f32) (x2 : Vec F S4x256 .f32) (x3 : Vec F S1x256 .f32) : Vec F S1x256 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2 x3).2.1)
theorem scover0_B_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : ¬cond0_last i) (x0 : Vec F S4096x4 .f32) (x1 : Vec F S4096x1 .f32) (x2 : Vec F S4x256 .f32) (x3 : Vec F S1x256 .f32) (xs0 xs1 : Vec F S1x256 .f32) (y : S1x256.Idx) :
    ∃ pc ∈ (kernelRun0_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).1 S1x256.size (by sl_kernel_rfl) y
def sout0_B_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : ¬cond0_last i) (x0 : Vec F S4096x4 .f32) (x1 : Vec F S4096x1 .f32) (x2 : Vec F S4x256 .f32) (x3 : Vec F S1x256 .f32) (xs0 xs1 : Vec F S1x256 .f32) : Vec F S1x256 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 xs0 xs1).1)
theorem scover0_B_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : ¬cond0_last i) (x0 : Vec F S4096x4 .f32) (x1 : Vec F S4096x1 .f32) (x2 : Vec F S4x256 .f32) (x3 : Vec F S1x256 .f32) (xs0 xs1 : Vec F S1x256 .f32) (y : S1x256.Idx) :
    ∃ pc ∈ (kernelRun0_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.1 S1x256.size (by sl_kernel_rfl) y
def sout0_B_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : ¬cond0_last i) (x0 : Vec F S4096x4 .f32) (x1 : Vec F S4096x1 .f32) (x2 : Vec F S4x256 .f32) (x3 : Vec F S1x256 .f32) (xs0 xs1 : Vec F S1x256 .f32) : Vec F S1x256 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 x3 xs0 xs1).2.1)
theorem scover0_C_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S1x256.size (by sl_kernel_rfl) y
def sout0_C_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) : Vec F S1x256 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 xs0 xs1).2.2.1)
theorem scover0_C_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S1x256.size (by sl_kernel_rfl) y
def sout0_C_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) : Vec F S1x256 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 x3 xs0 xs1).2.2.2.1)
theorem cover0_C_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S1x256.size (by sl_kernel_rfl) y
def out0_C_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) : Vec F S1x256 .f32 :=
  VO0_0.read (Elt F) (VO0_0.writes (Elt F) VO0_0.junk (kernelRun0_C c i arg1 harg1 arg2 harg2 arg3 harg3 arg4 harg4 arg5 harg5 arg6 harg6 arg7 harg7 arg8 harg8 hc0 hc1 x0 x1 x2 x3 xs0 xs1).1)
theorem cover0_C_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S1x256.size (by sl_kernel_rfl) y
def out0_C_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) : Vec F S1x256 .f32 :=
  VO0_1.read (Elt F) (VO0_1.writes (Elt F) VO0_1.junk (kernelRun0_C c i arg1 harg1 arg2 harg2 arg3 harg3 arg4 harg4 arg5 harg5 arg6 harg6 arg7 harg7 arg8 harg8 hc0 hc1 x0 x1 x2 x3 xs0 xs1).2.1)

/-- What the two outputs' staging buffers and the two accumulators hold after the body at position n: the first point
    clears and adds; a later point adds to what the point before left; the last point also copies the accumulators out.
    Away from the last point the outputs are idle: a placeholder nothing consults. -/
def outsAt0 (c : Dev nD) : (n : ℕ) → n < cfg0.N → Vec F S1x256 .f32 × Vec F S1x256 .f32 × Vec F S1x256 .f32 × Vec F S1x256 .f32
  | 0, hn => (VO0_0.read (Elt F) VO0_0.junk, VO0_1.read (Elt F) VO0_1.junk,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_first ⟨0, hn⟩).mpr (Nat.zero_mod _)) (fun h => by have h' := (hcond0_last ⟨0, hn⟩).mp h; (try dsimp only at h'); omega) (iblk0 V c 0 ⟨0, hn⟩) (iblk0 V c 1 ⟨0, hn⟩) (iblk0 V c 2 ⟨0, hn⟩) (iblk0 V c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_first ⟨0, hn⟩).mpr (Nat.zero_mod _)) (fun h => by have h' := (hcond0_last ⟨0, hn⟩).mp h; (try dsimp only at h'); omega) (iblk0 V c 0 ⟨0, hn⟩) (iblk0 V c 1 ⟨0, hn⟩) (iblk0 V c 2 ⟨0, hn⟩) (iblk0 V c 3 ⟨0, hn⟩))
  | n + 1, hn =>
    if hl : (n + 1) % 64 = 63 then
      (out0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => by have h' := (hcond0_first ⟨n + 1, hn⟩).mp h; have hN : n + 1 < 64 := lt_of_lt_of_eq hn (show cfg0.N = 64 from N_0); (try dsimp only at h'); omega) ((hcond0_last ⟨n + 1, hn⟩).mpr hl) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => by have h' := (hcond0_first ⟨n + 1, hn⟩).mp h; have hN : n + 1 < 64 := lt_of_lt_of_eq hn (show cfg0.N = 64 from N_0); (try dsimp only at h'); omega) ((hcond0_last ⟨n + 1, hn⟩).mpr hl) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => by have h' := (hcond0_first ⟨n + 1, hn⟩).mp h; have hN : n + 1 < 64 := lt_of_lt_of_eq hn (show cfg0.N = 64 from N_0); (try dsimp only at h'); omega) ((hcond0_last ⟨n + 1, hn⟩).mpr hl) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => by have h' := (hcond0_first ⟨n + 1, hn⟩).mp h; have hN : n + 1 < 64 := lt_of_lt_of_eq hn (show cfg0.N = 64 from N_0); (try dsimp only at h'); omega) ((hcond0_last ⟨n + 1, hn⟩).mpr hl) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
    else
      (VO0_0.read (Elt F) VO0_0.junk, VO0_1.read (Elt F) VO0_1.junk,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => by have h' := (hcond0_first ⟨n + 1, hn⟩).mp h; have hN : n + 1 < 64 := lt_of_lt_of_eq hn (show cfg0.N = 64 from N_0); (try dsimp only at h'); omega) (fun h => hl ((hcond0_last ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => by have h' := (hcond0_first ⟨n + 1, hn⟩).mp h; have hN : n + 1 < 64 := lt_of_lt_of_eq hn (show cfg0.N = 64 from N_0); (try dsimp only at h'); omega) (fun h => hl ((hcond0_last ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 64 = 0) (h1 : ¬t.val % 64 = 63) :
    outsAt0 V c t.val t.isLt = (VO0_0.read (Elt F) VO0_0.junk, VO0_1.read (Elt F) VO0_1.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_first t).mpr h0) (fun h => h1 ((hcond0_last t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_first t).mpr h0) (fun h => h1 ((hcond0_last t).mp h)) (iblk0 V c 0 t) (iblk0 V c 1 t) (iblk0 V c 2 t) (iblk0 V c 3 t)) := by
  obtain ⟨n, hn⟩ := t
  cases n with
  | zero => exact rfl
  | succ n => exact (by exfalso; have hN : n + 1 < 64 := lt_of_lt_of_eq hn (show cfg0.N = 64 from N_0); (try dsimp only at h0); omega)

theorem outsAt0_B (c : Dev nD) (t : Fin cfg0.N) (h0 : ¬t.val % 64 = 0) (h1 : ¬t.val % 64 = 63) :
    outsAt0 V c t.val t.isLt = (VO0_0.read (Elt F) VO0_0.junk, VO0_1.read (Elt F) VO0_1.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) (fun h => h1 ((hcond0_last t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) (fun h => h1 ((hcond0_last t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 64 = 0) (h1 : t.val % 64 = 63) :
    outsAt0 V c t.val t.isLt = (out0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) ((hcond0_last t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) ((hcond0_last t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) ((hcond0_last t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) ((hcond0_last t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-- The region's invariant before position n: before the first point the scoped rest and the generator register; afterwards the two
    accumulators at what the point before left, the remaining scoped buffers unopened, and the generator register. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨_ + 6, h⟩ => absurd h (Nat.not_lt.2 (Nat.le_add_left _ _))
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' memrefs hold their blocks; the closed forms say which case the point is in; the invariant hands
    the body the accumulators at what the point before left (at anything at the first point) and takes them back at this point's
    contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 64 = 0
  · by_cases h1 : t.val % 64 = 63
    · exfalso; omega
    · have hz : t.val = 0 := by omega
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_last t).mp h))) (noFlush0_4 t (fun h => h1 ((hcond0_last t).mp h)))]
      rw [Dat.leavesExact_idle (dat0 V c) 5 t (idleAt0_5 t (fun h => h1 ((hcond0_last t).mp h))) (noFlush0_5 t (fun h => h1 ((hcond0_last t).mp h)))]
      rw [outsAt0_A V c t h0 h1]
      unfold sout0_A_0 sout0_A_1; (try dsimp only)
      rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_first t).mpr h0) (fun h => h1 ((hcond0_last t).mp h)) (iblk0 V c 0 t) (iblk0 V c 1 t) (iblk0 V c 2 t) (iblk0 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ _ _ _ _ )
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := by omega
    by_cases h1 : t.val % 64 = 63
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_last t).mpr h1)], after0_4]
      rw [show (dat0 V c).leavesExact 5 t = owns (c : Thread nD τ) (ms0_5 t) fullShare ((dat0 V c).after 5 t) from by
        unfold Dat.leavesExact; rw [liveAt0_5 t ((hcond0_last t).mpr h1)], after0_5]
      rw [outsAt0_C V c t h0 h1]
      unfold out0_C_0 out0_C_1 sout0_C_0 sout0_C_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ (fun h => h0 ((hcond0_first t).mp h)) ((hcond0_last t).mpr h1) (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%eo0, H4⟩, ⟨%eo1, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ )
            · unfold owns; iexists _; isplitr
              swap; · iexact HS1
              ipureintro; exact View.read_writes_of_cover _ _ _ _ _ (scover0_C_1 c _ _ _ _ _ _ _ _ _ _ _ _ _ _ _ _ _ _ _ _ _ _ _ _ _ )
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_0 c _ _ _ _ _ _ _ _ _ _ _ _ _ _ _ _ _ _ _ _ _ _ _ _ _ )
      unfold owns; iexists _; isplitr
      swap; · iexact H5
      ipureintro; exact View.read_writes_of_cover _ _ _ _ _ (cover0_C_1 c _ _ _ _ _ _ _ _ _ _ _ _ _ _ _ _ _ _ _ _ _ _ _ _ _ )
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_last t).mp h))) (noFlush0_4 t (fun h => h1 ((hcond0_last t).mp h)))]
      rw [Dat.leavesExact_idle (dat0 V c) 5 t (idleAt0_5 t (fun h => h1 ((hcond0_last t).mp h))) (noFlush0_5 t (fun h => h1 ((hcond0_last t).mp h)))]
      rw [outsAt0_B V c t h0 h1]
      unfold sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_first t).mp h)) (fun h => h1 ((hcond0_last t).mp h)) (iblk0 V c 0 t) (iblk0 V c 1 t) (iblk0 V c 2 t) (iblk0 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ )
            · unfold owns; iexists _; isplitr
              swap; · iexact HS1
              ipureintro; exact View.read_writes_of_cover _ _ _ _ _ (scover0_B_1 c _ _ _ _ _ _ _ _ _ _ _ _ _ _ _ _ _ _ _ _ _ _ _ _ _ )
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the scoped rest back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Frame

end
-- ==== Proof.KFrameR1Defs.lean ====
/-
  Region 1 of the program, a statistics pass over the rows: what its runs share. The body branches twice on the grid
  coordinate: at the first point it clears its two accumulators, and at the last point it copies them to the two
  outputs; at every point it adds the block's masked column sums, and sums of squares, to the accumulators. The two
  conditions are decided over the 64 grid points in closed form. The outputs are idle, and not written back, at every
  point but the last.
-/
import proofs.«171056_j68092411510797_1_alg».proof.Proof.Gen.Kernel.Launch
import proofs.«171056_j68092411510797_1_alg».proof.Proof.Gen.Kernel.Skeleton
import proofs.«171056_j68092411510797_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the grid coordinate is zero. -/
abbrev cond1_first (i : grid1.Coords) : Prop := (Scalar.cmpi .ne (Scalar.extui (Scalar.cmpi .eq (BitVec.ofNat 32 (i 0).val) 0#32)) 0#32) = 1#1
/-- It holds at the first point only. -/
theorem hcond1_first : ∀ t : Fin cfg1.N, cond1_first (grid1.coords t) ↔ t.val % 64 = 0 :=
  (by decide +kernel : ∀ t : Fin grid1.N, cond1_first (grid1.coords t) ↔ t.val % 64 = 0)

/-- The second branch's condition: the grid coordinate is the last one. -/
abbrev cond1_last (i : grid1.Coords) : Prop := k1_cond2 i = 1#1
/-- It holds at the last point only. -/
theorem hcond1_last : ∀ t : Fin cfg1.N, cond1_last (grid1.coords t) ↔ t.val % 64 = 63 :=
  (by decide +kernel : ∀ t : Fin grid1.N, cond1_last (grid1.coords t) ↔ t.val % 64 = 63)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Away from the last point output 10 is idle and not written back; at the last point it is live. -/
theorem idleAt1_10 : ∀ t : Fin cfg1.N, ¬cond1_last (grid1.coords t) → cfg1.idle 10 (grid1.coords t) = true := by decide +kernel
theorem noFlush1_10 : ∀ t : Fin cfg1.N, ¬cond1_last (grid1.coords t) → (cfg1.win 10).flush t = false := by decide +kernel
theorem liveAt1_10 : ∀ t : Fin cfg1.N, cond1_last (grid1.coords t) → cfg1.idle 10 (grid1.coords t) = false := by decide +kernel
/-- Away from the last point output 11 is idle and not written back; at the last point it is live. -/
theorem idleAt1_11 : ∀ t : Fin cfg1.N, ¬cond1_last (grid1.coords t) → cfg1.idle 11 (grid1.coords t) = true := by decide +kernel
theorem noFlush1_11 : ∀ t : Fin cfg1.N, ¬cond1_last (grid1.coords t) → (cfg1.win 11).flush t = false := by decide +kernel
theorem liveAt1_11 : ∀ t : Fin cfg1.N, cond1_last (grid1.coords t) → cfg1.idle 11 (grid1.coords t) = false := by decide +kernel

/-- One staging buffer of each output window, through which its contents are stated. -/
abbrev VO1_0 : View sig .tc .vmem S1x256 .f32 := (Memref.whole cc1_stg10_0 : Memref sig .tc .vmem S1x256 .f32).view
abbrev VO1_1 : View sig .tc .vmem S1x256 .f32 := (Memref.whole cc1_stg11_0 : Memref sig .tc .vmem S1x256 .f32).view
abbrev ms1_0 (t : Fin cfg1.N) : Memref sig .tc .vmem S4096x4 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x256 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x256 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x256 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x256 .f32 := win1_11.stage (cfg1.slots t 11)
abbrev hs1_11 (t : Fin cfg1.N) : (ms1_11 t).IsWhole := hstage1_11 ((cfg1.slots t 11).cast nbuf1_11)
/-- The two accumulators: whole scoped buffers of the kernel's own, carried from point to point. -/
abbrev scM1_0 : Memref sig .tc .vmem S1x256 .f32 := Memref.whole cc1_scratch0
abbrev scM1_1 : Memref sig .tc .vmem S1x256 .f32 := Memref.whole cc1_scratch1
abbrev VS1_0 : View sig .tc .vmem S1x256 .f32 := scM1_0.view
abbrev VS1_1 : View sig .tc .vmem S1x256 .f32 := scM1_1.view

/-- The region's invariant before the first point, with the two accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.Kernel.Frame

end
-- ==== Proof.KFrameR1RunA.lean ====
/-
  Region 1, the body's run at the first point (the accumulators are cleared, then added to; the outputs are left alone):
  the pieces each buffer ends with are found by running the body.
-/
import proofs.«171056_j68092411510797_1_alg».proof.Proof.KFrameR1Defs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the proof that on whole memrefs the body runs to the continuation holding
    the inputs' as they were and each stored buffer with its pieces written. -/
noncomputable def kernelRun1_A (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond1_first i) (hc1 : ¬cond1_last i)
    (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) :
    Σ' (LS0 : List (View.Piece (Elt F) S1x256 .f32)), { LS1 : List (View.Piece (Elt F) S1x256 .f32) //
      ∀ (xo0 xo1 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo0 ∗ owns (c : Thread nD τ) arg12 fullShare xo1 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo0 ∗ owns (c : Thread nD τ) arg12 fullShare xo1 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xo0 xo1 E K => ?run⟩
  case run =>
    simp only [cc1__stats2_kernel_eq_skeleton]; unfold cc1__stats2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo0, %hfo0, HO0⟩, ⟨%fo1, %hfo1, HO1⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfo0; obtain rfl := harg12.eq_unread hfo1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO0]
    · iexists _; isplitr; · ipureintro; exact harg11.read_unread _
      iexact HO0
    isplitl [HO1]
    · iexists _; isplitr; · ipureintro; exact harg12.read_unread _
      iexact HO1
    isplitl [HS0]; · iexists _; iexact HS0
    iexists _; iexact HS1

end Cert.Kernel.Frame

end
-- ==== Proof.KFrameR1RunB.lean ====
/-
  Region 1, the body's run at a middle point (the accumulators are added to; the outputs are left alone):
  the pieces each buffer ends with are found by running the body.
-/
import proofs.«171056_j68092411510797_1_alg».proof.Proof.KFrameR1RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the proof that on whole memrefs the body runs to the continuation holding
    the inputs' as they were and each stored buffer with its pieces written. -/
noncomputable def kernelRun1_B (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : ¬cond1_last i)
    (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) :
    Σ' (LS0 : List (View.Piece (Elt F) S1x256 .f32)), { LS1 : List (View.Piece (Elt F) S1x256 .f32) //
      ∀ (xo0 xo1 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo0 ∗ owns (c : Thread nD τ) arg12 fullShare xo1 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo0 ∗ owns (c : Thread nD τ) arg12 fullShare xo1 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xo0 xo1 E K => ?run⟩
  case run =>
    simp only [cc1__stats2_kernel_eq_skeleton]; unfold cc1__stats2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo0, %hfo0, HO0⟩, ⟨%fo1, %hfo1, HO1⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfo0; obtain rfl := harg12.eq_unread hfo1; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO0]
    · iexists _; isplitr; · ipureintro; exact harg11.read_unread _
      iexact HO0
    isplitl [HO1]
    · iexists _; isplitr; · ipureintro; exact harg12.read_unread _
      iexact HO1
    isplitl [HS0]; · iexists _; iexact HS0
    iexists _; iexact HS1

end Cert.Kernel.Frame

end
-- ==== Proof.KFrameR1RunC.lean ====
/-
  Region 1, the body's run at the last point (the accumulators are added to, then copied to the outputs):
  the pieces each buffer ends with are found by running the body.
-/
import proofs.«171056_j68092411510797_1_alg».proof.Proof.KFrameR1RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the proof that on whole memrefs the body runs to the continuation holding
    the inputs' as they were and each stored buffer with its pieces written. -/
noncomputable def kernelRun1_C (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i)
    (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) :
    Σ' (L0 : List (View.Piece (Elt F) S1x256 .f32)) (L1 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L0) ∗ (∃ f, arg12.view.loc (c : Thread nD τ) ↦[arg12.view.set]{fullShare} arg12.view.writes (Elt F) f L1) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc1__stats2_kernel_eq_skeleton]; unfold cc1__stats2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%do0, %fo0, -, HO0⟩, ⟨%do1, %fo1, -, HO1⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO0]; · iexists _; iexact HO0
    isplitl [HO1]; · iexists _; iexact HO1
    isplitl [HS0]; · iexists _; iexact HS0
    iexists _; iexact HS1

end Cert.Kernel.Frame

end
-- ==== Proof.KFrameR1Body.lean ====
/-
  Region 1: what the two accumulators and the two outputs hold after each grid point, the proof data, and the body
  obligation. After the first point the accumulators hold the first block's masked sums; after each later point, what the
  point before left plus that block's; at the last point the outputs receive the accumulators. Between points the
  region's invariant holds the two accumulators at exactly those contents.
-/
import proofs.«171056_j68092411510797_1_alg».proof.Proof.KFrameR1RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem scover1_A_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (y : S1x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1 S1x256.size (by sl_kernel_rfl) y
def sout1_A_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) : Vec F S1x256 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1)
theorem scover1_A_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (y : S1x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1 S1x256.size (by sl_kernel_rfl) y
def sout1_A_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) : Vec F S1x256 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1)
theorem scover1_B_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) (y : S1x256.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).1 S1x256.size (by sl_kernel_rfl) y
def sout1_B_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) : Vec F S1x256 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).1)
theorem scover1_B_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) (y : S1x256.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.1 S1x256.size (by sl_kernel_rfl) y
def sout1_B_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) : Vec F S1x256 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.1)
theorem scover1_C_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) (y : S1x256.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.2.1 S1x256.size (by sl_kernel_rfl) y
def sout1_C_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) : Vec F S1x256 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.2.1)
theorem scover1_C_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) (y : S1x256.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.2.2.1 S1x256.size (by sl_kernel_rfl) y
def sout1_C_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) : Vec F S1x256 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.2.2.1)
theorem cover1_C_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) (y : S1x256.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).1 S1x256.size (by sl_kernel_rfl) y
def out1_C_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) : Vec F S1x256 .f32 :=
  VO1_0.read (Elt F) (VO1_0.writes (Elt F) VO1_0.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).1)
theorem cover1_C_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) (y : S1x256.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.1 S1x256.size (by sl_kernel_rfl) y
def out1_C_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) : Vec F S1x256 .f32 :=
  VO1_1.read (Elt F) (VO1_1.writes (Elt F) VO1_1.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.1)

/-- What the two outputs' staging buffers and the two accumulators hold after the body at position n: the first point
    clears and adds; a later point adds to what the point before left; the last point also copies the accumulators out.
    Away from the last point the outputs are idle: a placeholder nothing consults. -/
def outsAt1 (c : Dev nD) : (n : ℕ) → n < cfg1.N → Vec F S1x256 .f32 × Vec F S1x256 .f32 × Vec F S1x256 .f32 × Vec F S1x256 .f32
  | 0, hn => (VO1_0.read (Elt F) VO1_0.junk, VO1_1.read (Elt F) VO1_1.junk,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_first ⟨0, hn⟩).mpr (Nat.zero_mod _)) (fun h => by have h' := (hcond1_last ⟨0, hn⟩).mp h; (try dsimp only at h'); omega) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_first ⟨0, hn⟩).mpr (Nat.zero_mod _)) (fun h => by have h' := (hcond1_last ⟨0, hn⟩).mp h; (try dsimp only at h'); omega) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if hl : (n + 1) % 64 = 63 then
      (out1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => by have h' := (hcond1_first ⟨n + 1, hn⟩).mp h; have hN : n + 1 < 64 := lt_of_lt_of_eq hn (show cfg1.N = 64 from N_1); (try dsimp only at h'); omega) ((hcond1_last ⟨n + 1, hn⟩).mpr hl) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2,
       out1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => by have h' := (hcond1_first ⟨n + 1, hn⟩).mp h; have hN : n + 1 < 64 := lt_of_lt_of_eq hn (show cfg1.N = 64 from N_1); (try dsimp only at h'); omega) ((hcond1_last ⟨n + 1, hn⟩).mpr hl) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => by have h' := (hcond1_first ⟨n + 1, hn⟩).mp h; have hN : n + 1 < 64 := lt_of_lt_of_eq hn (show cfg1.N = 64 from N_1); (try dsimp only at h'); omega) ((hcond1_last ⟨n + 1, hn⟩).mpr hl) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => by have h' := (hcond1_first ⟨n + 1, hn⟩).mp h; have hN : n + 1 < 64 := lt_of_lt_of_eq hn (show cfg1.N = 64 from N_1); (try dsimp only at h'); omega) ((hcond1_last ⟨n + 1, hn⟩).mpr hl) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2)
    else
      (VO1_0.read (Elt F) VO1_0.junk, VO1_1.read (Elt F) VO1_1.junk,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => by have h' := (hcond1_first ⟨n + 1, hn⟩).mp h; have hN : n + 1 < 64 := lt_of_lt_of_eq hn (show cfg1.N = 64 from N_1); (try dsimp only at h'); omega) (fun h => hl ((hcond1_last ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => by have h' := (hcond1_first ⟨n + 1, hn⟩).mp h; have hN : n + 1 < 64 := lt_of_lt_of_eq hn (show cfg1.N = 64 from N_1); (try dsimp only at h'); omega) (fun h => hl ((hcond1_last ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2)

theorem outsAt1_A (c : Dev nD) (t : Fin cfg1.N) (h0 : t.val % 64 = 0) (h1 : ¬t.val % 64 = 63) :
    outsAt1 V c t.val t.isLt = (VO1_0.read (Elt F) VO1_0.junk, VO1_1.read (Elt F) VO1_1.junk, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_first t).mpr h0) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_first t).mpr h0) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (by exfalso; have hN : n + 1 < 64 := lt_of_lt_of_eq hn (show cfg1.N = 64 from N_1); (try dsimp only at h0); omega)

theorem outsAt1_B (c : Dev nD) (t : Fin cfg1.N) (h0 : ¬t.val % 64 = 0) (h1 : ¬t.val % 64 = 63) :
    outsAt1 V c t.val t.isLt = (VO1_0.read (Elt F) VO1_0.junk, VO1_1.read (Elt F) VO1_1.junk, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 64 = 0) (h1 : t.val % 64 = 63) :
    outsAt1 V c t.val t.isLt = (out1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) ((hcond1_last t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) ((hcond1_last t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) ((hcond1_last t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) ((hcond1_last t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-- The region's invariant before position n: before the first point the scoped rest and the generator register; afterwards the two
    accumulators at what the point before left, the remaining scoped buffers unopened, and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
    | ⟨11, _⟩ => (outsAt1 V c t.val t.isLt).2.1
    | ⟨_ + 12, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]
theorem after1_11 (c : Dev nD) (t : Fin cfg1.N) : (dat1 V c).after 11 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 8000000 in
/-- The body at any point: the inputs' memrefs hold their blocks; the closed forms say which case the point is in; the invariant hands
    the body the accumulators at what the point before left (at anything at the first point) and takes them back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 64 = 0
  · by_cases h1 : t.val % 64 = 63
    · exfalso; omega
    · have hz : t.val = 0 := by omega
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10 t (fun h => h1 ((hcond1_last t).mp h))) (noFlush1_10 t (fun h => h1 ((hcond1_last t).mp h)))]
      rw [Dat.leavesExact_idle (dat1 V c) 11 t (idleAt1_11 t (fun h => h1 ((hcond1_last t).mp h))) (noFlush1_11 t (fun h => h1 ((hcond1_last t).mp h)))]
      rw [outsAt1_A V c t h0 h1]
      unfold sout1_A_0 sout1_A_1; (try dsimp only)
      rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_A c (grid1.coords t) _ _ _ _ _ _ _ _ _ _ _ _ _ _ _ _ _ _ _ _ _ _ _ _ _ _ _ _ ((hcond1_first t).mpr h0) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _ _ _ _ _ _ _ _ )
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
  · have hz : t.val ≠ 0 := by omega
    by_cases h1 : t.val % 64 = 63
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10 t ((hcond1_last t).mpr h1)], after1_10]
      rw [show (dat1 V c).leavesExact 11 t = owns (c : Thread nD τ) (ms1_11 t) fullShare ((dat1 V c).after 11 t) from by
        unfold Dat.leavesExact; rw [liveAt1_11 t ((hcond1_last t).mpr h1)], after1_11]
      rw [outsAt1_C V c t h0 h1]
      unfold out1_C_0 out1_C_1 sout1_C_0 sout1_C_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_C c (grid1.coords t) _ _ _ _ _ _ _ _ _ _ _ _ _ _ _ _ _ _ _ _ _ _ _ _ _ _ _ _ (fun h => h0 ((hcond1_first t).mp h)) ((hcond1_last t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      isplitl [HS1]; · iexact HS1
      iintro ⟨H0, H1, H2, H3, H4, H5, H6, H7, H8, H9, ⟨%eo0, H10⟩, ⟨%eo1, H11⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover1_C_1 c _ _ _ _ _ _ _ _ _ _ _ _ _ _ _ _ _ _ _ _ _ _ _ _ _ _ _ _ _ _ _ _ _ _ _ _ _ _ _ _ _ _ _ )
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover1_C_0 c _ _ _ _ _ _ _ _ _ _ _ _ _ _ _ _ _ _ _ _ _ _ _ _ _ _ _ _ _ _ _ _ _ _ _ _ _ _ _ _ _ _ _ )
      unfold owns; iexists _; isplitr
      swap; · iexact H11
      ipureintro; exact View.read_writes_of_cover _ _ _ _ _ (cover1_C_1 c _ _ _ _ _ _ _ _ _ _ _ _ _ _ _ _ _ _ _ _ _ _ _ _ _ _ _ _ _ _ _ _ _ _ _ _ _ _ _ _ _ _ _ )
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10 t (fun h => h1 ((hcond1_last t).mp h))) (noFlush1_10 t (fun h => h1 ((hcond1_last t).mp h)))]
      rw [Dat.leavesExact_idle (dat1 V c) 11 t (idleAt1_11 t (fun h => h1 ((hcond1_last t).mp h))) (noFlush1_11 t (fun h => h1 ((hcond1_last t).mp h)))]
      rw [outsAt1_B V c t h0 h1]
      unfold sout1_B_0 sout1_B_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_B c (grid1.coords t) _ _ _ _ _ _ _ _ _ _ _ _ _ _ _ _ _ _ _ _ _ _ _ _ _ _ _ _ (fun h => h0 ((hcond1_first t).mp h)) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover1_B_1 c _ _ _ _ _ _ _ _ _ _ _ _ _ _ _ _ _ _ _ _ _ _ _ _ _ _ _ _ _ _ _ _ _ _ _ _ _ _ _ _ _ _ _ )
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped rest back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Frame

end
-- ==== Proof.KFrameR2.lean ====
/-
  The third region of the program: the final pass over the rows, one block of 4096 rows per grid point.
  At every point the body loads its sixteen input blocks whole, computes, and stores the output block whole; it keeps
  nothing between points. What the output's staging buffer holds after the body is the piece the run stores, found
  by running the body; the inputs' buffers hold their blocks at every point, fetched there or not.
  Everything is stated at a parameter V, the buffers' contents when the region is entered.
-/
import proofs.«171056_j68092411510797_1_alg».proof.Proof.Gen.Kernel.Launch
import proofs.«171056_j68092411510797_1_alg».proof.Proof.Gen.Kernel.Skeleton
import proofs.«171056_j68092411510797_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's current staging buffer holds its block at every point, fetched there or not. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- Input window 12's current staging buffer holds its block at every point, fetched there or not. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
/-- Input window 13's current staging buffer holds its block at every point, fetched there or not. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
/-- Input window 14's current staging buffer holds its block at every point, fetched there or not. -/
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)
/-- Input window 15's current staging buffer holds its block at every point, fetched there or not. -/
theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)

/-- One staging buffer of the output window, through which its contents are stated. -/
abbrev VO2_16 : View sig .tc .vmem S4096x256 .f32 := (Memref.whole cc2_stg16_0 : Memref sig .tc .vmem S4096x256 .f32).view

set_option maxHeartbeats 4000000 in
/-- The pieces the body's stores leave in the output's staging memref, with the proof that on whole staging memrefs —
    the inputs' at their contents, the output's at anything — the body runs to the continuation holding the inputs'
    as they were and the output's buffer with those pieces written. -/
noncomputable def kernelRun2 (c : Dev nD) (i : grid2.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x256 .bf16) (harg15 : arg15.IsWhole) (arg16 : Memref sig .tc .vmem S1x256 .f32) (harg16 : arg16.IsWhole) (arg17 : Memref sig .tc .vmem S4096x256 .f32) (harg17 : arg17.IsWhole)
    (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (x10 : Vec F S1x256 .f32) (x11 : Vec F S1x256 .f32) (x12 : Vec F S1x256 .f32) (x13 : Vec F S1x256 .f32) (x14 : Vec F S256x256 .bf16) (x15 : Vec F S1x256 .f32) :
    { L16 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16)) -∗ K ⟨⟩))
          ⊢ wp frame (wpE (defs₀ (F := F)) Variants.none c none) E (cc2__final_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    iexists _; iexact H16

/-- The run's pieces tile the output block, so they cover it. -/
theorem cover2_16 (c : Dev nD) (i : grid2.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x256 .bf16) (harg15 : arg15.IsWhole) (arg16 : Memref sig .tc .vmem S1x256 .f32) (harg16 : arg16.IsWhole) (arg17 : Memref sig .tc .vmem S4096x256 .f32) (harg17 : arg17.IsWhole)
    (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (x10 : Vec F S1x256 .f32) (x11 : Vec F S1x256 .f32) (x12 : Vec F S1x256 .f32) (x13 : Vec F S1x256 .f32) (x14 : Vec F S256x256 .bf16) (x15 : Vec F S1x256 .f32) (y : S4096x256.Idx) :
    ∃ pc ∈ (kernelRun2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15).1, y ∈ pc.1.set :=
  View.cover_of_tiledL (kernelRun2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15).1 S4096x256.size (by sl_kernel_rfl) y

/-- What the body leaves in the output's staging buffer: its pieces read back. -/
def out2_16 (c : Dev nD) (i : grid2.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x256 .bf16) (harg15 : arg15.IsWhole) (arg16 : Memref sig .tc .vmem S1x256 .f32) (harg16 : arg16.IsWhole) (arg17 : Memref sig .tc .vmem S4096x256 .f32) (harg17 : arg17.IsWhole)
    (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (x10 : Vec F S1x256 .f32) (x11 : Vec F S1x256 .f32) (x12 : Vec F S1x256 .f32) (x13 : Vec F S1x256 .f32) (x14 : Vec F S256x256 .bf16) (x15 : Vec F S1x256 .f32) : Vec F S4096x256 .f32 :=
  VO2_16.read (Elt F) (VO2_16.writes (Elt F) VO2_16.junk (kernelRun2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15).1)

end Cert.Kernel.Frame

end
-- ==== Proof.KFrameR2Body.lean ====
/-
  The third region's proof data and body obligation: after the body at point t each input's staging buffer holds its
  block and the output's holds what the run's pieces leave; the invariant is the scoped rest and the generator
  register, untouched; nothing is owed.
-/
import proofs.«171056_j68092411510797_1_alg».proof.Proof.KFrameR2

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms2_0 (t : Fin cfg2.N) : Memref sig .tc .vmem S4096x4 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x256 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S256x256 .bf16 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x256 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x256 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1x256 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S1x256 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S1x256 .f32 := win2_13.stage (cfg2.slots t 13)
abbrev hs2_13 (t : Fin cfg2.N) : (ms2_13 t).IsWhole := hstage2_13 ((cfg2.slots t 13).cast nbuf2_13)
abbrev ms2_14 (t : Fin cfg2.N) : Memref sig .tc .vmem S256x256 .bf16 := win2_14.stage (cfg2.slots t 14)
abbrev hs2_14 (t : Fin cfg2.N) : (ms2_14 t).IsWhole := hstage2_14 ((cfg2.slots t 14).cast nbuf2_14)
abbrev ms2_15 (t : Fin cfg2.N) : Memref sig .tc .vmem S1x256 .f32 := win2_15.stage (cfg2.slots t 15)
abbrev hs2_15 (t : Fin cfg2.N) : (ms2_15 t).IsWhole := hstage2_15 ((cfg2.slots t 15).cast nbuf2_15)
abbrev ms2_16 (t : Fin cfg2.N) : Memref sig .tc .vmem S4096x256 .f32 := win2_16.stage (cfg2.slots t 16)
abbrev hs2_16 (t : Fin cfg2.N) : (ms2_16 t).IsWhole := hstage2_16 ((cfg2.slots t 16).cast nbuf2_16)

/-- The proof data of the third pipeline on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => out2_16 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t)
    | ⟨_ + 17, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = out2_16 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t))

set_option maxHeartbeats 4000000 in
/-- The body at any point: the inputs' memrefs hold their blocks, so the run applies; the invariant and what the core owes
    pass through unread; the output's buffer ends at the run's pieces, which cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14, before2_15]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16]
  unfold out2_16
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun2 c (grid2.coords t) _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, ⟨%e16, H16⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  unfold owns; iexists _; isplitr
  swap; · iexact H16
  ipureintro; exact View.read_writes_of_cover _ _ _ _ _ (cover2_16 c _ _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.KFrameMain.lean ====
/-
  The whole program's run: host operations, the first statistics region, host operations, the second statistics region,
  host operations, the final region, one last reshape. The buffers' contents at each boundary are a fold from the launch
  memory: a stretch of host operations applies them; a region leaves its windows' arrays at what its write-backs leave and
  every other buffer as it found it. Between two items a core holds every unscoped buffer at the boundary's contents, its
  generator register at some state, and owes nothing. Every weakly fair execution terminates, and at the end every
  unscoped buffer holds the last boundary's contents.
-/
import proofs.«171056_j68092411510797_1_alg».proof.Proof.KFrameR0Body
import proofs.«171056_j68092411510797_1_alg».proof.Proof.KFrameR1Body
import proofs.«171056_j68092411510797_1_alg».proof.Proof.KFrameR2Body
import proofs.«171056_j68092411510797_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the first stretch of host operations (the first region's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- After the next stretch of host operations. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- After the next stretch of host operations. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- After the next stretch of host operations. -/
abbrev W7 : Dev nD → Valuation τ sig (Elt F) := fun c => StableHlo.after hostOps3 (W6 m ρ c)

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
abbrev Lz : GSem nD τ sig → Finset Unit := fun _ => ∅
abbrev lvz : GSem nD τ sig → Unit → ℕ := fun _ _ => 0
/-- What rides beside the buffers through every item: the generator register at some state and nothing owed. -/
abbrev Rz (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rz
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (W7 m ρ c) ∗ ∃ r, prngReg c r)

set_option backward.isDefEq.respectTransparency.types false in
/-- Region 0 over the thread state: entered from every unscoped buffer at the boundary's contents, left at the next boundary's. -/
def reg0 : Pipeline.RegionSeg (pcfgs (F := F)) adm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lz lvz 0 fun _ _ => rfl
  pre c := iprop(StableHlo.held (c : Thread nD τ) (Pipeline.ucRefs τ sig) (W1 m ρ c) ∗ Rz c)
  post c := iprop(StableHlo.held (c : Thread nD τ) (Pipeline.ucRefs τ sig) (W2 m ρ c) ∗ Rz c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (U1 m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout0 (U1 m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next boundary's. -/
def reg1 : Pipeline.RegionSeg (pcfgs (F := F)) adm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lz lvz 1 fun _ _ => rfl
  pre c := iprop(StableHlo.held (c : Thread nD τ) (Pipeline.ucRefs τ sig) (W3 m ρ c) ∗ Rz c)
  post c := iprop(StableHlo.held (c : Thread nD τ) (Pipeline.ucRefs τ sig) (W4 m ρ c) ∗ Rz c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (U3 m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout1 (U3 m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary's contents, left at the next boundary's. -/
def reg2 : Pipeline.RegionSeg (pcfgs (F := F)) adm (pdats m ρ) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ Lz lvz 2 fun _ _ => rfl
  pre c := iprop(StableHlo.held (c : Thread nD τ) (Pipeline.ucRefs τ sig) (W5 m ρ c) ∗ Rz c)
  post c := iprop(StableHlo.held (c : Thread nD τ) (Pipeline.ucRefs τ sig) (W6 m ρ c) ∗ Rz c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last stretch of host operations as a segment whose exit is the last thread state beside nothing owed. -/
abbrev mainSegs : List (Pipeline.Seg (pcfgs (F := F)) adm (pdats m ρ) () defs₀ 𝒱₀ Lz lvz) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (mainSegs m ρ) := (main_chain c).trans (by chain_rfl)

set_option backward.isDefEq.respectTransparency.types false in
/-- From any memory with zero counters every weakly fair execution of the program terminates, nothing faulting, and every final
    state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ Lz lvz m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rz c)) (Tₙ := Tend m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ Rz c) : sProp 𝕄)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Frame

end
-- ==== Proof.KFrameWalk.lean ====
/-
  A region leaves every buffer it only reads, or does not touch, as it found it: an input window's array ends at its entry
  contents, and a buffer that is no window's array is not written at all. So a buffer keeps its contents across a region unless
  it is the array of one of the region's output windows.
-/
import proofs.«171056_j68092411510797_1_alg».proof.Proof.KFrameMain

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arrIn0 (c : Dev nD) (w : Fin cfg0.W) (hin : (cfg0.win w).isOut = false) :
    (dat0 (U1 m ρ) c).arrAt w cfg0.N = U1 m ρ c (Pipeline.arrRef spec0 w) :=
  ((dat0 (U1 m ρ) c).arrAt_in w hin _).trans (A_eq0 (U1 m ρ) c w)

/-- Region 0 leaves a buffer that is no output window's array as it found it. -/
theorem W2_keep (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (arrIn0 m ρ c w (hb w rfl))
  · exact W2_of_ne m ρ c b (fun w e => h ⟨w, e⟩)

theorem arrIn1 (c : Dev nD) (w : Fin cfg1.W) (hin : (cfg1.win w).isOut = false) :
    (dat1 (U3 m ρ) c).arrAt w cfg1.N = U3 m ρ c (Pipeline.arrRef spec1 w) :=
  ((dat1 (U3 m ρ) c).arrAt_in w hin _).trans (A_eq1 (U3 m ρ) c w)

/-- Region 1 leaves a buffer that is no output window's array as it found it. -/
theorem W4_keep (c : Dev nD) (b : Ref sig .tc) (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (arrIn1 m ρ c w (hb w rfl))
  · exact W4_of_ne m ρ c b (fun w e => h ⟨w, e⟩)

theorem arrIn2 (c : Dev nD) (w : Fin cfg2.W) (hin : (cfg2.win w).isOut = false) :
    (dat2 (U5 m ρ) c).arrAt w cfg2.N = U5 m ρ c (Pipeline.arrRef spec2 w) :=
  ((dat2 (U5 m ρ) c).arrAt_in w hin _).trans (A_eq2 (U5 m ρ) c w)

/-- Region 2 leaves a buffer that is no output window's array as it found it. -/
theorem W6_keep (c : Dev nD) (b : Ref sig .tc) (hb : ∀ w, Pipeline.arrRef spec2 w = b → (cfg2.win w).isOut = false) :
    W6 m ρ c (Proc.devRef .tc b) = W5 m ρ c (Proc.devRef .tc b) := by
  by_cases h : ∃ w, Pipeline.arrRef spec2 w = b
  · obtain ⟨w, rfl⟩ := h
    exact (W6_arr m ρ c w).trans (arrIn2 m ρ c w (hb w rfl))
  · exact W6_of_ne m ρ c b (fun w e => h ⟨w, e⟩)

/-- Host stretch 0 leaves a buffer it does not write as it found it. -/
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h

/-- Host stretch 1 leaves a buffer it does not write as it found it. -/
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h

/-- Host stretch 2 leaves a buffer it does not write as it found it. -/
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h

/-- Host stretch 3 leaves a buffer it does not write as it found it. -/
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h

/-- No item writes an argument: each ends as launched. -/
theorem W7_arg (c : Dev nD) (r : Ref sig .tc)
    (h0 : r ∉ hostOps0_W) (h1 : r ∉ hostOps1_W) (h2 : r ∉ hostOps2_W) (h3 : r ∉ hostOps3_W)
    (k0 : ∀ w, Pipeline.arrRef spec0 w = r → (cfg0.win w).isOut = false)
    (k1 : ∀ w, Pipeline.arrRef spec1 w = r → (cfg1.win w).isOut = false)
    (k2 : ∀ w, Pipeline.arrRef spec2 w = r → (cfg2.win w).isOut = false) :
    W7 m ρ c (Proc.devRef .tc r) = m ((c : Thread nD τ).loc r) :=
  (W7_keep m ρ c r h3).trans <| (W6_keep m ρ c r k2).trans <| (W5_keep m ρ c r h2).trans <| (W4_keep m ρ c r k1).trans <|
    (W3_keep m ρ c r h1).trans <| (W2_keep m ρ c r k0).trans <| (W1_keep m ρ c r h0).trans rfl

/-- THE FRAME: from any memory with zero counters every weakly fair execution terminates, nothing faulting, with every argument
    array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_arg m ρ c main_arg0 (by decide) (by decide) (by decide) (by decide) (by decide) (by decide) (by decide)),
    (h c _ (mem_uc main_arg1 (by decide))).trans (W7_arg m ρ c main_arg1 (by decide) (by decide) (by decide) (by decide) (by decide) (by decide) (by decide)),
    (h c _ (mem_uc main_arg2 (by decide))).trans (W7_arg m ρ c main_arg2 (by decide) (by decide) (by decide) (by decide) (by decide) (by decide) (by decide)),
    (h c _ (mem_uc main_arg3 (by decide))).trans (W7_arg m ρ c main_arg3 (by decide) (by decide) (by decide) (by decide) (by decide) (by decide) (by decide)),
    (h c _ (mem_uc main_arg4 (by decide))).trans (W7_arg m ρ c main_arg4 (by decide) (by decide) (by decide) (by decide) (by decide) (by decide) (by decide)),
    (h c _ (mem_uc main_arg5 (by decide))).trans (W7_arg m ρ c main_arg5 (by decide) (by decide) (by decide) (by decide) (by decide) (by decide) (by decide)),
    (h c _ (mem_uc main_arg6 (by decide))).trans (W7_arg m ρ c main_arg6 (by decide) (by decide) (by decide) (by decide) (by decide) (by decide) (by decide)),
    (h c _ (mem_uc main_arg7 (by decide))).trans (W7_arg m ρ c main_arg7 (by decide) (by decide) (by decide) (by decide) (by decide) (by decide) (by decide)),
    (h c _ (mem_uc main_arg8 (by decide))).trans (W7_arg m ρ c main_arg8 (by decide) (by decide) (by decide) (by decide) (by decide) (by decide) (by decide)),
    (h c _ (mem_uc main_arg9 (by decide))).trans (W7_arg m ρ c main_arg9 (by decide) (by decide) (by decide) (by decide) (by decide) (by decide) (by decide)),
    (h c _ (mem_uc main_arg10 (by decide))).trans (W7_arg m ρ c main_arg10 (by decide) (by decide) (by decide) (by decide) (by decide) (by decide) (by decide)),
    (h c _ (mem_uc main_arg11 (by decide))).trans (W7_arg m ρ c main_arg11 (by decide) (by decide) (by decide) (by decide) (by decide) (by decide) (by decide))⟩) (run_all m ρ)

end Cert.Kernel.Frame

end
-- ==== Proof.FrameR0Defs.lean ====
/-
  Region 0 of the program, a statistics pass over the rows: what its runs share. The body branches twice on the grid
  coordinate: at the first point it clears its two accumulators, and at the last point it copies them to the two
  outputs; at every point it adds the block's masked column sums, and sums of squares, to the accumulators. The two
  conditions are decided over the 64 grid points in closed form. The outputs are idle, and not written back, at every
  point but the last.
-/
import proofs.«171056_j68092411510797_1_alg».proof.Proof.Gen.KernelIdeal.Launch
import proofs.«171056_j68092411510797_1_alg».proof.Proof.Gen.KernelIdeal.Skeleton
import proofs.«171056_j68092411510797_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the grid coordinate is zero. -/
abbrev cond0_first (i : grid0.Coords) : Prop := (Scalar.cmpi .ne (Scalar.extui (Scalar.cmpi .eq (BitVec.ofNat 32 (i 0).val) 0#32)) 0#32) = 1#1
/-- It holds at the first point only. -/
theorem hcond0_first : ∀ t : Fin cfg0.N, cond0_first (grid0.coords t) ↔ t.val % 64 = 0 :=
  (by decide +kernel : ∀ t : Fin grid0.N, cond0_first (grid0.coords t) ↔ t.val % 64 = 0)

/-- The second branch's condition: the grid coordinate is the last one. -/
abbrev cond0_last (i : grid0.Coords) : Prop := k0_cond2 i = 1#1
/-- It holds at the last point only. -/
theorem hcond0_last : ∀ t : Fin cfg0.N, cond0_last (grid0.coords t) ↔ t.val % 64 = 63 :=
  (by decide +kernel : ∀ t : Fin grid0.N, cond0_last (grid0.coords t) ↔ t.val % 64 = 63)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point output 4 is idle and not written back; at the last point it is live. -/
theorem idleAt0_4 : ∀ t : Fin cfg0.N, ¬cond0_last (grid0.coords t) → cfg0.idle 4 (grid0.coords t) = true := by decide +kernel
theorem noFlush0_4 : ∀ t : Fin cfg0.N, ¬cond0_last (grid0.coords t) → (cfg0.win 4).flush t = false := by decide +kernel
theorem liveAt0_4 : ∀ t : Fin cfg0.N, cond0_last (grid0.coords t) → cfg0.idle 4 (grid0.coords t) = false := by decide +kernel
/-- Away from the last point output 5 is idle and not written back; at the last point it is live. -/
theorem idleAt0_5 : ∀ t : Fin cfg0.N, ¬cond0_last (grid0.coords t) → cfg0.idle 5 (grid0.coords t) = true := by decide +kernel
theorem noFlush0_5 : ∀ t : Fin cfg0.N, ¬cond0_last (grid0.coords t) → (cfg0.win 5).flush t = false := by decide +kernel
theorem liveAt0_5 : ∀ t : Fin cfg0.N, cond0_last (grid0.coords t) → cfg0.idle 5 (grid0.coords t) = false := by decide +kernel

/-- One staging buffer of each output window, through which its contents are stated. -/
abbrev VO0_0 : View sig .tc .vmem S1x256 .f32 := (Memref.whole cc0_stg4_0 : Memref sig .tc .vmem S1x256 .f32).view
abbrev VO0_1 : View sig .tc .vmem S1x256 .f32 := (Memref.whole cc0_stg5_0 : Memref sig .tc .vmem S1x256 .f32).view
abbrev ms0_0 (t : Fin cfg0.N) : Memref sig .tc .vmem S4096x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
/-- The two accumulators: whole scoped buffers of the kernel's own, carried from point to point. -/
abbrev scM0_0 : Memref sig .tc .vmem S1x256 .f32 := Memref.whole cc0_scratch0
abbrev scM0_1 : Memref sig .tc .vmem S1x256 .f32 := Memref.whole cc0_scratch1
abbrev VS0_0 : View sig .tc .vmem S1x256 .f32 := scM0_0.view
abbrev VS0_1 : View sig .tc .vmem S1x256 .f32 := scM0_1.view

/-- The region's invariant before the first point, with the two accumulators as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Frame

end
-- ==== Proof.FrameR0RunA.lean ====
/-
  Region 0, the body's run at the first point (the accumulators are cleared, then added to; the outputs are left alone):
  the pieces each buffer ends with are found by running the body.
-/
import proofs.«171056_j68092411510797_1_alg».proof.Proof.FrameR0Defs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the proof that on whole memrefs the body runs to the continuation holding
    the inputs' as they were and each stored buffer with its pieces written. -/
noncomputable def kernelRun0_A (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond0_first i) (hc1 : ¬cond0_last i)
    (x0 : Vec F S4096x4 .f32) (x1 : Vec F S4096x1 .f32) (x2 : Vec F S4x256 .f32) (x3 : Vec F S1x256 .f32) :
    Σ' (LS0 : List (View.Piece (Elt F) S1x256 .f32)), { LS1 : List (View.Piece (Elt F) S1x256 .f32) //
      ∀ (xo0 xo1 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo0 ∗ owns (c : Thread nD τ) arg6 fullShare xo1 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo0 ∗ owns (c : Thread nD τ) arg6 fullShare xo1 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7 arg8 harg8) K } := by
  refine ⟨?_, ?_, fun xo0 xo1 E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%f3, %hf3, H3⟩, ⟨%fo0, %hfo0, HO0⟩, ⟨%fo1, %hfo1, HO1⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hfo0; obtain rfl := harg6.eq_unread hfo1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; isplitr; · ipureintro; exact harg5.read_unread _
      iexact HO0
    isplitl [HO1]
    · iexists _; isplitr; · ipureintro; exact harg6.read_unread _
      iexact HO1
    isplitl [HS0]; · iexists _; iexact HS0
    iexists _; iexact HS1

end Cert.KernelIdeal.Frame

end
-- ==== Proof.FrameR0RunB.lean ====
/-
  Region 0, the body's run at a middle point (the accumulators are added to; the outputs are left alone):
  the pieces each buffer ends with are found by running the body.
-/
import proofs.«171056_j68092411510797_1_alg».proof.Proof.FrameR0RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the proof that on whole memrefs the body runs to the continuation holding
    the inputs' as they were and each stored buffer with its pieces written. -/
noncomputable def kernelRun0_B (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : ¬cond0_last i)
    (x0 : Vec F S4096x4 .f32) (x1 : Vec F S4096x1 .f32) (x2 : Vec F S4x256 .f32) (x3 : Vec F S1x256 .f32) (xs0 xs1 : Vec F S1x256 .f32) :
    Σ' (LS0 : List (View.Piece (Elt F) S1x256 .f32)), { LS1 : List (View.Piece (Elt F) S1x256 .f32) //
      ∀ (xo0 xo1 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo0 ∗ owns (c : Thread nD τ) arg6 fullShare xo1 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo0 ∗ owns (c : Thread nD τ) arg6 fullShare xo1 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7 arg8 harg8) K } := by
  refine ⟨?_, ?_, fun xo0 xo1 E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%f3, %hf3, H3⟩, ⟨%fo0, %hfo0, HO0⟩, ⟨%fo1, %hfo1, HO1⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfo0; obtain rfl := harg6.eq_unread hfo1; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; isplitr; · ipureintro; exact harg5.read_unread _
      iexact HO0
    isplitl [HO1]
    · iexists _; isplitr; · ipureintro; exact harg6.read_unread _
      iexact HO1
    isplitl [HS0]; · iexists _; iexact HS0
    iexists _; iexact HS1

end Cert.KernelIdeal.Frame

end
-- ==== Proof.FrameR0RunC.lean ====
/-
  Region 0, the body's run at the last point (the accumulators are added to, then copied to the outputs):
  the pieces each buffer ends with are found by running the body.
-/
import proofs.«171056_j68092411510797_1_alg».proof.Proof.FrameR0RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the proof that on whole memrefs the body runs to the continuation holding
    the inputs' as they were and each stored buffer with its pieces written. -/
noncomputable def kernelRun0_C (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i)
    (x0 : Vec F S4096x4 .f32) (x1 : Vec F S4096x1 .f32) (x2 : Vec F S4x256 .f32) (x3 : Vec F S1x256 .f32) (xs0 xs1 : Vec F S1x256 .f32) :
    Σ' (L0 : List (View.Piece (Elt F) S1x256 .f32)) (L1 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7 arg8 harg8) K } := by
  refine ⟨?_, ?_, ?_, ?_, fun E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%f3, %hf3, H3⟩, ⟨%do0, %fo0, -, HO0⟩, ⟨%do1, %fo1, -, HO1⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    isplitl [HO1]; · iexists _; iexact HO1
    isplitl [HS0]; · iexists _; iexact HS0
    iexists _; iexact HS1

end Cert.KernelIdeal.Frame

end
-- ==== Proof.FrameR0Body.lean ====
/-
  Region 0: what the two accumulators and the two outputs hold after each grid point, the proof data, and the body
  obligation. After the first point the accumulators hold the first block's masked sums; after each later point, what the
  point before left plus that block's; at the last point the outputs receive the accumulators. Between points the
  region's invariant holds the two accumulators at exactly those contents.
-/
import proofs.«171056_j68092411510797_1_alg».proof.Proof.FrameR0RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem scover0_A_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond0_first i) (hc1 : ¬cond0_last i) (x0 : Vec F S4096x4 .f32) (x1 : Vec F S4096x1 .f32) (x2 : Vec F S4x256 .f32) (x3 : Vec F S1x256 .f32) (y : S1x256.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S1x256.size (by sl_kernel_rfl) y
def sout0_A_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond0_first i) (hc1 : ¬cond0_last i) (x0 : Vec F S4096x4 .f32) (x1 : Vec F S4096x1 .f32) (x2 : Vec F S4x256 .f32) (x3 : Vec F S1x256 .f32) : Vec F S1x256 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3).1)
theorem scover0_A_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond0_first i) (hc1 : ¬cond0_last i) (x0 : Vec F S4096x4 .f32) (x1 : Vec F S4096x1 .f32) (x2 : Vec F S4x256 .f32) (x3 : Vec F S1x256 .f32) (y : S1x256.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S1x256.size (by sl_kernel_rfl) y
def sout0_A_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond0_first i) (hc1 : ¬cond0_last i) (x0 : Vec F S4096x4 .f32) (x1 : Vec F S4096x1 .f32) (x2 : Vec F S4x256 .f32) (x3 : Vec F S1x256 .f32) : Vec F S1x256 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2 x3).2.1)
theorem scover0_B_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : ¬cond0_last i) (x0 : Vec F S4096x4 .f32) (x1 : Vec F S4096x1 .f32) (x2 : Vec F S4x256 .f32) (x3 : Vec F S1x256 .f32) (xs0 xs1 : Vec F S1x256 .f32) (y : S1x256.Idx) :
    ∃ pc ∈ (kernelRun0_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).1 S1x256.size (by sl_kernel_rfl) y
def sout0_B_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : ¬cond0_last i) (x0 : Vec F S4096x4 .f32) (x1 : Vec F S4096x1 .f32) (x2 : Vec F S4x256 .f32) (x3 : Vec F S1x256 .f32) (xs0 xs1 : Vec F S1x256 .f32) : Vec F S1x256 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 xs0 xs1).1)
theorem scover0_B_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : ¬cond0_last i) (x0 : Vec F S4096x4 .f32) (x1 : Vec F S4096x1 .f32) (x2 : Vec F S4x256 .f32) (x3 : Vec F S1x256 .f32) (xs0 xs1 : Vec F S1x256 .f32) (y : S1x256.Idx) :
    ∃ pc ∈ (kernelRun0_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.1 S1x256.size (by sl_kernel_rfl) y
def sout0_B_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : ¬cond0_last i) (x0 : Vec F S4096x4 .f32) (x1 : Vec F S4096x1 .f32) (x2 : Vec F S4x256 .f32) (x3 : Vec F S1x256 .f32) (xs0 xs1 : Vec F S1x256 .f32) : Vec F S1x256 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 x3 xs0 xs1).2.1)
theorem scover0_C_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S1x256.size (by sl_kernel_rfl) y
def sout0_C_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) : Vec F S1x256 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 xs0 xs1).2.2.1)
theorem scover0_C_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S1x256.size (by sl_kernel_rfl) y
def sout0_C_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) : Vec F S1x256 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 x3 xs0 xs1).2.2.2.1)
theorem cover0_C_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S1x256.size (by sl_kernel_rfl) y
def out0_C_0 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) : Vec F S1x256 .f32 :=
  VO0_0.read (Elt F) (VO0_0.writes (Elt F) VO0_0.junk (kernelRun0_C c i arg1 harg1 arg2 harg2 arg3 harg3 arg4 harg4 arg5 harg5 arg6 harg6 arg7 harg7 arg8 harg8 hc0 hc1 x0 x1 x2 x3 xs0 xs1).1)
theorem cover0_C_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) (y : S1x256.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S1x256.size (by sl_kernel_rfl) y
def out0_C_1 (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) : Vec F S1x256 .f32 :=
  VO0_1.read (Elt F) (VO0_1.writes (Elt F) VO0_1.junk (kernelRun0_C c i arg1 harg1 arg2 harg2 arg3 harg3 arg4 harg4 arg5 harg5 arg6 harg6 arg7 harg7 arg8 harg8 hc0 hc1 x0 x1 x2 x3 xs0 xs1).2.1)

/-- What the two outputs' staging buffers and the two accumulators hold after the body at position n: the first point
    clears and adds; a later point adds to what the point before left; the last point also copies the accumulators out.
    Away from the last point the outputs are idle: a placeholder nothing consults. -/
def outsAt0 (c : Dev nD) : (n : ℕ) → n < cfg0.N → Vec F S1x256 .f32 × Vec F S1x256 .f32 × Vec F S1x256 .f32 × Vec F S1x256 .f32
  | 0, hn => (VO0_0.read (Elt F) VO0_0.junk, VO0_1.read (Elt F) VO0_1.junk,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_first ⟨0, hn⟩).mpr (Nat.zero_mod _)) (fun h => by have h' := (hcond0_last ⟨0, hn⟩).mp h; (try dsimp only at h'); omega) (iblk0 V c 0 ⟨0, hn⟩) (iblk0 V c 1 ⟨0, hn⟩) (iblk0 V c 2 ⟨0, hn⟩) (iblk0 V c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_first ⟨0, hn⟩).mpr (Nat.zero_mod _)) (fun h => by have h' := (hcond0_last ⟨0, hn⟩).mp h; (try dsimp only at h'); omega) (iblk0 V c 0 ⟨0, hn⟩) (iblk0 V c 1 ⟨0, hn⟩) (iblk0 V c 2 ⟨0, hn⟩) (iblk0 V c 3 ⟨0, hn⟩))
  | n + 1, hn =>
    if hl : (n + 1) % 64 = 63 then
      (out0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => by have h' := (hcond0_first ⟨n + 1, hn⟩).mp h; have hN : n + 1 < 64 := lt_of_lt_of_eq hn (show cfg0.N = 64 from N_0); (try dsimp only at h'); omega) ((hcond0_last ⟨n + 1, hn⟩).mpr hl) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => by have h' := (hcond0_first ⟨n + 1, hn⟩).mp h; have hN : n + 1 < 64 := lt_of_lt_of_eq hn (show cfg0.N = 64 from N_0); (try dsimp only at h'); omega) ((hcond0_last ⟨n + 1, hn⟩).mpr hl) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => by have h' := (hcond0_first ⟨n + 1, hn⟩).mp h; have hN : n + 1 < 64 := lt_of_lt_of_eq hn (show cfg0.N = 64 from N_0); (try dsimp only at h'); omega) ((hcond0_last ⟨n + 1, hn⟩).mpr hl) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => by have h' := (hcond0_first ⟨n + 1, hn⟩).mp h; have hN : n + 1 < 64 := lt_of_lt_of_eq hn (show cfg0.N = 64 from N_0); (try dsimp only at h'); omega) ((hcond0_last ⟨n + 1, hn⟩).mpr hl) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
    else
      (VO0_0.read (Elt F) VO0_0.junk, VO0_1.read (Elt F) VO0_1.junk,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => by have h' := (hcond0_first ⟨n + 1, hn⟩).mp h; have hN : n + 1 < 64 := lt_of_lt_of_eq hn (show cfg0.N = 64 from N_0); (try dsimp only at h'); omega) (fun h => hl ((hcond0_last ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => by have h' := (hcond0_first ⟨n + 1, hn⟩).mp h; have hN : n + 1 < 64 := lt_of_lt_of_eq hn (show cfg0.N = 64 from N_0); (try dsimp only at h'); omega) (fun h => hl ((hcond0_last ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 64 = 0) (h1 : ¬t.val % 64 = 63) :
    outsAt0 V c t.val t.isLt = (VO0_0.read (Elt F) VO0_0.junk, VO0_1.read (Elt F) VO0_1.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_first t).mpr h0) (fun h => h1 ((hcond0_last t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_first t).mpr h0) (fun h => h1 ((hcond0_last t).mp h)) (iblk0 V c 0 t) (iblk0 V c 1 t) (iblk0 V c 2 t) (iblk0 V c 3 t)) := by
  obtain ⟨n, hn⟩ := t
  cases n with
  | zero => exact rfl
  | succ n => exact (by exfalso; have hN : n + 1 < 64 := lt_of_lt_of_eq hn (show cfg0.N = 64 from N_0); (try dsimp only at h0); omega)

theorem outsAt0_B (c : Dev nD) (t : Fin cfg0.N) (h0 : ¬t.val % 64 = 0) (h1 : ¬t.val % 64 = 63) :
    outsAt0 V c t.val t.isLt = (VO0_0.read (Elt F) VO0_0.junk, VO0_1.read (Elt F) VO0_1.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) (fun h => h1 ((hcond0_last t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) (fun h => h1 ((hcond0_last t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 64 = 0) (h1 : t.val % 64 = 63) :
    outsAt0 V c t.val t.isLt = (out0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) ((hcond0_last t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) ((hcond0_last t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) ((hcond0_last t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) ((hcond0_last t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-- The region's invariant before position n: before the first point the scoped rest and the generator register; afterwards the two
    accumulators at what the point before left, the remaining scoped buffers unopened, and the generator register. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨_ + 6, h⟩ => absurd h (Nat.not_lt.2 (Nat.le_add_left _ _))
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' memrefs hold their blocks; the closed forms say which case the point is in; the invariant hands
    the body the accumulators at what the point before left (at anything at the first point) and takes them back at this point's
    contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 64 = 0
  · by_cases h1 : t.val % 64 = 63
    · exfalso; omega
    · have hz : t.val = 0 := by omega
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_last t).mp h))) (noFlush0_4 t (fun h => h1 ((hcond0_last t).mp h)))]
      rw [Dat.leavesExact_idle (dat0 V c) 5 t (idleAt0_5 t (fun h => h1 ((hcond0_last t).mp h))) (noFlush0_5 t (fun h => h1 ((hcond0_last t).mp h)))]
      rw [outsAt0_A V c t h0 h1]
      unfold sout0_A_0 sout0_A_1; (try dsimp only)
      rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_first t).mpr h0) (fun h => h1 ((hcond0_last t).mp h)) (iblk0 V c 0 t) (iblk0 V c 1 t) (iblk0 V c 2 t) (iblk0 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ _ _ _ _ )
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := by omega
    by_cases h1 : t.val % 64 = 63
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_last t).mpr h1)], after0_4]
      rw [show (dat0 V c).leavesExact 5 t = owns (c : Thread nD τ) (ms0_5 t) fullShare ((dat0 V c).after 5 t) from by
        unfold Dat.leavesExact; rw [liveAt0_5 t ((hcond0_last t).mpr h1)], after0_5]
      rw [outsAt0_C V c t h0 h1]
      unfold out0_C_0 out0_C_1 sout0_C_0 sout0_C_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ (fun h => h0 ((hcond0_first t).mp h)) ((hcond0_last t).mpr h1) (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%eo0, H4⟩, ⟨%eo1, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ )
            · unfold owns; iexists _; isplitr
              swap; · iexact HS1
              ipureintro; exact View.read_writes_of_cover _ _ _ _ _ (scover0_C_1 c _ _ _ _ _ _ _ _ _ _ _ _ _ _ _ _ _ _ _ _ _ _ _ _ _ )
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_0 c _ _ _ _ _ _ _ _ _ _ _ _ _ _ _ _ _ _ _ _ _ _ _ _ _ )
      unfold owns; iexists _; isplitr
      swap; · iexact H5
      ipureintro; exact View.read_writes_of_cover _ _ _ _ _ (cover0_C_1 c _ _ _ _ _ _ _ _ _ _ _ _ _ _ _ _ _ _ _ _ _ _ _ _ _ )
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_last t).mp h))) (noFlush0_4 t (fun h => h1 ((hcond0_last t).mp h)))]
      rw [Dat.leavesExact_idle (dat0 V c) 5 t (idleAt0_5 t (fun h => h1 ((hcond0_last t).mp h))) (noFlush0_5 t (fun h => h1 ((hcond0_last t).mp h)))]
      rw [outsAt0_B V c t h0 h1]
      unfold sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_first t).mp h)) (fun h => h1 ((hcond0_last t).mp h)) (iblk0 V c 0 t) (iblk0 V c 1 t) (iblk0 V c 2 t) (iblk0 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ )
            · unfold owns; iexists _; isplitr
              swap; · iexact HS1
              ipureintro; exact View.read_writes_of_cover _ _ _ _ _ (scover0_B_1 c _ _ _ _ _ _ _ _ _ _ _ _ _ _ _ _ _ _ _ _ _ _ _ _ _ )
          · iexact Hrest
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the scoped rest back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Frame

end
-- ==== Proof.FrameR1Defs.lean ====
/-
  Region 1 of the program, a statistics pass over the rows: what its runs share. The body branches twice on the grid
  coordinate: at the first point it clears its two accumulators, and at the last point it copies them to the two
  outputs; at every point it adds the block's masked column sums, and sums of squares, to the accumulators. The two
  conditions are decided over the 64 grid points in closed form. The outputs are idle, and not written back, at every
  point but the last.
-/
import proofs.«171056_j68092411510797_1_alg».proof.Proof.Gen.KernelIdeal.Launch
import proofs.«171056_j68092411510797_1_alg».proof.Proof.Gen.KernelIdeal.Skeleton
import proofs.«171056_j68092411510797_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the grid coordinate is zero. -/
abbrev cond1_first (i : grid1.Coords) : Prop := (Scalar.cmpi .ne (Scalar.extui (Scalar.cmpi .eq (BitVec.ofNat 32 (i 0).val) 0#32)) 0#32) = 1#1
/-- It holds at the first point only. -/
theorem hcond1_first : ∀ t : Fin cfg1.N, cond1_first (grid1.coords t) ↔ t.val % 64 = 0 :=
  (by decide +kernel : ∀ t : Fin grid1.N, cond1_first (grid1.coords t) ↔ t.val % 64 = 0)

/-- The second branch's condition: the grid coordinate is the last one. -/
abbrev cond1_last (i : grid1.Coords) : Prop := k1_cond2 i = 1#1
/-- It holds at the last point only. -/
theorem hcond1_last : ∀ t : Fin cfg1.N, cond1_last (grid1.coords t) ↔ t.val % 64 = 63 :=
  (by decide +kernel : ∀ t : Fin grid1.N, cond1_last (grid1.coords t) ↔ t.val % 64 = 63)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Away from the last point output 10 is idle and not written back; at the last point it is live. -/
theorem idleAt1_10 : ∀ t : Fin cfg1.N, ¬cond1_last (grid1.coords t) → cfg1.idle 10 (grid1.coords t) = true := by decide +kernel
theorem noFlush1_10 : ∀ t : Fin cfg1.N, ¬cond1_last (grid1.coords t) → (cfg1.win 10).flush t = false := by decide +kernel
theorem liveAt1_10 : ∀ t : Fin cfg1.N, cond1_last (grid1.coords t) → cfg1.idle 10 (grid1.coords t) = false := by decide +kernel
/-- Away from the last point output 11 is idle and not written back; at the last point it is live. -/
theorem idleAt1_11 : ∀ t : Fin cfg1.N, ¬cond1_last (grid1.coords t) → cfg1.idle 11 (grid1.coords t) = true := by decide +kernel
theorem noFlush1_11 : ∀ t : Fin cfg1.N, ¬cond1_last (grid1.coords t) → (cfg1.win 11).flush t = false := by decide +kernel
theorem liveAt1_11 : ∀ t : Fin cfg1.N, cond1_last (grid1.coords t) → cfg1.idle 11 (grid1.coords t) = false := by decide +kernel

/-- One staging buffer of each output window, through which its contents are stated. -/
abbrev VO1_0 : View sig .tc .vmem S1x256 .f32 := (Memref.whole cc1_stg10_0 : Memref sig .tc .vmem S1x256 .f32).view
abbrev VO1_1 : View sig .tc .vmem S1x256 .f32 := (Memref.whole cc1_stg11_0 : Memref sig .tc .vmem S1x256 .f32).view
abbrev ms1_0 (t : Fin cfg1.N) : Memref sig .tc .vmem S4096x4 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x256 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x256 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x256 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x256 .f32 := win1_11.stage (cfg1.slots t 11)
abbrev hs1_11 (t : Fin cfg1.N) : (ms1_11 t).IsWhole := hstage1_11 ((cfg1.slots t 11).cast nbuf1_11)
/-- The two accumulators: whole scoped buffers of the kernel's own, carried from point to point. -/
abbrev scM1_0 : Memref sig .tc .vmem S1x256 .f32 := Memref.whole cc1_scratch0
abbrev scM1_1 : Memref sig .tc .vmem S1x256 .f32 := Memref.whole cc1_scratch1
abbrev VS1_0 : View sig .tc .vmem S1x256 .f32 := scM1_0.view
abbrev VS1_1 : View sig .tc .vmem S1x256 .f32 := scM1_1.view

/-- The region's invariant before the first point, with the two accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.KernelIdeal.Frame

end
-- ==== Proof.FrameR1RunA.lean ====
/-
  Region 1, the body's run at the first point (the accumulators are cleared, then added to; the outputs are left alone):
  the pieces each buffer ends with are found by running the body.
-/
import proofs.«171056_j68092411510797_1_alg».proof.Proof.FrameR1Defs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the proof that on whole memrefs the body runs to the continuation holding
    the inputs' as they were and each stored buffer with its pieces written. -/
noncomputable def kernelRun1_A (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond1_first i) (hc1 : ¬cond1_last i)
    (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) :
    Σ' (LS0 : List (View.Piece (Elt F) S1x256 .f32)), { LS1 : List (View.Piece (Elt F) S1x256 .f32) //
      ∀ (xo0 xo1 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo0 ∗ owns (c : Thread nD τ) arg12 fullShare xo1 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo0 ∗ owns (c : Thread nD τ) arg12 fullShare xo1 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xo0 xo1 E K => ?run⟩
  case run =>
    simp only [cc1__stats2_kernel_eq_skeleton]; unfold cc1__stats2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo0, %hfo0, HO0⟩, ⟨%fo1, %hfo1, HO1⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfo0; obtain rfl := harg12.eq_unread hfo1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO0]
    · iexists _; isplitr; · ipureintro; exact harg11.read_unread _
      iexact HO0
    isplitl [HO1]
    · iexists _; isplitr; · ipureintro; exact harg12.read_unread _
      iexact HO1
    isplitl [HS0]; · iexists _; iexact HS0
    iexists _; iexact HS1

end Cert.KernelIdeal.Frame

end
-- ==== Proof.FrameR1RunB.lean ====
/-
  Region 1, the body's run at a middle point (the accumulators are added to; the outputs are left alone):
  the pieces each buffer ends with are found by running the body.
-/
import proofs.«171056_j68092411510797_1_alg».proof.Proof.FrameR1RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the proof that on whole memrefs the body runs to the continuation holding
    the inputs' as they were and each stored buffer with its pieces written. -/
noncomputable def kernelRun1_B (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : ¬cond1_last i)
    (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) :
    Σ' (LS0 : List (View.Piece (Elt F) S1x256 .f32)), { LS1 : List (View.Piece (Elt F) S1x256 .f32) //
      ∀ (xo0 xo1 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo0 ∗ owns (c : Thread nD τ) arg12 fullShare xo1 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo0 ∗ owns (c : Thread nD τ) arg12 fullShare xo1 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xo0 xo1 E K => ?run⟩
  case run =>
    simp only [cc1__stats2_kernel_eq_skeleton]; unfold cc1__stats2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo0, %hfo0, HO0⟩, ⟨%fo1, %hfo1, HO1⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfo0; obtain rfl := harg12.eq_unread hfo1; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO0]
    · iexists _; isplitr; · ipureintro; exact harg11.read_unread _
      iexact HO0
    isplitl [HO1]
    · iexists _; isplitr; · ipureintro; exact harg12.read_unread _
      iexact HO1
    isplitl [HS0]; · iexists _; iexact HS0
    iexists _; iexact HS1

end Cert.KernelIdeal.Frame

end
-- ==== Proof.FrameR1RunC.lean ====
/-
  Region 1, the body's run at the last point (the accumulators are added to, then copied to the outputs):
  the pieces each buffer ends with are found by running the body.
-/
import proofs.«171056_j68092411510797_1_alg».proof.Proof.FrameR1RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the proof that on whole memrefs the body runs to the continuation holding
    the inputs' as they were and each stored buffer with its pieces written. -/
noncomputable def kernelRun1_C (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i)
    (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) :
    Σ' (L0 : List (View.Piece (Elt F) S1x256 .f32)) (L1 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L0) ∗ (∃ f, arg12.view.loc (c : Thread nD τ) ↦[arg12.view.set]{fullShare} arg12.view.writes (Elt F) f L1) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc1__stats2_kernel_eq_skeleton]; unfold cc1__stats2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%do0, %fo0, -, HO0⟩, ⟨%do1, %fo1, -, HO1⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HO0]; · iexists _; iexact HO0
    isplitl [HO1]; · iexists _; iexact HO1
    isplitl [HS0]; · iexists _; iexact HS0
    iexists _; iexact HS1

end Cert.KernelIdeal.Frame

end
-- ==== Proof.FrameR1Body.lean ====
/-
  Region 1: what the two accumulators and the two outputs hold after each grid point, the proof data, and the body
  obligation. After the first point the accumulators hold the first block's masked sums; after each later point, what the
  point before left plus that block's; at the last point the outputs receive the accumulators. Between points the
  region's invariant holds the two accumulators at exactly those contents.
-/
import proofs.«171056_j68092411510797_1_alg».proof.Proof.FrameR1RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem scover1_A_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (y : S1x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1 S1x256.size (by sl_kernel_rfl) y
def sout1_A_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) : Vec F S1x256 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1)
theorem scover1_A_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (y : S1x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1 S1x256.size (by sl_kernel_rfl) y
def sout1_A_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) : Vec F S1x256 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1)
theorem scover1_B_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) (y : S1x256.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).1 S1x256.size (by sl_kernel_rfl) y
def sout1_B_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) : Vec F S1x256 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).1)
theorem scover1_B_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) (y : S1x256.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.1 S1x256.size (by sl_kernel_rfl) y
def sout1_B_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) : Vec F S1x256 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.1)
theorem scover1_C_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) (y : S1x256.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.2.1 S1x256.size (by sl_kernel_rfl) y
def sout1_C_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) : Vec F S1x256 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.2.1)
theorem scover1_C_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) (y : S1x256.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.2.2.1 S1x256.size (by sl_kernel_rfl) y
def sout1_C_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) : Vec F S1x256 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.2.2.1)
theorem cover1_C_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) (y : S1x256.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).1 S1x256.size (by sl_kernel_rfl) y
def out1_C_0 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) : Vec F S1x256 .f32 :=
  VO1_0.read (Elt F) (VO1_0.writes (Elt F) VO1_0.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).1)
theorem cover1_C_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) (y : S1x256.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.1 S1x256.size (by sl_kernel_rfl) y
def out1_C_1 (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) : Vec F S1x256 .f32 :=
  VO1_1.read (Elt F) (VO1_1.writes (Elt F) VO1_1.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1).2.1)

/-- What the two outputs' staging buffers and the two accumulators hold after the body at position n: the first point
    clears and adds; a later point adds to what the point before left; the last point also copies the accumulators out.
    Away from the last point the outputs are idle: a placeholder nothing consults. -/
def outsAt1 (c : Dev nD) : (n : ℕ) → n < cfg1.N → Vec F S1x256 .f32 × Vec F S1x256 .f32 × Vec F S1x256 .f32 × Vec F S1x256 .f32
  | 0, hn => (VO1_0.read (Elt F) VO1_0.junk, VO1_1.read (Elt F) VO1_1.junk,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_first ⟨0, hn⟩).mpr (Nat.zero_mod _)) (fun h => by have h' := (hcond1_last ⟨0, hn⟩).mp h; (try dsimp only at h'); omega) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_first ⟨0, hn⟩).mpr (Nat.zero_mod _)) (fun h => by have h' := (hcond1_last ⟨0, hn⟩).mp h; (try dsimp only at h'); omega) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if hl : (n + 1) % 64 = 63 then
      (out1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => by have h' := (hcond1_first ⟨n + 1, hn⟩).mp h; have hN : n + 1 < 64 := lt_of_lt_of_eq hn (show cfg1.N = 64 from N_1); (try dsimp only at h'); omega) ((hcond1_last ⟨n + 1, hn⟩).mpr hl) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2,
       out1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => by have h' := (hcond1_first ⟨n + 1, hn⟩).mp h; have hN : n + 1 < 64 := lt_of_lt_of_eq hn (show cfg1.N = 64 from N_1); (try dsimp only at h'); omega) ((hcond1_last ⟨n + 1, hn⟩).mpr hl) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => by have h' := (hcond1_first ⟨n + 1, hn⟩).mp h; have hN : n + 1 < 64 := lt_of_lt_of_eq hn (show cfg1.N = 64 from N_1); (try dsimp only at h'); omega) ((hcond1_last ⟨n + 1, hn⟩).mpr hl) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => by have h' := (hcond1_first ⟨n + 1, hn⟩).mp h; have hN : n + 1 < 64 := lt_of_lt_of_eq hn (show cfg1.N = 64 from N_1); (try dsimp only at h'); omega) ((hcond1_last ⟨n + 1, hn⟩).mpr hl) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2)
    else
      (VO1_0.read (Elt F) VO1_0.junk, VO1_1.read (Elt F) VO1_1.junk,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => by have h' := (hcond1_first ⟨n + 1, hn⟩).mp h; have hN : n + 1 < 64 := lt_of_lt_of_eq hn (show cfg1.N = 64 from N_1); (try dsimp only at h'); omega) (fun h => hl ((hcond1_last ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => by have h' := (hcond1_first ⟨n + 1, hn⟩).mp h; have hN : n + 1 < 64 := lt_of_lt_of_eq hn (show cfg1.N = 64 from N_1); (try dsimp only at h'); omega) (fun h => hl ((hcond1_last ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2.1 (outsAt1 c n (Nat.lt_of_succ_lt hn)).2.2.2)

theorem outsAt1_A (c : Dev nD) (t : Fin cfg1.N) (h0 : t.val % 64 = 0) (h1 : ¬t.val % 64 = 63) :
    outsAt1 V c t.val t.isLt = (VO1_0.read (Elt F) VO1_0.junk, VO1_1.read (Elt F) VO1_1.junk, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_first t).mpr h0) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_first t).mpr h0) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (by exfalso; have hN : n + 1 < 64 := lt_of_lt_of_eq hn (show cfg1.N = 64 from N_1); (try dsimp only at h0); omega)

theorem outsAt1_B (c : Dev nD) (t : Fin cfg1.N) (h0 : ¬t.val % 64 = 0) (h1 : ¬t.val % 64 = 63) :
    outsAt1 V c t.val t.isLt = (VO1_0.read (Elt F) VO1_0.junk, VO1_1.read (Elt F) VO1_1.junk, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 64 = 0) (h1 : t.val % 64 = 63) :
    outsAt1 V c t.val t.isLt = (out1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) ((hcond1_last t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) ((hcond1_last t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) ((hcond1_last t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) ((hcond1_last t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-- The region's invariant before position n: before the first point the scoped rest and the generator register; afterwards the two
    accumulators at what the point before left, the remaining scoped buffers unopened, and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
    | ⟨11, _⟩ => (outsAt1 V c t.val t.isLt).2.1
    | ⟨_ + 12, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]
theorem after1_11 (c : Dev nD) (t : Fin cfg1.N) : (dat1 V c).after 11 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 8000000 in
/-- The body at any point: the inputs' memrefs hold their blocks; the closed forms say which case the point is in; the invariant hands
    the body the accumulators at what the point before left (at anything at the first point) and takes them back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 64 = 0
  · by_cases h1 : t.val % 64 = 63
    · exfalso; omega
    · have hz : t.val = 0 := by omega
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10 t (fun h => h1 ((hcond1_last t).mp h))) (noFlush1_10 t (fun h => h1 ((hcond1_last t).mp h)))]
      rw [Dat.leavesExact_idle (dat1 V c) 11 t (idleAt1_11 t (fun h => h1 ((hcond1_last t).mp h))) (noFlush1_11 t (fun h => h1 ((hcond1_last t).mp h)))]
      rw [outsAt1_A V c t h0 h1]
      unfold sout1_A_0 sout1_A_1; (try dsimp only)
      rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_A c (grid1.coords t) _ _ _ _ _ _ _ _ _ _ _ _ _ _ _ _ _ _ _ _ _ _ _ _ _ _ _ _ ((hcond1_first t).mpr h0) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _ _ _ _ _ _ _ _ )
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
  · have hz : t.val ≠ 0 := by omega
    by_cases h1 : t.val % 64 = 63
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10 t ((hcond1_last t).mpr h1)], after1_10]
      rw [show (dat1 V c).leavesExact 11 t = owns (c : Thread nD τ) (ms1_11 t) fullShare ((dat1 V c).after 11 t) from by
        unfold Dat.leavesExact; rw [liveAt1_11 t ((hcond1_last t).mpr h1)], after1_11]
      rw [outsAt1_C V c t h0 h1]
      unfold out1_C_0 out1_C_1 sout1_C_0 sout1_C_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_C c (grid1.coords t) _ _ _ _ _ _ _ _ _ _ _ _ _ _ _ _ _ _ _ _ _ _ _ _ _ _ _ _ (fun h => h0 ((hcond1_first t).mp h)) ((hcond1_last t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      isplitl [HS1]; · iexact HS1
      iintro ⟨H0, H1, H2, H3, H4, H5, H6, H7, H8, H9, ⟨%eo0, H10⟩, ⟨%eo1, H11⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover1_C_1 c _ _ _ _ _ _ _ _ _ _ _ _ _ _ _ _ _ _ _ _ _ _ _ _ _ _ _ _ _ _ _ _ _ _ _ _ _ _ _ _ _ _ _ )
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover1_C_0 c _ _ _ _ _ _ _ _ _ _ _ _ _ _ _ _ _ _ _ _ _ _ _ _ _ _ _ _ _ _ _ _ _ _ _ _ _ _ _ _ _ _ _ )
      unfold owns; iexists _; isplitr
      swap; · iexact H11
      ipureintro; exact View.read_writes_of_cover _ _ _ _ _ (cover1_C_1 c _ _ _ _ _ _ _ _ _ _ _ _ _ _ _ _ _ _ _ _ _ _ _ _ _ _ _ _ _ _ _ _ _ _ _ _ _ _ _ _ _ _ _ )
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10 t (fun h => h1 ((hcond1_last t).mp h))) (noFlush1_10 t (fun h => h1 ((hcond1_last t).mp h)))]
      rw [Dat.leavesExact_idle (dat1 V c) 11 t (idleAt1_11 t (fun h => h1 ((hcond1_last t).mp h))) (noFlush1_11 t (fun h => h1 ((hcond1_last t).mp h)))]
      rw [outsAt1_B V c t h0 h1]
      unfold sout1_B_0 sout1_B_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_B c (grid1.coords t) _ _ _ _ _ _ _ _ _ _ _ _ _ _ _ _ _ _ _ _ _ _ _ _ _ _ _ _ (fun h => h0 ((hcond1_first t).mp h)) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover1_B_1 c _ _ _ _ _ _ _ _ _ _ _ _ _ _ _ _ _ _ _ _ _ _ _ _ _ _ _ _ _ _ _ _ _ _ _ _ _ _ _ _ _ _ _ )
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped rest back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Frame

end
-- ==== Proof.FrameR2.lean ====
/-
  The third region of the program: the final pass over the rows, one block of 4096 rows per grid point.
  At every point the body loads its sixteen input blocks whole, computes, and stores the output block whole; it keeps
  nothing between points. What the output's staging buffer holds after the body is the piece the run stores, found
  by running the body; the inputs' buffers hold their blocks at every point, fetched there or not.
  Everything is stated at a parameter V, the buffers' contents when the region is entered.
-/
import proofs.«171056_j68092411510797_1_alg».proof.Proof.Gen.KernelIdeal.Launch
import proofs.«171056_j68092411510797_1_alg».proof.Proof.Gen.KernelIdeal.Skeleton
import proofs.«171056_j68092411510797_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's current staging buffer holds its block at every point, fetched there or not. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- Input window 12's current staging buffer holds its block at every point, fetched there or not. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
/-- Input window 13's current staging buffer holds its block at every point, fetched there or not. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
/-- Input window 14's current staging buffer holds its block at every point, fetched there or not. -/
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)
/-- Input window 15's current staging buffer holds its block at every point, fetched there or not. -/
theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)

/-- One staging buffer of the output window, through which its contents are stated. -/
abbrev VO2_16 : View sig .tc .vmem S4096x256 .f32 := (Memref.whole cc2_stg16_0 : Memref sig .tc .vmem S4096x256 .f32).view

set_option maxHeartbeats 4000000 in
/-- The pieces the body's stores leave in the output's staging memref, with the proof that on whole staging memrefs —
    the inputs' at their contents, the output's at anything — the body runs to the continuation holding the inputs'
    as they were and the output's buffer with those pieces written. -/
noncomputable def kernelRun2 (c : Dev nD) (i : grid2.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x256 .bf16) (harg15 : arg15.IsWhole) (arg16 : Memref sig .tc .vmem S1x256 .f32) (harg16 : arg16.IsWhole) (arg17 : Memref sig .tc .vmem S4096x256 .f32) (harg17 : arg17.IsWhole)
    (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (x10 : Vec F S1x256 .f32) (x11 : Vec F S1x256 .f32) (x12 : Vec F S1x256 .f32) (x13 : Vec F S1x256 .f32) (x14 : Vec F S256x256 .bf16) (x15 : Vec F S1x256 .f32) :
    { L16 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16)) -∗ K ⟨⟩))
          ⊢ wp frame (wpE (defs₀ (F := F)) Variants.none c none) E (cc2__final_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    iexists _; iexact H16

/-- The run's pieces tile the output block, so they cover it. -/
theorem cover2_16 (c : Dev nD) (i : grid2.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x256 .bf16) (harg15 : arg15.IsWhole) (arg16 : Memref sig .tc .vmem S1x256 .f32) (harg16 : arg16.IsWhole) (arg17 : Memref sig .tc .vmem S4096x256 .f32) (harg17 : arg17.IsWhole)
    (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (x10 : Vec F S1x256 .f32) (x11 : Vec F S1x256 .f32) (x12 : Vec F S1x256 .f32) (x13 : Vec F S1x256 .f32) (x14 : Vec F S256x256 .bf16) (x15 : Vec F S1x256 .f32) (y : S4096x256.Idx) :
    ∃ pc ∈ (kernelRun2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15).1, y ∈ pc.1.set :=
  View.cover_of_tiledL (kernelRun2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15).1 S4096x256.size (by sl_kernel_rfl) y

/-- What the body leaves in the output's staging buffer: its pieces read back. -/
def out2_16 (c : Dev nD) (i : grid2.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x256 .bf16) (harg15 : arg15.IsWhole) (arg16 : Memref sig .tc .vmem S1x256 .f32) (harg16 : arg16.IsWhole) (arg17 : Memref sig .tc .vmem S4096x256 .f32) (harg17 : arg17.IsWhole)
    (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (x10 : Vec F S1x256 .f32) (x11 : Vec F S1x256 .f32) (x12 : Vec F S1x256 .f32) (x13 : Vec F S1x256 .f32) (x14 : Vec F S256x256 .bf16) (x15 : Vec F S1x256 .f32) : Vec F S4096x256 .f32 :=
  VO2_16.read (Elt F) (VO2_16.writes (Elt F) VO2_16.junk (kernelRun2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15).1)

end Cert.KernelIdeal.Frame

end
-- ==== Proof.FrameR2Body.lean ====
/-
  The third region's proof data and body obligation: after the body at point t each input's staging buffer holds its
  block and the output's holds what the run's pieces leave; the invariant is the scoped rest and the generator
  register, untouched; nothing is owed.
-/
import proofs.«171056_j68092411510797_1_alg».proof.Proof.FrameR2

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms2_0 (t : Fin cfg2.N) : Memref sig .tc .vmem S4096x4 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x256 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S256x256 .bf16 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x256 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x256 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1x256 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S1x256 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S1x256 .f32 := win2_13.stage (cfg2.slots t 13)
abbrev hs2_13 (t : Fin cfg2.N) : (ms2_13 t).IsWhole := hstage2_13 ((cfg2.slots t 13).cast nbuf2_13)
abbrev ms2_14 (t : Fin cfg2.N) : Memref sig .tc .vmem S256x256 .bf16 := win2_14.stage (cfg2.slots t 14)
abbrev hs2_14 (t : Fin cfg2.N) : (ms2_14 t).IsWhole := hstage2_14 ((cfg2.slots t 14).cast nbuf2_14)
abbrev ms2_15 (t : Fin cfg2.N) : Memref sig .tc .vmem S1x256 .f32 := win2_15.stage (cfg2.slots t 15)
abbrev hs2_15 (t : Fin cfg2.N) : (ms2_15 t).IsWhole := hstage2_15 ((cfg2.slots t 15).cast nbuf2_15)
abbrev ms2_16 (t : Fin cfg2.N) : Memref sig .tc .vmem S4096x256 .f32 := win2_16.stage (cfg2.slots t 16)
abbrev hs2_16 (t : Fin cfg2.N) : (ms2_16 t).IsWhole := hstage2_16 ((cfg2.slots t 16).cast nbuf2_16)

/-- The proof data of the third pipeline on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => out2_16 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t)
    | ⟨_ + 17, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = out2_16 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t))

set_option maxHeartbeats 4000000 in
/-- The body at any point: the inputs' memrefs hold their blocks, so the run applies; the invariant and what the core owes
    pass through unread; the output's buffer ends at the run's pieces, which cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14, before2_15]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16]
  unfold out2_16
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun2 c (grid2.coords t) _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, ⟨%e16, H16⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  unfold owns; iexists _; isplitr
  swap; · iexact H16
  ipureintro; exact View.read_writes_of_cover _ _ _ _ _ (cover2_16 c _ _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.FrameMain.lean ====
/-
  The whole program's run: host operations, the first statistics region, host operations, the second statistics region,
  host operations, the final region, one last reshape. The buffers' contents at each boundary are a fold from the launch
  memory: a stretch of host operations applies them; a region leaves its windows' arrays at what its write-backs leave and
  every other buffer as it found it. Between two items a core holds every unscoped buffer at the boundary's contents, its
  generator register at some state, and owes nothing. Every weakly fair execution terminates, and at the end every
  unscoped buffer holds the last boundary's contents.
-/
import proofs.«171056_j68092411510797_1_alg».proof.Proof.FrameR0Body
import proofs.«171056_j68092411510797_1_alg».proof.Proof.FrameR1Body
import proofs.«171056_j68092411510797_1_alg».proof.Proof.FrameR2Body
import proofs.«171056_j68092411510797_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the first stretch of host operations (the first region's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- After the next stretch of host operations. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- After the next stretch of host operations. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- After the next stretch of host operations. -/
abbrev W7 : Dev nD → Valuation τ sig (Elt F) := fun c => StableHlo.after hostOps3 (W6 m ρ c)

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
abbrev Lz : GSem nD τ sig → Finset Unit := fun _ => ∅
abbrev lvz : GSem nD τ sig → Unit → ℕ := fun _ _ => 0
/-- What rides beside the buffers through every item: the generator register at some state and nothing owed. -/
abbrev Rz (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rz
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (W7 m ρ c) ∗ ∃ r, prngReg c r)

set_option backward.isDefEq.respectTransparency.types false in
/-- Region 0 over the thread state: entered from every unscoped buffer at the boundary's contents, left at the next boundary's. -/
def reg0 : Pipeline.RegionSeg (pcfgs (F := F)) adm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lz lvz 0 fun _ _ => rfl
  pre c := iprop(StableHlo.held (c : Thread nD τ) (Pipeline.ucRefs τ sig) (W1 m ρ c) ∗ Rz c)
  post c := iprop(StableHlo.held (c : Thread nD τ) (Pipeline.ucRefs τ sig) (W2 m ρ c) ∗ Rz c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (U1 m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout0 (U1 m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next boundary's. -/
def reg1 : Pipeline.RegionSeg (pcfgs (F := F)) adm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lz lvz 1 fun _ _ => rfl
  pre c := iprop(StableHlo.held (c : Thread nD τ) (Pipeline.ucRefs τ sig) (W3 m ρ c) ∗ Rz c)
  post c := iprop(StableHlo.held (c : Thread nD τ) (Pipeline.ucRefs τ sig) (W4 m ρ c) ∗ Rz c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (U3 m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout1 (U3 m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary's contents, left at the next boundary's. -/
def reg2 : Pipeline.RegionSeg (pcfgs (F := F)) adm (pdats m ρ) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ Lz lvz 2 fun _ _ => rfl
  pre c := iprop(StableHlo.held (c : Thread nD τ) (Pipeline.ucRefs τ sig) (W5 m ρ c) ∗ Rz c)
  post c := iprop(StableHlo.held (c : Thread nD τ) (Pipeline.ucRefs τ sig) (W6 m ρ c) ∗ Rz c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last stretch of host operations as a segment whose exit is the last thread state beside nothing owed. -/
abbrev mainSegs : List (Pipeline.Seg (pcfgs (F := F)) adm (pdats m ρ) () defs₀ 𝒱₀ Lz lvz) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (mainSegs m ρ) := (main_chain c).trans (by chain_rfl)

set_option backward.isDefEq.respectTransparency.types false in
/-- From any memory with zero counters every weakly fair execution of the program terminates, nothing faulting, and every final
    state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ Lz lvz m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rz c)) (Tₙ := Tend m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ Rz c) : sProp 𝕄)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Frame

end
-- ==== Proof.FrameWalk.lean ====
/-
  A region leaves every buffer it only reads, or does not touch, as it found it: an input window's array ends at its entry
  contents, and a buffer that is no window's array is not written at all. So a buffer keeps its contents across a region unless
  it is the array of one of the region's output windows.
-/
import proofs.«171056_j68092411510797_1_alg».proof.Proof.FrameMain

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arrIn0 (c : Dev nD) (w : Fin cfg0.W) (hin : (cfg0.win w).isOut = false) :
    (dat0 (U1 m ρ) c).arrAt w cfg0.N = U1 m ρ c (Pipeline.arrRef spec0 w) :=
  ((dat0 (U1 m ρ) c).arrAt_in w hin _).trans (A_eq0 (U1 m ρ) c w)

/-- Region 0 leaves a buffer that is no output window's array as it found it. -/
theorem W2_keep (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (arrIn0 m ρ c w (hb w rfl))
  · exact W2_of_ne m ρ c b (fun w e => h ⟨w, e⟩)

theorem arrIn1 (c : Dev nD) (w : Fin cfg1.W) (hin : (cfg1.win w).isOut = false) :
    (dat1 (U3 m ρ) c).arrAt w cfg1.N = U3 m ρ c (Pipeline.arrRef spec1 w) :=
  ((dat1 (U3 m ρ) c).arrAt_in w hin _).trans (A_eq1 (U3 m ρ) c w)

/-- Region 1 leaves a buffer that is no output window's array as it found it. -/
theorem W4_keep (c : Dev nD) (b : Ref sig .tc) (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (arrIn1 m ρ c w (hb w rfl))
  · exact W4_of_ne m ρ c b (fun w e => h ⟨w, e⟩)

theorem arrIn2 (c : Dev nD) (w : Fin cfg2.W) (hin : (cfg2.win w).isOut = false) :
    (dat2 (U5 m ρ) c).arrAt w cfg2.N = U5 m ρ c (Pipeline.arrRef spec2 w) :=
  ((dat2 (U5 m ρ) c).arrAt_in w hin _).trans (A_eq2 (U5 m ρ) c w)

/-- Region 2 leaves a buffer that is no output window's array as it found it. -/
theorem W6_keep (c : Dev nD) (b : Ref sig .tc) (hb : ∀ w, Pipeline.arrRef spec2 w = b → (cfg2.win w).isOut = false) :
    W6 m ρ c (Proc.devRef .tc b) = W5 m ρ c (Proc.devRef .tc b) := by
  by_cases h : ∃ w, Pipeline.arrRef spec2 w = b
  · obtain ⟨w, rfl⟩ := h
    exact (W6_arr m ρ c w).trans (arrIn2 m ρ c w (hb w rfl))
  · exact W6_of_ne m ρ c b (fun w e => h ⟨w, e⟩)

/-- Host stretch 0 leaves a buffer it does not write as it found it. -/
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h

/-- Host stretch 1 leaves a buffer it does not write as it found it. -/
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h

/-- Host stretch 2 leaves a buffer it does not write as it found it. -/
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h

/-- Host stretch 3 leaves a buffer it does not write as it found it. -/
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h

/-- No item writes an argument: each ends as launched. -/
theorem W7_arg (c : Dev nD) (r : Ref sig .tc)
    (h0 : r ∉ hostOps0_W) (h1 : r ∉ hostOps1_W) (h2 : r ∉ hostOps2_W) (h3 : r ∉ hostOps3_W)
    (k0 : ∀ w, Pipeline.arrRef spec0 w = r → (cfg0.win w).isOut = false)
    (k1 : ∀ w, Pipeline.arrRef spec1 w = r → (cfg1.win w).isOut = false)
    (k2 : ∀ w, Pipeline.arrRef spec2 w = r → (cfg2.win w).isOut = false) :
    W7 m ρ c (Proc.devRef .tc r) = m ((c : Thread nD τ).loc r) :=
  (W7_keep m ρ c r h3).trans <| (W6_keep m ρ c r k2).trans <| (W5_keep m ρ c r h2).trans <| (W4_keep m ρ c r k1).trans <|
    (W3_keep m ρ c r h1).trans <| (W2_keep m ρ c r k0).trans <| (W1_keep m ρ c r h0).trans rfl

/-- THE FRAME: from any memory with zero counters every weakly fair execution terminates, nothing faulting, with every argument
    array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_arg m ρ c main_arg0 (by decide) (by decide) (by decide) (by decide) (by decide) (by decide) (by decide)),
    (h c _ (mem_uc main_arg1 (by decide))).trans (W7_arg m ρ c main_arg1 (by decide) (by decide) (by decide) (by decide) (by decide) (by decide) (by decide)),
    (h c _ (mem_uc main_arg2 (by decide))).trans (W7_arg m ρ c main_arg2 (by decide) (by decide) (by decide) (by decide) (by decide) (by decide) (by decide)),
    (h c _ (mem_uc main_arg3 (by decide))).trans (W7_arg m ρ c main_arg3 (by decide) (by decide) (by decide) (by decide) (by decide) (by decide) (by decide)),
    (h c _ (mem_uc main_arg4 (by decide))).trans (W7_arg m ρ c main_arg4 (by decide) (by decide) (by decide) (by decide) (by decide) (by decide) (by decide)),
    (h c _ (mem_uc main_arg5 (by decide))).trans (W7_arg m ρ c main_arg5 (by decide) (by decide) (by decide) (by decide) (by decide) (by decide) (by decide)),
    (h c _ (mem_uc main_arg6 (by decide))).trans (W7_arg m ρ c main_arg6 (by decide) (by decide) (by decide) (by decide) (by decide) (by decide) (by decide)),
    (h c _ (mem_uc main_arg7 (by decide))).trans (W7_arg m ρ c main_arg7 (by decide) (by decide) (by decide) (by decide) (by decide) (by decide) (by decide)),
    (h c _ (mem_uc main_arg8 (by decide))).trans (W7_arg m ρ c main_arg8 (by decide) (by decide) (by decide) (by decide) (by decide) (by decide) (by decide)),
    (h c _ (mem_uc main_arg9 (by decide))).trans (W7_arg m ρ c main_arg9 (by decide) (by decide) (by decide) (by decide) (by decide) (by decide) (by decide)),
    (h c _ (mem_uc main_arg10 (by decide))).trans (W7_arg m ρ c main_arg10 (by decide) (by decide) (by decide) (by decide) (by decide) (by decide) (by decide)),
    (h c _ (mem_uc main_arg11 (by decide))).trans (W7_arg m ρ c main_arg11 (by decide) (by decide) (by decide) (by decide) (by decide) (by decide) (by decide))⟩) (run_all m ρ)

end Cert.KernelIdeal.Frame

end
-- ==== Proof.Spec.lean ====
/-
  The mathematics both programs compute, as one function of the argument arrays over the extended reals.

  A three-layer perceptron over R rows with a masked batch normalisation after each of the first two layers:
  a row r is valid when its mask entry M r is 1; the number of valid rows, at least one, divides the masked sums.
  For a layer's pre-activation h (R rows, 256 columns) the mean of column j is the masked sum of h over the
  count; the variance is either the masked second moment minus the squared mean (`varMoments`) or the masked
  mean of the squared deviation from the mean (`varCentered`). The two agree whenever every entry of h is a real
  number and the mask takes the values 0 and 1: expand the square, and use that the masked count over the count is 1
  when some row is valid, while every masked sum is 0 when none is.
  Each normalised value is scaled, shifted and rectified; the last layer is dense, and invalid rows are zeroed.
-/
import Idealize.ShloMosaic.PureOps.Ideal
import Idealize.ShloMosaic.PureOps.Ideal.Laws

noncomputable section

namespace Cert.MaskedMlp

open Idealize.ShloMosaic

variable {R K : ℕ}

/-- The word both programs add to a variance before the reciprocal square root. -/
def eps : EReal := Ideal.ofBits .f32 0x3727C5AC#32

/-- The word both programs bound the count of valid rows below with (the float one). -/
def one : EReal := Ideal.ofBits .f32 0x3F800000#32

/-- The number of valid rows, at least one. -/
def count (M : Fin R → EReal) : EReal := max (∑ r, M r) one

/-- A dense layer: row r of `a` against column j of `W`, plus the bias. -/
def dense (a : Fin R → Fin K → EReal) (W : Fin K → Fin 256 → EReal) (b : Fin 256 → EReal)
    (r : Fin R) (j : Fin 256) : EReal :=
  (∑ k, a r k * W k j) + b j

/-- The masked sum of column j. -/
def msum (h : Fin R → Fin 256 → EReal) (M : Fin R → EReal) (j : Fin 256) : EReal :=
  ∑ r, h r j * M r

/-- The masked sum of squares of column j, each square formed as (h · m) · h. -/
def msumsq (h : Fin R → Fin 256 → EReal) (M : Fin R → EReal) (j : Fin 256) : EReal :=
  ∑ r, (h r j * M r) * h r j

/-- The mean of column j over the valid rows. -/
def mean (h : Fin R → Fin 256 → EReal) (M : Fin R → EReal) (j : Fin 256) : EReal :=
  Ideal.div (msum h M j) (count M)

/-- The variance of column j as the second moment minus the squared mean. -/
def varMoments (h : Fin R → Fin 256 → EReal) (M : Fin R → EReal) (j : Fin 256) : EReal :=
  Ideal.div (msumsq h M j) (count M) - mean h M j * mean h M j

/-- The variance of column j as the masked mean of the squared deviation from the mean. -/
def varCentered (h : Fin R → Fin 256 → EReal) (M : Fin R → EReal) (j : Fin 256) : EReal :=
  Ideal.div (∑ r, ((h r j - mean h M j) * (h r j - mean h M j)) * M r) (count M)

/-- Normalise by a given mean and variance, scale, shift, rectify. -/
def normReluWith (mu var g be : Fin 256 → EReal) (h : Fin R → Fin 256 → EReal) (r : Fin R) (j : Fin 256) : EReal :=
  max ((h r j - mu j) * Ideal.rsqrt (var j + eps) * g j + be j) 0

/-- Normalise by the masked mean and a given variance, scale, shift, rectify. -/
def normRelu (var : Fin 256 → EReal) (h : Fin R → Fin 256 → EReal) (M : Fin R → EReal)
    (g be : Fin 256 → EReal) (r : Fin R) (j : Fin 256) : EReal :=
  normReluWith (mean h M) var g be h r j

/-- The whole network, over a choice `V` of how a layer's variance is formed. -/
def net (V : (Fin R → Fin 256 → EReal) → (Fin R → EReal) → Fin 256 → EReal)
    (X : Fin R → Fin K → EReal) (M : Fin R → EReal)
    (W1 : Fin K → Fin 256 → EReal) (b1 g1 be1 : Fin 256 → EReal)
    (W2 : Fin 256 → Fin 256 → EReal) (b2 g2 be2 : Fin 256 → EReal)
    (W3 : Fin 256 → Fin 256 → EReal) (b3 : Fin 256 → EReal) (r : Fin R) (j : Fin 256) : EReal :=
  dense (normRelu (V (dense (normRelu (V (dense X W1 b1) M) (dense X W1 b1) M g1 be1) W2 b2) M)
      (dense (normRelu (V (dense X W1 b1) M) (dense X W1 b1) M g1 be1) W2 b2) M g2 be2) W3 b3 r j * M r

/-- The network with each variance formed from moments (the tiled program's way). -/
abbrev netMoments := @net R K varMoments
/-- The network with each variance formed from centred squares (the plain program's way). -/
abbrev netCentered := @net R K varCentered

end Cert.MaskedMlp

end
-- ==== Proof.Args.lean ====
/-
  How the argument arrays are read as the network's inputs, and how the result array is indexed.

  The feature array has shape 512 × 512 × 4 × 4; the network's row r is the pair (r / 512, r % 512) of its first two
  axes, at position 0 of the third axis, and the feature is the fourth axis. The mask has shape 512 × 512 and the
  same pairing; a set bit is the real number one and a clear bit zero. A matrix is read by row and column and a
  vector by its one coordinate. The result has shape 512 × 512 × 256: entry (a, b, j) is row a · 512 + b, column j.
-/
import Idealize.ShloMosaic.PureOps.Ideal
import Idealize.ShloMosaic.Lib.ValueIdx

noncomputable section

namespace Cert.MaskedMlp

open Idealize.ShloMosaic Idealize.ShloMosaic.ValueIdx

/-- The number of rows, 512 · 512. -/
abbrev Rows : ℕ := 262144

/-- Row r, feature k of the network's input: position 0 of the third axis of the feature array. -/
def rowsOf (x : (⟨4, ![512, 512, 4, 4]⟩ : Shape).Idx → EReal) (r : Fin Rows) (k : Fin 4) : EReal :=
  x (ix4 (⟨r.val / 512, by have h : r.val < 262144 := r.isLt; omega⟩ : Fin 512) (⟨r.val % 512, Nat.mod_lt _ (by norm_num)⟩ : Fin 512) (0 : Fin 4) k)

/-- The mask of row r as a real number: one for a set bit, zero for a clear one. -/
def maskOf (x : (⟨2, ![512, 512]⟩ : Shape).Idx → BitVec 1) (r : Fin Rows) : EReal :=
  (((x (ix2 (⟨r.val / 512, by have h : r.val < 262144 := r.isLt; omega⟩ : Fin 512) (⟨r.val % 512, Nat.mod_lt _ (by norm_num)⟩ : Fin 512))).toNat : ℝ) : EReal)

/-- A matrix read by row and column. -/
def matOf {a b : ℕ} (x : (⟨2, ![a, b]⟩ : Shape).Idx → EReal) (k : Fin a) (j : Fin b) : EReal := x (ix2 k j)

/-- A vector read by its coordinate. -/
def vecOf {a : ℕ} (x : (⟨1, ![a]⟩ : Shape).Idx → EReal) (j : Fin a) : EReal := x (ix1 j)

/-- The row an entry of the 512 × 512 × 256 result belongs to. -/
def rowOfOut (i : (⟨3, ![512, 512, 256]⟩ : Shape).Idx) : Fin Rows :=
  ⟨(i 0).val * 512 + (i 1).val, by have h0 : (i 0).val < 512 := (i 0).isLt; have h1 : (i 1).val < 512 := (i 1).isLt; show (i 0).val * 512 + (i 1).val < 262144; omega⟩

end Cert.MaskedMlp

end
-- ==== Proof.KernelHostInputs.lean ====
/-
  The tiled program's host operations before its first region, on the two data arguments.

  As in the plain program, position 0 of the feature array's third axis is sliced and the first two axes are
  flattened, so row r of the 262144 × 4 input is the feature vector at (r / 512, r % 512, 0). The mask is laid out as
  one column of 262144 entries and each bit converted to the real number it denotes; the count of valid rows is the
  sum of that column, bounded below by one. Every statement is about an arbitrary starting valuation of the
  program's references.
-/
import proofs.«171056_j68092411510797_1_alg».proof.Proof.Gen.KernelIdeal.Regions
import proofs.«171056_j68092411510797_1_alg».proof.Proof.Spec
import proofs.«171056_j68092411510797_1_alg».proof.Proof.Args
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostValue

open Cert.KernelIdeal Cert.KernelIdeal.Gen Cert.MaskedMlp
open Idealize.ShloMosaic Idealize.ShloMosaic.ValueIdx Idealize.ShloMosaic.StableHlo

/-- A valuation of the program's references over the extended reals. -/
abbrev Val := Valuation Cert.KernelIdeal.τ Cert.KernelIdeal.sig (Elt Ideal)

/-- Slice position 0 of the third axis, squeeze it, flatten the first two axes: entry (r, k) is the feature vector
    of (r / 512, r % 512) at k. -/
theorem flatten_at {α : Type} (x : S512x512x4x4.Idx → α) (R : Fin 262144) (k : Fin 4) :
    shapeCast S262144x4 (shapeCast S512x512x4
        (extractStridedSlice S512x512x1x4 ![0, 0, 0, 0] x slices_S512x512x4x4_S512x512x1x4_0_0_0_0)
        shapeCasts_S512x512x1x4_S512x512x4) shapeCasts_S512x512x4_S262144x4 (ix2 R k)
      = x (ix4 (⟨R.val / 512, by have h : R.val < 262144 := R.isLt; omega⟩ : Fin 512)
            (⟨R.val % 512, Nat.mod_lt _ (by norm_num)⟩ : Fin 512) (0 : Fin 4) k) := by
  have hR : R.val < 262144 := R.isLt
  have hk : k.val < 4 := k.isLt
  rw [shapeCast_apply _ shapeCasts_S512x512x4_S262144x4 (ix2 R k)
    (ix3 (⟨R.val / 512, by omega⟩ : Fin 512) (⟨R.val % 512, Nat.mod_lt _ (by norm_num)⟩ : Fin 512) k)
    (by rewrite [Shape.rowMajor_val_three, Shape.rowMajor_val_two]
        show (R.val / 512 * 512 + R.val % 512) * 4 + k.val = R.val * 4 + k.val; omega)]
  rw [shapeCast_apply _ shapeCasts_S512x512x1x4_S512x512x4 _
    (ix4 (⟨R.val / 512, by omega⟩ : Fin 512) (⟨R.val % 512, Nat.mod_lt _ (by norm_num)⟩ : Fin 512) (0 : Fin 1) k)
    (by rewrite [Shape.rowMajor_val_four, Shape.rowMajor_val_three]
        show ((R.val / 512 * 512 + R.val % 512) * 1 + 0) * 4 + k.val = (R.val / 512 * 512 + R.val % 512) * 4 + k.val
        omega)]
  exact extractStridedSlice_apply ![0, 0, 0, 0] x slices_S512x512x4x4_S512x512x1x4_0_0_0_0 _ _ (fun a => match a with
    | ⟨0, _⟩ => by show R.val / 512 = 0 + R.val / 512; omega
    | ⟨1, _⟩ => by show R.val % 512 = 0 + R.val % 512; omega
    | ⟨2, _⟩ => by show 0 = 0 + 0; omega
    | ⟨3, _⟩ => by show k.val = 0 + k.val; omega)

/-- The program's 262144 × 4 input is the network's input. -/
theorem input_after (W : Val) (R : Fin 262144) (k : Fin 4) :
    (StableHlo.after (hostOps0 (F := Ideal)) W (Proc.devRef .tc main_v2) : S262144x4.Idx → EReal) (ix2 R k)
      = rowsOf (W (Proc.devRef .tc main_arg0)) R k := by
  have e : (StableHlo.after (hostOps0 (F := Ideal)) W (Proc.devRef .tc main_v2) : S262144x4.Idx → EReal)
      = shapeCast S262144x4 (shapeCast S512x512x4
          (extractStridedSlice S512x512x1x4 ![0, 0, 0, 0] (W (Proc.devRef .tc main_arg0))
            slices_S512x512x4x4_S512x512x1x4_0_0_0_0)
          shapeCasts_S512x512x1x4_S512x512x4) shapeCasts_S512x512x4_S262144x4 := by
    dsimp only [hostOps0]; after_results; rfl
  rw [e, flatten_at]
  rfl

/-- The mask laid out as one column of real numbers. -/
def maskColumn (x1 : S512x512.Idx → BitVec 1) : FVec Ideal S262144x1 .f32 :=
  uitofp .f32 (shapeCast S262144x1 x1 shapeCasts_S512x512_S262144x1)

/-- Entry r of the mask column is the mask of (r / 512, r % 512). -/
theorem maskColumn_at (x1 : S512x512.Idx → BitVec 1) (R : Fin 262144) :
    maskColumn x1 (ix2 R (0 : Fin 1)) = maskOf x1 R := by
  have hR : R.val < 262144 := R.isLt
  show FloatOps.uitofp .f32 (shapeCast S262144x1 x1 shapeCasts_S512x512_S262144x1 (ix2 R (0 : Fin 1))) = _
  rw [shapeCast_apply x1 shapeCasts_S512x512_S262144x1 (ix2 R (0 : Fin 1))
    (ix2 (⟨R.val / 512, by omega⟩ : Fin 512) (⟨R.val % 512, Nat.mod_lt _ (by norm_num)⟩ : Fin 512))
    (by rewrite [Shape.rowMajor_val_two, Shape.rowMajor_val_two]
        show R.val / 512 * 512 + R.val % 512 = R.val * 1 + 0; omega)]
  rfl

/-- The program's mask column is the network's mask. -/
theorem mask_after (W : Val) (R : Fin 262144) :
    (StableHlo.after (hostOps0 (F := Ideal)) W (Proc.devRef .tc main_v4) : S262144x1.Idx → EReal) (ix2 R (0 : Fin 1))
      = maskOf (W (Proc.devRef .tc main_arg1)) R := by
  have e : (StableHlo.after (hostOps0 (F := Ideal)) W (Proc.devRef .tc main_v4) : S262144x1.Idx → EReal)
      = maskColumn (W (Proc.devRef .tc main_arg1)) := by
    dsimp only [hostOps0]; after_results; rfl
  rw [e, maskColumn_at]

/-- The host's sum of a one-column array from the zero word is the sum of its entries. -/
theorem column_sum (y : FVec Ideal S262144x1 .f32) (i : S_.Idx) :
    Host.reduceAdd (F := Ideal) y (constant (F := Ideal) S_ .f32 0x00000000#32) reducesTo_S262144x1_S_d0_1 h_S_ i
      = ∑ R : Fin 262144, y (ix2 R (0 : Fin 1)) := by
  have h : Host.reduceAdd (F := Ideal) y (constant (F := Ideal) S_ .f32 0x00000000#32) reducesTo_S262144x1_S_d0_1 h_S_ i
      = (constant (F := Ideal) S_ .f32 0x00000000#32) (Shape.Idx.first h_S_) + ∑ j : S262144x1.Idx, y j := by
    simp only [Host.reduceAdd, Ideal.hostReduceAdd_def]
    exact Ideal.hostReduceAdd_total reducesTo_S262144x1_S_d0_1 (fun b => b.elim0) y _ i
  rw [h, constant_apply, Ideal.ofBits_zero_f32, zero_add, sum_idx2]
  exact Finset.sum_congr rfl (fun R _ => Fin.sum_univ_one _)

/-- The count of valid rows. -/
theorem count_after (W : Val) :
    (StableHlo.after (hostOps0 (F := Ideal)) W (Proc.devRef .tc main_v6) : S_.Idx → EReal) ix0
      = Cert.MaskedMlp.count (maskOf (W (Proc.devRef .tc main_arg1))) := by
  have e : (StableHlo.after (hostOps0 (F := Ideal)) W (Proc.devRef .tc main_v6) : S_.Idx → EReal)
      = maximumf (Host.reduceAdd (F := Ideal) (maskColumn (W (Proc.devRef .tc main_arg1)))
          (constant (F := Ideal) S_ .f32 0x00000000#32) reducesTo_S262144x1_S_d0_1 h_S_)
          (constant (F := Ideal) S_ .f32 0x3F800000#32) := by
    dsimp only [hostOps0]; after_results; rfl
  rw [e, maximumf_apply, column_sum, constant_apply]
  have hs : (∑ R : Fin 262144, maskColumn (W (Proc.devRef .tc main_arg1)) (ix2 R (0 : Fin 1)))
      = ∑ r : Fin Rows, maskOf (W (Proc.devRef .tc main_arg1)) r :=
    Finset.sum_congr rfl (fun R _ => maskColumn_at _ R)
  rw [hs]
  rfl

end Cert.KernelIdeal.HostValue

end
-- ==== Proof.KernelHostParams.lean ====
/-
  The tiled program's host operations before its first region, on the parameters.

  Each vector of 256 entries is given a leading unit axis, so entry (0, j) of the result is entry j of the vector. The
  second and third weight matrices change their storage format only, which over the extended reals is the identity.
-/
import proofs.«171056_j68092411510797_1_alg».proof.Proof.Gen.KernelIdeal.Regions
import proofs.«171056_j68092411510797_1_alg».proof.Proof.Spec
import proofs.«171056_j68092411510797_1_alg».proof.Proof.Args
import Idealize.ShloMosaic.Lib.StableHlo.Run
import Idealize.ShloMosaic.Lib.Pipeline.Value
import Idealize.ShloMosaic.Lib.ValueIdx
import Idealize.ShloMosaic.PureOps.Ideal.Laws
import proofs.«171056_j68092411510797_1_alg».proof.Proof.KernelHostInputs

noncomputable section

namespace Cert.KernelIdeal.HostValue

open Cert.KernelIdeal Cert.KernelIdeal.Gen Cert.MaskedMlp
open Idealize.ShloMosaic Idealize.ShloMosaic.ValueIdx Idealize.ShloMosaic.StableHlo

/-- A vector given a leading unit axis, read at (0, j). -/
theorem row_at {α : Type} (x : S256.Idx → α) (j : Fin 256) :
    shapeCast S1x256 x shapeCasts_S256_S1x256 (ix2 (0 : Fin 1) j) = x (ix1 j) := by
  have hj : j.val < 256 := j.isLt
  exact shapeCast_apply x shapeCasts_S256_S1x256 (ix2 (0 : Fin 1) j) (ix1 j)
    (by rewrite [Shape.rowMajor_val_one, Shape.rowMajor_val_two]; show j.val = 0 * 256 + j.val; omega)

/-- Entry (0, j) of the row is entry j of the vector: the first layer's bias. -/
theorem bias1_after (W : Val) (j : Fin 256) :
    (StableHlo.after (hostOps0 (F := Ideal)) W (Proc.devRef .tc main_v7) : S1x256.Idx → EReal) (ix2 (0 : Fin 1) j)
      = vecOf (W (Proc.devRef .tc main_arg3)) j := by
  have e : (StableHlo.after (hostOps0 (F := Ideal)) W (Proc.devRef .tc main_v7) : S1x256.Idx → EReal)
      = shapeCast S1x256 (W (Proc.devRef .tc main_arg3)) shapeCasts_S256_S1x256 := by
    dsimp only [hostOps0]; after_results; rfl
  rw [e, row_at]
  rfl

/-- Entry (0, j) of the row is entry j of the vector: the first normalisation's scale. -/
theorem scale1_after (W : Val) (j : Fin 256) :
    (StableHlo.after (hostOps0 (F := Ideal)) W (Proc.devRef .tc main_v8) : S1x256.Idx → EReal) (ix2 (0 : Fin 1) j)
      = vecOf (W (Proc.devRef .tc main_arg4)) j := by
  have e : (StableHlo.after (hostOps0 (F := Ideal)) W (Proc.devRef .tc main_v8) : S1x256.Idx → EReal)
      = shapeCast S1x256 (W (Proc.devRef .tc main_arg4)) shapeCasts_S256_S1x256 := by
    dsimp only [hostOps0]; after_results; rfl
  rw [e, row_at]
  rfl

/-- Entry (0, j) of the row is entry j of the vector: the first normalisation's shift. -/
theorem shift1_after (W : Val) (j : Fin 256) :
    (StableHlo.after (hostOps0 (F := Ideal)) W (Proc.devRef .tc main_v9) : S1x256.Idx → EReal) (ix2 (0 : Fin 1) j)
      = vecOf (W (Proc.devRef .tc main_arg5)) j := by
  have e : (StableHlo.after (hostOps0 (F := Ideal)) W (Proc.devRef .tc main_v9) : S1x256.Idx → EReal)
      = shapeCast S1x256 (W (Proc.devRef .tc main_arg5)) shapeCasts_S256_S1x256 := by
    dsimp only [hostOps0]; after_results; rfl
  rw [e, row_at]
  rfl

/-- Entry (0, j) of the row is entry j of the vector: the second layer's bias. -/
theorem bias2_after (W : Val) (j : Fin 256) :
    (StableHlo.after (hostOps0 (F := Ideal)) W (Proc.devRef .tc main_v10) : S1x256.Idx → EReal) (ix2 (0 : Fin 1) j)
      = vecOf (W (Proc.devRef .tc main_arg7)) j := by
  have e : (StableHlo.after (hostOps0 (F := Ideal)) W (Proc.devRef .tc main_v10) : S1x256.Idx → EReal)
      = shapeCast S1x256 (W (Proc.devRef .tc main_arg7)) shapeCasts_S256_S1x256 := by
    dsimp only [hostOps0]; after_results; rfl
  rw [e, row_at]
  rfl

/-- Entry (0, j) of the row is entry j of the vector: the second normalisation's scale. -/
theorem scale2_after (W : Val) (j : Fin 256) :
    (StableHlo.after (hostOps0 (F := Ideal)) W (Proc.devRef .tc main_v11) : S1x256.Idx → EReal) (ix2 (0 : Fin 1) j)
      = vecOf (W (Proc.devRef .tc main_arg8)) j := by
  have e : (StableHlo.after (hostOps0 (F := Ideal)) W (Proc.devRef .tc main_v11) : S1x256.Idx → EReal)
      = shapeCast S1x256 (W (Proc.devRef .tc main_arg8)) shapeCasts_S256_S1x256 := by
    dsimp only [hostOps0]; after_results; rfl
  rw [e, row_at]
  rfl

/-- Entry (0, j) of the row is entry j of the vector: the second normalisation's shift. -/
theorem shift2_after (W : Val) (j : Fin 256) :
    (StableHlo.after (hostOps0 (F := Ideal)) W (Proc.devRef .tc main_v12) : S1x256.Idx → EReal) (ix2 (0 : Fin 1) j)
      = vecOf (W (Proc.devRef .tc main_arg9)) j := by
  have e : (StableHlo.after (hostOps0 (F := Ideal)) W (Proc.devRef .tc main_v12) : S1x256.Idx → EReal)
      = shapeCast S1x256 (W (Proc.devRef .tc main_arg9)) shapeCasts_S256_S1x256 := by
    dsimp only [hostOps0]; after_results; rfl
  rw [e, row_at]
  rfl

/-- Entry (0, j) of the row is entry j of the vector: the last layer's bias. -/
theorem bias3_after (W : Val) (j : Fin 256) :
    (StableHlo.after (hostOps0 (F := Ideal)) W (Proc.devRef .tc main_v13) : S1x256.Idx → EReal) (ix2 (0 : Fin 1) j)
      = vecOf (W (Proc.devRef .tc main_arg11)) j := by
  have e : (StableHlo.after (hostOps0 (F := Ideal)) W (Proc.devRef .tc main_v13) : S1x256.Idx → EReal)
      = shapeCast S1x256 (W (Proc.devRef .tc main_arg11)) shapeCasts_S256_S1x256 := by
    dsimp only [hostOps0]; after_results; rfl
  rw [e, row_at]
  rfl

/-- The second weight matrix in its other storage format has the same entries. -/
theorem weights2_after (W : Val) (k j : Fin 256) :
    (StableHlo.after (hostOps0 (F := Ideal)) W (Proc.devRef .tc main_v14) : S256x256.Idx → EReal) (ix2 k j)
      = matOf (W (Proc.devRef .tc main_arg6)) k j := by
  have e : (StableHlo.after (hostOps0 (F := Ideal)) W (Proc.devRef .tc main_v14) : S256x256.Idx → EReal)
      = (truncf .bf16 (W (Proc.devRef .tc main_arg6) : FVec Ideal S256x256 .f32) bitsLt_bf16_f32 : FVec Ideal S256x256 .bf16) := by
    dsimp only [hostOps0]; after_results
  rw [e]
  rfl

/-- The third weight matrix in its other storage format has the same entries. -/
theorem weights3_after (W : Val) (k j : Fin 256) :
    (StableHlo.after (hostOps0 (F := Ideal)) W (Proc.devRef .tc main_v15) : S256x256.Idx → EReal) (ix2 k j)
      = matOf (W (Proc.devRef .tc main_arg10)) k j := by
  have e : (StableHlo.after (hostOps0 (F := Ideal)) W (Proc.devRef .tc main_v15) : S256x256.Idx → EReal)
      = (truncf .bf16 (W (Proc.devRef .tc main_arg10) : FVec Ideal S256x256 .f32) bitsLt_bf16_f32 : FVec Ideal S256x256 .bf16) := by
    dsimp only [hostOps0]; after_results
  rw [e]
  rfl

end Cert.KernelIdeal.HostValue

end
-- ==== Proof.KernelHostMoments.lean ====
/-
  The tiled program's host operations between its regions: from two column sums to a mean and a variance.

  A region leaves two rows of 256 sums. The host divides each by the count of valid rows (a scalar repeated along the
  row) and subtracts the square of the first quotient from the second: with the sums being the masked column sum and
  the masked column sum of squares, these are the mean and the variance formed from moments.
-/
import proofs.«171056_j68092411510797_1_alg».proof.Proof.Gen.KernelIdeal.Regions
import proofs.«171056_j68092411510797_1_alg».proof.Proof.Spec
import proofs.«171056_j68092411510797_1_alg».proof.Proof.Args
import Idealize.ShloMosaic.Lib.StableHlo.Run
import Idealize.ShloMosaic.Lib.Pipeline.Value
import Idealize.ShloMosaic.Lib.ValueIdx
import Idealize.ShloMosaic.PureOps.Ideal.Laws
import proofs.«171056_j68092411510797_1_alg».proof.Proof.KernelHostInputs

noncomputable section

namespace Cert.KernelIdeal.HostValue

open Cert.KernelIdeal Cert.KernelIdeal.Gen Cert.MaskedMlp
open Idealize.ShloMosaic Idealize.ShloMosaic.ValueIdx Idealize.ShloMosaic.StableHlo

/-- A scalar repeated along a row of 256 entries. -/
theorem scalar_row_at {α : Type} (x : S_.Idx → α) (i : S1x256.Idx) :
    broadcastInDim S1x256 ![] bcast_S_S1x256 x i = x ix0 :=
  broadcastInDim_apply _ bcast_S_S1x256 x i ix0 (fun a => a.elim0)

/-- The host's quotient of two rows, entry by entry. -/
theorem quotient_at (a b : FVec Ideal S1x256 .f32) (i : S1x256.Idx) :
    Host.divf (F := Ideal) a b i = Ideal.div (a i) (b i) := rfl

/-- After the first pair of sums: the first sum over the count. -/
theorem quotient_after1 (W : Val) (j : Fin 256) :
    (StableHlo.after (hostOps1 (F := Ideal)) W (Proc.devRef .tc main_v18) : S1x256.Idx → EReal) (ix2 (0 : Fin 1) j)
      = Ideal.div ((W (Proc.devRef .tc main_v16_0) : S1x256.Idx → EReal) (ix2 (0 : Fin 1) j))
          ((W (Proc.devRef .tc main_v6) : S_.Idx → EReal) ix0) := by
  have e : (StableHlo.after (hostOps1 (F := Ideal)) W (Proc.devRef .tc main_v18) : S1x256.Idx → EReal)
      = Host.divf (F := Ideal) (φ := .f32) (W (Proc.devRef .tc main_v16_0) : FVec Ideal S1x256 .f32)
          (broadcastInDim S1x256 ![] bcast_S_S1x256 (W (Proc.devRef .tc main_v6))) := by
    dsimp only [hostOps1]; after_results
  rw [e, quotient_at, scalar_row_at]

/-- After the first pair of sums: the second sum over the count, minus the square of the first quotient. -/
theorem moments_after1 (W : Val) (j : Fin 256) :
    (StableHlo.after (hostOps1 (F := Ideal)) W (Proc.devRef .tc main_v22) : S1x256.Idx → EReal) (ix2 (0 : Fin 1) j)
      = Ideal.div ((W (Proc.devRef .tc main_v16_1) : S1x256.Idx → EReal) (ix2 (0 : Fin 1) j))
            ((W (Proc.devRef .tc main_v6) : S_.Idx → EReal) ix0)
        - Ideal.div ((W (Proc.devRef .tc main_v16_0) : S1x256.Idx → EReal) (ix2 (0 : Fin 1) j))
              ((W (Proc.devRef .tc main_v6) : S_.Idx → EReal) ix0)
          * Ideal.div ((W (Proc.devRef .tc main_v16_0) : S1x256.Idx → EReal) (ix2 (0 : Fin 1) j))
              ((W (Proc.devRef .tc main_v6) : S_.Idx → EReal) ix0) := by
  have e : (StableHlo.after (hostOps1 (F := Ideal)) W (Proc.devRef .tc main_v22) : S1x256.Idx → EReal)
      = subf (Host.divf (F := Ideal) (φ := .f32) (W (Proc.devRef .tc main_v16_1) : FVec Ideal S1x256 .f32)
            (broadcastInDim S1x256 ![] bcast_S_S1x256 (W (Proc.devRef .tc main_v6))))
          (mulf (Host.divf (F := Ideal) (φ := .f32) (W (Proc.devRef .tc main_v16_0) : FVec Ideal S1x256 .f32)
              (broadcastInDim S1x256 ![] bcast_S_S1x256 (W (Proc.devRef .tc main_v6))))
            (Host.divf (F := Ideal) (φ := .f32) (W (Proc.devRef .tc main_v16_0) : FVec Ideal S1x256 .f32)
              (broadcastInDim S1x256 ![] bcast_S_S1x256 (W (Proc.devRef .tc main_v6))))) := by
    dsimp only [hostOps1]; after_results
  rw [e, subf_apply, mulf_apply, quotient_at, quotient_at, scalar_row_at]

/-- In the network's words: when the first sum is the masked column sum and the count is the count, the first
    quotient is the mean. -/
theorem mean_after1 {R : ℕ} (W : Val) (h : Fin R → Fin 256 → EReal) (M : Fin R → EReal) (j : Fin 256)
    (h0 : (W (Proc.devRef .tc main_v16_0) : S1x256.Idx → EReal) (ix2 (0 : Fin 1) j) = msum h M j)
    (hc : (W (Proc.devRef .tc main_v6) : S_.Idx → EReal) ix0 = Cert.MaskedMlp.count M) :
    (StableHlo.after (hostOps1 (F := Ideal)) W (Proc.devRef .tc main_v18) : S1x256.Idx → EReal) (ix2 (0 : Fin 1) j)
      = mean h M j := by
  rw [quotient_after1, h0, hc]
  rfl

/-- In the network's words: when moreover the second sum is the masked column sum of squares, the result is the
    variance formed from moments. -/
theorem var_after1 {R : ℕ} (W : Val) (h : Fin R → Fin 256 → EReal) (M : Fin R → EReal) (j : Fin 256)
    (h0 : (W (Proc.devRef .tc main_v16_0) : S1x256.Idx → EReal) (ix2 (0 : Fin 1) j) = msum h M j)
    (h1 : (W (Proc.devRef .tc main_v16_1) : S1x256.Idx → EReal) (ix2 (0 : Fin 1) j) = msumsq h M j)
    (hc : (W (Proc.devRef .tc main_v6) : S_.Idx → EReal) ix0 = Cert.MaskedMlp.count M) :
    (StableHlo.after (hostOps1 (F := Ideal)) W (Proc.devRef .tc main_v22) : S1x256.Idx → EReal) (ix2 (0 : Fin 1) j)
      = varMoments h M j := by
  rw [moments_after1, h0, h1, hc]
  rfl

/-- After the second pair of sums: the first sum over the count. -/
theorem quotient_after2 (W : Val) (j : Fin 256) :
    (StableHlo.after (hostOps2 (F := Ideal)) W (Proc.devRef .tc main_v25) : S1x256.Idx → EReal) (ix2 (0 : Fin 1) j)
      = Ideal.div ((W (Proc.devRef .tc main_v23_0) : S1x256.Idx → EReal) (ix2 (0 : Fin 1) j))
          ((W (Proc.devRef .tc main_v6) : S_.Idx → EReal) ix0) := by
  have e : (StableHlo.after (hostOps2 (F := Ideal)) W (Proc.devRef .tc main_v25) : S1x256.Idx → EReal)
      = Host.divf (F := Ideal) (φ := .f32) (W (Proc.devRef .tc main_v23_0) : FVec Ideal S1x256 .f32)
          (broadcastInDim S1x256 ![] bcast_S_S1x256 (W (Proc.devRef .tc main_v6))) := by
    dsimp only [hostOps2]; after_results
  rw [e, quotient_at, scalar_row_at]

/-- After the second pair of sums: the second sum over the count, minus the square of the first quotient. -/
theorem moments_after2 (W : Val) (j : Fin 256) :
    (StableHlo.after (hostOps2 (F := Ideal)) W (Proc.devRef .tc main_v29) : S1x256.Idx → EReal) (ix2 (0 : Fin 1) j)
      = Ideal.div ((W (Proc.devRef .tc main_v23_1) : S1x256.Idx → EReal) (ix2 (0 : Fin 1) j))
            ((W (Proc.devRef .tc main_v6) : S_.Idx → EReal) ix0)
        - Ideal.div ((W (Proc.devRef .tc main_v23_0) : S1x256.Idx → EReal) (ix2 (0 : Fin 1) j))
              ((W (Proc.devRef .tc main_v6) : S_.Idx → EReal) ix0)
          * Ideal.div ((W (Proc.devRef .tc main_v23_0) : S1x256.Idx → EReal) (ix2 (0 : Fin 1) j))
              ((W (Proc.devRef .tc main_v6) : S_.Idx → EReal) ix0) := by
  have e : (StableHlo.after (hostOps2 (F := Ideal)) W (Proc.devRef .tc main_v29) : S1x256.Idx → EReal)
      = subf (Host.divf (F := Ideal) (φ := .f32) (W (Proc.devRef .tc main_v23_1) : FVec Ideal S1x256 .f32)
            (broadcastInDim S1x256 ![] bcast_S_S1x256 (W (Proc.devRef .tc main_v6))))
          (mulf (Host.divf (F := Ideal) (φ := .f32) (W (Proc.devRef .tc main_v23_0) : FVec Ideal S1x256 .f32)
              (broadcastInDim S1x256 ![] bcast_S_S1x256 (W (Proc.devRef .tc main_v6))))
            (Host.divf (F := Ideal) (φ := .f32) (W (Proc.devRef .tc main_v23_0) : FVec Ideal S1x256 .f32)
              (broadcastInDim S1x256 ![] bcast_S_S1x256 (W (Proc.devRef .tc main_v6))))) := by
    dsimp only [hostOps2]; after_results
  rw [e, subf_apply, mulf_apply, quotient_at, quotient_at, scalar_row_at]

/-- In the network's words: when the first sum is the masked column sum and the count is the count, the first
    quotient is the mean. -/
theorem mean_after2 {R : ℕ} (W : Val) (h : Fin R → Fin 256 → EReal) (M : Fin R → EReal) (j : Fin 256)
    (h0 : (W (Proc.devRef .tc main_v23_0) : S1x256.Idx → EReal) (ix2 (0 : Fin 1) j) = msum h M j)
    (hc : (W (Proc.devRef .tc main_v6) : S_.Idx → EReal) ix0 = Cert.MaskedMlp.count M) :
    (StableHlo.after (hostOps2 (F := Ideal)) W (Proc.devRef .tc main_v25) : S1x256.Idx → EReal) (ix2 (0 : Fin 1) j)
      = mean h M j := by
  rw [quotient_after2, h0, hc]
  rfl

/-- In the network's words: when moreover the second sum is the masked column sum of squares, the result is the
    variance formed from moments. -/
theorem var_after2 {R : ℕ} (W : Val) (h : Fin R → Fin 256 → EReal) (M : Fin R → EReal) (j : Fin 256)
    (h0 : (W (Proc.devRef .tc main_v23_0) : S1x256.Idx → EReal) (ix2 (0 : Fin 1) j) = msum h M j)
    (h1 : (W (Proc.devRef .tc main_v23_1) : S1x256.Idx → EReal) (ix2 (0 : Fin 1) j) = msumsq h M j)
    (hc : (W (Proc.devRef .tc main_v6) : S_.Idx → EReal) ix0 = Cert.MaskedMlp.count M) :
    (StableHlo.after (hostOps2 (F := Ideal)) W (Proc.devRef .tc main_v29) : S1x256.Idx → EReal) (ix2 (0 : Fin 1) j)
      = varMoments h M j := by
  rw [moments_after2, h0, h1, hc]
  rfl

end Cert.KernelIdeal.HostValue

end
-- ==== Proof.KernelHostOutput.lean ====
/-
  The tiled program's last host operation: the 262144 × 256 result laid out as 512 × 512 × 256.

  Entry (a, b, j) of the result is at flat offset (a · 512 + b) · 256 + j, that is row a · 512 + b, column j.
-/
import proofs.«171056_j68092411510797_1_alg».proof.Proof.Gen.KernelIdeal.Regions
import proofs.«171056_j68092411510797_1_alg».proof.Proof.Spec
import proofs.«171056_j68092411510797_1_alg».proof.Proof.Args
import Idealize.ShloMosaic.Lib.StableHlo.Run
import Idealize.ShloMosaic.Lib.Pipeline.Value
import Idealize.ShloMosaic.Lib.ValueIdx
import Idealize.ShloMosaic.PureOps.Ideal.Laws
import proofs.«171056_j68092411510797_1_alg».proof.Proof.KernelHostInputs

noncomputable section

namespace Cert.KernelIdeal.HostValue

open Cert.KernelIdeal Cert.KernelIdeal.Gen Cert.MaskedMlp
open Idealize.ShloMosaic Idealize.ShloMosaic.ValueIdx Idealize.ShloMosaic.StableHlo

/-- The final layout read at an index. -/
theorem result_after (W : Val) (i : S512x512x256.Idx) :
    (StableHlo.after (hostOps3 (F := Ideal)) W (Proc.devRef .tc main_v31) : S512x512x256.Idx → EReal) i
      = (W (Proc.devRef .tc main_v30) : S262144x256.Idx → EReal)
          (ix2 (n0 := 262144) (n1 := 256) (rowOfOut i) (i 2)) := by
  have e : (StableHlo.after (hostOps3 (F := Ideal)) W (Proc.devRef .tc main_v31) : S512x512x256.Idx → EReal)
      = shapeCast S512x512x256 (W (Proc.devRef .tc main_v30)) shapeCasts_S262144x256_S512x512x256 := by
    dsimp only [hostOps3]; after_results; rfl
  rw [e]
  exact shapeCast_apply _ shapeCasts_S262144x256_S512x512x256 i
    (ix2 (n0 := 262144) (n1 := 256) (rowOfOut i) (i 2))
    (by rewrite [Shape.rowMajor_val_two, Shape.rowMajor_val_three]
        show ((i 0).val * 512 + (i 1).val) * 256 + (i 2).val = ((i 0).val * 512 + (i 1).val) * 256 + (i 2).val
        rfl)

end Cert.KernelIdeal.HostValue

end
-- ==== Proof.FoldFacts.lean ====
/-
  What the buffers hold at each boundary of the program, in the network's words. After the first stretch of host operations
  the flattened feature rows, the mask column, the count of valid rows, and the reshaped parameter rows are the network's
  inputs; a buffer that a later item does not write keeps these contents up to the region that reads it. The pieces of the
  network are named here once: the two pre-activations, and their masked means and moment variances.
-/
import proofs.«171056_j68092411510797_1_alg».proof.Proof.FrameWalk
import proofs.«171056_j68092411510797_1_alg».proof.Proof.KernelHostParams
import proofs.«171056_j68092411510797_1_alg».proof.Proof.KernelHostMoments
import proofs.«171056_j68092411510797_1_alg».proof.Proof.KernelHostOutput
import proofs.«171056_j68092411510797_1_alg».proof.Proof.Spec
import proofs.«171056_j68092411510797_1_alg».proof.Proof.Args

set_option maxRecDepth 16384

noncomputable section

namespace Cert.KernelIdeal.NetValue

open Cert.KernelIdeal Cert.KernelIdeal.Gen Cert.KernelIdeal.Frame Cert.KernelIdeal.HostValue Cert.MaskedMlp
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The network's inputs, read off the argument arrays. -/
abbrev nX : Fin Rows → Fin 4 → EReal := rowsOf (m ((c : Thread nD τ).loc main_arg0))
abbrev nM : Fin Rows → EReal := maskOf (m ((c : Thread nD τ).loc main_arg1))
abbrev nW1 : Fin 4 → Fin 256 → EReal := matOf (m ((c : Thread nD τ).loc main_arg2))
abbrev nb1 : Fin 256 → EReal := vecOf (m ((c : Thread nD τ).loc main_arg3))
abbrev ng1 : Fin 256 → EReal := vecOf (m ((c : Thread nD τ).loc main_arg4))
abbrev nbe1 : Fin 256 → EReal := vecOf (m ((c : Thread nD τ).loc main_arg5))
abbrev nW2 : Fin 256 → Fin 256 → EReal := matOf (m ((c : Thread nD τ).loc main_arg6))
abbrev nb2 : Fin 256 → EReal := vecOf (m ((c : Thread nD τ).loc main_arg7))
abbrev ng2 : Fin 256 → EReal := vecOf (m ((c : Thread nD τ).loc main_arg8))
abbrev nbe2 : Fin 256 → EReal := vecOf (m ((c : Thread nD τ).loc main_arg9))
abbrev nW3 : Fin 256 → Fin 256 → EReal := matOf (m ((c : Thread nD τ).loc main_arg10))
abbrev nb3 : Fin 256 → EReal := vecOf (m ((c : Thread nD τ).loc main_arg11))
/-- The first pre-activation, its masked mean and moment variance; the second likewise. -/
def pre1 : Fin Rows → Fin 256 → EReal := dense (nX m c) (nW1 m c) (nb1 m c)
def mu1 : Fin 256 → EReal := mean (pre1 m c) (nM m c)
def var1 : Fin 256 → EReal := varMoments (pre1 m c) (nM m c)
def pre2 : Fin Rows → Fin 256 → EReal := dense (normReluWith (mu1 m c) (var1 m c) (ng1 m c) (nbe1 m c) (pre1 m c)) (nW2 m c) (nb2 m c)
def mu2 : Fin 256 → EReal := mean (pre2 m c) (nM m c)
def var2 : Fin 256 → EReal := varMoments (pre2 m c) (nM m c)

/-- The network with moment variances, in these names. -/
theorem netMoments_eq (R : Fin Rows) (j : Fin 256) :
    netMoments (nX m c) (nM m c) (nW1 m c) (nb1 m c) (ng1 m c) (nbe1 m c) (nW2 m c) (nb2 m c) (ng2 m c) (nbe2 m c) (nW3 m c) (nb3 m c) R j
      = dense (normReluWith (mu2 m c) (var2 m c) (ng2 m c) (nbe2 m c) (pre2 m c)) (nW3 m c) (nb3 m c) R j * nM m c R := rfl

/-! ## After the first stretch of host operations -/
theorem w1_rows (R : Fin Rows) (k : Fin 4) : (W1 m ρ c (Proc.devRef .tc main_v2) : S262144x4.Idx → EReal) (ix2 R k) = nX m c R k := input_after (W0 m ρ c) R k
theorem w1_mask (R : Fin Rows) : (W1 m ρ c (Proc.devRef .tc main_v4) : S262144x1.Idx → EReal) (ix2 R (0 : Fin 1)) = nM m c R := mask_after (W0 m ρ c) R
theorem w1_count  : (W1 m ρ c (Proc.devRef .tc main_v6) : S_.Idx → EReal) ix0 = Cert.MaskedMlp.count (nM m c) := count_after (W0 m ρ c)
theorem w1_b1 (j : Fin 256) : (W1 m ρ c (Proc.devRef .tc main_v7) : S1x256.Idx → EReal) (ix2 (0 : Fin 1) j) = nb1 m c j := bias1_after (W0 m ρ c) j
theorem w1_g1 (j : Fin 256) : (W1 m ρ c (Proc.devRef .tc main_v8) : S1x256.Idx → EReal) (ix2 (0 : Fin 1) j) = ng1 m c j := scale1_after (W0 m ρ c) j
theorem w1_be1 (j : Fin 256) : (W1 m ρ c (Proc.devRef .tc main_v9) : S1x256.Idx → EReal) (ix2 (0 : Fin 1) j) = nbe1 m c j := shift1_after (W0 m ρ c) j
theorem w1_b2 (j : Fin 256) : (W1 m ρ c (Proc.devRef .tc main_v10) : S1x256.Idx → EReal) (ix2 (0 : Fin 1) j) = nb2 m c j := bias2_after (W0 m ρ c) j
theorem w1_g2 (j : Fin 256) : (W1 m ρ c (Proc.devRef .tc main_v11) : S1x256.Idx → EReal) (ix2 (0 : Fin 1) j) = ng2 m c j := scale2_after (W0 m ρ c) j
theorem w1_be2 (j : Fin 256) : (W1 m ρ c (Proc.devRef .tc main_v12) : S1x256.Idx → EReal) (ix2 (0 : Fin 1) j) = nbe2 m c j := shift2_after (W0 m ρ c) j
theorem w1_b3 (j : Fin 256) : (W1 m ρ c (Proc.devRef .tc main_v13) : S1x256.Idx → EReal) (ix2 (0 : Fin 1) j) = nb3 m c j := bias3_after (W0 m ρ c) j
theorem w1_W2 (k j : Fin 256) : (W1 m ρ c (Proc.devRef .tc main_v14) : S256x256.Idx → EReal) (ix2 k j) = nW2 m c k j := weights2_after (W0 m ρ c) k j
theorem w1_W3 (k j : Fin 256) : (W1 m ρ c (Proc.devRef .tc main_v15) : S256x256.Idx → EReal) (ix2 k j) = nW3 m c k j := weights3_after (W0 m ρ c) k j
theorem w1_W1 (k : Fin 4) (j : Fin 256) : (W1 m ρ c (Proc.devRef .tc main_arg2) : S4x256.Idx → EReal) (ix2 k j) = nW1 m c k j := by
  rw [W1_keep m ρ c main_arg2 (by decide)]; rfl

/-! ## Buffers no later item writes keep their contents -/

theorem keep31 (r : Ref sig .tc) (h1 : r ∉ hostOps1_W) (k0 : ∀ w, Pipeline.arrRef spec0 w = r → (cfg0.win w).isOut = false) :
    W3 m ρ c (Proc.devRef .tc r) = W1 m ρ c (Proc.devRef .tc r) := (W3_keep m ρ c r h1).trans (W2_keep m ρ c r k0)
theorem keep53 (r : Ref sig .tc) (h2 : r ∉ hostOps2_W) (k1 : ∀ w, Pipeline.arrRef spec1 w = r → (cfg1.win w).isOut = false) :
    W5 m ρ c (Proc.devRef .tc r) = W3 m ρ c (Proc.devRef .tc r) := (W5_keep m ρ c r h2).trans (W4_keep m ρ c r k1)
theorem keep51 (r : Ref sig .tc) (h1 : r ∉ hostOps1_W) (h2 : r ∉ hostOps2_W) (k0 : ∀ w, Pipeline.arrRef spec0 w = r → (cfg0.win w).isOut = false)
    (k1 : ∀ w, Pipeline.arrRef spec1 w = r → (cfg1.win w).isOut = false) :
    W5 m ρ c (Proc.devRef .tc r) = W1 m ρ c (Proc.devRef .tc r) := (keep53 m ρ c r h2 k1).trans (keep31 m ρ c r h1 k0)

end Cert.KernelIdeal.NetValue

end
-- ==== Proof.Pieces2.lean ====
/-
  What the final pass leaves in the output block's buffer, as arithmetic of the sixteen loaded blocks.

  The body stores one piece that covers the whole 4096 × 256 block: the final arithmetic applied to the mask column and
  the second-layer product that the first part of the body computes from the blocks it loads, and to the remaining
  blocks as loaded. Every load reads a whole buffer at offset zero, so it returns the buffer's contents.
-/
import proofs.«171056_j68092411510797_1_alg».proof.Proof.FrameR2
import Idealize.ShloMosaic.Lib.Pipeline.Value
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL.Sem

variable {F : FTy → Type} [FloatOps F]

/-- The zero offset of a rank-2 buffer. -/
theorem zeroOffset2 : (![0, 0] : Fin 2 → Nat) = fun _ => 0 := funext fun a => by fin_cases a <;> rfl

/-- The output block after the body: the final arithmetic of the loaded blocks. -/
theorem out2_16_eq (c : Dev nD) (i : grid2.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x256 .bf16) (harg15 : arg15.IsWhole) (arg16 : Memref sig .tc .vmem S1x256 .f32) (harg16 : arg16.IsWhole) (arg17 : Memref sig .tc .vmem S4096x256 .f32) (harg17 : arg17.IsWhole)
    (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (x10 : Vec F S1x256 .f32) (x11 : Vec F S1x256 .f32) (x12 : Vec F S1x256 .f32) (x13 : Vec F S1x256 .f32) (x14 : Vec F S256x256 .bf16) (x15 : Vec F S1x256 .f32) :
    out2_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15
      = k2_pay1 (k2_pay2 x1) (k2_pay3 x0 x2 x3 x4 x5 x6 x7 x8) x9 x10 x11 x12 x13 x14 x15 := by
  unfold out2_16
  rw [View.read_writes_eq_canon _ _ _ (cover2_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15)]
  unfold kernelRun2
  dsimp only
  sl_unfold_words
  rw [View.canon_unit_zero zeroOffset2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S4096x4) zeroOffset2, View.ld_unit_zero (S := S4096x1) zeroOffset2, View.ld_unit_zero (S := S4x256) zeroOffset2, View.ld_unit_zero (S := S1x256) zeroOffset2, View.ld_unit_zero (S := S256x256) zeroOffset2]

end Cert.KernelIdeal.Frame

end
-- ==== Proof.Pieces0.lean ====
/-
  What the first statistics pass leaves in its two running rows and its two outputs, as arithmetic of the loaded blocks.

  At every grid point the body ends with one store that covers each running row: the block's masked column sums (or sums
  of squares) added to the row as it was — the zero row at the first point, where the row is cleared first. At the last
  point each updated row is also copied to its output. Every load reads a whole buffer at offset zero.
-/
import proofs.«171056_j68092411510797_1_alg».proof.Proof.FrameR0Body
import proofs.«171056_j68092411510797_1_alg».proof.Proof.Pieces2
import Idealize.ShloMosaic.Lib.Pipeline.Value
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL.Sem

variable {F : FTy → Type} [FloatOps F]

/-- At the first point the running sum is cleared and the block's masked column sums added: the newest store covers the buffer, and the cleared buffer it read back is the zero row. -/
theorem sout0_A_0_eq (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond0_first i) (hc1 : ¬cond0_last i) (x0 : Vec F S4096x4 .f32) (x1 : Vec F S4096x1 .f32) (x2 : Vec F S4x256 .f32) (x3 : Vec F S1x256 .f32) :
    sout0_A_0 c i arg1 harg1 arg2 harg2 arg3 harg3 arg4 harg4 arg5 harg5 arg6 harg6 arg7 harg7 arg8 harg8 hc0 hc1 x0 x1 x2 x3 = k0_pay5 x0 x1 x2 x3 k0_pay1 := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x256) zeroOffset2, View.readCov_unit_zero (S := S1x256) _ zeroOffset2]
  simp only [View.readAt_eq_ld, harg1.read_unread, harg2.read_unread, harg3.read_unread, harg4.read_unread, harg5.read_unread, harg6.read_unread, harg7.read_unread, harg8.read_unread,
    View.ld_unit_zero (S := S4096x4) zeroOffset2, View.ld_unit_zero (S := S4096x1) zeroOffset2, View.ld_unit_zero (S := S4x256) zeroOffset2, View.ld_unit_zero (S := S1x256) zeroOffset2]

/-- The same for the running sum of squares. -/
theorem sout0_A_1_eq (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond0_first i) (hc1 : ¬cond0_last i) (x0 : Vec F S4096x4 .f32) (x1 : Vec F S4096x1 .f32) (x2 : Vec F S4x256 .f32) (x3 : Vec F S1x256 .f32) :
    sout0_A_1 c i arg1 harg1 arg2 harg2 arg3 harg3 arg4 harg4 arg5 harg5 arg6 harg6 arg7 harg7 arg8 harg8 hc0 hc1 x0 x1 x2 x3 = k0_pay6 x0 x1 x2 x3 k0_pay2 := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x256) zeroOffset2, View.readCov_unit_zero (S := S1x256) _ zeroOffset2]
  simp only [View.readAt_eq_ld, harg1.read_unread, harg2.read_unread, harg3.read_unread, harg4.read_unread, harg5.read_unread, harg6.read_unread, harg7.read_unread, harg8.read_unread,
    View.ld_unit_zero (S := S4096x4) zeroOffset2, View.ld_unit_zero (S := S4096x1) zeroOffset2, View.ld_unit_zero (S := S4x256) zeroOffset2, View.ld_unit_zero (S := S1x256) zeroOffset2]

/-- At a middle point the block's masked column sums are added to the running sum as the point finds it. -/
theorem sout0_B_0_eq (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : ¬cond0_last i) (x0 : Vec F S4096x4 .f32) (x1 : Vec F S4096x1 .f32) (x2 : Vec F S4x256 .f32) (x3 : Vec F S1x256 .f32) (xs0 xs1 : Vec F S1x256 .f32) :
    sout0_B_0 c i arg1 harg1 arg2 harg2 arg3 harg3 arg4 harg4 arg5 harg5 arg6 harg6 arg7 harg7 arg8 harg8 hc0 hc1 x0 x1 x2 x3 xs0 xs1 = k0_pay5 x0 x1 x2 x3 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero zeroOffset2]
  simp only [View.readAt_eq_ld, harg1.read_unread, harg2.read_unread, harg3.read_unread, harg4.read_unread, harg5.read_unread, harg6.read_unread, harg7.read_unread, harg8.read_unread,
    View.ld_unit_zero (S := S4096x4) zeroOffset2, View.ld_unit_zero (S := S4096x1) zeroOffset2, View.ld_unit_zero (S := S4x256) zeroOffset2, View.ld_unit_zero (S := S1x256) zeroOffset2]

/-- The same for the running sum of squares. -/
theorem sout0_B_1_eq (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : ¬cond0_last i) (x0 : Vec F S4096x4 .f32) (x1 : Vec F S4096x1 .f32) (x2 : Vec F S4x256 .f32) (x3 : Vec F S1x256 .f32) (xs0 xs1 : Vec F S1x256 .f32) :
    sout0_B_1 c i arg1 harg1 arg2 harg2 arg3 harg3 arg4 harg4 arg5 harg5 arg6 harg6 arg7 harg7 arg8 harg8 hc0 hc1 x0 x1 x2 x3 xs0 xs1 = k0_pay6 x0 x1 x2 x3 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero zeroOffset2]
  simp only [View.readAt_eq_ld, harg1.read_unread, harg2.read_unread, harg3.read_unread, harg4.read_unread, harg5.read_unread, harg6.read_unread, harg7.read_unread, harg8.read_unread,
    View.ld_unit_zero (S := S4096x4) zeroOffset2, View.ld_unit_zero (S := S4096x1) zeroOffset2, View.ld_unit_zero (S := S4x256) zeroOffset2, View.ld_unit_zero (S := S1x256) zeroOffset2]

/-- At the last point the running sum is updated in the same way. -/
theorem sout0_C_0_eq (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) :
    sout0_C_0 c i arg1 harg1 arg2 harg2 arg3 harg3 arg4 harg4 arg5 harg5 arg6 harg6 arg7 harg7 arg8 harg8 hc0 hc1 x0 x1 x2 x3 xs0 xs1 = k0_pay5 x0 x1 x2 x3 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero zeroOffset2]
  simp only [View.readAt_eq_ld, harg1.read_unread, harg2.read_unread, harg3.read_unread, harg4.read_unread, harg5.read_unread, harg6.read_unread, harg7.read_unread, harg8.read_unread,
    View.ld_unit_zero (S := S4096x4) zeroOffset2, View.ld_unit_zero (S := S4096x1) zeroOffset2, View.ld_unit_zero (S := S4x256) zeroOffset2, View.ld_unit_zero (S := S1x256) zeroOffset2]

/-- The same for the running sum of squares. -/
theorem sout0_C_1_eq (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) :
    sout0_C_1 c i arg1 harg1 arg2 harg2 arg3 harg3 arg4 harg4 arg5 harg5 arg6 harg6 arg7 harg7 arg8 harg8 hc0 hc1 x0 x1 x2 x3 xs0 xs1 = k0_pay6 x0 x1 x2 x3 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero zeroOffset2]
  simp only [View.readAt_eq_ld, harg1.read_unread, harg2.read_unread, harg3.read_unread, harg4.read_unread, harg5.read_unread, harg6.read_unread, harg7.read_unread, harg8.read_unread,
    View.ld_unit_zero (S := S4096x4) zeroOffset2, View.ld_unit_zero (S := S4096x1) zeroOffset2, View.ld_unit_zero (S := S4x256) zeroOffset2, View.ld_unit_zero (S := S1x256) zeroOffset2]

/-- At the last point the updated running sum is read back and copied to the first output. -/
theorem out0_C_0_eq (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) :
    out0_C_0 c i arg1 harg1 arg2 harg2 arg3 harg3 arg4 harg4 arg5 harg5 arg6 harg6 arg7 harg7 arg8 harg8 hc0 hc1 x0 x1 x2 x3 xs0 xs1 = k0_pay5 x0 x1 x2 x3 xs0 := by
  unfold out0_C_0
  rw [View.read_writes_eq_canon _ _ _ (cover0_C_0 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero zeroOffset2, View.readCov_unit_zero (S := S1x256) _ zeroOffset2]
  simp only [View.readAt_eq_ld, harg1.read_unread, harg2.read_unread, harg3.read_unread, harg4.read_unread, harg5.read_unread, harg6.read_unread, harg7.read_unread, harg8.read_unread,
    View.ld_unit_zero (S := S4096x4) zeroOffset2, View.ld_unit_zero (S := S4096x1) zeroOffset2, View.ld_unit_zero (S := S4x256) zeroOffset2, View.ld_unit_zero (S := S1x256) zeroOffset2]

/-- And the updated running sum of squares to the second output. -/
theorem out0_C_1_eq (c : Dev nD) (i : grid0.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond0_first i) (hc1 : cond0_last i) (x0 : Vec F S4096x4 .f32) (x1 : Vec F S4096x1 .f32) (x2 : Vec F S4x256 .f32) (x3 : Vec F S1x256 .f32) (xs0 xs1 : Vec F S1x256 .f32) :
    out0_C_1 c i arg1 harg1 arg2 harg2 arg3 harg3 arg4 harg4 arg5 harg5 arg6 harg6 arg7 harg7 arg8 harg8 hc0 hc1 x0 x1 x2 x3 xs0 xs1 = k0_pay6 x0 x1 x2 x3 xs1 := by
  unfold out0_C_1
  rw [View.read_writes_eq_canon _ _ _ (cover0_C_1 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero zeroOffset2, View.readCov_unit_zero (S := S1x256) _ zeroOffset2]
  simp only [View.readAt_eq_ld, harg1.read_unread, harg2.read_unread, harg3.read_unread, harg4.read_unread, harg5.read_unread, harg6.read_unread, harg7.read_unread, harg8.read_unread,
    View.ld_unit_zero (S := S4096x4) zeroOffset2, View.ld_unit_zero (S := S4096x1) zeroOffset2, View.ld_unit_zero (S := S4x256) zeroOffset2, View.ld_unit_zero (S := S1x256) zeroOffset2]

end Cert.KernelIdeal.Frame

end
-- ==== Proof.BlockReaders.lean ====
/-
  A block of rows as the tiled program holds it: a column of per-row values and a row of per-column values.

  A block of n rows carries its mask as an n × 1 column, read by the row, and each per-column quantity (a bias, a running
  sum, a scale) as a 1 × b row, read by the column.
-/
import Idealize.ShloMosaic.PureOps.Ideal
import Idealize.ShloMosaic.Lib.ValueIdx

noncomputable section

namespace Cert.MaskedMlp

open Idealize.ShloMosaic Idealize.ShloMosaic.ValueIdx

/-- An n × 1 column read by its row. -/
def colOf {n : ℕ} (v : (⟨2, ![n, 1]⟩ : Shape).Idx → EReal) (r : Fin n) : EReal := v (ix2 r (0 : Fin 1))

/-- A 1 × b row read by its column. -/
def rowOf {b : ℕ} (v : (⟨2, ![1, b]⟩ : Shape).Idx → EReal) (j : Fin b) : EReal := v (ix2 (0 : Fin 1) j)

end Cert.MaskedMlp

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.PayloadOps.lean ====
/-
  The tiled program's non-pointwise operations, each read at an index of a block of 4096 rows.

  A product of a 4096 × K block with a K × 256 matrix into the zero accumulator is, at (r, j), the sum over k of the block
  at (r, k) times the matrix at (k, j), for K = 4 and K = 256. The sum over the rows of a 4096 × 256 block, kept as a
  1 × 256 row, is at column j the sum over r of the block at (r, j).
-/
import proofs.«171056_j68092411510797_1_alg».proof.Proof.Gen.KernelIdeal
import proofs.«171056_j68092411510797_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The first layer's product at (r, j): four terms. -/
theorem matmul4_apply (l : FVec Ideal S4096x4 .f32) (w : FVec Ideal S4x256 .f32) (r : Fin 4096) (j : Fin 256) :
    matmul dot_S4096x4_S4x256_S4096x256_1_0_0_1_n_n none l w (constant S4096x256 .f32 0x00000000#32) (ix2 r j)
      = ∑ k : Fin 4, l (ix2 r k) * w (ix2 k j) := by
  refine Cert.Lib.PlainDot.matmul_zero_apply (M := 4096) (K := 4) (N := 256) dot_S4096x4_S4x256_S4096x256_1_0_0_1_n_n rfl rfl
    (fun i q => ?_) (fun i q => ?_) (fun i q => ?_) (fun i q => ?_) none l w (ix2 r j)
  · unfold DotDims.lhsIdx
    rw [dif_neg (show ¬(0 : Fin S4096x4.rank) ∈ dot_S4096x4_S4x256_S4096x256_1_0_0_1_n_n.lhsBatch by decide), dif_pos (show (0 : Fin S4096x4.rank) ∈ dot_S4096x4_S4x256_S4096x256_1_0_0_1_n_n.lhsNonContracting by decide)]
    rfl
  · exact dot_S4096x4_S4x256_S4096x256_1_0_0_1_n_n.lhsIdx_val_of_single rfl i q
  · exact dot_S4096x4_S4x256_S4096x256_1_0_0_1_n_n.rhsIdx_val_of_single rfl i q
  · unfold DotDims.rhsIdx
    rw [dif_neg (show ¬(1 : Fin S4x256.rank) ∈ dot_S4096x4_S4x256_S4096x256_1_0_0_1_n_n.rhsBatch by decide), dif_pos (show (1 : Fin S4x256.rank) ∈ dot_S4096x4_S4x256_S4096x256_1_0_0_1_n_n.rhsNonContracting by decide)]
    rfl

/-- The later layers' product at (r, j): 256 terms. -/
theorem matmul256_apply (l : FVec Ideal S4096x256 .bf16) (w : FVec Ideal S256x256 .bf16) (r : Fin 4096) (j : Fin 256) :
    matmul dot_S4096x256_S256x256_S4096x256_1_0_0_1_n_n none l w (constant S4096x256 .f32 0x00000000#32) (ix2 r j)
      = ∑ k : Fin 256, l (ix2 r k) * w (ix2 k j) := by
  refine Cert.Lib.PlainDot.matmul_zero_apply (M := 4096) (K := 256) (N := 256) dot_S4096x256_S256x256_S4096x256_1_0_0_1_n_n rfl rfl
    (fun i q => ?_) (fun i q => ?_) (fun i q => ?_) (fun i q => ?_) none l w (ix2 r j)
  · unfold DotDims.lhsIdx
    rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
    rfl
  · exact dot_S4096x256_S256x256_S4096x256_1_0_0_1_n_n.lhsIdx_val_of_single rfl i q
  · exact dot_S4096x256_S256x256_S4096x256_1_0_0_1_n_n.rhsIdx_val_of_single rfl i q
  · unfold DotDims.rhsIdx
    rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
    rfl

/-- The sum over the 4096 rows of a block, kept as a row: at column j the sum over r of the block at (r, j). -/
theorem colsum_apply (src : FVec Ideal S4096x256 .f32) (j : Fin 256) :
    shapeCast S1x256 (multiReduction (F := Ideal) .add [0] S256 src 0x00000000#32 reduces_S4096x256_S256 (.inl rfl) rfl)
        shapeCasts_S256_S1x256 (ix2 (0 : Fin 1) j)
      = ∑ r : Fin 4096, src (ix2 r j) := by
  rw [shapeCast_a_1a_apply]
  refine (Ideal.multiReduction_add_single src 0x00000000#32 reduces_S4096x256_S256 (.inl rfl) rfl (ix1 j)).trans ?_
  refine Finset.sum_congr rfl fun r _ => congrArg src ?_
  funext c
  apply Fin.ext
  match c with
  | ⟨0, _⟩ => rfl
  | ⟨1, _⟩ => rfl

end Cert.KernelIdeal.Payload

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.PayloadStats1.lean ====
/-
  The first statistics pass on one block of 4096 rows, read at an index.

  The pass forms the first layer's pre-activation h = x · W1 + b1 of the block, masks it by the block's column of mask
  values, and adds to two running rows the masked column sums of h and of (h · m) · h. Its starting rows are zero.
-/
import proofs.«171056_j68092411510797_1_alg».proof.Proof.Gen.KernelIdeal.Skeleton
import proofs.«171056_j68092411510797_1_alg».proof.Proof.Spec
import proofs.«171056_j68092411510797_1_alg».proof.Proof.Args
import proofs.«171056_j68092411510797_1_alg».proof.Proof.BlockReaders
import proofs.«171056_j68092411510797_1_alg».proof.Proof.PayloadOps
import proofs.«171056_j68092411510797_1_alg».proof.Proof.LibKeepdims
import proofs.«171056_j68092411510797_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.MaskedMlp Idealize.ShloMosaic Idealize.ShloMosaic.ValueIdx

/-- The running sum starts at zero. -/
theorem k0_pay1_apply (j : Fin 256) : k0_pay1 (F := Ideal) (ix2 (0 : Fin 1) j) = 0 := by
  unfold k0_pay1
  simp only [shapeCast_self]
  exact Ideal.ofBits_zero_f32

/-- The running sum of squares starts at zero. -/
theorem k0_pay2_apply (j : Fin 256) : k0_pay2 (F := Ideal) (ix2 (0 : Fin 1) j) = 0 := by
  unfold k0_pay2
  simp only [shapeCast_self]
  exact Ideal.ofBits_zero_f32

/-- The block's pre-activation is the dense layer of the block. -/
theorem k0_pay3_apply (v3 : Vec Ideal S4096x4 .f32) (v7 : Vec Ideal S4x256 .f32) (v9 : Vec Ideal S1x256 .f32)
    (r : Fin 4096) (j : Fin 256) :
    k0_pay3 v3 v7 v9 (ix2 r j) = dense (matOf v3) (matOf v7) (rowOf v9) r j := by
  unfold k0_pay3
  simp only [shapeCast_self]
  rw [addf_apply, matmul4_apply, broadcastTo_1b_ab_apply]
  rfl

/-- The masked pre-activation. -/
theorem k0_pay4_apply (v3 : Vec Ideal S4096x4 .f32) (v5 : Vec Ideal S4096x1 .f32) (v7 : Vec Ideal S4x256 .f32)
    (v9 : Vec Ideal S1x256 .f32) (r : Fin 4096) (j : Fin 256) :
    k0_pay4 v3 v5 v7 v9 (ix2 r j) = dense (matOf v3) (matOf v7) (rowOf v9) r j * colOf v5 r := by
  unfold k0_pay4
  simp only [shapeCast_self]
  rw [mulf_apply, k0_pay3_apply, Keepdims.broadcastTo_a1_ab_apply]
  rfl

/-- The running sum after the block: what it was plus the block's masked column sum. -/
theorem k0_pay5_apply (v3 : Vec Ideal S4096x4 .f32) (v5 : Vec Ideal S4096x1 .f32) (v7 : Vec Ideal S4x256 .f32)
    (v9 : Vec Ideal S1x256 .f32) (v15 : Vec Ideal S1x256 .f32) (j : Fin 256) :
    k0_pay5 v3 v5 v7 v9 v15 (ix2 (0 : Fin 1) j)
      = rowOf v15 j + msum (dense (matOf v3) (matOf v7) (rowOf v9)) (colOf v5) j := by
  unfold k0_pay5
  simp only [shapeCast_self]
  rw [addf_apply, colsum_apply]
  unfold msum
  refine congrArg (rowOf v15 j + ·) (Finset.sum_congr rfl fun r _ => ?_)
  exact k0_pay4_apply v3 v5 v7 v9 r j

/-- The running sum of squares after the block. -/
theorem k0_pay6_apply (v3 : Vec Ideal S4096x4 .f32) (v5 : Vec Ideal S4096x1 .f32) (v7 : Vec Ideal S4x256 .f32)
    (v9 : Vec Ideal S1x256 .f32) (v22 : Vec Ideal S1x256 .f32) (j : Fin 256) :
    k0_pay6 v3 v5 v7 v9 v22 (ix2 (0 : Fin 1) j)
      = rowOf v22 j + msumsq (dense (matOf v3) (matOf v7) (rowOf v9)) (colOf v5) j := by
  unfold k0_pay6
  simp only [shapeCast_self]
  rw [addf_apply, colsum_apply]
  unfold msumsq
  refine congrArg (rowOf v22 j + ·) (Finset.sum_congr rfl fun r _ => ?_)
  rw [mulf_apply, k0_pay4_apply, k0_pay3_apply]

end Cert.KernelIdeal.Payload

end
-- ==== Proof.Accum0.lean ====
/-
  The first statistics pass over all 64 blocks: its two running rows are the masked column sums, and sums of squares,
  of the first layer's pre-activation over the blocks seen so far, and at the last point its two outputs are those rows.

  After the first point each row is the zero row plus the first block's sums; each later point adds its block's sums to
  what the point before left; so by induction on the point the row after point n is the sum over the blocks 0 … n.
-/
import proofs.«171056_j68092411510797_1_alg».proof.Proof.FrameR0Body
import proofs.«171056_j68092411510797_1_alg».proof.Proof.Pieces0
import proofs.«171056_j68092411510797_1_alg».proof.Proof.PayloadStats1
import proofs.«171056_j68092411510797_1_alg».proof.Proof.Spec
import proofs.«171056_j68092411510797_1_alg».proof.Proof.Args
import proofs.«171056_j68092411510797_1_alg».proof.Proof.BlockReaders
import Idealize.ShloMosaic.Lib.Pipeline.Value
import Idealize.ShloMosaic.Lib.Tactic

set_option maxRecDepth 16384

noncomputable section

open scoped BigOperators

namespace Cert.KernelIdeal.Frame

open Cert.KernelIdeal Cert.KernelIdeal.Gen Cert.KernelIdeal.Payload Cert.MaskedMlp
open Idealize.ShloMosaic Idealize.ShloMosaic.TcCoe Idealize.ShloMosaic.Tactic Idealize.ShloMosaic.ValueIdx
open Idealize.SL.Sem

section AnyInstance
variable {F : FTy → Type} [FloatOps F]
variable (V : (c : Dev nD) → (b : Ref sig .tc) → Buf (Elt F) ((c : Thread nD τ).loc b))

/-- After the first point: the rows are the block's sums added to zero rows. -/
theorem acc0_first (c : Dev nD) (t : Fin cfg0.N) (h0 : t.val % 64 = 0) (h1 : ¬t.val % 64 = 63) :
    (outsAt0 V c t.val t.isLt).2.2.1 = k0_pay5 (iblk0 V c 0 t) (iblk0 V c 1 t) (iblk0 V c 2 t) (iblk0 V c 3 t) k0_pay1
    ∧ (outsAt0 V c t.val t.isLt).2.2.2 = k0_pay6 (iblk0 V c 0 t) (iblk0 V c 1 t) (iblk0 V c 2 t) (iblk0 V c 3 t) k0_pay2 := by
  rw [outsAt0_A V c t h0 h1]
  dsimp only
  refine ⟨?_, ?_⟩
  · exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_first t).mpr h0) (fun h => h1 ((hcond0_last t).mp h)) (iblk0 V c 0 t) (iblk0 V c 1 t) (iblk0 V c 2 t) (iblk0 V c 3 t)
  · exact sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_first t).mpr h0) (fun h => h1 ((hcond0_last t).mp h)) (iblk0 V c 0 t) (iblk0 V c 1 t) (iblk0 V c 2 t) (iblk0 V c 3 t)

/-- After a middle point: the block's sums added to what the point before left. -/
theorem acc0_middle (c : Dev nD) (t : Fin cfg0.N) (h0 : ¬t.val % 64 = 0) (h1 : ¬t.val % 64 = 63) :
    (outsAt0 V c t.val t.isLt).2.2.1 = k0_pay5 (iblk0 V c 0 t) (iblk0 V c 1 t) (iblk0 V c 2 t) (iblk0 V c 3 t) (outsAt0 V c (t.val - 1) (Nat.lt_of_le_of_lt (Nat.sub_le _ _) t.isLt)).2.2.1
    ∧ (outsAt0 V c t.val t.isLt).2.2.2 = k0_pay6 (iblk0 V c 0 t) (iblk0 V c 1 t) (iblk0 V c 2 t) (iblk0 V c 3 t) (outsAt0 V c (t.val - 1) (Nat.lt_of_le_of_lt (Nat.sub_le _ _) t.isLt)).2.2.2 := by
  rw [outsAt0_B V c t h0 h1]
  dsimp only
  refine ⟨?_, ?_⟩
  · exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) (fun h => h1 ((hcond0_last t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2
  · exact sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) (fun h => h1 ((hcond0_last t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2

/-- After the last point: the same for the rows, and the outputs hold the updated rows. -/
theorem acc0_last (c : Dev nD) (t : Fin cfg0.N) (h0 : ¬t.val % 64 = 0) (h1 : t.val % 64 = 63) :
    ((outsAt0 V c t.val t.isLt).2.2.1 = k0_pay5 (iblk0 V c 0 t) (iblk0 V c 1 t) (iblk0 V c 2 t) (iblk0 V c 3 t) (outsAt0 V c (t.val - 1) (Nat.lt_of_le_of_lt (Nat.sub_le _ _) t.isLt)).2.2.1
      ∧ (outsAt0 V c t.val t.isLt).2.2.2 = k0_pay6 (iblk0 V c 0 t) (iblk0 V c 1 t) (iblk0 V c 2 t) (iblk0 V c 3 t) (outsAt0 V c (t.val - 1) (Nat.lt_of_le_of_lt (Nat.sub_le _ _) t.isLt)).2.2.2)
    ∧ (outsAt0 V c t.val t.isLt).1 = k0_pay5 (iblk0 V c 0 t) (iblk0 V c 1 t) (iblk0 V c 2 t) (iblk0 V c 3 t) (outsAt0 V c (t.val - 1) (Nat.lt_of_le_of_lt (Nat.sub_le _ _) t.isLt)).2.2.1
      ∧ (outsAt0 V c t.val t.isLt).2.1 = k0_pay6 (iblk0 V c 0 t) (iblk0 V c 1 t) (iblk0 V c 2 t) (iblk0 V c 3 t) (outsAt0 V c (t.val - 1) (Nat.lt_of_le_of_lt (Nat.sub_le _ _) t.isLt)).2.2.2 := by
  rw [outsAt0_C V c t h0 h1]
  dsimp only
  refine ⟨⟨?_, ?_⟩, ?_, ?_⟩
  · exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) ((hcond0_last t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2
  · exact sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) ((hcond0_last t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2
  · exact out0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) ((hcond0_last t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2
  · exact out0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_first t).mp h)) ((hcond0_last t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2

/-- At the last point each output holds the row its running row ends with. -/
theorem out0_eq_acc (c : Dev nD) (t : Fin cfg0.N) (h0 : ¬t.val % 64 = 0) (h1 : t.val % 64 = 63) :
    (outsAt0 V c t.val t.isLt).1 = (outsAt0 V c t.val t.isLt).2.2.1
    ∧ (outsAt0 V c t.val t.isLt).2.1 = (outsAt0 V c t.val t.isLt).2.2.2 :=
  ⟨(acc0_last V c t h0 h1).2.1.trans (acc0_last V c t h0 h1).1.1.symm,
    (acc0_last V c t h0 h1).2.2.trans (acc0_last V c t h0 h1).1.2.symm⟩

end AnyInstance

section AtIdeal
variable (V : (c : Dev nD) → (b : Ref sig .tc) → Buf (Elt Ideal) ((c : Thread nD τ).loc b))

/-- The masked column sum of the pre-activation of the block at position t (zero beyond the grid). -/
def blockSum0 (c : Dev nD) (j : Fin 256) (t : ℕ) : EReal :=
  if h : t < cfg0.N then
    msum (dense (matOf (iblk0 V c 0 ⟨t, h⟩ : Vec Ideal S4096x4 .f32)) (matOf (iblk0 V c 2 ⟨t, h⟩ : Vec Ideal S4x256 .f32))
      (rowOf (iblk0 V c 3 ⟨t, h⟩ : Vec Ideal S1x256 .f32))) (colOf (iblk0 V c 1 ⟨t, h⟩ : Vec Ideal S4096x1 .f32)) j
  else 0

/-- The masked column sum of squares of the block at position t (zero beyond the grid). -/
def blockSumsq0 (c : Dev nD) (j : Fin 256) (t : ℕ) : EReal :=
  if h : t < cfg0.N then
    msumsq (dense (matOf (iblk0 V c 0 ⟨t, h⟩ : Vec Ideal S4096x4 .f32)) (matOf (iblk0 V c 2 ⟨t, h⟩ : Vec Ideal S4x256 .f32))
      (rowOf (iblk0 V c 3 ⟨t, h⟩ : Vec Ideal S1x256 .f32))) (colOf (iblk0 V c 1 ⟨t, h⟩ : Vec Ideal S4096x1 .f32)) j
  else 0

/-- What a later point leaves in the two rows, whichever of the two later cases it is. -/
theorem acc0_later (c : Dev nD) (n : ℕ) (hn : n + 1 < cfg0.N) :
    (outsAt0 V c (n + 1) hn).2.2.1 = k0_pay5 (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.1
    ∧ (outsAt0 V c (n + 1) hn).2.2.2 = k0_pay6 (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2 := by
  have hN : n + 1 < 64 := Nat.lt_of_lt_of_eq hn N_0
  have h0 : ¬(n + 1) % 64 = 0 := by omega
  by_cases h1 : (n + 1) % 64 = 63
  · exact (acc0_last V c ⟨n + 1, hn⟩ h0 h1).1
  · exact acc0_middle V c ⟨n + 1, hn⟩ h0 h1

/-- The running sum after point n is the sum of the masked column sums of the blocks 0 … n. -/
theorem acc0_sum (c : Dev nD) (j : Fin 256) : ∀ (n : ℕ) (hn : n < cfg0.N),
    (outsAt0 V c n hn).2.2.1 (ix2 (0 : Fin 1) j) = ∑ t ∈ Finset.range (n + 1), blockSum0 V c j t
  | 0, hn => by
    have e := (acc0_first V c ⟨0, hn⟩ (Nat.zero_mod _) (fun h => by have h' : (0 : ℕ) % 64 = 63 := h; omega)).1
    refine (congrFun e (ix2 (0 : Fin 1) j)).trans ?_
    refine (k0_pay5_apply (iblk0 V c 0 ⟨0, hn⟩) (iblk0 V c 1 ⟨0, hn⟩) (iblk0 V c 2 ⟨0, hn⟩) (iblk0 V c 3 ⟨0, hn⟩) (k0_pay1 (F := Ideal)) j).trans ?_
    rw [Finset.sum_range_one]
    unfold blockSum0
    rw [dif_pos hn]
    show k0_pay1 (F := Ideal) (ix2 (0 : Fin 1) j) + _ = _
    rw [k0_pay1_apply, zero_add]
  | n + 1, hn => by
    rw [Finset.sum_range_succ, ← acc0_sum c j n (Nat.lt_of_succ_lt hn)]
    refine (congrFun (acc0_later V c n hn).1 (ix2 (0 : Fin 1) j)).trans ?_
    refine (k0_pay5_apply (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.1 j).trans ?_
    unfold blockSum0
    rw [dif_pos hn]
    rfl

/-- The running sum of squares after point n is the sum of the masked column sums of squares of the blocks 0 … n. -/
theorem acc0_sumsq (c : Dev nD) (j : Fin 256) : ∀ (n : ℕ) (hn : n < cfg0.N),
    (outsAt0 V c n hn).2.2.2 (ix2 (0 : Fin 1) j) = ∑ t ∈ Finset.range (n + 1), blockSumsq0 V c j t
  | 0, hn => by
    have e := (acc0_first V c ⟨0, hn⟩ (Nat.zero_mod _) (fun h => by have h' : (0 : ℕ) % 64 = 63 := h; omega)).2
    refine (congrFun e (ix2 (0 : Fin 1) j)).trans ?_
    refine (k0_pay6_apply (iblk0 V c 0 ⟨0, hn⟩) (iblk0 V c 1 ⟨0, hn⟩) (iblk0 V c 2 ⟨0, hn⟩) (iblk0 V c 3 ⟨0, hn⟩) (k0_pay2 (F := Ideal)) j).trans ?_
    rw [Finset.sum_range_one]
    unfold blockSumsq0
    rw [dif_pos hn]
    show k0_pay2 (F := Ideal) (ix2 (0 : Fin 1) j) + _ = _
    rw [k0_pay2_apply, zero_add]
  | n + 1, hn => by
    rw [Finset.sum_range_succ, ← acc0_sumsq c j n (Nat.lt_of_succ_lt hn)]
    refine (congrFun (acc0_later V c n hn).2 (ix2 (0 : Fin 1) j)).trans ?_
    refine (k0_pay6_apply (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2 j).trans ?_
    unfold blockSumsq0
    rw [dif_pos hn]
    rfl

end AtIdeal

end Cert.KernelIdeal.Frame

end
-- ==== Proof.BlockRows0.lean ====
/-
  The first statistics region's blocks as parts of their arrays, and its two outputs after the region.

  A block's coordinate in its array is, on each axis, the block index times the block's size plus the coordinate
  inside the block. The two row windows move down the rows with the grid: at point t their block is rows
  4096 t … 4096 t + 4095. The other two input windows have the block index (0, 0) at every point and a block as
  large as the array: the block is the array. Each of the two outputs is one row of 256 sums whose one block is the
  whole array, written back at the last point only: the array ends holding what the body left there at that point.
-/
import proofs.«171056_j68092411510797_1_alg».proof.Proof.FrameR0Body
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-- A grid point's rows lie inside the array: point t holds rows 4096 t … 4096 t + 4095 of 262144. -/
theorem row_lt0 (t : Fin cfg0.N) (r : Fin 4096) : t.val * 4096 + r.val < 262144 := by
  have h : t.val < 64 := Nat.lt_of_lt_of_eq t.isLt N_0
  have hr := r.isLt
  omega

/-- Window 0's block index at point t is (t, 0): decided over the grid. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 0's block at point t is rows 4096 t … 4096 t + 4095 of its array. -/
theorem iblk0_0_apply (c : Dev nD) (t : Fin cfg0.N) (r : Fin 4096) (k : Fin 4) :
    (iblk0 V c 0 t : Vec F S4096x4 .f32) (ix2 r k)
      = (V c (Pipeline.arrRef spec0 0) : S262144x4.Idx → Elt F .f32) (ix2 ⟨t.val * 4096 + r.val, row_lt0 t r⟩ k) := by
  obtain ⟨h0, h1⟩ := idx0_0 t
  unfold iblk0
  rw [View.read_apply]
  show (V c (Pipeline.arrRef spec0 0) : S262144x4.Idx → Elt F .f32) _ = _
  congr 1
  funext a
  apply Fin.ext
  match a with
  | ⟨0, _⟩ => show win0_0.index t (0 : Fin 2) * 4096 + 1 * r.val = t.val * 4096 + r.val; rw [h0]; omega
  | ⟨1, _⟩ => show win0_0.index t (1 : Fin 2) * 4 + 1 * k.val = k.val; rw [h1]; omega

/-- Window 1's block index at point t is (t, 0): decided over the grid. -/
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Window 1's block at point t is rows 4096 t … 4096 t + 4095 of its array. -/
theorem iblk0_1_apply (c : Dev nD) (t : Fin cfg0.N) (r : Fin 4096) (k : Fin 1) :
    (iblk0 V c 1 t : Vec F S4096x1 .f32) (ix2 r k)
      = (V c (Pipeline.arrRef spec0 1) : S262144x1.Idx → Elt F .f32) (ix2 ⟨t.val * 4096 + r.val, row_lt0 t r⟩ k) := by
  obtain ⟨h0, h1⟩ := idx0_1 t
  unfold iblk0
  rw [View.read_apply]
  show (V c (Pipeline.arrRef spec0 1) : S262144x1.Idx → Elt F .f32) _ = _
  congr 1
  funext a
  apply Fin.ext
  match a with
  | ⟨0, _⟩ => show win0_1.index t (0 : Fin 2) * 4096 + 1 * r.val = t.val * 4096 + r.val; rw [h0]; omega
  | ⟨1, _⟩ => show win0_1.index t (1 : Fin 2) * 1 + 1 * k.val = k.val; rw [h1]; omega

/-- Window 2's block index is (0, 0) at every point: decided over the grid. -/
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 2's one block is its whole array, at every point. -/
theorem iblk0_2_eq (c : Dev nD) (t : Fin cfg0.N) :
    (iblk0 V c 2 t : Vec F S4x256 .f32) = (V c (Pipeline.arrRef spec0 2) : S4x256.Idx → Elt F .f32) := by
  obtain ⟨h0, h1⟩ := idx0_2 t
  funext j
  unfold iblk0
  rw [View.read_apply]
  show (V c (Pipeline.arrRef spec0 2) : S4x256.Idx → Elt F .f32) _ = _
  congr 1
  funext a
  apply Fin.ext
  match a with
  | ⟨0, _⟩ => show win0_2.index t (0 : Fin 2) * 4 + 1 * (j 0).val = (j 0).val; rw [h0]; omega
  | ⟨1, _⟩ => show win0_2.index t (1 : Fin 2) * 256 + 1 * (j 1).val = (j 1).val; rw [h1]; omega

/-- Window 3's block index is (0, 0) at every point: decided over the grid. -/
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 3's one block is its whole array, at every point. -/
theorem iblk0_3_eq (c : Dev nD) (t : Fin cfg0.N) :
    (iblk0 V c 3 t : Vec F S1x256 .f32) = (V c (Pipeline.arrRef spec0 3) : S1x256.Idx → Elt F .f32) := by
  obtain ⟨h0, h1⟩ := idx0_3 t
  funext j
  unfold iblk0
  rw [View.read_apply]
  show (V c (Pipeline.arrRef spec0 3) : S1x256.Idx → Elt F .f32) _ = _
  congr 1
  funext a
  apply Fin.ext
  match a with
  | ⟨0, _⟩ => show win0_3.index t (0 : Fin 2) * 1 + 1 * (j 0).val = (j 0).val; rw [h0]; omega
  | ⟨1, _⟩ => show win0_3.index t (1 : Fin 2) * 256 + 1 * (j 1).val = (j 1).val; rw [h1]; omega

/-- The last grid point. -/
abbrev last0 : Fin cfg0.N := ⟨63, by rw [show cfg0.N = 64 from N_0]; omega⟩

/-- Output window 4's block index is (0, 0) at every point: decided over the grid. -/
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- An index of output 4's array is in point t's block iff each coordinate is in the block's range on its axis. -/
theorem mem_blk0_4 (t : Fin cfg0.N) (i : S1x256.Idx) :
    i ∈ ((cfg0.win 4).blk t).view.set ↔
      ∀ a : Fin 2, win0_4.index t a * S1x256.size a ≤ (i a).val ∧ (i a).val < win0_4.index t a * S1x256.size a + S1x256.size a := by
  show i ∈ ((View.whole main_v16_0).slice (win0_4.rect t)).set ↔ _
  rw [View.set_slice_whole, Rect.mem_set_unit]
  exact Iff.rfl

/-- The one write-back of output 4, at the last point, writes what the body left there: the block is the array. -/
theorem flushed0_4_eq (c : Dev nD) (t : Fin cfg0.N) (hf : (cfg0.win 4).flush t = true) :
    (dat0 V c).flushed 4 t
      = ((cfg0.win 4).blk t).view.read (Elt F) (((dat0 V c).after 4 last0 : S1x256.Idx → Elt F .f32)) := by
  have ht : t.val = 63 := by
    have h1 := (flush0_4 t).mp hf
    have h2 : t.val < 64 := Nat.lt_of_lt_of_eq t.isLt N_0
    omega
  obtain rfl : t = last0 := Fin.ext ht
  obtain ⟨h0, h1⟩ := idx0_4 last0
  funext y
  show ((dat0 V c).after 4 last0 : S1x256.Idx → Elt F .f32) y = _
  rw [View.read_apply]
  show ((dat0 V c).after 4 last0 : S1x256.Idx → Elt F .f32) _ = ((dat0 V c).after 4 last0 : S1x256.Idx → Elt F .f32) _
  congr 1
  funext a
  apply Fin.ext
  match a with
  | ⟨0, _⟩ => show (y 0).val = win0_4.index last0 (0 : Fin 2) * 1 + 1 * (y 0).val; rw [h0]; omega
  | ⟨1, _⟩ => show (y 1).val = win0_4.index last0 (1 : Fin 2) * 256 + 1 * (y 1).val; rw [h1]; omega

/-- OUTPUT 4's ARRAY after the region is what the body left for it at the last point. -/
theorem final0_4 (c : Dev nD) :
    (dat0 V c).arrAt 4 cfg0.N = ((dat0 V c).after 4 last0 : S1x256.Idx → Elt F .f32) := by
  refine (dat0 V c).arrAt_eq_of_cover 4 _ (fun t hf => flushed0_4_eq V c t hf) (fun i => ?_)
  have hi0 : (i 0).val < 1 := (i 0).isLt
  have hi1 : (i 1).val < 256 := (i 1).isLt
  refine ⟨last0, (flush0_4 last0).mpr (by decide), ?_⟩
  rw [mem_blk0_4]
  obtain ⟨h0, h1⟩ := idx0_4 last0
  intro a
  match a with
  | ⟨0, _⟩ =>
    show win0_4.index last0 (0 : Fin 2) * 1 ≤ (i 0).val ∧ (i 0).val < win0_4.index last0 (0 : Fin 2) * 1 + 1
    rw [h0]; omega
  | ⟨1, _⟩ =>
    show win0_4.index last0 (1 : Fin 2) * 256 ≤ (i 1).val ∧ (i 1).val < win0_4.index last0 (1 : Fin 2) * 256 + 256
    rw [h1]; omega

/-- Output window 5's block index is (0, 0) at every point: decided over the grid. -/
theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- An index of output 5's array is in point t's block iff each coordinate is in the block's range on its axis. -/
theorem mem_blk0_5 (t : Fin cfg0.N) (i : S1x256.Idx) :
    i ∈ ((cfg0.win 5).blk t).view.set ↔
      ∀ a : Fin 2, win0_5.index t a * S1x256.size a ≤ (i a).val ∧ (i a).val < win0_5.index t a * S1x256.size a + S1x256.size a := by
  show i ∈ ((View.whole main_v16_1).slice (win0_5.rect t)).set ↔ _
  rw [View.set_slice_whole, Rect.mem_set_unit]
  exact Iff.rfl

/-- The one write-back of output 5, at the last point, writes what the body left there: the block is the array. -/
theorem flushed0_5_eq (c : Dev nD) (t : Fin cfg0.N) (hf : (cfg0.win 5).flush t = true) :
    (dat0 V c).flushed 5 t
      = ((cfg0.win 5).blk t).view.read (Elt F) (((dat0 V c).after 5 last0 : S1x256.Idx → Elt F .f32)) := by
  have ht : t.val = 63 := by
    have h1 := (flush0_5 t).mp hf
    have h2 : t.val < 64 := Nat.lt_of_lt_of_eq t.isLt N_0
    omega
  obtain rfl : t = last0 := Fin.ext ht
  obtain ⟨h0, h1⟩ := idx0_5 last0
  funext y
  show ((dat0 V c).after 5 last0 : S1x256.Idx → Elt F .f32) y = _
  rw [View.read_apply]
  show ((dat0 V c).after 5 last0 : S1x256.Idx → Elt F .f32) _ = ((dat0 V c).after 5 last0 : S1x256.Idx → Elt F .f32) _
  congr 1
  funext a
  apply Fin.ext
  match a with
  | ⟨0, _⟩ => show (y 0).val = win0_5.index last0 (0 : Fin 2) * 1 + 1 * (y 0).val; rw [h0]; omega
  | ⟨1, _⟩ => show (y 1).val = win0_5.index last0 (1 : Fin 2) * 256 + 1 * (y 1).val; rw [h1]; omega

/-- OUTPUT 5's ARRAY after the region is what the body left for it at the last point. -/
theorem final0_5 (c : Dev nD) :
    (dat0 V c).arrAt 5 cfg0.N = ((dat0 V c).after 5 last0 : S1x256.Idx → Elt F .f32) := by
  refine (dat0 V c).arrAt_eq_of_cover 5 _ (fun t hf => flushed0_5_eq V c t hf) (fun i => ?_)
  have hi0 : (i 0).val < 1 := (i 0).isLt
  have hi1 : (i 1).val < 256 := (i 1).isLt
  refine ⟨last0, (flush0_5 last0).mpr (by decide), ?_⟩
  rw [mem_blk0_5]
  obtain ⟨h0, h1⟩ := idx0_5 last0
  intro a
  match a with
  | ⟨0, _⟩ =>
    show win0_5.index last0 (0 : Fin 2) * 1 ≤ (i 0).val ∧ (i 0).val < win0_5.index last0 (0 : Fin 2) * 1 + 1
    rw [h0]; omega
  | ⟨1, _⟩ =>
    show win0_5.index last0 (1 : Fin 2) * 256 ≤ (i 1).val ∧ (i 1).val < win0_5.index last0 (1 : Fin 2) * 256 + 256
    rw [h1]; omega

end Cert.KernelIdeal.Frame

end
-- ==== Proof.LibRealValued.lean ====
/-
  Real-valued entries on the extended reals.

  At the ideal reading a float is an extended real.  x - x = 0 holds exactly when x is a real number
  (top minus top is bottom), so a program that returns the mean of |h - h| returns 0 as soon as every entry of h is
  real, whatever h is.  This module states "every entry is a real number" for a vector, shows that the
  operations a counting histogram is built from keep it (sums, products, an integer read as a float, a change
  of format, a matrix product into a zero accumulator, an accumulating scatter, and every operation that only
  moves entries: slice, reshape, gather) and closes the mean of |h - h|.
-/
import Idealize.ShloMosaic.PureOps.Ideal.Laws

noncomputable section

namespace Cert.RealValued

open Idealize.ShloMosaic

/-- An extended real that is a real number: neither infinity. -/
def IsReal (x : EReal) : Prop := ∃ r : ℝ, x = (r : EReal)

theorem isReal_zero : IsReal 0 := ⟨0, rfl⟩

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is zero (false at the infinities). -/
theorem IsReal.sub_self {x : EReal} (hx : IsReal x) : x - x = 0 := by
  obtain ⟨a, rfl⟩ := hx
  rw [← EReal.coe_sub, _root_.sub_self, EReal.coe_zero]

/-- Every entry of a vector of extended reals is a real number. -/
def AllReal {S : Shape} (v : S.Idx → EReal) : Prop := ∀ i, IsReal (v i)

/-- Re-indexing (a slice, a reshape, a gather, a broadcast) only moves entries. -/
theorem AllReal.comp {S T : Shape} {v : S.Idx → EReal} (hv : AllReal v) (f : T.Idx → S.Idx) : AllReal fun j => v (f j) :=
  fun j => hv (f j)

theorem allReal_const {S : Shape} {x : EReal} (hx : IsReal x) : AllReal (S := S) fun _ => x := fun _ => hx

section Ops
variable {S T : Shape} {φ : FTy}

theorem allReal_addf {x y : FVec Ideal S φ} (hx : AllReal x) (hy : AllReal y) : AllReal (addf x y) :=
  fun i => (hx i).add (hy i)

/-- The splat of the zero word. -/
theorem allReal_broadcast_zero : AllReal (broadcast S (Scalar.ofBits (F := Ideal) .f32 0x00000000#32)) := fun _ => by
  show IsReal (Ideal.ofBits .f32 0x00000000#32)
  rw [Ideal.ofBits_zero_f32]; exact isReal_zero

theorem allReal_constant_zero : AllReal (constant (F := Ideal) S .f32 0x00000000#32) := fun _ => by
  show IsReal (Ideal.ofBits .f32 0x00000000#32)
  rw [Ideal.ofBits_zero_f32]; exact isReal_zero

/-- An integer read as a float is that integer; a change of format is the identity. -/
theorem allReal_sitofp {w : Nat} (x : IVec S w) : AllReal (sitofp (F := Ideal) φ x) :=
  fun i => ⟨((x i).toInt : ℝ), rfl⟩

theorem allReal_truncf {ψ : FTy} {x : FVec Ideal S φ} (h : ψ.bits < φ.bits) (hx : AllReal x) : AllReal (truncf ψ x h) :=
  fun i => hx i

theorem allReal_shapeCast {x : S.Idx → EReal} (h : S.ShapeCasts T) (hx : AllReal x) : AllReal (shapeCast T x h) :=
  fun _ => hx _

theorem allReal_extractStridedSlice {x : S.Idx → EReal} (off : Fin S.rank → Nat) (h : S.Slices off T) (hx : AllReal x) :
    AllReal (extractStridedSlice T off x h) :=
  fun _ => hx _

theorem allReal_gather {si : Shape} {w : Nat} (d : GatherDims S si T) {x : S.Idx → EReal} (idx : IVec si w) (hx : AllReal x) :
    AllReal (Host.gather d x idx) :=
  fun _ => hx _

/-- A matrix product into the zero accumulator: each entry is a finite sum of products of entries. -/
theorem allReal_matmul_zero {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (FloatOps.matmul d prec lhs rhs (constant so .f32 0x00000000#32)) := fun j => by
  rw [Ideal.matmul_constant_zero_apply]
  exact isReal_sum _ _ fun k _ => (hl _).mul (hr _)

/-- An accumulating scatter: each entry is the operand's plus a finite sum of update entries, wherever the
    indices point. -/
theorem allReal_scatterAdd {si su : Shape} {w : Nat} (d : ScatterDims S si su) {x : FVec Ideal S φ} (idx : IVec si w)
    {upd : FVec Ideal su φ} (hx : AllReal x) (hu : AllReal upd) : AllReal (Ideal.hostScatterAdd d x idx upd) := fun i => by
  unfold Ideal.hostScatterAdd
  exact (hx i).add (isReal_sum _ _ fun j _ => hu j)

end Ops

/-- The word 0x46BF4000 (24480.0) denotes the real 24480. -/
theorem ofBits_24480 : Ideal.ofBits .f32 0x46BF4000#32 = ((24480 : ℝ) : EReal) := by
  simp [Ideal.ofBits, Ideal.ieee, -EReal.coe_mul]; norm_num

/-- The mean of |h - h|: for a vector h of real numbers every difference is 0, so is its absolute value, the sum
    of zeros from the zero word is 0, and 0 divided by a nonzero real is 0. -/
theorem mean_abs_sub_self {S T U : Shape} {axes : List (Fin S.rank)} (h : FVec Ideal S .f32) (hh : AllReal h)
    (hr : S.ReducesTo axes T) (hu : 0 < U.numel) (c : BitVec 32) (y : ℝ) (hy : y ≠ 0) (hc : Ideal.ofBits .f32 c = (y : EReal)) :
    Host.divf (F := Ideal) (Host.reduceAdd (F := Ideal) (Host.absf (F := Ideal) (subf h h)) (constant (F := Ideal) U .f32 0x00000000#32) hr hu)
        (constant (F := Ideal) T .f32 c)
      = fun _ => (0 : EReal) := by
  funext j
  have hz : Host.absf (F := Ideal) (subf h h) = fun _ => (0 : EReal) := by
    funext i
    show max (h i - h i) (-(h i - h i)) = 0
    rw [(hh i).sub_self, neg_zero, max_self]
  show Ideal.div (Ideal.hostReduceAdd hr (Host.absf (F := Ideal) (subf h h)) (Ideal.ofBits .f32 0x00000000#32) j) (Ideal.ofBits .f32 c) = 0
  rw [hz, hc, Ideal.div_coe hy]
  unfold Ideal.hostReduceAdd
  rw [Ideal.ofBits_zero_f32, Finset.sum_const_zero, add_zero, zero_mul]

end Cert.RealValued

end
-- ==== Proof.LibMeanVariance.lean ====
/-
  Means, variances and projections of real-valued data, on the extended reals; and sums taken block by block.

  At the ideal reading a float is an extended real and a quotient `x / y` by a nonzero `y` is `x * y⁻¹`. On the
  extended reals multiplication does not distribute over addition and `x - x` need not be `0`, so none of the
  identities below holds for arbitrary entries; each holds as soon as every entry is a real number, because then
  every term is the image of a real term and the identity is the one over the reals.

  * Variance. For real entries `h i`, `i` in a finite type of `n ≠ 0` elements, with mean `μ = (Σ h) / n`:
    `max ((Σ h²) / n − μ², 0) = (Σ (h − μ)²) / n`. Over the reals `(Σ h²)/n − μ² = (Σ (h − μ)²)/n` (expand the
    square, use `Σ h = n μ`), and the right-hand side is a nonnegative number, so the clamp does nothing.
  * Projection. For real `a e k`, `w k` and a real `c ≠ 0`: `(Σ_e Σ_k a e k · w k) · (1 / c) = Σ_k ((Σ_e a e k) / c) · w k`:
    exchange the two finite sums and move the constant factor.
  * Blocks. A sum over `B · R` consecutive positions is the sum over the `B` blocks of the sums over the `R`
    positions of each block; and a sum in which only one position of each block carries a term is the sum of those
    terms. These hold in every commutative additive monoid.
-/
import Idealize.ShloMosaic.PureOps.Ideal
import proofs.«171056_j68092411510797_1_alg».proof.Proof.LibRealValued

noncomputable section

open scoped BigOperators

namespace MeanVariance

open Idealize.ShloMosaic Cert.RealValued

/-! ## Real sums inside the extended reals -/

/-- The image of a finite sum of real numbers is the sum of the images. -/
theorem coe_sum {ι : Type*} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-! ## The variance, two ways -/

/-- Over the reals: the mean of the squares minus the square of the mean is the mean of the squared deviations.
    Quotients by `n` are written as products with `1 / n`. -/
theorem real_variance {ι : Type*} [Fintype ι] (r : ι → ℝ) (n : ℝ) (hn : n ≠ 0) (hcard : (Fintype.card ι : ℝ) = n) :
    (∑ i, r i * r i) * (1 / n) - ((∑ i, r i) * (1 / n)) * ((∑ i, r i) * (1 / n))
      = (∑ i, (r i - (∑ i, r i) * (1 / n)) * (r i - (∑ i, r i) * (1 / n))) * (1 / n) := by
  have key : ∀ m : ℝ, ∑ i, (r i - m) * (r i - m) = (∑ i, r i * r i) - 2 * m * (∑ i, r i) + n * (m * m) := by
    intro m
    have e : ∀ i, (r i - m) * (r i - m) = r i * r i - (2 * m) * r i + m * m := fun i => by ring
    simp only [e]
    rw [Finset.sum_add_distrib, Finset.sum_sub_distrib, ← Finset.mul_sum, Finset.sum_const, Finset.card_univ,
      nsmul_eq_mul, hcard]
  rw [key]
  field_simp
  ring

/-- Over the reals the mean of the squared deviations is nonnegative. -/
theorem real_variance_nonneg {ι : Type*} [Fintype ι] (r : ι → ℝ) (m n : ℝ) (hn : n ≠ 0)
    (hcard : (Fintype.card ι : ℝ) = n) : 0 ≤ (∑ i, (r i - m) * (r i - m)) * (1 / n) := by
  have hnpos : 0 < n := lt_of_le_of_ne (hcard ▸ Nat.cast_nonneg _) (Ne.symm hn)
  exact mul_nonneg (Finset.sum_nonneg fun i _ => mul_self_nonneg _) (le_of_lt (one_div_pos.mpr hnpos))

section Variance
variable {ι : Type*} [Fintype ι]

/-- The mean of real entries, as the image of the real mean. -/
theorem mean_coe (r : ι → ℝ) (n : ℝ) (hn : n ≠ 0) :
    Ideal.div (∑ i, (r i : EReal)) (n : EReal) = (((∑ i, r i) * (1 / n) : ℝ) : EReal) := by
  rw [Ideal.div_coe hn, ← coe_sum, ← EReal.coe_mul]

/-- The mean of the squared deviations of real entries from a real number, as the image of the real one. -/
theorem meansq_dev_coe (r : ι → ℝ) (m n : ℝ) (hn : n ≠ 0) :
    Ideal.div (∑ i, ((r i : EReal) - (m : EReal)) * ((r i : EReal) - (m : EReal))) (n : EReal)
      = (((∑ i, (r i - m) * (r i - m)) * (1 / n) : ℝ) : EReal) := by
  have hv : (∑ i, ((r i : EReal) - (m : EReal)) * ((r i : EReal) - (m : EReal)))
      = ((∑ i, (r i - m) * (r i - m) : ℝ) : EReal) := by
    rw [coe_sum]
    simp only [EReal.coe_mul, EReal.coe_sub]
  rw [hv, Ideal.div_coe hn, ← EReal.coe_mul]

/-- The mean of real entries is a real number. -/
theorem isReal_mean (h : ι → EReal) (hh : ∀ i, IsReal (h i)) (n : ℝ) (hn : n ≠ 0) :
    IsReal (Ideal.div (∑ i, h i) (n : EReal)) := by
  choose r hr using hh
  simp only [hr]
  rw [mean_coe r n hn]
  exact isReal_coe _

/-- The mean of the squared deviations of real entries from their mean is a real number, and nonnegative. -/
theorem isReal_variance (h : ι → EReal) (hh : ∀ i, IsReal (h i)) (n : ℝ) (hn : n ≠ 0)
    (hcard : (Fintype.card ι : ℝ) = n) :
    IsReal (Ideal.div (∑ i, (h i - Ideal.div (∑ i, h i) (n : EReal)) * (h i - Ideal.div (∑ i, h i) (n : EReal))) (n : EReal))
      ∧ (0 : EReal) ≤ Ideal.div (∑ i, (h i - Ideal.div (∑ i, h i) (n : EReal)) * (h i - Ideal.div (∑ i, h i) (n : EReal))) (n : EReal) := by
  choose r hr using hh
  simp only [hr]
  rw [mean_coe r n hn, meansq_dev_coe r _ n hn]
  exact ⟨isReal_coe _, EReal.coe_nonneg.mpr (real_variance_nonneg r _ n hn hcard)⟩

/-- THE VARIANCE IDENTITY. For real entries over a finite type of `n ≠ 0` elements, with `μ` their mean:
    the mean of the squares minus `μ²`, clamped below by `0`, is the mean of the squared deviations from `μ`. -/
theorem variance_identity (h : ι → EReal) (hh : ∀ i, IsReal (h i)) (n : ℝ) (hn : n ≠ 0)
    (hcard : (Fintype.card ι : ℝ) = n) :
    max (Ideal.div (∑ i, h i * h i) (n : EReal)
          - Ideal.div (∑ i, h i) (n : EReal) * Ideal.div (∑ i, h i) (n : EReal)) 0
      = Ideal.div (∑ i, (h i - Ideal.div (∑ i, h i) (n : EReal)) * (h i - Ideal.div (∑ i, h i) (n : EReal))) (n : EReal) := by
  choose r hr using hh
  have hq : Ideal.div (∑ i, (r i : EReal) * (r i : EReal)) (n : EReal) = (((∑ i, r i * r i) * (1 / n) : ℝ) : EReal) := by
    have hs : (∑ i, (r i : EReal) * (r i : EReal)) = ((∑ i, r i * r i : ℝ) : EReal) := by
      rw [coe_sum]
      simp only [EReal.coe_mul]
    rw [hs, Ideal.div_coe hn, ← EReal.coe_mul]
  simp only [hr]
  rw [hq, mean_coe r n hn, meansq_dev_coe r _ n hn, ← EReal.coe_mul, ← EReal.coe_sub, real_variance r n hn hcard]
  exact max_eq_left (EReal.coe_nonneg.mpr (real_variance_nonneg r _ n hn hcard))

end Variance

/-! ## A projection commutes with a scaled sum -/

/-- Over the reals: exchange the two sums and move the constant factor. -/
theorem real_proj_sum {ε κ : Type*} [Fintype κ] (s : Finset ε) (A : ε → κ → ℝ) (B : κ → ℝ) (c : ℝ) :
    (∑ e ∈ s, ∑ k, A e k * B k) * c = ∑ k, (∑ e ∈ s, A e k) * c * B k := by
  rw [Finset.sum_comm, Finset.sum_mul]
  refine Finset.sum_congr rfl (fun k _ => ?_)
  simp only [Finset.sum_mul]
  exact Finset.sum_congr rfl (fun e _ => by ring)

/-- THE PROJECTION IDENTITY. For real `a e k`, `w k` and a real `c ≠ 0`: projecting every row by `w`, summing the
    rows of a finite set and scaling by the reciprocal of `c` is summing the rows, dividing by `c` and projecting. -/
theorem proj_sum_div {ε κ : Type*} [Fintype κ] (s : Finset ε) (a : ε → κ → EReal) (w : κ → EReal) (c : EReal)
    (ha : ∀ e k, IsReal (a e k)) (hw : ∀ k, IsReal (w k)) (hc : IsReal c) (hc0 : c ≠ 0) :
    (∑ e ∈ s, ∑ k, a e k * w k) * Ideal.div 1 c = ∑ k, Ideal.div (∑ e ∈ s, a e k) c * w k := by
  choose A hA using ha
  choose B hB using hw
  obtain ⟨C, rfl⟩ := hc
  have hC : C ≠ 0 := fun h => hc0 (by rw [h]; rfl)
  simp only [hA, hB, Ideal.div_coe hC, one_mul]
  calc (∑ e ∈ s, ∑ k, (A e k : EReal) * (B k : EReal)) * ((1 / C : ℝ) : EReal)
      = (((∑ e ∈ s, ∑ k, A e k * B k) * (1 / C) : ℝ) : EReal) := by
        simp only [coe_sum, EReal.coe_mul]
    _ = ((∑ k, (∑ e ∈ s, A e k) * (1 / C) * B k : ℝ) : EReal) := by rw [real_proj_sum]
    _ = ∑ k, (∑ e ∈ s, (A e k : EReal)) * ((1 / C : ℝ) : EReal) * (B k : EReal) := by
        simp only [coe_sum, EReal.coe_mul]

/-! ## Sums taken block by block -/

section Blocks
variable {M : Type*} [AddCommMonoid M]

/-- Position `r` of block `t`, among `B` blocks of `R` positions, is a position below `B * R`. -/
theorem block_lt {B R : ℕ} (t : Fin B) (r : Fin R) : t.val * R + r.val < B * R :=
  calc t.val * R + r.val < t.val * R + R := Nat.add_lt_add_left r.isLt _
    _ = (t.val + 1) * R := (Nat.succ_mul _ _).symm
    _ ≤ B * R := Nat.mul_le_mul_right R t.isLt

/-- A sum over `B * R` positions is the sum over the `B` blocks of the sums over each block's `R` positions. -/
theorem sum_blocks (B R : ℕ) (f : Fin (B * R) → M) :
    ∑ t : Fin B, ∑ r : Fin R, f ⟨t.val * R + r.val, block_lt t r⟩ = ∑ i : Fin (B * R), f i := by
  rw [← Equiv.sum_comp finProdFinEquiv f, Fintype.sum_prod_type]
  refine Finset.sum_congr rfl (fun t _ => Finset.sum_congr rfl (fun r _ => ?_))
  congr 1
  refine Fin.ext ?_
  show t.val * R + r.val = r.val + R * t.val
  rw [Nat.mul_comm, Nat.add_comm]

/-- A sum over blocks in which only one position `q0` of each block carries a term is the sum of those terms. -/
theorem sum_guarded {T Q : Type*} [Fintype T] [Fintype Q] [DecidableEq Q] (q0 : Q) (g : T → M) :
    ∑ t : T, ∑ q : Q, (if q = q0 then g t else 0) = ∑ t, g t :=
  Finset.sum_congr rfl (fun t _ => Fintype.sum_ite_eq' q0 (fun _ => g t))

/-- The same for blocks of eight positions whose position `0` carries the term. -/
theorem sum_guarded_eight (B : ℕ) (g : Fin B → M) :
    ∑ t : Fin B, ∑ q : Fin 8, (if q = 0 then g t else 0) = ∑ t, g t :=
  sum_guarded (0 : Fin 8) g

end Blocks

end MeanVariance

end
-- ==== Proof.Accumulate.lean ====
/-
  Adding block sums one after the other from zero gives the whole sum.

  A running value that starts as 0 + b 0 and adds b (n + 1) at step n + 1 is, after step n, the sum of b over 0 … n.
  A sum over 64 · 4096 rows is the sum over the 64 blocks of the sums over each block's 4096 rows.
-/
import Idealize.ShloMosaic.PureOps.Ideal
import proofs.«171056_j68092411510797_1_alg».proof.Proof.LibMeanVariance

noncomputable section

open scoped BigOperators

namespace Cert.MaskedMlp

/-- A running sum from zero: after step n it is the sum of the first n + 1 terms. -/
theorem acc_eq_sum (b acc : ℕ → EReal) (h0 : acc 0 = 0 + b 0) (hs : ∀ n, acc (n + 1) = acc n + b (n + 1)) (n : ℕ) :
    acc n = ∑ i ∈ Finset.range (n + 1), b i := by
  induction n with
  | zero => rw [h0, zero_add, Finset.sum_range_one]
  | succ n ih => rw [hs, ih, Finset.sum_range_succ _ (n + 1)]

/-- The same when the recursion is only known below a bound N. -/
theorem acc_eq_sum_of_lt (N : ℕ) (b acc : ℕ → EReal) (h0 : acc 0 = 0 + b 0)
    (hs : ∀ n, n + 1 < N → acc (n + 1) = acc n + b (n + 1)) (n : ℕ) (hn : n < N) :
    acc n = ∑ i ∈ Finset.range (n + 1), b i := by
  induction n with
  | zero => rw [h0, zero_add, Finset.sum_range_one]
  | succ n ih => rw [hs n hn, ih (Nat.lt_of_succ_lt hn), Finset.sum_range_succ _ (n + 1)]

/-- The sum of the first N terms of a sequence as a sum over Fin N. -/
theorem sum_range_eq_sum_fin (N : ℕ) (b : ℕ → EReal) : ∑ i ∈ Finset.range N, b i = ∑ t : Fin N, b t.val :=
  (Fin.sum_univ_eq_sum_range b N).symm

/-- Row r of block t, among 64 blocks of 4096 rows, is a row below 262144. -/
theorem block_row_lt (t : Fin 64) (r : Fin 4096) : t.val * 4096 + r.val < 262144 := by
  have ht := t.isLt
  have hr := r.isLt
  omega

/-- A sum over the 262144 rows is the sum over the 64 blocks of the sums over each block's 4096 rows. -/
theorem sum_rows_blocks (f : Fin 262144 → EReal) :
    ∑ t : Fin 64, ∑ r : Fin 4096, f ⟨t.val * 4096 + r.val, block_row_lt t r⟩ = ∑ R : Fin 262144, f R :=
  MeanVariance.sum_blocks 64 4096 f

/-- So 64 block sums added one after the other from zero are the whole sum: with acc the running value and
    b t the sum over block t's rows. -/
theorem acc_blocks_eq_sum (f : Fin 262144 → EReal) (acc : ℕ → EReal)
    (h0 : acc 0 = 0 + ∑ r : Fin 4096, f ⟨0 * 4096 + r.val, block_row_lt 0 r⟩)
    (hs : ∀ (n : ℕ) (hn : n + 1 < 64), acc (n + 1) = acc n + ∑ r : Fin 4096, f ⟨(n + 1) * 4096 + r.val, block_row_lt ⟨n + 1, hn⟩ r⟩) :
    acc 63 = ∑ R : Fin 262144, f R := by
  let b : ℕ → EReal := fun n => if hn : n < 64 then ∑ r : Fin 4096, f ⟨n * 4096 + r.val, block_row_lt ⟨n, hn⟩ r⟩ else 0
  have e := acc_eq_sum_of_lt 64 b acc (by rw [h0]; rfl) (fun n hn => by rw [hs n hn]; simp only [b, dif_pos hn]) 63 (by norm_num)
  rw [e, sum_range_eq_sum_fin, ← sum_rows_blocks]
  refine Finset.sum_congr rfl fun t _ => ?_
  simp only [b, dif_pos t.isLt]

end Cert.MaskedMlp

end
-- ==== Proof.SpecCongr.lean ====
/-
  The network's layers at a row depend on that row only. A dense layer at row r reads only row r of its input; the
  normalisation at (r, j) reads only the entry (r, j); a masked column sum over a block of rows, summed over the blocks in
  order, is the masked column sum over all rows.
-/
import proofs.«171056_j68092411510797_1_alg».proof.Proof.Spec

noncomputable section

namespace Cert.MaskedMlp

variable {R R' K : ℕ}

theorem dense_congr (a : Fin R → Fin K → EReal) (a' : Fin R' → Fin K → EReal) (W : Fin K → Fin 256 → EReal) (b : Fin 256 → EReal)
    (r : Fin R) (r' : Fin R') (j : Fin 256) (h : ∀ k, a r k = a' r' k) : dense a W b r j = dense a' W b r' j := by
  unfold dense
  rw [Finset.sum_congr rfl (fun k _ => by rw [h k])]

theorem normReluWith_congr (mu var g be : Fin 256 → EReal) (h : Fin R → Fin 256 → EReal) (h' : Fin R' → Fin 256 → EReal)
    (r : Fin R) (r' : Fin R') (j : Fin 256) (e : h r j = h' r' j) :
    normReluWith mu var g be h r j = normReluWith mu var g be h' r' j := by
  unfold normReluWith
  rw [e]

theorem normReluWith_params (mu mu' var var' g g' be be' : Fin 256 → EReal) (h : Fin R → Fin 256 → EReal) (r : Fin R) (j : Fin 256)
    (e1 : mu j = mu' j) (e2 : var j = var' j) (e3 : g j = g' j) (e4 : be j = be' j) :
    normReluWith mu var g be h r j = normReluWith mu' var' g' be' h r j := by
  unfold normReluWith
  rw [e1, e2, e3, e4]

theorem dense_params (a : Fin R → Fin K → EReal) (W W' : Fin K → Fin 256 → EReal) (b b' : Fin 256 → EReal) (r : Fin R) (j : Fin 256)
    (e1 : ∀ k, W k j = W' k j) (e2 : b j = b' j) : dense a W b r j = dense a W' b' r j := by
  unfold dense
  rw [Finset.sum_congr rfl (fun k _ => by rw [e1 k]), e2]

theorem msum_block_congr (hb : Fin R → Fin 256 → EReal) (Mb : Fin R → EReal) (f : Fin R → EReal) (j : Fin 256)
    (e : ∀ r, hb r j * Mb r = f r) : msum hb Mb j = ∑ r, f r := by
  unfold msum
  exact Finset.sum_congr rfl (fun r _ => e r)

theorem msumsq_block_congr (hb : Fin R → Fin 256 → EReal) (Mb : Fin R → EReal) (f : Fin R → EReal) (j : Fin 256)
    (e : ∀ r, (hb r j * Mb r) * hb r j = f r) : msumsq hb Mb j = ∑ r, f r := by
  unfold msumsq
  exact Finset.sum_congr rfl (fun r _ => e r)

end Cert.MaskedMlp

end
-- ==== Proof.Region0Value.lean ====
/-
  The first statistics region's two outputs, as functions of the arrays it reads.

  If the region's four input arrays hold the network's input rows, the mask, and the first layer's matrix and bias,
  then after the region the first output holds, at column j, the masked sum over all 262144 rows of the first layer's
  pre-activation, and the second output the masked sum of its squares. The outputs are the running rows after the last
  block; a running row is the sum over the 64 blocks of each block's masked column sum; a block's rows are rows
  4096 t … 4096 t + 4095 of the arrays, and a layer at a row depends on that row only; and a sum over 64 blocks of 4096
  rows is the sum over all rows.
-/
import proofs.«171056_j68092411510797_1_alg».proof.Proof.Accum0
import proofs.«171056_j68092411510797_1_alg».proof.Proof.BlockRows0
import proofs.«171056_j68092411510797_1_alg».proof.Proof.Accumulate
import proofs.«171056_j68092411510797_1_alg».proof.Proof.SpecCongr
import Idealize.ShloMosaic.Lib.Pipeline.Value
import Idealize.ShloMosaic.Lib.Tactic

set_option maxRecDepth 16384

noncomputable section

open scoped BigOperators

namespace Cert.KernelIdeal.NetValue

open Cert.KernelIdeal Cert.KernelIdeal.Gen Cert.KernelIdeal.Frame Cert.KernelIdeal.Payload Cert.MaskedMlp
open Idealize.ShloMosaic Idealize.ShloMosaic.TcCoe Idealize.ShloMosaic.Tactic Idealize.ShloMosaic.ValueIdx
open Idealize.SL.Sem

variable (V : (c : Dev nD) → (b : Ref sig .tc) → Buf (Elt Ideal) ((c : Thread nD τ).loc b))

/-- The pre-activation of a block's row, masked, is that of the array's row: row r of block t is row 4096 t + r. -/
theorem block0_row (c : Dev nD) (X : Fin Rows → Fin 4 → EReal) (M : Fin Rows → EReal) (W1 : Fin 4 → Fin 256 → EReal) (b1 : Fin 256 → EReal)
    (h0 : ∀ R k, (V c (Pipeline.arrRef spec0 0) : S262144x4.Idx → EReal) (ix2 R k) = X R k)
    (h1 : ∀ R, (V c (Pipeline.arrRef spec0 1) : S262144x1.Idx → EReal) (ix2 R (0 : Fin 1)) = M R)
    (h2 : ∀ k j, (V c (Pipeline.arrRef spec0 2) : S4x256.Idx → EReal) (ix2 k j) = W1 k j)
    (h3 : ∀ j, (V c (Pipeline.arrRef spec0 3) : S1x256.Idx → EReal) (ix2 (0 : Fin 1) j) = b1 j) (j : Fin 256) (t : Fin 64) (ht : t.val < cfg0.N) (r : Fin 4096) :
    (dense (matOf (iblk0 V c 0 ⟨t.val, ht⟩ : Vec Ideal S4096x4 .f32)) (matOf (iblk0 V c 2 ⟨t.val, ht⟩ : Vec Ideal S4x256 .f32)) (rowOf (iblk0 V c 3 ⟨t.val, ht⟩ : Vec Ideal S1x256 .f32))) r j = dense X W1 b1 ⟨t.val * 4096 + r.val, block_row_lt t r⟩ j
    ∧ colOf (iblk0 V c 1 ⟨t.val, ht⟩ : Vec Ideal S4096x1 .f32) r = M ⟨t.val * 4096 + r.val, block_row_lt t r⟩ := by
  refine ⟨?_, ?_⟩
  · refine (dense_congr (matOf (iblk0 V c 0 ⟨t.val, ht⟩ : Vec Ideal S4096x4 .f32)) X (matOf (iblk0 V c 2 ⟨t.val, ht⟩ : Vec Ideal S4x256 .f32)) (rowOf (iblk0 V c 3 ⟨t.val, ht⟩ : Vec Ideal S1x256 .f32)) r
      ⟨t.val * 4096 + r.val, block_row_lt t r⟩ j (fun k => ?_)).trans
      (dense_params X (matOf (iblk0 V c 2 ⟨t.val, ht⟩ : Vec Ideal S4x256 .f32)) W1 (rowOf (iblk0 V c 3 ⟨t.val, ht⟩ : Vec Ideal S1x256 .f32)) b1 ⟨t.val * 4096 + r.val, block_row_lt t r⟩ j (fun k => ?_) ?_)
    · exact (iblk0_0_apply V c ⟨t.val, ht⟩ r k).trans (h0 _ k)
    · show (iblk0 V c 2 ⟨t.val, ht⟩ : Vec Ideal S4x256 .f32) (ix2 k j) = W1 k j
      rw [iblk0_2_eq V c ⟨t.val, ht⟩]
      exact h2 k j
    · show (iblk0 V c 3 ⟨t.val, ht⟩ : Vec Ideal S1x256 .f32) (ix2 (0 : Fin 1) j) = b1 j
      rw [iblk0_3_eq V c ⟨t.val, ht⟩]
      exact h3 j
  · exact (iblk0_1_apply V c ⟨t.val, ht⟩ r (0 : Fin 1)).trans (h1 _)

/-- A block's masked column sum is the sum over the block's rows of the array's masked pre-activation. -/
theorem blockSum0_eq (c : Dev nD) (X : Fin Rows → Fin 4 → EReal) (M : Fin Rows → EReal) (W1 : Fin 4 → Fin 256 → EReal) (b1 : Fin 256 → EReal)
    (h0 : ∀ R k, (V c (Pipeline.arrRef spec0 0) : S262144x4.Idx → EReal) (ix2 R k) = X R k)
    (h1 : ∀ R, (V c (Pipeline.arrRef spec0 1) : S262144x1.Idx → EReal) (ix2 R (0 : Fin 1)) = M R)
    (h2 : ∀ k j, (V c (Pipeline.arrRef spec0 2) : S4x256.Idx → EReal) (ix2 k j) = W1 k j)
    (h3 : ∀ j, (V c (Pipeline.arrRef spec0 3) : S1x256.Idx → EReal) (ix2 (0 : Fin 1) j) = b1 j) (j : Fin 256) (t : Fin 64) :
    blockSum0 V c j t.val
      = ∑ r : Fin 4096, dense X W1 b1 ⟨t.val * 4096 + r.val, block_row_lt t r⟩ j * M ⟨t.val * 4096 + r.val, block_row_lt t r⟩ := by
  have ht : t.val < cfg0.N := Nat.lt_of_lt_of_eq t.isLt N_0.symm
  unfold blockSum0
  rw [dif_pos ht]
  refine msum_block_congr (dense (matOf (iblk0 V c 0 ⟨t.val, ht⟩ : Vec Ideal S4096x4 .f32)) (matOf (iblk0 V c 2 ⟨t.val, ht⟩ : Vec Ideal S4x256 .f32)) (rowOf (iblk0 V c 3 ⟨t.val, ht⟩ : Vec Ideal S1x256 .f32))) (colOf (iblk0 V c 1 ⟨t.val, ht⟩ : Vec Ideal S4096x1 .f32))
    (fun r => dense X W1 b1 ⟨t.val * 4096 + r.val, block_row_lt t r⟩ j * M ⟨t.val * 4096 + r.val, block_row_lt t r⟩) j (fun r => ?_)
  obtain ⟨e1, e2⟩ := block0_row V c X M W1 b1 h0 h1 h2 h3 j t ht r
  rw [e1, e2]

/-- The same for the sum of squares. -/
theorem blockSumsq0_eq (c : Dev nD) (X : Fin Rows → Fin 4 → EReal) (M : Fin Rows → EReal) (W1 : Fin 4 → Fin 256 → EReal) (b1 : Fin 256 → EReal)
    (h0 : ∀ R k, (V c (Pipeline.arrRef spec0 0) : S262144x4.Idx → EReal) (ix2 R k) = X R k)
    (h1 : ∀ R, (V c (Pipeline.arrRef spec0 1) : S262144x1.Idx → EReal) (ix2 R (0 : Fin 1)) = M R)
    (h2 : ∀ k j, (V c (Pipeline.arrRef spec0 2) : S4x256.Idx → EReal) (ix2 k j) = W1 k j)
    (h3 : ∀ j, (V c (Pipeline.arrRef spec0 3) : S1x256.Idx → EReal) (ix2 (0 : Fin 1) j) = b1 j) (j : Fin 256) (t : Fin 64) :
    blockSumsq0 V c j t.val
      = ∑ r : Fin 4096, (dense X W1 b1 ⟨t.val * 4096 + r.val, block_row_lt t r⟩ j * M ⟨t.val * 4096 + r.val, block_row_lt t r⟩)
          * dense X W1 b1 ⟨t.val * 4096 + r.val, block_row_lt t r⟩ j := by
  have ht : t.val < cfg0.N := Nat.lt_of_lt_of_eq t.isLt N_0.symm
  unfold blockSumsq0
  rw [dif_pos ht]
  refine msumsq_block_congr (dense (matOf (iblk0 V c 0 ⟨t.val, ht⟩ : Vec Ideal S4096x4 .f32)) (matOf (iblk0 V c 2 ⟨t.val, ht⟩ : Vec Ideal S4x256 .f32)) (rowOf (iblk0 V c 3 ⟨t.val, ht⟩ : Vec Ideal S1x256 .f32))) (colOf (iblk0 V c 1 ⟨t.val, ht⟩ : Vec Ideal S4096x1 .f32))
    (fun r => (dense X W1 b1 ⟨t.val * 4096 + r.val, block_row_lt t r⟩ j * M ⟨t.val * 4096 + r.val, block_row_lt t r⟩)
      * dense X W1 b1 ⟨t.val * 4096 + r.val, block_row_lt t r⟩ j) j (fun r => ?_)
  obtain ⟨e1, e2⟩ := block0_row V c X M W1 b1 h0 h1 h2 h3 j t ht r
  rw [e1, e2]

/-- The last grid point of the region. -/
theorem last0_lt : 63 < cfg0.N := Nat.lt_of_lt_of_eq (by norm_num) N_0.symm

/-- THE REGION'S OUTPUTS: the masked column sums, and sums of squares, of the first pre-activation over all rows. -/
theorem region0_sums (c : Dev nD) (X : Fin Rows → Fin 4 → EReal) (M : Fin Rows → EReal) (W1 : Fin 4 → Fin 256 → EReal) (b1 : Fin 256 → EReal)
    (h0 : ∀ R k, (V c (Pipeline.arrRef spec0 0) : S262144x4.Idx → EReal) (ix2 R k) = X R k)
    (h1 : ∀ R, (V c (Pipeline.arrRef spec0 1) : S262144x1.Idx → EReal) (ix2 R (0 : Fin 1)) = M R)
    (h2 : ∀ k j, (V c (Pipeline.arrRef spec0 2) : S4x256.Idx → EReal) (ix2 k j) = W1 k j)
    (h3 : ∀ j, (V c (Pipeline.arrRef spec0 3) : S1x256.Idx → EReal) (ix2 (0 : Fin 1) j) = b1 j) (j : Fin 256) :
    ((dat0 V c).arrAt 4 cfg0.N : S1x256.Idx → EReal) (ix2 (0 : Fin 1) j) = msum (dense X W1 b1) M j
    ∧ ((dat0 V c).arrAt 5 cfg0.N : S1x256.Idx → EReal) (ix2 (0 : Fin 1) j) = msumsq (dense X W1 b1) M j := by
  have hl0 : ¬(last0 : Fin cfg0.N).val % 64 = 0 := by show ¬(63 % 64 = 0); norm_num
  have hl1 : (last0 : Fin cfg0.N).val % 64 = 63 := by show 63 % 64 = 63; norm_num
  obtain ⟨o1, o2⟩ := out0_eq_acc V c last0 hl0 hl1
  refine ⟨?_, ?_⟩
  · refine (congrArg (fun g : S1x256.Idx → EReal => g (ix2 (0 : Fin 1) j)) (final0_4 V c)).trans ?_
    refine (congrArg (fun g : S1x256.Idx → EReal => g (ix2 (0 : Fin 1) j)) ((after0_4 V c last0).trans o1)).trans ?_
    refine (acc0_sum V c j 63 last0.isLt).trans ?_
    rw [Finset.sum_range]
    refine (Finset.sum_congr rfl fun t _ => blockSum0_eq V c X M W1 b1 h0 h1 h2 h3 j t).trans ?_
    exact sum_rows_blocks (fun R => dense X W1 b1 R j * M R)
  · refine (congrArg (fun g : S1x256.Idx → EReal => g (ix2 (0 : Fin 1) j)) (final0_5 V c)).trans ?_
    refine (congrArg (fun g : S1x256.Idx → EReal => g (ix2 (0 : Fin 1) j)) ((after0_5 V c last0).trans o2)).trans ?_
    refine (acc0_sumsq V c j 63 last0.isLt).trans ?_
    rw [Finset.sum_range]
    refine (Finset.sum_congr rfl fun t _ => blockSumsq0_eq V c X M W1 b1 h0 h1 h2 h3 j t).trans ?_
    exact sum_rows_blocks (fun R => (dense X W1 b1 R j * M R) * dense X W1 b1 R j)

end Cert.KernelIdeal.NetValue

end
-- ==== Proof.PayloadNorm.lean ====
/-
  Normalise, scale, shift, rectify: the chain of pointwise operations the tiled program applies to a block of
  pre-activations, read at an index.

  With rows mu, var, g, be broadcast over the block's 4096 rows, the chain takes h to
  max ((h − mu) · rsqrt (var + eps) · g + be, 0); the narrowing to the 16-bit format that follows is the identity on
  extended reals, and the rectifier's zero word is the number zero.
-/
import proofs.«171056_j68092411510797_1_alg».proof.Proof.Gen.KernelIdeal.Skeleton
import proofs.«171056_j68092411510797_1_alg».proof.Proof.Spec
import proofs.«171056_j68092411510797_1_alg».proof.Proof.BlockReaders
import proofs.«171056_j68092411510797_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.MaskedMlp Idealize.ShloMosaic Idealize.ShloMosaic.ValueIdx

/-- The reciprocal square root of a row, read at an index. -/
theorem rsqrt_apply {s : Shape} {φ : FTy} (x : FVec Ideal s φ) (i : s.Idx) : rsqrt x i = Ideal.rsqrt (x i) := rfl

/-- The chain at (r, j), for any block h of pre-activations. -/
theorem normRelu_chain_apply (h : FVec Ideal S4096x256 .f32) (mu var g be : FVec Ideal S1x256 .f32)
    (r : Fin 4096) (j : Fin 256) :
    (truncf .bf16
        (maximumf
          (addf
            (mulf
              (mulf (subf h (broadcastTo S4096x256 mu broadcasts_S1x256_S4096x256))
                (broadcastTo S4096x256
                  (rsqrt (addf var (broadcast S1x256 (Scalar.ofBits (F := Ideal) .f32 0x3727C5AC#32))))
                  broadcasts_S1x256_S4096x256))
              (broadcastTo S4096x256 g broadcasts_S1x256_S4096x256))
            (broadcastTo S4096x256 be broadcasts_S1x256_S4096x256))
          (broadcast S4096x256 (Scalar.ofBits (F := Ideal) .f32 0x00000000#32)))
        bitsLt_bf16_f32 : FVec Ideal S4096x256 .bf16) (ix2 r j)
      = max ((h (ix2 r j) - rowOf mu j) * Ideal.rsqrt (rowOf var j + eps) * rowOf g j + rowOf be j) 0 := by
  rw [truncf_apply, maximumf_apply, addf_apply, mulf_apply, mulf_apply, subf_apply]
  rw [broadcastTo_1b_ab_apply, broadcastTo_1b_ab_apply, broadcastTo_1b_ab_apply, broadcastTo_1b_ab_apply]
  rw [rsqrt_apply, addf_apply, broadcast_apply, broadcast_apply]
  show max _ (Ideal.ofBits .f32 0x00000000#32) = _
  rw [Ideal.ofBits_zero_f32]
  rfl

end Cert.KernelIdeal.Payload

end
-- ==== Proof.PayloadStats2.lean ====
/-
  The second statistics pass on one block of 4096 rows, read at an index.

  The pass recomputes the first layer's pre-activation of the block, normalises it with the first layer's mean and
  variance rows, scales, shifts and rectifies it, forms the second layer's pre-activation h2 = a1 · W2 + b2 from the
  result, masks it, and adds to two running rows the masked column sums of h2 and of (h2 · m) · h2. Its starting rows
  are zero, and the block's mask column is passed on unchanged.
-/
import proofs.«171056_j68092411510797_1_alg».proof.Proof.Gen.KernelIdeal.Skeleton
import proofs.«171056_j68092411510797_1_alg».proof.Proof.Spec
import proofs.«171056_j68092411510797_1_alg».proof.Proof.Args
import proofs.«171056_j68092411510797_1_alg».proof.Proof.BlockReaders
import proofs.«171056_j68092411510797_1_alg».proof.Proof.PayloadOps
import proofs.«171056_j68092411510797_1_alg».proof.Proof.PayloadNorm
import proofs.«171056_j68092411510797_1_alg».proof.Proof.LibKeepdims
import proofs.«171056_j68092411510797_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.MaskedMlp Idealize.ShloMosaic Idealize.ShloMosaic.ValueIdx

/-- The running sum starts at zero. -/
theorem k1_pay5_apply (j : Fin 256) : k1_pay5 (F := Ideal) (ix2 (0 : Fin 1) j) = 0 := by
  unfold k1_pay5
  simp only [shapeCast_self]
  exact Ideal.ofBits_zero_f32

/-- The running sum of squares starts at zero. -/
theorem k1_pay6_apply (j : Fin 256) : k1_pay6 (F := Ideal) (ix2 (0 : Fin 1) j) = 0 := by
  unfold k1_pay6
  simp only [shapeCast_self]
  exact Ideal.ofBits_zero_f32

/-- The mask column is passed on as it is. -/
theorem k1_pay7_eq (v5 : Vec Ideal S4096x1 .f32) : k1_pay7 v5 = v5 := by
  unfold k1_pay7
  simp only [shapeCast_self]

/-- The first layer's activation of the block. -/
theorem k1_pay8_apply (v3 : Vec Ideal S4096x4 .f32) (v7 : Vec Ideal S4x256 .f32) (v9 v13 v17 v24 v28 : Vec Ideal S1x256 .f32)
    (r : Fin 4096) (j : Fin 256) :
    k1_pay8 v3 v7 v9 v13 v17 v24 v28 (ix2 r j)
      = normReluWith (rowOf v13) (rowOf v17) (rowOf v24) (rowOf v28) (dense (matOf v3) (matOf v7) (rowOf v9)) r j := by
  unfold k1_pay8
  simp only [shapeCast_self]
  rw [normRelu_chain_apply, addf_apply, matmul4_apply, broadcastTo_1b_ab_apply]
  rfl

/-- The second layer's pre-activation of a block of activations. -/
theorem k1_pay1_apply (v34 : FVec Ideal S4096x256 .bf16) (v35 : Vec Ideal S256x256 .bf16) (v38 : Vec Ideal S1x256 .f32)
    (r : Fin 4096) (j : Fin 256) :
    k1_pay1 v34 v35 v38 (ix2 r j) = dense (matOf v34) (matOf v35) (rowOf v38) r j := by
  unfold k1_pay1
  simp only [shapeCast_self]
  rw [addf_apply, matmul256_apply, broadcastTo_1b_ab_apply]
  rfl

/-- The masked second pre-activation. -/
theorem k1_pay2_apply (v6 : FVec Ideal S4096x1 .f32) (v34 : FVec Ideal S4096x256 .bf16) (v35 : Vec Ideal S256x256 .bf16)
    (v38 : Vec Ideal S1x256 .f32) (r : Fin 4096) (j : Fin 256) :
    k1_pay2 v6 v34 v35 v38 (ix2 r j) = dense (matOf v34) (matOf v35) (rowOf v38) r j * colOf v6 r := by
  unfold k1_pay2
  rw [mulf_apply, k1_pay1_apply, Keepdims.broadcastTo_a1_ab_apply]
  rfl

/-- The running sum after the block. -/
theorem k1_pay3_apply (v6 : FVec Ideal S4096x1 .f32) (v34 : FVec Ideal S4096x256 .bf16) (v35 : Vec Ideal S256x256 .bf16)
    (v38 : Vec Ideal S1x256 .f32) (v44 : Vec Ideal S1x256 .f32) (j : Fin 256) :
    k1_pay3 v6 v34 v35 v38 v44 (ix2 (0 : Fin 1) j)
      = rowOf v44 j + msum (dense (matOf v34) (matOf v35) (rowOf v38)) (colOf v6) j := by
  unfold k1_pay3
  simp only [shapeCast_self]
  rw [addf_apply, colsum_apply]
  unfold msum
  refine congrArg (rowOf v44 j + ·) (Finset.sum_congr rfl fun r _ => ?_)
  exact k1_pay2_apply v6 v34 v35 v38 r j

/-- The running sum of squares after the block. -/
theorem k1_pay4_apply (v6 : FVec Ideal S4096x1 .f32) (v34 : FVec Ideal S4096x256 .bf16) (v35 : Vec Ideal S256x256 .bf16)
    (v38 : Vec Ideal S1x256 .f32) (v51 : Vec Ideal S1x256 .f32) (j : Fin 256) :
    k1_pay4 v6 v34 v35 v38 v51 (ix2 (0 : Fin 1) j)
      = rowOf v51 j + msumsq (dense (matOf v34) (matOf v35) (rowOf v38)) (colOf v6) j := by
  unfold k1_pay4
  simp only [shapeCast_self]
  rw [addf_apply, colsum_apply]
  unfold msumsq
  refine congrArg (rowOf v51 j + ·) (Finset.sum_congr rfl fun r _ => ?_)
  rw [mulf_apply, k1_pay2_apply, k1_pay1_apply]

end Cert.KernelIdeal.Payload

end
-- ==== Proof.BlockRows1.lean ====
/-
  The second statistics region's blocks as parts of their arrays, and its two outputs after the region.

  A block's coordinate in its array is, on each axis, the block index times the block's size plus the coordinate
  inside the block. The two row windows move down the rows with the grid: at point t their block is rows
  4096 t … 4096 t + 4095. The other eight input windows have the block index (0, 0) at every point and a block as
  large as the array: the block is the array. Each of the two outputs is one row of 256 sums whose one block is the
  whole array, written back at the last point only: the array ends holding what the body left there at that point.
-/
import proofs.«171056_j68092411510797_1_alg».proof.Proof.FrameR1Body
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-- A grid point's rows lie inside the array: point t holds rows 4096 t … 4096 t + 4095 of 262144. -/
theorem row_lt1 (t : Fin cfg1.N) (r : Fin 4096) : t.val * 4096 + r.val < 262144 := by
  have h : t.val < 64 := Nat.lt_of_lt_of_eq t.isLt N_1
  have hr := r.isLt
  omega

/-- Window 0's block index at point t is (t, 0): decided over the grid. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Window 0's block at point t is rows 4096 t … 4096 t + 4095 of its array. -/
theorem iblk1_0_apply (c : Dev nD) (t : Fin cfg1.N) (r : Fin 4096) (k : Fin 4) :
    (iblk1 V c 0 t : Vec F S4096x4 .f32) (ix2 r k)
      = (V c (Pipeline.arrRef spec1 0) : S262144x4.Idx → Elt F .f32) (ix2 ⟨t.val * 4096 + r.val, row_lt1 t r⟩ k) := by
  obtain ⟨h0, h1⟩ := idx1_0 t
  unfold iblk1
  rw [View.read_apply]
  show (V c (Pipeline.arrRef spec1 0) : S262144x4.Idx → Elt F .f32) _ = _
  congr 1
  funext a
  apply Fin.ext
  match a with
  | ⟨0, _⟩ => show win1_0.index t (0 : Fin 2) * 4096 + 1 * r.val = t.val * 4096 + r.val; rw [h0]; omega
  | ⟨1, _⟩ => show win1_0.index t (1 : Fin 2) * 4 + 1 * k.val = k.val; rw [h1]; omega

/-- Window 1's block index at point t is (t, 0): decided over the grid. -/
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

/-- Window 1's block at point t is rows 4096 t … 4096 t + 4095 of its array. -/
theorem iblk1_1_apply (c : Dev nD) (t : Fin cfg1.N) (r : Fin 4096) (k : Fin 1) :
    (iblk1 V c 1 t : Vec F S4096x1 .f32) (ix2 r k)
      = (V c (Pipeline.arrRef spec1 1) : S262144x1.Idx → Elt F .f32) (ix2 ⟨t.val * 4096 + r.val, row_lt1 t r⟩ k) := by
  obtain ⟨h0, h1⟩ := idx1_1 t
  unfold iblk1
  rw [View.read_apply]
  show (V c (Pipeline.arrRef spec1 1) : S262144x1.Idx → Elt F .f32) _ = _
  congr 1
  funext a
  apply Fin.ext
  match a with
  | ⟨0, _⟩ => show win1_1.index t (0 : Fin 2) * 4096 + 1 * r.val = t.val * 4096 + r.val; rw [h0]; omega
  | ⟨1, _⟩ => show win1_1.index t (1 : Fin 2) * 1 + 1 * k.val = k.val; rw [h1]; omega

/-- Window 2's block index is (0, 0) at every point: decided over the grid. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- Window 2's one block is its whole array, at every point. -/
theorem iblk1_2_eq (c : Dev nD) (t : Fin cfg1.N) :
    (iblk1 V c 2 t : Vec F S4x256 .f32) = (V c (Pipeline.arrRef spec1 2) : S4x256.Idx → Elt F .f32) := by
  obtain ⟨h0, h1⟩ := idx1_2 t
  funext j
  unfold iblk1
  rw [View.read_apply]
  show (V c (Pipeline.arrRef spec1 2) : S4x256.Idx → Elt F .f32) _ = _
  congr 1
  funext a
  apply Fin.ext
  match a with
  | ⟨0, _⟩ => show win1_2.index t (0 : Fin 2) * 4 + 1 * (j 0).val = (j 0).val; rw [h0]; omega
  | ⟨1, _⟩ => show win1_2.index t (1 : Fin 2) * 256 + 1 * (j 1).val = (j 1).val; rw [h1]; omega

/-- Window 3's block index is (0, 0) at every point: decided over the grid. -/
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-- Window 3's one block is its whole array, at every point. -/
theorem iblk1_3_eq (c : Dev nD) (t : Fin cfg1.N) :
    (iblk1 V c 3 t : Vec F S1x256 .f32) = (V c (Pipeline.arrRef spec1 3) : S1x256.Idx → Elt F .f32) := by
  obtain ⟨h0, h1⟩ := idx1_3 t
  funext j
  unfold iblk1
  rw [View.read_apply]
  show (V c (Pipeline.arrRef spec1 3) : S1x256.Idx → Elt F .f32) _ = _
  congr 1
  funext a
  apply Fin.ext
  match a with
  | ⟨0, _⟩ => show win1_3.index t (0 : Fin 2) * 1 + 1 * (j 0).val = (j 0).val; rw [h0]; omega
  | ⟨1, _⟩ => show win1_3.index t (1 : Fin 2) * 256 + 1 * (j 1).val = (j 1).val; rw [h1]; omega

/-- Window 4's block index is (0, 0) at every point: decided over the grid. -/
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-- Window 4's one block is its whole array, at every point. -/
theorem iblk1_4_eq (c : Dev nD) (t : Fin cfg1.N) :
    (iblk1 V c 4 t : Vec F S1x256 .f32) = (V c (Pipeline.arrRef spec1 4) : S1x256.Idx → Elt F .f32) := by
  obtain ⟨h0, h1⟩ := idx1_4 t
  funext j
  unfold iblk1
  rw [View.read_apply]
  show (V c (Pipeline.arrRef spec1 4) : S1x256.Idx → Elt F .f32) _ = _
  congr 1
  funext a
  apply Fin.ext
  match a with
  | ⟨0, _⟩ => show win1_4.index t (0 : Fin 2) * 1 + 1 * (j 0).val = (j 0).val; rw [h0]; omega
  | ⟨1, _⟩ => show win1_4.index t (1 : Fin 2) * 256 + 1 * (j 1).val = (j 1).val; rw [h1]; omega

/-- Window 5's block index is (0, 0) at every point: decided over the grid. -/
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

/-- Window 5's one block is its whole array, at every point. -/
theorem iblk1_5_eq (c : Dev nD) (t : Fin cfg1.N) :
    (iblk1 V c 5 t : Vec F S1x256 .f32) = (V c (Pipeline.arrRef spec1 5) : S1x256.Idx → Elt F .f32) := by
  obtain ⟨h0, h1⟩ := idx1_5 t
  funext j
  unfold iblk1
  rw [View.read_apply]
  show (V c (Pipeline.arrRef spec1 5) : S1x256.Idx → Elt F .f32) _ = _
  congr 1
  funext a
  apply Fin.ext
  match a with
  | ⟨0, _⟩ => show win1_5.index t (0 : Fin 2) * 1 + 1 * (j 0).val = (j 0).val; rw [h0]; omega
  | ⟨1, _⟩ => show win1_5.index t (1 : Fin 2) * 256 + 1 * (j 1).val = (j 1).val; rw [h1]; omega

/-- Window 6's block index is (0, 0) at every point: decided over the grid. -/
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

/-- Window 6's one block is its whole array, at every point. -/
theorem iblk1_6_eq (c : Dev nD) (t : Fin cfg1.N) :
    (iblk1 V c 6 t : Vec F S1x256 .f32) = (V c (Pipeline.arrRef spec1 6) : S1x256.Idx → Elt F .f32) := by
  obtain ⟨h0, h1⟩ := idx1_6 t
  funext j
  unfold iblk1
  rw [View.read_apply]
  show (V c (Pipeline.arrRef spec1 6) : S1x256.Idx → Elt F .f32) _ = _
  congr 1
  funext a
  apply Fin.ext
  match a with
  | ⟨0, _⟩ => show win1_6.index t (0 : Fin 2) * 1 + 1 * (j 0).val = (j 0).val; rw [h0]; omega
  | ⟨1, _⟩ => show win1_6.index t (1 : Fin 2) * 256 + 1 * (j 1).val = (j 1).val; rw [h1]; omega

/-- Window 7's block index is (0, 0) at every point: decided over the grid. -/
theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)

/-- Window 7's one block is its whole array, at every point. -/
theorem iblk1_7_eq (c : Dev nD) (t : Fin cfg1.N) :
    (iblk1 V c 7 t : Vec F S1x256 .f32) = (V c (Pipeline.arrRef spec1 7) : S1x256.Idx → Elt F .f32) := by
  obtain ⟨h0, h1⟩ := idx1_7 t
  funext j
  unfold iblk1
  rw [View.read_apply]
  show (V c (Pipeline.arrRef spec1 7) : S1x256.Idx → Elt F .f32) _ = _
  congr 1
  funext a
  apply Fin.ext
  match a with
  | ⟨0, _⟩ => show win1_7.index t (0 : Fin 2) * 1 + 1 * (j 0).val = (j 0).val; rw [h0]; omega
  | ⟨1, _⟩ => show win1_7.index t (1 : Fin 2) * 256 + 1 * (j 1).val = (j 1).val; rw [h1]; omega

/-- Window 8's block index is (0, 0) at every point: decided over the grid. -/
theorem idx1_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)

/-- Window 8's one block is its whole array, at every point. -/
theorem iblk1_8_eq (c : Dev nD) (t : Fin cfg1.N) :
    (iblk1 V c 8 t : Vec F S256x256 .bf16) = (V c (Pipeline.arrRef spec1 8) : S256x256.Idx → Elt F .bf16) := by
  obtain ⟨h0, h1⟩ := idx1_8 t
  funext j
  unfold iblk1
  rw [View.read_apply]
  show (V c (Pipeline.arrRef spec1 8) : S256x256.Idx → Elt F .bf16) _ = _
  congr 1
  funext a
  apply Fin.ext
  match a with
  | ⟨0, _⟩ => show win1_8.index t (0 : Fin 2) * 256 + 1 * (j 0).val = (j 0).val; rw [h0]; omega
  | ⟨1, _⟩ => show win1_8.index t (1 : Fin 2) * 256 + 1 * (j 1).val = (j 1).val; rw [h1]; omega

/-- Window 9's block index is (0, 0) at every point: decided over the grid. -/
theorem idx1_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)

/-- Window 9's one block is its whole array, at every point. -/
theorem iblk1_9_eq (c : Dev nD) (t : Fin cfg1.N) :
    (iblk1 V c 9 t : Vec F S1x256 .f32) = (V c (Pipeline.arrRef spec1 9) : S1x256.Idx → Elt F .f32) := by
  obtain ⟨h0, h1⟩ := idx1_9 t
  funext j
  unfold iblk1
  rw [View.read_apply]
  show (V c (Pipeline.arrRef spec1 9) : S1x256.Idx → Elt F .f32) _ = _
  congr 1
  funext a
  apply Fin.ext
  match a with
  | ⟨0, _⟩ => show win1_9.index t (0 : Fin 2) * 1 + 1 * (j 0).val = (j 0).val; rw [h0]; omega
  | ⟨1, _⟩ => show win1_9.index t (1 : Fin 2) * 256 + 1 * (j 1).val = (j 1).val; rw [h1]; omega

/-- The last grid point. -/
abbrev last1 : Fin cfg1.N := ⟨63, by rw [show cfg1.N = 64 from N_1]; omega⟩

/-- Output window 10's block index is (0, 0) at every point: decided over the grid. -/
theorem idx1_10 : ∀ t : Fin cfg1.N, win1_10.index t (0 : Fin 2) = 0 ∧ win1_10.index t (1 : Fin 2) = 0 :=
  (by decide +kernel : ∀ t : Fin grid1.N, win1_10.index t (0 : Fin 2) = 0 ∧ win1_10.index t (1 : Fin 2) = 0)

/-- An index of output 10's array is in point t's block iff each coordinate is in the block's range on its axis. -/
theorem mem_blk1_10 (t : Fin cfg1.N) (i : S1x256.Idx) :
    i ∈ ((cfg1.win 10).blk t).view.set ↔
      ∀ a : Fin 2, win1_10.index t a * S1x256.size a ≤ (i a).val ∧ (i a).val < win1_10.index t a * S1x256.size a + S1x256.size a := by
  show i ∈ ((View.whole main_v23_0).slice (win1_10.rect t)).set ↔ _
  rw [View.set_slice_whole, Rect.mem_set_unit]
  exact Iff.rfl

/-- The one write-back of output 10, at the last point, writes what the body left there: the block is the array. -/
theorem flushed1_10_eq (c : Dev nD) (t : Fin cfg1.N) (hf : (cfg1.win 10).flush t = true) :
    (dat1 V c).flushed 10 t
      = ((cfg1.win 10).blk t).view.read (Elt F) (((dat1 V c).after 10 last1 : S1x256.Idx → Elt F .f32)) := by
  have ht : t.val = 63 := by
    have h1 := (flush1_10 t).mp hf
    have h2 : t.val < 64 := Nat.lt_of_lt_of_eq t.isLt N_1
    omega
  obtain rfl : t = last1 := Fin.ext ht
  obtain ⟨h0, h1⟩ := idx1_10 last1
  funext y
  show ((dat1 V c).after 10 last1 : S1x256.Idx → Elt F .f32) y = _
  rw [View.read_apply]
  show ((dat1 V c).after 10 last1 : S1x256.Idx → Elt F .f32) _ = ((dat1 V c).after 10 last1 : S1x256.Idx → Elt F .f32) _
  congr 1
  funext a
  apply Fin.ext
  match a with
  | ⟨0, _⟩ => show (y 0).val = win1_10.index last1 (0 : Fin 2) * 1 + 1 * (y 0).val; rw [h0]; omega
  | ⟨1, _⟩ => show (y 1).val = win1_10.index last1 (1 : Fin 2) * 256 + 1 * (y 1).val; rw [h1]; omega

/-- OUTPUT 10's ARRAY after the region is what the body left for it at the last point. -/
theorem final1_10 (c : Dev nD) :
    (dat1 V c).arrAt 10 cfg1.N = ((dat1 V c).after 10 last1 : S1x256.Idx → Elt F .f32) := by
  refine (dat1 V c).arrAt_eq_of_cover 10 _ (fun t hf => flushed1_10_eq V c t hf) (fun i => ?_)
  have hi0 : (i 0).val < 1 := (i 0).isLt
  have hi1 : (i 1).val < 256 := (i 1).isLt
  refine ⟨last1, (flush1_10 last1).mpr (by decide), ?_⟩
  rw [mem_blk1_10]
  obtain ⟨h0, h1⟩ := idx1_10 last1
  intro a
  match a with
  | ⟨0, _⟩ =>
    show win1_10.index last1 (0 : Fin 2) * 1 ≤ (i 0).val ∧ (i 0).val < win1_10.index last1 (0 : Fin 2) * 1 + 1
    rw [h0]; omega
  | ⟨1, _⟩ =>
    show win1_10.index last1 (1 : Fin 2) * 256 ≤ (i 1).val ∧ (i 1).val < win1_10.index last1 (1 : Fin 2) * 256 + 256
    rw [h1]; omega

/-- Output window 11's block index is (0, 0) at every point: decided over the grid. -/
theorem idx1_11 : ∀ t : Fin cfg1.N, win1_11.index t (0 : Fin 2) = 0 ∧ win1_11.index t (1 : Fin 2) = 0 :=
  (by decide +kernel : ∀ t : Fin grid1.N, win1_11.index t (0 : Fin 2) = 0 ∧ win1_11.index t (1 : Fin 2) = 0)

/-- An index of output 11's array is in point t's block iff each coordinate is in the block's range on its axis. -/
theorem mem_blk1_11 (t : Fin cfg1.N) (i : S1x256.Idx) :
    i ∈ ((cfg1.win 11).blk t).view.set ↔
      ∀ a : Fin 2, win1_11.index t a * S1x256.size a ≤ (i a).val ∧ (i a).val < win1_11.index t a * S1x256.size a + S1x256.size a := by
  show i ∈ ((View.whole main_v23_1).slice (win1_11.rect t)).set ↔ _
  rw [View.set_slice_whole, Rect.mem_set_unit]
  exact Iff.rfl

/-- The one write-back of output 11, at the last point, writes what the body left there: the block is the array. -/
theorem flushed1_11_eq (c : Dev nD) (t : Fin cfg1.N) (hf : (cfg1.win 11).flush t = true) :
    (dat1 V c).flushed 11 t
      = ((cfg1.win 11).blk t).view.read (Elt F) (((dat1 V c).after 11 last1 : S1x256.Idx → Elt F .f32)) := by
  have ht : t.val = 63 := by
    have h1 := (flush1_11 t).mp hf
    have h2 : t.val < 64 := Nat.lt_of_lt_of_eq t.isLt N_1
    omega
  obtain rfl : t = last1 := Fin.ext ht
  obtain ⟨h0, h1⟩ := idx1_11 last1
  funext y
  show ((dat1 V c).after 11 last1 : S1x256.Idx → Elt F .f32) y = _
  rw [View.read_apply]
  show ((dat1 V c).after 11 last1 : S1x256.Idx → Elt F .f32) _ = ((dat1 V c).after 11 last1 : S1x256.Idx → Elt F .f32) _
  congr 1
  funext a
  apply Fin.ext
  match a with
  | ⟨0, _⟩ => show (y 0).val = win1_11.index last1 (0 : Fin 2) * 1 + 1 * (y 0).val; rw [h0]; omega
  | ⟨1, _⟩ => show (y 1).val = win1_11.index last1 (1 : Fin 2) * 256 + 1 * (y 1).val; rw [h1]; omega

/-- OUTPUT 11's ARRAY after the region is what the body left for it at the last point. -/
theorem final1_11 (c : Dev nD) :
    (dat1 V c).arrAt 11 cfg1.N = ((dat1 V c).after 11 last1 : S1x256.Idx → Elt F .f32) := by
  refine (dat1 V c).arrAt_eq_of_cover 11 _ (fun t hf => flushed1_11_eq V c t hf) (fun i => ?_)
  have hi0 : (i 0).val < 1 := (i 0).isLt
  have hi1 : (i 1).val < 256 := (i 1).isLt
  refine ⟨last1, (flush1_11 last1).mpr (by decide), ?_⟩
  rw [mem_blk1_11]
  obtain ⟨h0, h1⟩ := idx1_11 last1
  intro a
  match a with
  | ⟨0, _⟩ =>
    show win1_11.index last1 (0 : Fin 2) * 1 ≤ (i 0).val ∧ (i 0).val < win1_11.index last1 (0 : Fin 2) * 1 + 1
    rw [h0]; omega
  | ⟨1, _⟩ =>
    show win1_11.index last1 (1 : Fin 2) * 256 ≤ (i 1).val ∧ (i 1).val < win1_11.index last1 (1 : Fin 2) * 256 + 256
    rw [h1]; omega

end Cert.KernelIdeal.Frame

end
-- ==== Proof.Pieces1.lean ====
/-
  What the second statistics pass leaves in its two running rows and its two outputs, as arithmetic of the loaded blocks.

  The first part of the body passes on the block's mask column and computes the first layer's activation of the block.
  At every grid point the body then ends with one store that covers each running row: the masked column sums (or sums of
  squares) of the second pre-activation added to the row as it was — the zero row at the first point, where the row is
  cleared first. At the last point each updated row is also copied to its output. Every load reads a whole buffer at
  offset zero.
-/
import proofs.«171056_j68092411510797_1_alg».proof.Proof.FrameR1Body
import proofs.«171056_j68092411510797_1_alg».proof.Proof.Pieces2
import Idealize.ShloMosaic.Lib.Pipeline.Value
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL.Sem

variable {F : FTy → Type} [FloatOps F]

/-- At the first point the running sum is cleared and the block's masked column sums of the second pre-activation added: the newest store covers the buffer, and the cleared buffer it read back is the zero row. -/
theorem sout1_A_0_eq (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) :
    sout1_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k1_pay3 (k1_pay7 x1) (k1_pay8 x0 x2 x3 x4 x5 x6 x7) x8 x9 k1_pay5 := by
  unfold sout1_A_0
  rw [View.read_writes_eq_canon _ _ _ (scover1_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun1_A
  dsimp only
  sl_unfold_words
  rw [View.canon_cons_unit_zero (S := S1x256) zeroOffset2, View.readCov_unit_zero (S := S1x256) _ zeroOffset2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S4096x4) zeroOffset2, View.ld_unit_zero (S := S4096x1) zeroOffset2, View.ld_unit_zero (S := S4x256) zeroOffset2, View.ld_unit_zero (S := S1x256) zeroOffset2, View.ld_unit_zero (S := S256x256) zeroOffset2]

/-- The same for the running sum of squares. -/
theorem sout1_A_1_eq (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) :
    sout1_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k1_pay4 (k1_pay7 x1) (k1_pay8 x0 x2 x3 x4 x5 x6 x7) x8 x9 k1_pay6 := by
  unfold sout1_A_1
  rw [View.read_writes_eq_canon _ _ _ (scover1_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun1_A
  dsimp only
  sl_unfold_words
  rw [View.canon_cons_unit_zero (S := S1x256) zeroOffset2, View.readCov_unit_zero (S := S1x256) _ zeroOffset2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S4096x4) zeroOffset2, View.ld_unit_zero (S := S4096x1) zeroOffset2, View.ld_unit_zero (S := S4x256) zeroOffset2, View.ld_unit_zero (S := S1x256) zeroOffset2, View.ld_unit_zero (S := S256x256) zeroOffset2]

/-- At a middle point the block's masked column sums are added to the running sum as the point finds it. -/
theorem sout1_B_0_eq (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) :
    sout1_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k1_pay3 (k1_pay7 x1) (k1_pay8 x0 x2 x3 x4 x5 x6 x7) x8 x9 xs0 := by
  unfold sout1_B_0
  rw [View.read_writes_eq_canon _ _ _ (scover1_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun1_B
  dsimp only
  sl_unfold_words
  rw [View.canon_unit_zero zeroOffset2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S4096x4) zeroOffset2, View.ld_unit_zero (S := S4096x1) zeroOffset2, View.ld_unit_zero (S := S4x256) zeroOffset2, View.ld_unit_zero (S := S1x256) zeroOffset2, View.ld_unit_zero (S := S256x256) zeroOffset2]

/-- The same for the running sum of squares. -/
theorem sout1_B_1_eq (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : ¬cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) :
    sout1_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k1_pay4 (k1_pay7 x1) (k1_pay8 x0 x2 x3 x4 x5 x6 x7) x8 x9 xs1 := by
  unfold sout1_B_1
  rw [View.read_writes_eq_canon _ _ _ (scover1_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun1_B
  dsimp only
  sl_unfold_words
  rw [View.canon_unit_zero zeroOffset2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S4096x4) zeroOffset2, View.ld_unit_zero (S := S4096x1) zeroOffset2, View.ld_unit_zero (S := S4x256) zeroOffset2, View.ld_unit_zero (S := S1x256) zeroOffset2, View.ld_unit_zero (S := S256x256) zeroOffset2]

/-- At the last point the running sum is updated in the same way. -/
theorem sout1_C_0_eq (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) :
    sout1_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k1_pay3 (k1_pay7 x1) (k1_pay8 x0 x2 x3 x4 x5 x6 x7) x8 x9 xs0 := by
  unfold sout1_C_0
  rw [View.read_writes_eq_canon _ _ _ (scover1_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun1_C
  dsimp only
  sl_unfold_words
  rw [View.canon_unit_zero zeroOffset2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S4096x4) zeroOffset2, View.ld_unit_zero (S := S4096x1) zeroOffset2, View.ld_unit_zero (S := S4x256) zeroOffset2, View.ld_unit_zero (S := S1x256) zeroOffset2, View.ld_unit_zero (S := S256x256) zeroOffset2]

/-- The same for the running sum of squares. -/
theorem sout1_C_1_eq (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) :
    sout1_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k1_pay4 (k1_pay7 x1) (k1_pay8 x0 x2 x3 x4 x5 x6 x7) x8 x9 xs1 := by
  unfold sout1_C_1
  rw [View.read_writes_eq_canon _ _ _ (scover1_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun1_C
  dsimp only
  sl_unfold_words
  rw [View.canon_unit_zero zeroOffset2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S4096x4) zeroOffset2, View.ld_unit_zero (S := S4096x1) zeroOffset2, View.ld_unit_zero (S := S4x256) zeroOffset2, View.ld_unit_zero (S := S1x256) zeroOffset2, View.ld_unit_zero (S := S256x256) zeroOffset2]

/-- At the last point the updated running sum is read back and copied to the first output. -/
theorem out1_C_0_eq (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) :
    out1_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k1_pay3 (k1_pay7 x1) (k1_pay8 x0 x2 x3 x4 x5 x6 x7) x8 x9 xs0 := by
  unfold out1_C_0
  rw [View.read_writes_eq_canon _ _ _ (cover1_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun1_C
  dsimp only
  sl_unfold_words
  rw [View.canon_unit_zero zeroOffset2, View.readCov_unit_zero (S := S1x256) _ zeroOffset2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S4096x4) zeroOffset2, View.ld_unit_zero (S := S4096x1) zeroOffset2, View.ld_unit_zero (S := S4x256) zeroOffset2, View.ld_unit_zero (S := S1x256) zeroOffset2, View.ld_unit_zero (S := S256x256) zeroOffset2]

/-- And the updated running sum of squares to the second output. -/
theorem out1_C_1_eq (c : Dev nD) (i : grid1.Coords) (arg1 : Memref sig .tc .vmem S4096x4 .f32) (harg1 : arg1.IsWhole) (arg2 : Memref sig .tc .vmem S4096x1 .f32) (harg2 : arg2.IsWhole) (arg3 : Memref sig .tc .vmem S4x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_first i) (hc1 : cond1_last i) (x0 : Vec F S4096x4 .f32) (x1 : Vec F S4096x1 .f32) (x2 : Vec F S4x256 .f32) (x3 : Vec F S1x256 .f32) (x4 : Vec F S1x256 .f32) (x5 : Vec F S1x256 .f32) (x6 : Vec F S1x256 .f32) (x7 : Vec F S1x256 .f32) (x8 : Vec F S256x256 .bf16) (x9 : Vec F S1x256 .f32) (xs0 xs1 : Vec F S1x256 .f32) :
    out1_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k1_pay4 (k1_pay7 x1) (k1_pay8 x0 x2 x3 x4 x5 x6 x7) x8 x9 xs1 := by
  unfold out1_C_1
  rw [View.read_writes_eq_canon _ _ _ (cover1_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun1_C
  dsimp only
  sl_unfold_words
  rw [View.canon_unit_zero zeroOffset2, View.readCov_unit_zero (S := S1x256) _ zeroOffset2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S4096x4) zeroOffset2, View.ld_unit_zero (S := S4096x1) zeroOffset2, View.ld_unit_zero (S := S4x256) zeroOffset2, View.ld_unit_zero (S := S1x256) zeroOffset2, View.ld_unit_zero (S := S256x256) zeroOffset2]

end Cert.KernelIdeal.Frame

end
-- ==== Proof.Accum1.lean ====
/-
  The second statistics pass, point by point: its two running rows after a point are one step of the pass — the
  block's masked column sums, and sums of squares, of the second pre-activation added to a row — applied to the zero
  rows at the first point and to what the point before left at every later one; at the last point the two outputs
  hold the updated rows.
-/
import proofs.«171056_j68092411510797_1_alg».proof.Proof.FrameR1Body
import proofs.«171056_j68092411510797_1_alg».proof.Proof.Pieces1
import Idealize.ShloMosaic.Lib.Pipeline.Value
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL.Sem

variable {F : FTy → Type} [FloatOps F]
variable (V : (c : Dev nD) → (b : Ref sig .tc) → Buf (Elt F) ((c : Thread nD τ).loc b))

/-- One step of the running sum at point t: the block's masked column sums of the second pre-activation added to a row. -/
def stepSum1 (c : Dev nD) (t : Fin cfg1.N) (prev : Vec F S1x256 .f32) : Vec F S1x256 .f32 :=
  k1_pay3 (k1_pay7 (iblk1 V c 1 t)) (k1_pay8 (iblk1 V c 0 t) (iblk1 V c 2 t) (iblk1 V c 3 t) (iblk1 V c 4 t) (iblk1 V c 5 t) (iblk1 V c 6 t) (iblk1 V c 7 t)) (iblk1 V c 8 t) (iblk1 V c 9 t) prev

/-- One step of the running sum of squares at point t. -/
def stepSq1 (c : Dev nD) (t : Fin cfg1.N) (prev : Vec F S1x256 .f32) : Vec F S1x256 .f32 :=
  k1_pay4 (k1_pay7 (iblk1 V c 1 t)) (k1_pay8 (iblk1 V c 0 t) (iblk1 V c 2 t) (iblk1 V c 3 t) (iblk1 V c 4 t) (iblk1 V c 5 t) (iblk1 V c 6 t) (iblk1 V c 7 t)) (iblk1 V c 8 t) (iblk1 V c 9 t) prev

/-- After the first point: one step from the zero rows. -/
theorem acc1_first (c : Dev nD) (t : Fin cfg1.N) (h0 : t.val % 64 = 0) (h1 : ¬t.val % 64 = 63) :
    (outsAt1 V c t.val t.isLt).2.2.1 = stepSum1 V c t k1_pay5
    ∧ (outsAt1 V c t.val t.isLt).2.2.2 = stepSq1 V c t k1_pay6 := by
  rw [outsAt1_A V c t h0 h1]
  dsimp only
  refine ⟨?_, ?_⟩
  · exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_first t).mpr h0) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  · exact sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_first t).mpr h0) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)

/-- After a middle point: one step from what the point before left. -/
theorem acc1_middle (c : Dev nD) (t : Fin cfg1.N) (h0 : ¬t.val % 64 = 0) (h1 : ¬t.val % 64 = 63) :
    (outsAt1 V c t.val t.isLt).2.2.1 = stepSum1 V c t (outsAt1 V c (t.val - 1) (Nat.lt_of_le_of_lt (Nat.sub_le _ _) t.isLt)).2.2.1
    ∧ (outsAt1 V c t.val t.isLt).2.2.2 = stepSq1 V c t (outsAt1 V c (t.val - 1) (Nat.lt_of_le_of_lt (Nat.sub_le _ _) t.isLt)).2.2.2 := by
  rw [outsAt1_B V c t h0 h1]
  dsimp only
  refine ⟨?_, ?_⟩
  · exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2
  · exact sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) (fun h => h1 ((hcond1_last t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2

/-- After the last point: the same for the rows, and the two outputs hold the updated rows. -/
theorem acc1_last (c : Dev nD) (t : Fin cfg1.N) (h0 : ¬t.val % 64 = 0) (h1 : t.val % 64 = 63) :
    ((outsAt1 V c t.val t.isLt).2.2.1 = stepSum1 V c t (outsAt1 V c (t.val - 1) (Nat.lt_of_le_of_lt (Nat.sub_le _ _) t.isLt)).2.2.1
      ∧ (outsAt1 V c t.val t.isLt).2.2.2 = stepSq1 V c t (outsAt1 V c (t.val - 1) (Nat.lt_of_le_of_lt (Nat.sub_le _ _) t.isLt)).2.2.2)
    ∧ (outsAt1 V c t.val t.isLt).1 = stepSum1 V c t (outsAt1 V c (t.val - 1) (Nat.lt_of_le_of_lt (Nat.sub_le _ _) t.isLt)).2.2.1
      ∧ (outsAt1 V c t.val t.isLt).2.1 = stepSq1 V c t (outsAt1 V c (t.val - 1) (Nat.lt_of_le_of_lt (Nat.sub_le _ _) t.isLt)).2.2.2 := by
  rw [outsAt1_C V c t h0 h1]
  dsimp only
  refine ⟨⟨?_, ?_⟩, ?_, ?_⟩
  · exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) ((hcond1_last t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2
  · exact sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) ((hcond1_last t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2
  · exact out1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) ((hcond1_last t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2
  · exact out1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_first t).mp h)) ((hcond1_last t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2.1 (outsAt1 V c (t.val - 1) (Nat.lt_of_le_of_lt (Nat.sub_le _ _) t.isLt)).2.2.2

/-- The rows after point 0. -/
theorem rows1_zero (c : Dev nD) (h : 0 < cfg1.N) :
    (outsAt1 V c 0 h).2.2.1 = stepSum1 V c ⟨0, h⟩ k1_pay5 ∧ (outsAt1 V c 0 h).2.2.2 = stepSq1 V c ⟨0, h⟩ k1_pay6 :=
  acc1_first V c ⟨0, h⟩ (Nat.zero_mod _) (show ¬(0 % 64 = 63) by decide)

/-- The rows after point n + 1: one step from the rows after point n. -/
theorem rows1_succ (c : Dev nD) (n : ℕ) (h : n + 1 < cfg1.N) :
    (outsAt1 V c (n + 1) h).2.2.1 = stepSum1 V c ⟨n + 1, h⟩ (outsAt1 V c n (Nat.lt_of_succ_lt h)).2.2.1
    ∧ (outsAt1 V c (n + 1) h).2.2.2 = stepSq1 V c ⟨n + 1, h⟩ (outsAt1 V c n (Nat.lt_of_succ_lt h)).2.2.2 := by
  have hN : n + 1 < 64 := Nat.lt_of_lt_of_eq h N_1
  have h0 : ¬(n + 1) % 64 = 0 := by omega
  by_cases h1 : (n + 1) % 64 = 63
  · exact (acc1_last V c ⟨n + 1, h⟩ h0 h1).1
  · exact acc1_middle V c ⟨n + 1, h⟩ h0 h1

/-- At the last point the two outputs hold the rows. -/
theorem outs1_last (c : Dev nD) (t : Fin cfg1.N) (h0 : ¬t.val % 64 = 0) (h1 : t.val % 64 = 63) :
    (outsAt1 V c t.val t.isLt).1 = (outsAt1 V c t.val t.isLt).2.2.1
    ∧ (outsAt1 V c t.val t.isLt).2.1 = (outsAt1 V c t.val t.isLt).2.2.2 := by
  obtain ⟨⟨a, b⟩, c', d⟩ := acc1_last V c t h0 h1
  exact ⟨c'.trans a.symm, d.trans b.symm⟩

end Cert.KernelIdeal.Frame

end
-- ==== Proof.Region1Block.lean ====
/-
  The second statistics pass on one block of rows, in the network's terms.

  When the block's rows are rows ρ r of the network's input X and of the mask M, and the parameter blocks hold the
  first layer's weights, bias, mean, variance, scale and shift and the second layer's weights and bias, the second
  pre-activation the pass forms at row r of the block is the network's at row ρ r: each layer at a row reads that row
  only. So the pass adds to its running rows the sums over the block's rows of h2 · m and of (h2 · m) · h2 at the
  rows ρ r.
-/
import Idealize.ShloMosaic.PureOps.Ideal
import proofs.«171056_j68092411510797_1_alg».proof.Proof.Spec
import proofs.«171056_j68092411510797_1_alg».proof.Proof.Args
import proofs.«171056_j68092411510797_1_alg».proof.Proof.BlockReaders
import proofs.«171056_j68092411510797_1_alg».proof.Proof.SpecCongr
import proofs.«171056_j68092411510797_1_alg».proof.Proof.PayloadStats2
import Idealize.ShloMosaic.Lib.ValueIdx

noncomputable section

open scoped BigOperators

namespace Cert.KernelIdeal.NetValue

open Cert.KernelIdeal Cert.KernelIdeal.Gen Cert.KernelIdeal.Payload Cert.MaskedMlp
open Idealize.ShloMosaic Idealize.ShloMosaic.ValueIdx

section Block

variable (x0 : Vec Ideal S4096x4 .f32) (x1 : Vec Ideal S4096x1 .f32) (x2 : Vec Ideal S4x256 .f32)
  (x3 x4 x5 x6 x7 : Vec Ideal S1x256 .f32) (x8 : Vec Ideal S256x256 .bf16) (x9 : Vec Ideal S1x256 .f32)
variable (X : Fin 262144 → Fin 4 → EReal) (M : Fin 262144 → EReal) (W1 : Fin 4 → Fin 256 → EReal)
  (b1 mu1 var1 g1 be1 : Fin 256 → EReal) (W2 : Fin 256 → Fin 256 → EReal) (b2 : Fin 256 → EReal)
variable (ρ : Fin 4096 → Fin 262144)

/-- The second pre-activation the pass forms at row r of the block is the network's at row ρ r. -/
theorem block1_h2 (e0 : ∀ r k, x0 (ix2 r k) = X (ρ r) k) (e2 : ∀ k j, x2 (ix2 k j) = W1 k j)
    (e3 : ∀ j, x3 (ix2 (0 : Fin 1) j) = b1 j) (e4 : ∀ j, x4 (ix2 (0 : Fin 1) j) = mu1 j)
    (e5 : ∀ j, x5 (ix2 (0 : Fin 1) j) = var1 j) (e6 : ∀ j, x6 (ix2 (0 : Fin 1) j) = g1 j)
    (e7 : ∀ j, x7 (ix2 (0 : Fin 1) j) = be1 j) (e8 : ∀ k j, x8 (ix2 k j) = W2 k j)
    (e9 : ∀ j, x9 (ix2 (0 : Fin 1) j) = b2 j) (r : Fin 4096) (j : Fin 256) :
    dense (matOf (k1_pay8 x0 x2 x3 x4 x5 x6 x7)) (matOf x8) (rowOf x9) r j
      = dense (normReluWith mu1 var1 g1 be1 (dense X W1 b1)) W2 b2 (ρ r) j := by
  refine (dense_params _ _ W2 _ b2 r j (fun k => e8 k j) (e9 j)).trans ?_
  refine dense_congr _ _ W2 b2 r (ρ r) j (fun k => ?_)
  show k1_pay8 x0 x2 x3 x4 x5 x6 x7 (ix2 r k) = _
  rw [k1_pay8_apply]
  refine (normReluWith_params _ mu1 _ var1 _ g1 _ be1 _ r k (e4 k) (e5 k) (e6 k) (e7 k)).trans ?_
  refine normReluWith_congr mu1 var1 g1 be1 _ _ r (ρ r) k ?_
  refine (dense_params _ _ W1 _ b1 r k (fun q => e2 q k) (e3 k)).trans ?_
  exact dense_congr _ _ W1 b1 r (ρ r) k (fun q => e0 r q)

/-- The running sum after the block: what it held plus the block's rows' h2 · m. -/
theorem block1_msum (e0 : ∀ r k, x0 (ix2 r k) = X (ρ r) k) (e1 : ∀ r, x1 (ix2 r (0 : Fin 1)) = M (ρ r))
    (e2 : ∀ k j, x2 (ix2 k j) = W1 k j)
    (e3 : ∀ j, x3 (ix2 (0 : Fin 1) j) = b1 j) (e4 : ∀ j, x4 (ix2 (0 : Fin 1) j) = mu1 j)
    (e5 : ∀ j, x5 (ix2 (0 : Fin 1) j) = var1 j) (e6 : ∀ j, x6 (ix2 (0 : Fin 1) j) = g1 j)
    (e7 : ∀ j, x7 (ix2 (0 : Fin 1) j) = be1 j) (e8 : ∀ k j, x8 (ix2 k j) = W2 k j)
    (e9 : ∀ j, x9 (ix2 (0 : Fin 1) j) = b2 j) (prev : Vec Ideal S1x256 .f32) (j : Fin 256) :
    k1_pay3 (k1_pay7 x1) (k1_pay8 x0 x2 x3 x4 x5 x6 x7) x8 x9 prev (ix2 (0 : Fin 1) j)
      = rowOf prev j
        + ∑ r : Fin 4096, dense (normReluWith mu1 var1 g1 be1 (dense X W1 b1)) W2 b2 (ρ r) j * M (ρ r) := by
  rw [k1_pay7_eq, k1_pay3_apply]
  refine congrArg (rowOf prev j + ·) ?_
  refine msum_block_congr _ _ _ j (fun r => ?_)
  rw [block1_h2 x0 x2 x3 x4 x5 x6 x7 x8 x9 X W1 b1 mu1 var1 g1 be1 W2 b2 ρ e0 e2 e3 e4 e5 e6 e7 e8 e9 r j]
  exact congrArg (_ * ·) (e1 r)

/-- The running sum of squares after the block: what it held plus the block's rows' (h2 · m) · h2. -/
theorem block1_msumsq (e0 : ∀ r k, x0 (ix2 r k) = X (ρ r) k) (e1 : ∀ r, x1 (ix2 r (0 : Fin 1)) = M (ρ r))
    (e2 : ∀ k j, x2 (ix2 k j) = W1 k j)
    (e3 : ∀ j, x3 (ix2 (0 : Fin 1) j) = b1 j) (e4 : ∀ j, x4 (ix2 (0 : Fin 1) j) = mu1 j)
    (e5 : ∀ j, x5 (ix2 (0 : Fin 1) j) = var1 j) (e6 : ∀ j, x6 (ix2 (0 : Fin 1) j) = g1 j)
    (e7 : ∀ j, x7 (ix2 (0 : Fin 1) j) = be1 j) (e8 : ∀ k j, x8 (ix2 k j) = W2 k j)
    (e9 : ∀ j, x9 (ix2 (0 : Fin 1) j) = b2 j) (prev : Vec Ideal S1x256 .f32) (j : Fin 256) :
    k1_pay4 (k1_pay7 x1) (k1_pay8 x0 x2 x3 x4 x5 x6 x7) x8 x9 prev (ix2 (0 : Fin 1) j)
      = rowOf prev j
        + ∑ r : Fin 4096, (dense (normReluWith mu1 var1 g1 be1 (dense X W1 b1)) W2 b2 (ρ r) j * M (ρ r))
            * dense (normReluWith mu1 var1 g1 be1 (dense X W1 b1)) W2 b2 (ρ r) j := by
  rw [k1_pay7_eq, k1_pay4_apply]
  refine congrArg (rowOf prev j + ·) ?_
  refine msumsq_block_congr _ _ _ j (fun r => ?_)
  rw [block1_h2 x0 x2 x3 x4 x5 x6 x7 x8 x9 X W1 b1 mu1 var1 g1 be1 W2 b2 ρ e0 e2 e3 e4 e5 e6 e7 e8 e9 r j]
  exact congrArg (fun m => (_ * m) * _) (e1 r)

end Block

end Cert.KernelIdeal.NetValue

end
-- ==== Proof.Region1Value.lean ====
/-
  The second statistics region's value: its two output arrays hold the masked column sums, and sums of squares, of
  the network's second pre-activation over all rows.

  The region's windows hold the network's input rows, its mask column, the first layer's weights, bias, mean,
  variance, scale and shift, and the second layer's weights and bias. At point t the block of 4096 rows is rows
  4096 t … 4096 t + 4095 and every parameter block is its whole array, so one step of the pass adds to a running row
  the sum over those rows of h2 · m (or of (h2 · m) · h2), h2 the network's second pre-activation. The rows start at
  zero, 64 steps add the 64 blocks' sums one after the other, which is the sum over all 262144 rows; at the last
  point the outputs take the rows, and the one write-back leaves them in the output arrays.
-/
import Idealize.ShloMosaic.PureOps.Ideal
import proofs.«171056_j68092411510797_1_alg».proof.Proof.Spec
import proofs.«171056_j68092411510797_1_alg».proof.Proof.Args
import proofs.«171056_j68092411510797_1_alg».proof.Proof.BlockReaders
import proofs.«171056_j68092411510797_1_alg».proof.Proof.SpecCongr
import proofs.«171056_j68092411510797_1_alg».proof.Proof.Accumulate
import proofs.«171056_j68092411510797_1_alg».proof.Proof.PayloadStats2
import proofs.«171056_j68092411510797_1_alg».proof.Proof.FrameR1Body
import proofs.«171056_j68092411510797_1_alg».proof.Proof.BlockRows1
import proofs.«171056_j68092411510797_1_alg».proof.Proof.Accum1
import proofs.«171056_j68092411510797_1_alg».proof.Proof.Region1Block
import Idealize.ShloMosaic.Lib.ValueIdx
import Idealize.ShloMosaic.Lib.Pipeline.Value

set_option maxRecDepth 16384

noncomputable section

open scoped BigOperators

namespace Cert.KernelIdeal.NetValue

open Cert.KernelIdeal Cert.KernelIdeal.Gen Cert.KernelIdeal.Frame Cert.KernelIdeal.Payload Cert.MaskedMlp
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The network's row that row r of point t's block is. -/
def rowAt1 (t : Fin cfg1.N) (r : Fin 4096) : Fin Rows := ⟨t.val * 4096 + r.val, row_lt1 t r⟩

/-- One step of the running sum at point t, in the network's terms. -/
theorem step1_sum (c : Dev nD) (X : Fin Rows → Fin 4 → EReal) (M : Fin Rows → EReal) (W1 : Fin 4 → Fin 256 → EReal)
    (b1 mu1 var1 g1 be1 : Fin 256 → EReal) (W2 : Fin 256 → Fin 256 → EReal) (b2 : Fin 256 → EReal)
    (h0 : ∀ R k, (V c (Pipeline.arrRef spec1 0) : S262144x4.Idx → EReal) (ix2 R k) = X R k)
    (h1 : ∀ R, (V c (Pipeline.arrRef spec1 1) : S262144x1.Idx → EReal) (ix2 R (0 : Fin 1)) = M R)
    (h2 : ∀ k j, (V c (Pipeline.arrRef spec1 2) : S4x256.Idx → EReal) (ix2 k j) = W1 k j)
    (h3 : ∀ j, (V c (Pipeline.arrRef spec1 3) : S1x256.Idx → EReal) (ix2 (0 : Fin 1) j) = b1 j)
    (h4 : ∀ j, (V c (Pipeline.arrRef spec1 4) : S1x256.Idx → EReal) (ix2 (0 : Fin 1) j) = mu1 j)
    (h5 : ∀ j, (V c (Pipeline.arrRef spec1 5) : S1x256.Idx → EReal) (ix2 (0 : Fin 1) j) = var1 j)
    (h6 : ∀ j, (V c (Pipeline.arrRef spec1 6) : S1x256.Idx → EReal) (ix2 (0 : Fin 1) j) = g1 j)
    (h7 : ∀ j, (V c (Pipeline.arrRef spec1 7) : S1x256.Idx → EReal) (ix2 (0 : Fin 1) j) = be1 j)
    (h8 : ∀ k j, (V c (Pipeline.arrRef spec1 8) : S256x256.Idx → EReal) (ix2 k j) = W2 k j)
    (h9 : ∀ j, (V c (Pipeline.arrRef spec1 9) : S1x256.Idx → EReal) (ix2 (0 : Fin 1) j) = b2 j)
    (t : Fin cfg1.N) (prev : Vec Ideal S1x256 .f32) (j : Fin 256) :
    stepSum1 V c t prev (ix2 (0 : Fin 1) j)
      = rowOf prev j + ∑ r : Fin 4096, dense (normReluWith mu1 var1 g1 be1 (dense X W1 b1)) W2 b2 (rowAt1 t r) j * M (rowAt1 t r) := by
  unfold stepSum1
  exact block1_msum (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
      X M W1 b1 mu1 var1 g1 be1 W2 b2 (rowAt1 t)
      (fun r k => (iblk1_0_apply V c t r k).trans (h0 _ k))
      (fun r => (iblk1_1_apply V c t r (0 : Fin 1)).trans (h1 _))
      (fun k j => (congrFun (iblk1_2_eq V c t) (ix2 k j)).trans (h2 k j))
      (fun j => (congrFun (iblk1_3_eq V c t) (ix2 (0 : Fin 1) j)).trans (h3 j))
      (fun j => (congrFun (iblk1_4_eq V c t) (ix2 (0 : Fin 1) j)).trans (h4 j))
      (fun j => (congrFun (iblk1_5_eq V c t) (ix2 (0 : Fin 1) j)).trans (h5 j))
      (fun j => (congrFun (iblk1_6_eq V c t) (ix2 (0 : Fin 1) j)).trans (h6 j))
      (fun j => (congrFun (iblk1_7_eq V c t) (ix2 (0 : Fin 1) j)).trans (h7 j))
      (fun k j => (congrFun (iblk1_8_eq V c t) (ix2 k j)).trans (h8 k j))
      (fun j => (congrFun (iblk1_9_eq V c t) (ix2 (0 : Fin 1) j)).trans (h9 j))
      prev j

/-- One step of the running sum of squares at point t, in the network's terms. -/
theorem step1_sq (c : Dev nD) (X : Fin Rows → Fin 4 → EReal) (M : Fin Rows → EReal) (W1 : Fin 4 → Fin 256 → EReal)
    (b1 mu1 var1 g1 be1 : Fin 256 → EReal) (W2 : Fin 256 → Fin 256 → EReal) (b2 : Fin 256 → EReal)
    (h0 : ∀ R k, (V c (Pipeline.arrRef spec1 0) : S262144x4.Idx → EReal) (ix2 R k) = X R k)
    (h1 : ∀ R, (V c (Pipeline.arrRef spec1 1) : S262144x1.Idx → EReal) (ix2 R (0 : Fin 1)) = M R)
    (h2 : ∀ k j, (V c (Pipeline.arrRef spec1 2) : S4x256.Idx → EReal) (ix2 k j) = W1 k j)
    (h3 : ∀ j, (V c (Pipeline.arrRef spec1 3) : S1x256.Idx → EReal) (ix2 (0 : Fin 1) j) = b1 j)
    (h4 : ∀ j, (V c (Pipeline.arrRef spec1 4) : S1x256.Idx → EReal) (ix2 (0 : Fin 1) j) = mu1 j)
    (h5 : ∀ j, (V c (Pipeline.arrRef spec1 5) : S1x256.Idx → EReal) (ix2 (0 : Fin 1) j) = var1 j)
    (h6 : ∀ j, (V c (Pipeline.arrRef spec1 6) : S1x256.Idx → EReal) (ix2 (0 : Fin 1) j) = g1 j)
    (h7 : ∀ j, (V c (Pipeline.arrRef spec1 7) : S1x256.Idx → EReal) (ix2 (0 : Fin 1) j) = be1 j)
    (h8 : ∀ k j, (V c (Pipeline.arrRef spec1 8) : S256x256.Idx → EReal) (ix2 k j) = W2 k j)
    (h9 : ∀ j, (V c (Pipeline.arrRef spec1 9) : S1x256.Idx → EReal) (ix2 (0 : Fin 1) j) = b2 j)
    (t : Fin cfg1.N) (prev : Vec Ideal S1x256 .f32) (j : Fin 256) :
    stepSq1 V c t prev (ix2 (0 : Fin 1) j)
      = rowOf prev j + ∑ r : Fin 4096, (dense (normReluWith mu1 var1 g1 be1 (dense X W1 b1)) W2 b2 (rowAt1 t r) j * M (rowAt1 t r))
          * dense (normReluWith mu1 var1 g1 be1 (dense X W1 b1)) W2 b2 (rowAt1 t r) j := by
  unfold stepSq1
  exact block1_msumsq (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
      X M W1 b1 mu1 var1 g1 be1 W2 b2 (rowAt1 t)
      (fun r k => (iblk1_0_apply V c t r k).trans (h0 _ k))
      (fun r => (iblk1_1_apply V c t r (0 : Fin 1)).trans (h1 _))
      (fun k j => (congrFun (iblk1_2_eq V c t) (ix2 k j)).trans (h2 k j))
      (fun j => (congrFun (iblk1_3_eq V c t) (ix2 (0 : Fin 1) j)).trans (h3 j))
      (fun j => (congrFun (iblk1_4_eq V c t) (ix2 (0 : Fin 1) j)).trans (h4 j))
      (fun j => (congrFun (iblk1_5_eq V c t) (ix2 (0 : Fin 1) j)).trans (h5 j))
      (fun j => (congrFun (iblk1_6_eq V c t) (ix2 (0 : Fin 1) j)).trans (h6 j))
      (fun j => (congrFun (iblk1_7_eq V c t) (ix2 (0 : Fin 1) j)).trans (h7 j))
      (fun k j => (congrFun (iblk1_8_eq V c t) (ix2 k j)).trans (h8 k j))
      (fun j => (congrFun (iblk1_9_eq V c t) (ix2 (0 : Fin 1) j)).trans (h9 j))
      prev j

/-- The running sum after point n, at column j (zero past the grid). -/
def accSum1 (c : Dev nD) (j : Fin 256) (n : ℕ) : EReal :=
  if hn : n < cfg1.N then rowOf (outsAt1 V c n hn).2.2.1 j else 0

/-- The running sum of squares after point n, at column j (zero past the grid). -/
def accSq1 (c : Dev nD) (j : Fin 256) (n : ℕ) : EReal :=
  if hn : n < cfg1.N then rowOf (outsAt1 V c n hn).2.2.2 j else 0

theorem lt_N1 {n : ℕ} (h : n < 64) : n < cfg1.N := Nat.lt_of_lt_of_eq h N_1.symm

/-- After the last point the running sum is the masked column sum over all rows. -/
theorem accSum1_last (c : Dev nD) (X : Fin Rows → Fin 4 → EReal) (M : Fin Rows → EReal) (W1 : Fin 4 → Fin 256 → EReal)
    (b1 mu1 var1 g1 be1 : Fin 256 → EReal) (W2 : Fin 256 → Fin 256 → EReal) (b2 : Fin 256 → EReal)
    (h0 : ∀ R k, (V c (Pipeline.arrRef spec1 0) : S262144x4.Idx → EReal) (ix2 R k) = X R k)
    (h1 : ∀ R, (V c (Pipeline.arrRef spec1 1) : S262144x1.Idx → EReal) (ix2 R (0 : Fin 1)) = M R)
    (h2 : ∀ k j, (V c (Pipeline.arrRef spec1 2) : S4x256.Idx → EReal) (ix2 k j) = W1 k j)
    (h3 : ∀ j, (V c (Pipeline.arrRef spec1 3) : S1x256.Idx → EReal) (ix2 (0 : Fin 1) j) = b1 j)
    (h4 : ∀ j, (V c (Pipeline.arrRef spec1 4) : S1x256.Idx → EReal) (ix2 (0 : Fin 1) j) = mu1 j)
    (h5 : ∀ j, (V c (Pipeline.arrRef spec1 5) : S1x256.Idx → EReal) (ix2 (0 : Fin 1) j) = var1 j)
    (h6 : ∀ j, (V c (Pipeline.arrRef spec1 6) : S1x256.Idx → EReal) (ix2 (0 : Fin 1) j) = g1 j)
    (h7 : ∀ j, (V c (Pipeline.arrRef spec1 7) : S1x256.Idx → EReal) (ix2 (0 : Fin 1) j) = be1 j)
    (h8 : ∀ k j, (V c (Pipeline.arrRef spec1 8) : S256x256.Idx → EReal) (ix2 k j) = W2 k j)
    (h9 : ∀ j, (V c (Pipeline.arrRef spec1 9) : S1x256.Idx → EReal) (ix2 (0 : Fin 1) j) = b2 j)
    (j : Fin 256) :
    accSum1 V c j 63 = msum (dense (normReluWith mu1 var1 g1 be1 (dense X W1 b1)) W2 b2) M j := by
  unfold msum
  refine acc_blocks_eq_sum (fun R => dense (normReluWith mu1 var1 g1 be1 (dense X W1 b1)) W2 b2 R j * M R) (accSum1 V c j) ?_ ?_
  · have hp : 0 < cfg1.N := lt_N1 (by norm_num)
    unfold accSum1
    rw [dif_pos hp]
    show (outsAt1 V c 0 hp).2.2.1 (ix2 (0 : Fin 1) j) = _
    rw [(rows1_zero V c hp).1, step1_sum V c X M W1 b1 mu1 var1 g1 be1 W2 b2 h0 h1 h2 h3 h4 h5 h6 h7 h8 h9 ⟨0, hp⟩ (k1_pay5 (F := Ideal)) j]
    refine congrArg (· + _) ?_
    exact k1_pay5_apply j
  · intro n hn
    have hN : n + 1 < cfg1.N := lt_N1 hn
    unfold accSum1
    rw [dif_pos hN, dif_pos (Nat.lt_of_succ_lt hN)]
    show (outsAt1 V c (n + 1) hN).2.2.1 (ix2 (0 : Fin 1) j) = _
    rw [(rows1_succ V c n hN).1, step1_sum V c X M W1 b1 mu1 var1 g1 be1 W2 b2 h0 h1 h2 h3 h4 h5 h6 h7 h8 h9 ⟨n + 1, hN⟩ _ j]
    rfl

/-- After the last point the running sum of squares is the masked column sum of squares over all rows. -/
theorem accSq1_last (c : Dev nD) (X : Fin Rows → Fin 4 → EReal) (M : Fin Rows → EReal) (W1 : Fin 4 → Fin 256 → EReal)
    (b1 mu1 var1 g1 be1 : Fin 256 → EReal) (W2 : Fin 256 → Fin 256 → EReal) (b2 : Fin 256 → EReal)
    (h0 : ∀ R k, (V c (Pipeline.arrRef spec1 0) : S262144x4.Idx → EReal) (ix2 R k) = X R k)
    (h1 : ∀ R, (V c (Pipeline.arrRef spec1 1) : S262144x1.Idx → EReal) (ix2 R (0 : Fin 1)) = M R)
    (h2 : ∀ k j, (V c (Pipeline.arrRef spec1 2) : S4x256.Idx → EReal) (ix2 k j) = W1 k j)
    (h3 : ∀ j, (V c (Pipeline.arrRef spec1 3) : S1x256.Idx → EReal) (ix2 (0 : Fin 1) j) = b1 j)
    (h4 : ∀ j, (V c (Pipeline.arrRef spec1 4) : S1x256.Idx → EReal) (ix2 (0 : Fin 1) j) = mu1 j)
    (h5 : ∀ j, (V c (Pipeline.arrRef spec1 5) : S1x256.Idx → EReal) (ix2 (0 : Fin 1) j) = var1 j)
    (h6 : ∀ j, (V c (Pipeline.arrRef spec1 6) : S1x256.Idx → EReal) (ix2 (0 : Fin 1) j) = g1 j)
    (h7 : ∀ j, (V c (Pipeline.arrRef spec1 7) : S1x256.Idx → EReal) (ix2 (0 : Fin 1) j) = be1 j)
    (h8 : ∀ k j, (V c (Pipeline.arrRef spec1 8) : S256x256.Idx → EReal) (ix2 k j) = W2 k j)
    (h9 : ∀ j, (V c (Pipeline.arrRef spec1 9) : S1x256.Idx → EReal) (ix2 (0 : Fin 1) j) = b2 j)
    (j : Fin 256) :
    accSq1 V c j 63 = msumsq (dense (normReluWith mu1 var1 g1 be1 (dense X W1 b1)) W2 b2) M j := by
  unfold msumsq
  refine acc_blocks_eq_sum (fun R => (dense (normReluWith mu1 var1 g1 be1 (dense X W1 b1)) W2 b2 R j * M R) * dense (normReluWith mu1 var1 g1 be1 (dense X W1 b1)) W2 b2 R j) (accSq1 V c j) ?_ ?_
  · have hp : 0 < cfg1.N := lt_N1 (by norm_num)
    unfold accSq1
    rw [dif_pos hp]
    show (outsAt1 V c 0 hp).2.2.2 (ix2 (0 : Fin 1) j) = _
    rw [(rows1_zero V c hp).2, step1_sq V c X M W1 b1 mu1 var1 g1 be1 W2 b2 h0 h1 h2 h3 h4 h5 h6 h7 h8 h9 ⟨0, hp⟩ (k1_pay6 (F := Ideal)) j]
    refine congrArg (· + _) ?_
    exact k1_pay6_apply j
  · intro n hn
    have hN : n + 1 < cfg1.N := lt_N1 hn
    unfold accSq1
    rw [dif_pos hN, dif_pos (Nat.lt_of_succ_lt hN)]
    show (outsAt1 V c (n + 1) hN).2.2.2 (ix2 (0 : Fin 1) j) = _
    rw [(rows1_succ V c n hN).2, step1_sq V c X M W1 b1 mu1 var1 g1 be1 W2 b2 h0 h1 h2 h3 h4 h5 h6 h7 h8 h9 ⟨n + 1, hN⟩ _ j]
    rfl

/-- THE REGION'S VALUE: its two output arrays are the masked column sums, and sums of squares, of the network's
    second pre-activation over all rows. -/
theorem region1_sums (c : Dev nD) (X : Fin Rows → Fin 4 → EReal) (M : Fin Rows → EReal) (W1 : Fin 4 → Fin 256 → EReal)
    (b1 mu1 var1 g1 be1 : Fin 256 → EReal) (W2 : Fin 256 → Fin 256 → EReal) (b2 : Fin 256 → EReal)
    (h0 : ∀ R k, (V c (Pipeline.arrRef spec1 0) : S262144x4.Idx → EReal) (ix2 R k) = X R k)
    (h1 : ∀ R, (V c (Pipeline.arrRef spec1 1) : S262144x1.Idx → EReal) (ix2 R (0 : Fin 1)) = M R)
    (h2 : ∀ k j, (V c (Pipeline.arrRef spec1 2) : S4x256.Idx → EReal) (ix2 k j) = W1 k j)
    (h3 : ∀ j, (V c (Pipeline.arrRef spec1 3) : S1x256.Idx → EReal) (ix2 (0 : Fin 1) j) = b1 j)
    (h4 : ∀ j, (V c (Pipeline.arrRef spec1 4) : S1x256.Idx → EReal) (ix2 (0 : Fin 1) j) = mu1 j)
    (h5 : ∀ j, (V c (Pipeline.arrRef spec1 5) : S1x256.Idx → EReal) (ix2 (0 : Fin 1) j) = var1 j)
    (h6 : ∀ j, (V c (Pipeline.arrRef spec1 6) : S1x256.Idx → EReal) (ix2 (0 : Fin 1) j) = g1 j)
    (h7 : ∀ j, (V c (Pipeline.arrRef spec1 7) : S1x256.Idx → EReal) (ix2 (0 : Fin 1) j) = be1 j)
    (h8 : ∀ k j, (V c (Pipeline.arrRef spec1 8) : S256x256.Idx → EReal) (ix2 k j) = W2 k j)
    (h9 : ∀ j, (V c (Pipeline.arrRef spec1 9) : S1x256.Idx → EReal) (ix2 (0 : Fin 1) j) = b2 j)
    (j : Fin 256) :
    ((dat1 V c).arrAt 10 cfg1.N : S1x256.Idx → EReal) (ix2 (0 : Fin 1) j)
        = msum (dense (normReluWith mu1 var1 g1 be1 (dense X W1 b1)) W2 b2) M j
    ∧ ((dat1 V c).arrAt 11 cfg1.N : S1x256.Idx → EReal) (ix2 (0 : Fin 1) j)
        = msumsq (dense (normReluWith mu1 var1 g1 be1 (dense X W1 b1)) W2 b2) M j := by
  have h63 : 63 < cfg1.N := lt_N1 (by norm_num)
  have hl0 : ¬(last1 : Fin cfg1.N).val % 64 = 0 := show ¬(63 % 64 = 0) by decide
  have hl1 : (last1 : Fin cfg1.N).val % 64 = 63 := show 63 % 64 = 63 by decide
  obtain ⟨o0, o1⟩ := outs1_last V c last1 hl0 hl1
  have hb : outsAt1 V c (last1 : Fin cfg1.N).val (last1 : Fin cfg1.N).isLt = outsAt1 V c 63 h63 := rfl
  refine ⟨?_, ?_⟩
  · rw [final1_10 V c, after1_10, o0, hb]
    have e := accSum1_last V c X M W1 b1 mu1 var1 g1 be1 W2 b2 h0 h1 h2 h3 h4 h5 h6 h7 h8 h9 j
    unfold accSum1 at e
    rw [dif_pos h63] at e
    show rowOf (outsAt1 V c 63 h63).2.2.1 j = _
    exact e
  · rw [final1_11 V c, after1_11, o1, hb]
    have e := accSq1_last V c X M W1 b1 mu1 var1 g1 be1 W2 b2 h0 h1 h2 h3 h4 h5 h6 h7 h8 h9 j
    unfold accSq1 at e
    rw [dif_pos h63] at e
    show rowOf (outsAt1 V c 63 h63).2.2.2 j = _
    exact e

end Cert.KernelIdeal.NetValue

end
-- ==== Proof.BlockRows2.lean ====
/-
  The final region's input blocks as parts of their arrays.

  A block's coordinate in its array is, on each axis, the block index times the block's size plus the coordinate
  inside the block. The two row windows move down the rows with the grid: at point t their block index is (t, 0),
  so the block is rows 4096 t … 4096 t + 4095. Every other input window has the block index (0, 0) at every point
  and a block as large as its array: the block is the array.
-/
import proofs.«171056_j68092411510797_1_alg».proof.Proof.FrameR2
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-- A grid point's rows lie inside the array: point t holds rows 4096 t … 4096 t + 4095 of 262144. -/
theorem row_lt2 (t : Fin cfg2.N) (r : Fin 4096) : t.val * 4096 + r.val < 262144 := by
  have h : t.val < 64 := Nat.lt_of_lt_of_eq t.isLt N_2
  have hr := r.isLt
  omega

/-- Window 0's block index at point t is (t, 0): decided over the grid. -/
theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)

/-- Window 0's block at point t is rows 4096 t … 4096 t + 4095 of its array. -/
theorem iblk2_0_apply (c : Dev nD) (t : Fin cfg2.N) (r : Fin 4096) (k : Fin 4) :
    (iblk2 V c 0 t : Vec F S4096x4 .f32) (ix2 r k)
      = (V c (Pipeline.arrRef spec2 0) : S262144x4.Idx → Elt F .f32) (ix2 ⟨t.val * 4096 + r.val, row_lt2 t r⟩ k) := by
  obtain ⟨h0, h1⟩ := idx2_0 t
  unfold iblk2
  rw [View.read_apply]
  show (V c (Pipeline.arrRef spec2 0) : S262144x4.Idx → Elt F .f32) _ = _
  congr 1
  funext a
  apply Fin.ext
  match a with
  | ⟨0, _⟩ => show win2_0.index t (0 : Fin 2) * 4096 + 1 * r.val = t.val * 4096 + r.val; rw [h0]; omega
  | ⟨1, _⟩ => show win2_0.index t (1 : Fin 2) * 4 + 1 * k.val = k.val; rw [h1]; omega

/-- Window 1's block index at point t is (t, 0): decided over the grid. -/
theorem idx2_1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)

/-- Window 1's block at point t is rows 4096 t … 4096 t + 4095 of its array. -/
theorem iblk2_1_apply (c : Dev nD) (t : Fin cfg2.N) (r : Fin 4096) (k : Fin 1) :
    (iblk2 V c 1 t : Vec F S4096x1 .f32) (ix2 r k)
      = (V c (Pipeline.arrRef spec2 1) : S262144x1.Idx → Elt F .f32) (ix2 ⟨t.val * 4096 + r.val, row_lt2 t r⟩ k) := by
  obtain ⟨h0, h1⟩ := idx2_1 t
  unfold iblk2
  rw [View.read_apply]
  show (V c (Pipeline.arrRef spec2 1) : S262144x1.Idx → Elt F .f32) _ = _
  congr 1
  funext a
  apply Fin.ext
  match a with
  | ⟨0, _⟩ => show win2_1.index t (0 : Fin 2) * 4096 + 1 * r.val = t.val * 4096 + r.val; rw [h0]; omega
  | ⟨1, _⟩ => show win2_1.index t (1 : Fin 2) * 1 + 1 * k.val = k.val; rw [h1]; omega

/-- Window 2's block index is (0, 0) at every point: decided over the grid. -/
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)

/-- Window 2's one block is its whole array, at every point. -/
theorem iblk2_2_eq (c : Dev nD) (t : Fin cfg2.N) :
    (iblk2 V c 2 t : Vec F S4x256 .f32) = (V c (Pipeline.arrRef spec2 2) : S4x256.Idx → Elt F .f32) := by
  obtain ⟨h0, h1⟩ := idx2_2 t
  funext j
  unfold iblk2
  rw [View.read_apply]
  show (V c (Pipeline.arrRef spec2 2) : S4x256.Idx → Elt F .f32) _ = _
  congr 1
  funext a
  apply Fin.ext
  match a with
  | ⟨0, _⟩ => show win2_2.index t (0 : Fin 2) * 4 + 1 * (j 0).val = (j 0).val; rw [h0]; omega
  | ⟨1, _⟩ => show win2_2.index t (1 : Fin 2) * 256 + 1 * (j 1).val = (j 1).val; rw [h1]; omega

/-- Window 3's block index is (0, 0) at every point: decided over the grid. -/
theorem idx2_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)

/-- Window 3's one block is its whole array, at every point. -/
theorem iblk2_3_eq (c : Dev nD) (t : Fin cfg2.N) :
    (iblk2 V c 3 t : Vec F S1x256 .f32) = (V c (Pipeline.arrRef spec2 3) : S1x256.Idx → Elt F .f32) := by
  obtain ⟨h0, h1⟩ := idx2_3 t
  funext j
  unfold iblk2
  rw [View.read_apply]
  show (V c (Pipeline.arrRef spec2 3) : S1x256.Idx → Elt F .f32) _ = _
  congr 1
  funext a
  apply Fin.ext
  match a with
  | ⟨0, _⟩ => show win2_3.index t (0 : Fin 2) * 1 + 1 * (j 0).val = (j 0).val; rw [h0]; omega
  | ⟨1, _⟩ => show win2_3.index t (1 : Fin 2) * 256 + 1 * (j 1).val = (j 1).val; rw [h1]; omega

/-- Window 4's block index is (0, 0) at every point: decided over the grid. -/
theorem idx2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)

/-- Window 4's one block is its whole array, at every point. -/
theorem iblk2_4_eq (c : Dev nD) (t : Fin cfg2.N) :
    (iblk2 V c 4 t : Vec F S1x256 .f32) = (V c (Pipeline.arrRef spec2 4) : S1x256.Idx → Elt F .f32) := by
  obtain ⟨h0, h1⟩ := idx2_4 t
  funext j
  unfold iblk2
  rw [View.read_apply]
  show (V c (Pipeline.arrRef spec2 4) : S1x256.Idx → Elt F .f32) _ = _
  congr 1
  funext a
  apply Fin.ext
  match a with
  | ⟨0, _⟩ => show win2_4.index t (0 : Fin 2) * 1 + 1 * (j 0).val = (j 0).val; rw [h0]; omega
  | ⟨1, _⟩ => show win2_4.index t (1 : Fin 2) * 256 + 1 * (j 1).val = (j 1).val; rw [h1]; omega

/-- Window 5's block index is (0, 0) at every point: decided over the grid. -/
theorem idx2_5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)

/-- Window 5's one block is its whole array, at every point. -/
theorem iblk2_5_eq (c : Dev nD) (t : Fin cfg2.N) :
    (iblk2 V c 5 t : Vec F S1x256 .f32) = (V c (Pipeline.arrRef spec2 5) : S1x256.Idx → Elt F .f32) := by
  obtain ⟨h0, h1⟩ := idx2_5 t
  funext j
  unfold iblk2
  rw [View.read_apply]
  show (V c (Pipeline.arrRef spec2 5) : S1x256.Idx → Elt F .f32) _ = _
  congr 1
  funext a
  apply Fin.ext
  match a with
  | ⟨0, _⟩ => show win2_5.index t (0 : Fin 2) * 1 + 1 * (j 0).val = (j 0).val; rw [h0]; omega
  | ⟨1, _⟩ => show win2_5.index t (1 : Fin 2) * 256 + 1 * (j 1).val = (j 1).val; rw [h1]; omega

/-- Window 6's block index is (0, 0) at every point: decided over the grid. -/
theorem idx2_6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)

/-- Window 6's one block is its whole array, at every point. -/
theorem iblk2_6_eq (c : Dev nD) (t : Fin cfg2.N) :
    (iblk2 V c 6 t : Vec F S1x256 .f32) = (V c (Pipeline.arrRef spec2 6) : S1x256.Idx → Elt F .f32) := by
  obtain ⟨h0, h1⟩ := idx2_6 t
  funext j
  unfold iblk2
  rw [View.read_apply]
  show (V c (Pipeline.arrRef spec2 6) : S1x256.Idx → Elt F .f32) _ = _
  congr 1
  funext a
  apply Fin.ext
  match a with
  | ⟨0, _⟩ => show win2_6.index t (0 : Fin 2) * 1 + 1 * (j 0).val = (j 0).val; rw [h0]; omega
  | ⟨1, _⟩ => show win2_6.index t (1 : Fin 2) * 256 + 1 * (j 1).val = (j 1).val; rw [h1]; omega

/-- Window 7's block index is (0, 0) at every point: decided over the grid. -/
theorem idx2_7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)

/-- Window 7's one block is its whole array, at every point. -/
theorem iblk2_7_eq (c : Dev nD) (t : Fin cfg2.N) :
    (iblk2 V c 7 t : Vec F S1x256 .f32) = (V c (Pipeline.arrRef spec2 7) : S1x256.Idx → Elt F .f32) := by
  obtain ⟨h0, h1⟩ := idx2_7 t
  funext j
  unfold iblk2
  rw [View.read_apply]
  show (V c (Pipeline.arrRef spec2 7) : S1x256.Idx → Elt F .f32) _ = _
  congr 1
  funext a
  apply Fin.ext
  match a with
  | ⟨0, _⟩ => show win2_7.index t (0 : Fin 2) * 1 + 1 * (j 0).val = (j 0).val; rw [h0]; omega
  | ⟨1, _⟩ => show win2_7.index t (1 : Fin 2) * 256 + 1 * (j 1).val = (j 1).val; rw [h1]; omega

/-- Window 8's block index is (0, 0) at every point: decided over the grid. -/
theorem idx2_8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)

/-- Window 8's one block is its whole array, at every point. -/
theorem iblk2_8_eq (c : Dev nD) (t : Fin cfg2.N) :
    (iblk2 V c 8 t : Vec F S256x256 .bf16) = (V c (Pipeline.arrRef spec2 8) : S256x256.Idx → Elt F .bf16) := by
  obtain ⟨h0, h1⟩ := idx2_8 t
  funext j
  unfold iblk2
  rw [View.read_apply]
  show (V c (Pipeline.arrRef spec2 8) : S256x256.Idx → Elt F .bf16) _ = _
  congr 1
  funext a
  apply Fin.ext
  match a with
  | ⟨0, _⟩ => show win2_8.index t (0 : Fin 2) * 256 + 1 * (j 0).val = (j 0).val; rw [h0]; omega
  | ⟨1, _⟩ => show win2_8.index t (1 : Fin 2) * 256 + 1 * (j 1).val = (j 1).val; rw [h1]; omega

/-- Window 9's block index is (0, 0) at every point: decided over the grid. -/
theorem idx2_9 : ∀ t : Fin cfg2.N, win2_9.index t (0 : Fin 2) = 0 ∧ win2_9.index t (1 : Fin 2) = 0 :=
  (by decide +kernel : ∀ t : Fin grid2.N, win2_9.index t (0 : Fin 2) = 0 ∧ win2_9.index t (1 : Fin 2) = 0)

/-- Window 9's one block is its whole array, at every point. -/
theorem iblk2_9_eq (c : Dev nD) (t : Fin cfg2.N) :
    (iblk2 V c 9 t : Vec F S1x256 .f32) = (V c (Pipeline.arrRef spec2 9) : S1x256.Idx → Elt F .f32) := by
  obtain ⟨h0, h1⟩ := idx2_9 t
  funext j
  unfold iblk2
  rw [View.read_apply]
  show (V c (Pipeline.arrRef spec2 9) : S1x256.Idx → Elt F .f32) _ = _
  congr 1
  funext a
  apply Fin.ext
  match a with
  | ⟨0, _⟩ => show win2_9.index t (0 : Fin 2) * 1 + 1 * (j 0).val = (j 0).val; rw [h0]; omega
  | ⟨1, _⟩ => show win2_9.index t (1 : Fin 2) * 256 + 1 * (j 1).val = (j 1).val; rw [h1]; omega

/-- Window 10's block index is (0, 0) at every point: decided over the grid. -/
theorem idx2_10 : ∀ t : Fin cfg2.N, win2_10.index t (0 : Fin 2) = 0 ∧ win2_10.index t (1 : Fin 2) = 0 :=
  (by decide +kernel : ∀ t : Fin grid2.N, win2_10.index t (0 : Fin 2) = 0 ∧ win2_10.index t (1 : Fin 2) = 0)

/-- Window 10's one block is its whole array, at every point. -/
theorem iblk2_10_eq (c : Dev nD) (t : Fin cfg2.N) :
    (iblk2 V c 10 t : Vec F S1x256 .f32) = (V c (Pipeline.arrRef spec2 10) : S1x256.Idx → Elt F .f32) := by
  obtain ⟨h0, h1⟩ := idx2_10 t
  funext j
  unfold iblk2
  rw [View.read_apply]
  show (V c (Pipeline.arrRef spec2 10) : S1x256.Idx → Elt F .f32) _ = _
  congr 1
  funext a
  apply Fin.ext
  match a with
  | ⟨0, _⟩ => show win2_10.index t (0 : Fin 2) * 1 + 1 * (j 0).val = (j 0).val; rw [h0]; omega
  | ⟨1, _⟩ => show win2_10.index t (1 : Fin 2) * 256 + 1 * (j 1).val = (j 1).val; rw [h1]; omega

/-- Window 11's block index is (0, 0) at every point: decided over the grid. -/
theorem idx2_11 : ∀ t : Fin cfg2.N, win2_11.index t (0 : Fin 2) = 0 ∧ win2_11.index t (1 : Fin 2) = 0 :=
  (by decide +kernel : ∀ t : Fin grid2.N, win2_11.index t (0 : Fin 2) = 0 ∧ win2_11.index t (1 : Fin 2) = 0)

/-- Window 11's one block is its whole array, at every point. -/
theorem iblk2_11_eq (c : Dev nD) (t : Fin cfg2.N) :
    (iblk2 V c 11 t : Vec F S1x256 .f32) = (V c (Pipeline.arrRef spec2 11) : S1x256.Idx → Elt F .f32) := by
  obtain ⟨h0, h1⟩ := idx2_11 t
  funext j
  unfold iblk2
  rw [View.read_apply]
  show (V c (Pipeline.arrRef spec2 11) : S1x256.Idx → Elt F .f32) _ = _
  congr 1
  funext a
  apply Fin.ext
  match a with
  | ⟨0, _⟩ => show win2_11.index t (0 : Fin 2) * 1 + 1 * (j 0).val = (j 0).val; rw [h0]; omega
  | ⟨1, _⟩ => show win2_11.index t (1 : Fin 2) * 256 + 1 * (j 1).val = (j 1).val; rw [h1]; omega

/-- Window 12's block index is (0, 0) at every point: decided over the grid. -/
theorem idx2_12 : ∀ t : Fin cfg2.N, win2_12.index t (0 : Fin 2) = 0 ∧ win2_12.index t (1 : Fin 2) = 0 :=
  (by decide +kernel : ∀ t : Fin grid2.N, win2_12.index t (0 : Fin 2) = 0 ∧ win2_12.index t (1 : Fin 2) = 0)

/-- Window 12's one block is its whole array, at every point. -/
theorem iblk2_12_eq (c : Dev nD) (t : Fin cfg2.N) :
    (iblk2 V c 12 t : Vec F S1x256 .f32) = (V c (Pipeline.arrRef spec2 12) : S1x256.Idx → Elt F .f32) := by
  obtain ⟨h0, h1⟩ := idx2_12 t
  funext j
  unfold iblk2
  rw [View.read_apply]
  show (V c (Pipeline.arrRef spec2 12) : S1x256.Idx → Elt F .f32) _ = _
  congr 1
  funext a
  apply Fin.ext
  match a with
  | ⟨0, _⟩ => show win2_12.index t (0 : Fin 2) * 1 + 1 * (j 0).val = (j 0).val; rw [h0]; omega
  | ⟨1, _⟩ => show win2_12.index t (1 : Fin 2) * 256 + 1 * (j 1).val = (j 1).val; rw [h1]; omega

/-- Window 13's block index is (0, 0) at every point: decided over the grid. -/
theorem idx2_13 : ∀ t : Fin cfg2.N, win2_13.index t (0 : Fin 2) = 0 ∧ win2_13.index t (1 : Fin 2) = 0 :=
  (by decide +kernel : ∀ t : Fin grid2.N, win2_13.index t (0 : Fin 2) = 0 ∧ win2_13.index t (1 : Fin 2) = 0)

/-- Window 13's one block is its whole array, at every point. -/
theorem iblk2_13_eq (c : Dev nD) (t : Fin cfg2.N) :
    (iblk2 V c 13 t : Vec F S1x256 .f32) = (V c (Pipeline.arrRef spec2 13) : S1x256.Idx → Elt F .f32) := by
  obtain ⟨h0, h1⟩ := idx2_13 t
  funext j
  unfold iblk2
  rw [View.read_apply]
  show (V c (Pipeline.arrRef spec2 13) : S1x256.Idx → Elt F .f32) _ = _
  congr 1
  funext a
  apply Fin.ext
  match a with
  | ⟨0, _⟩ => show win2_13.index t (0 : Fin 2) * 1 + 1 * (j 0).val = (j 0).val; rw [h0]; omega
  | ⟨1, _⟩ => show win2_13.index t (1 : Fin 2) * 256 + 1 * (j 1).val = (j 1).val; rw [h1]; omega

/-- Window 14's block index is (0, 0) at every point: decided over the grid. -/
theorem idx2_14 : ∀ t : Fin cfg2.N, win2_14.index t (0 : Fin 2) = 0 ∧ win2_14.index t (1 : Fin 2) = 0 :=
  (by decide +kernel : ∀ t : Fin grid2.N, win2_14.index t (0 : Fin 2) = 0 ∧ win2_14.index t (1 : Fin 2) = 0)

/-- Window 14's one block is its whole array, at every point. -/
theorem iblk2_14_eq (c : Dev nD) (t : Fin cfg2.N) :
    (iblk2 V c 14 t : Vec F S256x256 .bf16) = (V c (Pipeline.arrRef spec2 14) : S256x256.Idx → Elt F .bf16) := by
  obtain ⟨h0, h1⟩ := idx2_14 t
  funext j
  unfold iblk2
  rw [View.read_apply]
  show (V c (Pipeline.arrRef spec2 14) : S256x256.Idx → Elt F .bf16) _ = _
  congr 1
  funext a
  apply Fin.ext
  match a with
  | ⟨0, _⟩ => show win2_14.index t (0 : Fin 2) * 256 + 1 * (j 0).val = (j 0).val; rw [h0]; omega
  | ⟨1, _⟩ => show win2_14.index t (1 : Fin 2) * 256 + 1 * (j 1).val = (j 1).val; rw [h1]; omega

/-- Window 15's block index is (0, 0) at every point: decided over the grid. -/
theorem idx2_15 : ∀ t : Fin cfg2.N, win2_15.index t (0 : Fin 2) = 0 ∧ win2_15.index t (1 : Fin 2) = 0 :=
  (by decide +kernel : ∀ t : Fin grid2.N, win2_15.index t (0 : Fin 2) = 0 ∧ win2_15.index t (1 : Fin 2) = 0)

/-- Window 15's one block is its whole array, at every point. -/
theorem iblk2_15_eq (c : Dev nD) (t : Fin cfg2.N) :
    (iblk2 V c 15 t : Vec F S1x256 .f32) = (V c (Pipeline.arrRef spec2 15) : S1x256.Idx → Elt F .f32) := by
  obtain ⟨h0, h1⟩ := idx2_15 t
  funext j
  unfold iblk2
  rw [View.read_apply]
  show (V c (Pipeline.arrRef spec2 15) : S1x256.Idx → Elt F .f32) _ = _
  congr 1
  funext a
  apply Fin.ext
  match a with
  | ⟨0, _⟩ => show win2_15.index t (0 : Fin 2) * 1 + 1 * (j 0).val = (j 0).val; rw [h0]; omega
  | ⟨1, _⟩ => show win2_15.index t (1 : Fin 2) * 256 + 1 * (j 1).val = (j 1).val; rw [h1]; omega

end Cert.KernelIdeal.Frame

end
-- ==== Proof.BlockRows2Final.lean ====
/-
  The final region's output array is determined by its blocks.

  At point t the output window's block index is (t, 0) and every point writes its block back, so point t writes
  rows 4096 t … 4096 t + 4095, and row R is covered by point R / 4096. Hence, if what the body leaves for the output
  at every point t is rows 4096 t … of one function G of the whole array's index, the array ends holding G.
-/
import proofs.«171056_j68092411510797_1_alg».proof.Proof.FrameR2Body
import proofs.«171056_j68092411510797_1_alg».proof.Proof.BlockRows2
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-- The output window's block index at point t is (t, 0): decided over the grid. -/
theorem idx2_16 : ∀ t : Fin cfg2.N, win2_16.index t (0 : Fin 2) = t.val ∧ win2_16.index t (1 : Fin 2) = 0 :=
  (by decide +kernel : ∀ t : Fin grid2.N, win2_16.index t (0 : Fin 2) = t.val ∧ win2_16.index t (1 : Fin 2) = 0)

/-- An index of the output array is in point t's block iff each coordinate is in the block's range on its axis. -/
theorem mem_blk2_16 (t : Fin cfg2.N) (i : S262144x256.Idx) :
    i ∈ ((cfg2.win 16).blk t).view.set ↔
      ∀ a : Fin 2, win2_16.index t a * S4096x256.size a ≤ (i a).val ∧ (i a).val < win2_16.index t a * S4096x256.size a + S4096x256.size a := by
  show i ∈ ((View.whole main_v30).slice (win2_16.rect t)).set ↔ _
  rw [View.set_slice_whole, Rect.mem_set_unit]
  exact Iff.rfl

/-- What point t writes back is rows 4096 t … 4096 t + 4095 of G, when the body's result there is. -/
theorem flushed2_16_eq (c : Dev nD) (G : S262144x256.Idx → Elt F .f32)
    (hG : ∀ (t : Fin cfg2.N) (r : Fin 4096) (j : Fin 256),
      ((dat2 V c).after 16 t : Vec F S4096x256 .f32) (ix2 r j) = G (ix2 ⟨t.val * 4096 + r.val, row_lt2 t r⟩ j))
    (t : Fin cfg2.N) :
    (dat2 V c).flushed 16 t = ((cfg2.win 16).blk t).view.read (Elt F) G := by
  obtain ⟨h0, h1⟩ := idx2_16 t
  funext y
  obtain ⟨r, j, rfl⟩ : ∃ (r : Fin 4096) (j : Fin 256), y = ix2 r j := ⟨y 0, y 1, eq_ix2 y⟩
  show ((dat2 V c).after 16 t : Vec F S4096x256 .f32) (ix2 r j) = _
  rw [hG t r j, View.read_apply]
  show G _ = G _
  congr 1
  funext a
  apply Fin.ext
  match a with
  | ⟨0, _⟩ => show t.val * 4096 + r.val = win2_16.index t (0 : Fin 2) * 4096 + 1 * r.val; rw [h0]; omega
  | ⟨1, _⟩ => show j.val = win2_16.index t (1 : Fin 2) * 256 + 1 * j.val; rw [h1]; omega

/-- THE OUTPUT ARRAY after the region: G, when the body's result at every point is that point's rows of G. -/
theorem final2 (c : Dev nD) (G : S262144x256.Idx → Elt F .f32)
    (hG : ∀ (t : Fin cfg2.N) (r : Fin 4096) (j : Fin 256),
      ((dat2 V c).after 16 t : Vec F S4096x256 .f32) (ix2 r j) = G (ix2 ⟨t.val * 4096 + r.val, row_lt2 t r⟩ j)) :
    (dat2 V c).arrAt 16 cfg2.N = G := by
  refine (dat2 V c).arrAt_eq_of_cover 16 G (fun t _ => flushed2_16_eq V c G hG t) (fun i => ?_)
  have hi0 : (i 0).val < 262144 := (i 0).isLt
  have hi1 : (i 1).val < 256 := (i 1).isLt
  have hN : cfg2.N = 64 := N_2
  refine ⟨⟨(i 0).val / 4096, by rw [hN]; omega⟩, flush2_16 _, ?_⟩
  rw [mem_blk2_16]
  obtain ⟨h0, h1⟩ := idx2_16 ⟨(i 0).val / 4096, by rw [hN]; omega⟩
  intro a
  match a with
  | ⟨0, _⟩ =>
    show win2_16.index _ (0 : Fin 2) * 4096 ≤ (i 0).val ∧ (i 0).val < win2_16.index _ (0 : Fin 2) * 4096 + 4096
    rw [h0]
    show (i 0).val / 4096 * 4096 ≤ (i 0).val ∧ (i 0).val < (i 0).val / 4096 * 4096 + 4096
    omega
  | ⟨1, _⟩ =>
    show win2_16.index _ (1 : Fin 2) * 256 ≤ (i 1).val ∧ (i 1).val < win2_16.index _ (1 : Fin 2) * 256 + 256
    rw [h1]
    omega

end Cert.KernelIdeal.Frame

end
-- ==== Proof.PayloadFinal.lean ====
/-
  The final pass on one block of 4096 rows, read at an index.

  The pass recomputes the first layer's activation of the block and its product with the second layer's matrix; then,
  with the second layer's bias, mean and variance rows, the second activation, the third layer's dense map of it, and
  the product with the block's column of mask values. The mask column is passed on unchanged.
-/
import proofs.«171056_j68092411510797_1_alg».proof.Proof.Gen.KernelIdeal.Skeleton
import proofs.«171056_j68092411510797_1_alg».proof.Proof.Spec
import proofs.«171056_j68092411510797_1_alg».proof.Proof.Args
import proofs.«171056_j68092411510797_1_alg».proof.Proof.BlockReaders
import proofs.«171056_j68092411510797_1_alg».proof.Proof.PayloadOps
import proofs.«171056_j68092411510797_1_alg».proof.Proof.PayloadNorm
import proofs.«171056_j68092411510797_1_alg».proof.Proof.LibKeepdims
import proofs.«171056_j68092411510797_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.MaskedMlp Idealize.ShloMosaic Idealize.ShloMosaic.ValueIdx

/-- The mask column is passed on as it is. -/
theorem k2_pay2_eq (v2 : Vec Ideal S4096x1 .f32) : k2_pay2 v2 = v2 := by
  unfold k2_pay2
  simp only [shapeCast_self]

/-- The first activation of the block against the second layer's matrix (the bias comes later). -/
theorem k2_pay3_apply (v0 : Vec Ideal S4096x4 .f32) (v4 : Vec Ideal S4x256 .f32) (v6 v10 v14 v21 v25 : Vec Ideal S1x256 .f32)
    (v32 : Vec Ideal S256x256 .bf16) (r : Fin 4096) (j : Fin 256) :
    k2_pay3 v0 v4 v6 v10 v14 v21 v25 v32 (ix2 r j)
      = ∑ k, normReluWith (rowOf v10) (rowOf v14) (rowOf v21) (rowOf v25) (dense (matOf v0) (matOf v4) (rowOf v6)) r k
          * matOf v32 k j := by
  unfold k2_pay3
  simp only [shapeCast_self]
  rw [matmul256_apply]
  refine Finset.sum_congr rfl fun k _ => ?_
  rw [normRelu_chain_apply, addf_apply, matmul4_apply, broadcastTo_1b_ab_apply]
  rfl

/-- The rest of the pass on any block h of second-layer products: bias, normalise, scale, shift, rectify, the third
    dense layer, the mask. -/
theorem k2_pay1_apply (v3 : FVec Ideal S4096x1 .f32) (v34 : FVec Ideal S4096x256 .f32)
    (v35 v39 v43 v50 v54 : Vec Ideal S1x256 .f32) (v61 : Vec Ideal S256x256 .bf16) (v64 : Vec Ideal S1x256 .f32)
    (r : Fin 4096) (j : Fin 256) :
    k2_pay1 v3 v34 v35 v39 v43 v50 v54 v61 v64 (ix2 r j)
      = dense (normReluWith (rowOf v39) (rowOf v43) (rowOf v50) (rowOf v54)
            (fun r' k => matOf v34 r' k + rowOf v35 k)) (matOf v61) (rowOf v64) r j * colOf v3 r := by
  unfold k2_pay1
  simp only [shapeCast_self]
  rw [mulf_apply, addf_apply, matmul256_apply, broadcastTo_1b_ab_apply, Keepdims.broadcastTo_a1_ab_apply]
  unfold dense
  refine congrArg₂ (· * ·) (congrArg₂ (· + ·) (Finset.sum_congr rfl fun k _ => ?_) rfl) rfl
  rw [normRelu_chain_apply, addf_apply, broadcastTo_1b_ab_apply]
  rfl

/-- The whole final pass on the block: the three layers and the mask. -/
theorem k2_final_apply (v0 : Vec Ideal S4096x4 .f32) (v2 : Vec Ideal S4096x1 .f32) (v4 : Vec Ideal S4x256 .f32)
    (v6 v10 v14 v21 v25 : Vec Ideal S1x256 .f32) (v32 : Vec Ideal S256x256 .bf16)
    (v35 v39 v43 v50 v54 : Vec Ideal S1x256 .f32) (v61 : Vec Ideal S256x256 .bf16) (v64 : Vec Ideal S1x256 .f32)
    (r : Fin 4096) (j : Fin 256) :
    k2_pay1 (k2_pay2 v2) (k2_pay3 v0 v4 v6 v10 v14 v21 v25 v32) v35 v39 v43 v50 v54 v61 v64 (ix2 r j)
      = dense (normReluWith (rowOf v39) (rowOf v43) (rowOf v50) (rowOf v54)
            (dense (normReluWith (rowOf v10) (rowOf v14) (rowOf v21) (rowOf v25)
              (dense (matOf v0) (matOf v4) (rowOf v6))) (matOf v32) (rowOf v35)))
          (matOf v61) (rowOf v64) r j * colOf v2 r := by
  rw [k2_pay1_apply, k2_pay2_eq]
  have e : (fun (r' : Fin 4096) (k : Fin 256) => matOf (k2_pay3 v0 v4 v6 v10 v14 v21 v25 v32) r' k + rowOf v35 k)
      = dense (normReluWith (rowOf v10) (rowOf v14) (rowOf v21) (rowOf v25)
          (dense (matOf v0) (matOf v4) (rowOf v6))) (matOf v32) (rowOf v35) := by
    funext r' k
    show k2_pay3 v0 v4 v6 v10 v14 v21 v25 v32 (ix2 r' k) + rowOf v35 k = _
    rw [k2_pay3_apply]
    rfl
  rw [e]

end Cert.KernelIdeal.Payload

end
-- ==== Proof.Region2Value.lean ====
/-
  The value of the tiled program's final region.

  The final region walks the 262144 rows in 64 blocks of 4096. At each block it holds the block's rows of the input and
  of the mask, and the whole of every parameter: the three weight matrices, the three biases, and for each of the two
  normalisations a mean, a variance, a scale and a shift. Its body computes, for each row of the block, the first
  layer, the first normalisation and rectifier, the second layer, the second normalisation and rectifier, the last
  layer, and the product with the row's mask. Every one of these steps at a row reads that row only, so the block's
  result at its row r is the network's result at row t · 4096 + r, and the region's output array, written block by
  block, is the network's result at every row.
-/
import proofs.«171056_j68092411510797_1_alg».proof.Proof.BlockRows2Final
import proofs.«171056_j68092411510797_1_alg».proof.Proof.Pieces2
import proofs.«171056_j68092411510797_1_alg».proof.Proof.PayloadFinal
import proofs.«171056_j68092411510797_1_alg».proof.Proof.SpecCongr
import proofs.«171056_j68092411510797_1_alg».proof.Proof.Spec
import proofs.«171056_j68092411510797_1_alg».proof.Proof.Args
import proofs.«171056_j68092411510797_1_alg».proof.Proof.BlockReaders

noncomputable section

namespace Cert.KernelIdeal.NetValue

open Cert.KernelIdeal Cert.KernelIdeal.Gen Cert.KernelIdeal.Frame Cert.KernelIdeal.Payload Cert.MaskedMlp
open Idealize.ShloMosaic Idealize.ShloMosaic.TcCoe Idealize.ShloMosaic.ValueIdx
open Idealize.SL.Sem
open Idealize.ShloMosaic.Pipeline (Dat Cfg Window)

/-- One row of one block: when row r of the block's input and mask is row R of the network's, and the block's
    parameters are the network's, the body's result at (r, j) is the network's last layers at (R, j), masked. -/
theorem block_row (X : Fin Rows → Fin 4 → EReal) (M : Fin Rows → EReal) (W1 : Fin 4 → Fin 256 → EReal)
    (b1 mu1 var1 g1 be1 : Fin 256 → EReal) (W2 : Fin 256 → Fin 256 → EReal) (b2 mu2 var2 g2 be2 : Fin 256 → EReal)
    (W3 : Fin 256 → Fin 256 → EReal) (b3 : Fin 256 → EReal)
    (xb : Vec Ideal S4096x4 .f32) (mb : Vec Ideal S4096x1 .f32) (p2 : Vec Ideal S4x256 .f32)
    (p3 p4 p5 p6 p7 : Vec Ideal S1x256 .f32) (p8 : Vec Ideal S256x256 .bf16)
    (p9 p10 p11 p12 p13 : Vec Ideal S1x256 .f32) (p14 : Vec Ideal S256x256 .bf16) (p15 : Vec Ideal S1x256 .f32)
    (r : Fin 4096) (R : Fin Rows) (j : Fin 256)
    (e0 : ∀ k, xb (ix2 r k) = X R k)
    (e1 : mb (ix2 r (0 : Fin 1)) = M R)
    (e2 : ∀ k j', p2 (ix2 k j') = W1 k j')
    (e3 : ∀ j', p3 (ix2 (0 : Fin 1) j') = b1 j')
    (e4 : ∀ j', p4 (ix2 (0 : Fin 1) j') = mu1 j')
    (e5 : ∀ j', p5 (ix2 (0 : Fin 1) j') = var1 j')
    (e6 : ∀ j', p6 (ix2 (0 : Fin 1) j') = g1 j')
    (e7 : ∀ j', p7 (ix2 (0 : Fin 1) j') = be1 j')
    (e8 : ∀ k j', p8 (ix2 k j') = W2 k j')
    (e9 : ∀ j', p9 (ix2 (0 : Fin 1) j') = b2 j')
    (e10 : ∀ j', p10 (ix2 (0 : Fin 1) j') = mu2 j')
    (e11 : ∀ j', p11 (ix2 (0 : Fin 1) j') = var2 j')
    (e12 : ∀ j', p12 (ix2 (0 : Fin 1) j') = g2 j')
    (e13 : ∀ j', p13 (ix2 (0 : Fin 1) j') = be2 j')
    (e14 : ∀ k j', p14 (ix2 k j') = W3 k j')
    (e15 : ∀ j', p15 (ix2 (0 : Fin 1) j') = b3 j') :
    k2_pay1 (k2_pay2 mb) (k2_pay3 xb p2 p3 p4 p5 p6 p7 p8) p9 p10 p11 p12 p13 p14 p15 (ix2 r j)
      = dense (normReluWith mu2 var2 g2 be2 (dense (normReluWith mu1 var1 g1 be1 (dense X W1 b1)) W2 b2)) W3 b3 R j * M R := by
  have hW1 : matOf p2 = W1 := funext fun k => funext fun j' => e2 k j'
  have hW2 : matOf p8 = W2 := funext fun k => funext fun j' => e8 k j'
  have hW3 : matOf p14 = W3 := funext fun k => funext fun j' => e14 k j'
  have hb1 : rowOf p3 = b1 := funext e3
  have hmu1 : rowOf p4 = mu1 := funext e4
  have hvar1 : rowOf p5 = var1 := funext e5
  have hg1 : rowOf p6 = g1 := funext e6
  have hbe1 : rowOf p7 = be1 := funext e7
  have hb2 : rowOf p9 = b2 := funext e9
  have hmu2 : rowOf p10 = mu2 := funext e10
  have hvar2 : rowOf p11 = var2 := funext e11
  have hg2 : rowOf p12 = g2 := funext e12
  have hbe2 : rowOf p13 = be2 := funext e13
  have hb3 : rowOf p15 = b3 := funext e15
  have hM : colOf mb r = M R := e1
  rw [k2_final_apply, hW1, hW2, hW3, hb1, hmu1, hvar1, hg1, hbe1, hb2, hmu2, hvar2, hg2, hbe2, hb3, hM]
  refine congrArg (· * M R) ?_
  exact dense_congr _ _ W3 b3 r R j (fun k => normReluWith_congr mu2 var2 g2 be2 _ _ r R k
    (dense_congr _ _ W2 b2 r R k (fun k' => normReluWith_congr mu1 var1 g1 be1 _ _ r R k'
      (dense_congr _ _ W1 b1 r R k' (fun k'' => e0 k'')))))

variable (V : (c : Dev nD) → (b : Ref sig .tc) → Buf (Elt Ideal) ((c : Thread nD τ).loc b))

/-- The final region's output array is the network's last layers at every row, masked, when the region's window
    arrays hold the network's input, mask and parameters. -/
theorem region2_value (c : Dev nD) (X : Fin Rows → Fin 4 → EReal) (M : Fin Rows → EReal) (W1 : Fin 4 → Fin 256 → EReal)
    (b1 mu1 var1 g1 be1 : Fin 256 → EReal) (W2 : Fin 256 → Fin 256 → EReal) (b2 mu2 var2 g2 be2 : Fin 256 → EReal)
    (W3 : Fin 256 → Fin 256 → EReal) (b3 : Fin 256 → EReal)
    (h0 : ∀ R k, (V c (Pipeline.arrRef spec2 0) : S262144x4.Idx → EReal) (ix2 R k) = X R k)
    (h1 : ∀ R, (V c (Pipeline.arrRef spec2 1) : S262144x1.Idx → EReal) (ix2 R (0 : Fin 1)) = M R)
    (h2 : ∀ k j, (V c (Pipeline.arrRef spec2 2) : S4x256.Idx → EReal) (ix2 k j) = W1 k j)
    (h3 : ∀ j, (V c (Pipeline.arrRef spec2 3) : S1x256.Idx → EReal) (ix2 (0 : Fin 1) j) = b1 j)
    (h4 : ∀ j, (V c (Pipeline.arrRef spec2 4) : S1x256.Idx → EReal) (ix2 (0 : Fin 1) j) = mu1 j)
    (h5 : ∀ j, (V c (Pipeline.arrRef spec2 5) : S1x256.Idx → EReal) (ix2 (0 : Fin 1) j) = var1 j)
    (h6 : ∀ j, (V c (Pipeline.arrRef spec2 6) : S1x256.Idx → EReal) (ix2 (0 : Fin 1) j) = g1 j)
    (h7 : ∀ j, (V c (Pipeline.arrRef spec2 7) : S1x256.Idx → EReal) (ix2 (0 : Fin 1) j) = be1 j)
    (h8 : ∀ k j, (V c (Pipeline.arrRef spec2 8) : S256x256.Idx → EReal) (ix2 k j) = W2 k j)
    (h9 : ∀ j, (V c (Pipeline.arrRef spec2 9) : S1x256.Idx → EReal) (ix2 (0 : Fin 1) j) = b2 j)
    (h10 : ∀ j, (V c (Pipeline.arrRef spec2 10) : S1x256.Idx → EReal) (ix2 (0 : Fin 1) j) = mu2 j)
    (h11 : ∀ j, (V c (Pipeline.arrRef spec2 11) : S1x256.Idx → EReal) (ix2 (0 : Fin 1) j) = var2 j)
    (h12 : ∀ j, (V c (Pipeline.arrRef spec2 12) : S1x256.Idx → EReal) (ix2 (0 : Fin 1) j) = g2 j)
    (h13 : ∀ j, (V c (Pipeline.arrRef spec2 13) : S1x256.Idx → EReal) (ix2 (0 : Fin 1) j) = be2 j)
    (h14 : ∀ k j, (V c (Pipeline.arrRef spec2 14) : S256x256.Idx → EReal) (ix2 k j) = W3 k j)
    (h15 : ∀ j, (V c (Pipeline.arrRef spec2 15) : S1x256.Idx → EReal) (ix2 (0 : Fin 1) j) = b3 j) :
    ∀ (R : Fin Rows) (j : Fin 256),
      ((dat2 V c).arrAt 16 cfg2.N : S262144x256.Idx → EReal) (ix2 R j)
        = dense (normReluWith mu2 var2 g2 be2 (dense (normReluWith mu1 var1 g1 be1 (dense X W1 b1)) W2 b2)) W3 b3 R j * M R := by
  have hfinal := final2 V c
    (fun i : S262144x256.Idx =>
      dense (normReluWith mu2 var2 g2 be2 (dense (normReluWith mu1 var1 g1 be1 (dense X W1 b1)) W2 b2)) W3 b3 ⟨(i 0).val, (i 0).isLt⟩ ⟨(i 1).val, (i 1).isLt⟩ * M ⟨(i 0).val, (i 0).isLt⟩)
    (fun t r j => by
      rw [after2_16, out2_16_eq]
      exact block_row X M W1 b1 mu1 var1 g1 be1 W2 b2 mu2 var2 g2 be2 W3 b3
        (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t) (iblk2 V c 11 t)
        (iblk2 V c 12 t) (iblk2 V c 13 t) (iblk2 V c 14 t) (iblk2 V c 15 t)
        r ⟨t.val * 4096 + r.val, row_lt2 t r⟩ j
        (fun k => (iblk2_0_apply V c t r k).trans (h0 _ k))
        ((iblk2_1_apply V c t r (0 : Fin 1)).trans (h1 _))
        (fun k j' => (congrFun (iblk2_2_eq V c t) (ix2 k j')).trans (h2 k j'))
        (fun j' => (congrFun (iblk2_3_eq V c t) (ix2 (0 : Fin 1) j')).trans (h3 j'))
        (fun j' => (congrFun (iblk2_4_eq V c t) (ix2 (0 : Fin 1) j')).trans (h4 j'))
        (fun j' => (congrFun (iblk2_5_eq V c t) (ix2 (0 : Fin 1) j')).trans (h5 j'))
        (fun j' => (congrFun (iblk2_6_eq V c t) (ix2 (0 : Fin 1) j')).trans (h6 j'))
        (fun j' => (congrFun (iblk2_7_eq V c t) (ix2 (0 : Fin 1) j')).trans (h7 j'))
        (fun k j' => (congrFun (iblk2_8_eq V c t) (ix2 k j')).trans (h8 k j'))
        (fun j' => (congrFun (iblk2_9_eq V c t) (ix2 (0 : Fin 1) j')).trans (h9 j'))
        (fun j' => (congrFun (iblk2_10_eq V c t) (ix2 (0 : Fin 1) j')).trans (h10 j'))
        (fun j' => (congrFun (iblk2_11_eq V c t) (ix2 (0 : Fin 1) j')).trans (h11 j'))
        (fun j' => (congrFun (iblk2_12_eq V c t) (ix2 (0 : Fin 1) j')).trans (h12 j'))
        (fun j' => (congrFun (iblk2_13_eq V c t) (ix2 (0 : Fin 1) j')).trans (h13 j'))
        (fun k j' => (congrFun (iblk2_14_eq V c t) (ix2 k j')).trans (h14 k j'))
        (fun j' => (congrFun (iblk2_15_eq V c t) (ix2 (0 : Fin 1) j')).trans (h15 j')))
  intro R j
  rw [hfinal]

end Cert.KernelIdeal.NetValue

end
-- ==== Proof.KernelValue.lean ====
/-
  The tiled program's result in the network's words. The first statistics region leaves the masked column sums and sums of
  squares of the first pre-activation; dividing by the count gives its mean and moment variance, which the second statistics
  region normalises by before its own sums; those give the second mean and variance, which the final region uses; the last
  reshape lays the rows out as 512 × 512. Each region is entered from buffers whose contents are the network's pieces, because
  no item in between writes them.
-/
import proofs.«171056_j68092411510797_1_alg».proof.Proof.FoldFacts
import proofs.«171056_j68092411510797_1_alg».proof.Proof.Region0Value
import proofs.«171056_j68092411510797_1_alg».proof.Proof.Region1Value
import proofs.«171056_j68092411510797_1_alg».proof.Proof.Region2Value

set_option maxRecDepth 16384

noncomputable section

namespace Cert.KernelIdeal.NetValue

open Cert.KernelIdeal Cert.KernelIdeal.Gen Cert.KernelIdeal.Frame Cert.KernelIdeal.HostValue Cert.MaskedMlp
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The first statistics region -/

theorem sums1 (j : Fin 256) :
    (W2 m ρ c (Proc.devRef .tc main_v16_0) : S1x256.Idx → EReal) (ix2 (0 : Fin 1) j) = msum (pre1 m c) (nM m c) j
      ∧ (W2 m ρ c (Proc.devRef .tc main_v16_1) : S1x256.Idx → EReal) (ix2 (0 : Fin 1) j) = msumsq (pre1 m c) (nM m c) j := by
  have h := region0_sums (U1 m ρ) c (nX m c) (nM m c) (nW1 m c) (nb1 m c)
    (fun R k => w1_rows m ρ c R k) (fun R => w1_mask m ρ c R) (fun k j => w1_W1 m ρ c k j) (fun j => w1_b1 m ρ c j) j
  rw [show W2 m ρ c (Proc.devRef .tc main_v16_0) = (dat0 (U1 m ρ) c).arrAt 4 cfg0.N from W2_arr m ρ c 4,
    show W2 m ρ c (Proc.devRef .tc main_v16_1) = (dat0 (U1 m ρ) c).arrAt 5 cfg0.N from W2_arr m ρ c 5]
  exact h

theorem w2_count : (W2 m ρ c (Proc.devRef .tc main_v6) : S_.Idx → EReal) ix0 = Cert.MaskedMlp.count (nM m c) := by
  rw [W2_keep m ρ c main_v6 (by decide)]; exact w1_count m ρ c

theorem w3_mu1 (j : Fin 256) : (W3 m ρ c (Proc.devRef .tc main_v18) : S1x256.Idx → EReal) (ix2 (0 : Fin 1) j) = mu1 m c j :=
  mean_after1 (W2 m ρ c) (pre1 m c) (nM m c) j (sums1 m ρ c j).1 (w2_count m ρ c)
theorem w3_var1 (j : Fin 256) : (W3 m ρ c (Proc.devRef .tc main_v22) : S1x256.Idx → EReal) (ix2 (0 : Fin 1) j) = var1 m c j :=
  var_after1 (W2 m ρ c) (pre1 m c) (nM m c) j (sums1 m ρ c j).1 (sums1 m ρ c j).2 (w2_count m ρ c)

/-! ## The second statistics region -/

theorem sums2 (j : Fin 256) :
    (W4 m ρ c (Proc.devRef .tc main_v23_0) : S1x256.Idx → EReal) (ix2 (0 : Fin 1) j) = msum (pre2 m c) (nM m c) j
      ∧ (W4 m ρ c (Proc.devRef .tc main_v23_1) : S1x256.Idx → EReal) (ix2 (0 : Fin 1) j) = msumsq (pre2 m c) (nM m c) j := by
  have h := region1_sums (U3 m ρ) c (nX m c) (nM m c) (nW1 m c) (nb1 m c) (mu1 m c) (var1 m c) (ng1 m c) (nbe1 m c) (nW2 m c) (nb2 m c)
    (fun R k => by
      show (W3 m ρ c (Proc.devRef .tc main_v2) : S262144x4.Idx → EReal) (ix2 R k) = _
      rw [keep31 m ρ c main_v2 (by decide) (by decide)]; exact w1_rows m ρ c R k)
    (fun R => by
      show (W3 m ρ c (Proc.devRef .tc main_v4) : S262144x1.Idx → EReal) (ix2 R (0 : Fin 1)) = _
      rw [keep31 m ρ c main_v4 (by decide) (by decide)]; exact w1_mask m ρ c R)
    (fun k j => by
      show (W3 m ρ c (Proc.devRef .tc main_arg2) : S4x256.Idx → EReal) (ix2 k j) = _
      rw [keep31 m ρ c main_arg2 (by decide) (by decide)]; exact w1_W1 m ρ c k j)
    (fun j => by
      show (W3 m ρ c (Proc.devRef .tc main_v7) : S1x256.Idx → EReal) (ix2 (0 : Fin 1) j) = _
      rw [keep31 m ρ c main_v7 (by decide) (by decide)]; exact w1_b1 m ρ c j)
    (fun j => w3_mu1 m ρ c j) (fun j => w3_var1 m ρ c j)
    (fun j => by
      show (W3 m ρ c (Proc.devRef .tc main_v8) : S1x256.Idx → EReal) (ix2 (0 : Fin 1) j) = _
      rw [keep31 m ρ c main_v8 (by decide) (by decide)]; exact w1_g1 m ρ c j)
    (fun j => by
      show (W3 m ρ c (Proc.devRef .tc main_v9) : S1x256.Idx → EReal) (ix2 (0 : Fin 1) j) = _
      rw [keep31 m ρ c main_v9 (by decide) (by decide)]; exact w1_be1 m ρ c j)
    (fun k j => by
      show (W3 m ρ c (Proc.devRef .tc main_v14) : S256x256.Idx → EReal) (ix2 k j) = _
      rw [keep31 m ρ c main_v14 (by decide) (by decide)]; exact w1_W2 m ρ c k j)
    (fun j => by
      show (W3 m ρ c (Proc.devRef .tc main_v10) : S1x256.Idx → EReal) (ix2 (0 : Fin 1) j) = _
      rw [keep31 m ρ c main_v10 (by decide) (by decide)]; exact w1_b2 m ρ c j) j
  rw [show W4 m ρ c (Proc.devRef .tc main_v23_0) = (dat1 (U3 m ρ) c).arrAt 10 cfg1.N from W4_arr m ρ c 10,
    show W4 m ρ c (Proc.devRef .tc main_v23_1) = (dat1 (U3 m ρ) c).arrAt 11 cfg1.N from W4_arr m ρ c 11]
  exact h

theorem w4_count : (W4 m ρ c (Proc.devRef .tc main_v6) : S_.Idx → EReal) ix0 = Cert.MaskedMlp.count (nM m c) := by
  rw [W4_keep m ρ c main_v6 (by decide), keep31 m ρ c main_v6 (by decide) (by decide)]; exact w1_count m ρ c

theorem w5_mu2 (j : Fin 256) : (W5 m ρ c (Proc.devRef .tc main_v25) : S1x256.Idx → EReal) (ix2 (0 : Fin 1) j) = mu2 m c j :=
  mean_after2 (W4 m ρ c) (pre2 m c) (nM m c) j (sums2 m ρ c j).1 (w4_count m ρ c)
theorem w5_var2 (j : Fin 256) : (W5 m ρ c (Proc.devRef .tc main_v29) : S1x256.Idx → EReal) (ix2 (0 : Fin 1) j) = var2 m c j :=
  var_after2 (W4 m ρ c) (pre2 m c) (nM m c) j (sums2 m ρ c j).1 (sums2 m ρ c j).2 (w4_count m ρ c)

/-! ## The final region and the last reshape -/

theorem out6 (R : Fin Rows) (j : Fin 256) :
    (W6 m ρ c (Proc.devRef .tc main_v30) : S262144x256.Idx → EReal) (ix2 R j)
      = netMoments (nX m c) (nM m c) (nW1 m c) (nb1 m c) (ng1 m c) (nbe1 m c) (nW2 m c) (nb2 m c) (ng2 m c) (nbe2 m c) (nW3 m c) (nb3 m c) R j := by
  have h := region2_value (U5 m ρ) c (nX m c) (nM m c) (nW1 m c) (nb1 m c) (mu1 m c) (var1 m c) (ng1 m c) (nbe1 m c) (nW2 m c) (nb2 m c)
    (mu2 m c) (var2 m c) (ng2 m c) (nbe2 m c) (nW3 m c) (nb3 m c)
    (fun R k => by
      show (W5 m ρ c (Proc.devRef .tc main_v2) : S262144x4.Idx → EReal) (ix2 R k) = _
      rw [keep51 m ρ c main_v2 (by decide) (by decide) (by decide) (by decide)]; exact w1_rows m ρ c R k)
    (fun R => by
      show (W5 m ρ c (Proc.devRef .tc main_v4) : S262144x1.Idx → EReal) (ix2 R (0 : Fin 1)) = _
      rw [keep51 m ρ c main_v4 (by decide) (by decide) (by decide) (by decide)]; exact w1_mask m ρ c R)
    (fun k j => by
      show (W5 m ρ c (Proc.devRef .tc main_arg2) : S4x256.Idx → EReal) (ix2 k j) = _
      rw [keep51 m ρ c main_arg2 (by decide) (by decide) (by decide) (by decide)]; exact w1_W1 m ρ c k j)
    (fun j => by
      show (W5 m ρ c (Proc.devRef .tc main_v7) : S1x256.Idx → EReal) (ix2 (0 : Fin 1) j) = _
      rw [keep51 m ρ c main_v7 (by decide) (by decide) (by decide) (by decide)]; exact w1_b1 m ρ c j)
    (fun j => by
      show (W5 m ρ c (Proc.devRef .tc main_v18) : S1x256.Idx → EReal) (ix2 (0 : Fin 1) j) = _
      rw [keep53 m ρ c main_v18 (by decide) (by decide)]; exact w3_mu1 m ρ c j)
    (fun j => by
      show (W5 m ρ c (Proc.devRef .tc main_v22) : S1x256.Idx → EReal) (ix2 (0 : Fin 1) j) = _
      rw [keep53 m ρ c main_v22 (by decide) (by decide)]; exact w3_var1 m ρ c j)
    (fun j => by
      show (W5 m ρ c (Proc.devRef .tc main_v8) : S1x256.Idx → EReal) (ix2 (0 : Fin 1) j) = _
      rw [keep51 m ρ c main_v8 (by decide) (by decide) (by decide) (by decide)]; exact w1_g1 m ρ c j)
    (fun j => by
      show (W5 m ρ c (Proc.devRef .tc main_v9) : S1x256.Idx → EReal) (ix2 (0 : Fin 1) j) = _
      rw [keep51 m ρ c main_v9 (by decide) (by decide) (by decide) (by decide)]; exact w1_be1 m ρ c j)
    (fun k j => by
      show (W5 m ρ c (Proc.devRef .tc main_v14) : S256x256.Idx → EReal) (ix2 k j) = _
      rw [keep51 m ρ c main_v14 (by decide) (by decide) (by decide) (by decide)]; exact w1_W2 m ρ c k j)
    (fun j => by
      show (W5 m ρ c (Proc.devRef .tc main_v10) : S1x256.Idx → EReal) (ix2 (0 : Fin 1) j) = _
      rw [keep51 m ρ c main_v10 (by decide) (by decide) (by decide) (by decide)]; exact w1_b2 m ρ c j)
    (fun j => w5_mu2 m ρ c j) (fun j => w5_var2 m ρ c j)
    (fun j => by
      show (W5 m ρ c (Proc.devRef .tc main_v11) : S1x256.Idx → EReal) (ix2 (0 : Fin 1) j) = _
      rw [keep51 m ρ c main_v11 (by decide) (by decide) (by decide) (by decide)]; exact w1_g2 m ρ c j)
    (fun j => by
      show (W5 m ρ c (Proc.devRef .tc main_v12) : S1x256.Idx → EReal) (ix2 (0 : Fin 1) j) = _
      rw [keep51 m ρ c main_v12 (by decide) (by decide) (by decide) (by decide)]; exact w1_be2 m ρ c j)
    (fun k j => by
      show (W5 m ρ c (Proc.devRef .tc main_v15) : S256x256.Idx → EReal) (ix2 k j) = _
      rw [keep51 m ρ c main_v15 (by decide) (by decide) (by decide) (by decide)]; exact w1_W3 m ρ c k j)
    (fun j => by
      show (W5 m ρ c (Proc.devRef .tc main_v13) : S1x256.Idx → EReal) (ix2 (0 : Fin 1) j) = _
      rw [keep51 m ρ c main_v13 (by decide) (by decide) (by decide) (by decide)]; exact w1_b3 m ρ c j) R j
  rw [show W6 m ρ c (Proc.devRef .tc main_v30) = (dat2 (U5 m ρ) c).arrAt 16 cfg2.N from W6_arr m ρ c 16, netMoments_eq]
  exact h

/-- The program's result buffer at the end, entry by entry, is the network with moment variances. -/
theorem result7 (i : S512x512x256.Idx) :
    (W7 m ρ c (Proc.devRef .tc main_v31) : S512x512x256.Idx → EReal) i
      = netMoments (nX m c) (nM m c) (nW1 m c) (nb1 m c) (ng1 m c) (nbe1 m c) (nW2 m c) (nb2 m c) (ng2 m c) (nbe2 m c) (nW3 m c) (nb3 m c) (rowOfOut i) (i 2) :=
  (result_after (W6 m ρ c) i).trans (out6 m ρ c (rowOfOut i) (i 2))

/-- From any memory with zero counters every weakly fair execution of the tiled program terminates, nothing faulting; the result
    buffer ends at the network with moment variances of the argument arrays, and every argument array ends as launched. -/
theorem run_value : θ_run defs (onTc (τ := τ) (main (F := Ideal))) ⟨m, fun _ => 0, ρ⟩ (fun r => ∀ c : Dev nD,
      r.2.mem ((c.tc : Thread nD τ).loc main_v31)
        = (fun i : S512x512x256.Idx => netMoments (nX m c) (nM m c) (nW1 m c) (nb1 m c) (ng1 m c) (nbe1 m c) (nW2 m c) (nb2 m c) (ng2 m c) (nbe2 m c) (nW3 m c) (nb3 m c) (rowOfOut i) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v31 (by decide))).trans (funext fun i => result7 m ρ c i),
    (h c _ (mem_uc main_arg0 (by decide))).trans (W7_arg m ρ c main_arg0 (by decide) (by decide) (by decide) (by decide) (by decide) (by decide) (by decide)),
    (h c _ (mem_uc main_arg1 (by decide))).trans (W7_arg m ρ c main_arg1 (by decide) (by decide) (by decide) (by decide) (by decide) (by decide) (by decide)),
    (h c _ (mem_uc main_arg2 (by decide))).trans (W7_arg m ρ c main_arg2 (by decide) (by decide) (by decide) (by decide) (by decide) (by decide) (by decide)),
    (h c _ (mem_uc main_arg3 (by decide))).trans (W7_arg m ρ c main_arg3 (by decide) (by decide) (by decide) (by decide) (by decide) (by decide) (by decide)),
    (h c _ (mem_uc main_arg4 (by decide))).trans (W7_arg m ρ c main_arg4 (by decide) (by decide) (by decide) (by decide) (by decide) (by decide) (by decide)),
    (h c _ (mem_uc main_arg5 (by decide))).trans (W7_arg m ρ c main_arg5 (by decide) (by decide) (by decide) (by decide) (by decide) (by decide) (by decide)),
    (h c _ (mem_uc main_arg6 (by decide))).trans (W7_arg m ρ c main_arg6 (by decide) (by decide) (by decide) (by decide) (by decide) (by decide) (by decide)),
    (h c _ (mem_uc main_arg7 (by decide))).trans (W7_arg m ρ c main_arg7 (by decide) (by decide) (by decide) (by decide) (by decide) (by decide) (by decide)),
    (h c _ (mem_uc main_arg8 (by decide))).trans (W7_arg m ρ c main_arg8 (by decide) (by decide) (by decide) (by decide) (by decide) (by decide) (by decide)),
    (h c _ (mem_uc main_arg9 (by decide))).trans (W7_arg m ρ c main_arg9 (by decide) (by decide) (by decide) (by decide) (by decide) (by decide) (by decide)),
    (h c _ (mem_uc main_arg10 (by decide))).trans (W7_arg m ρ c main_arg10 (by decide) (by decide) (by decide) (by decide) (by decide) (by decide) (by decide)),
    (h c _ (mem_uc main_arg11 (by decide))).trans (W7_arg m ρ c main_arg11 (by decide) (by decide) (by decide) (by decide) (by decide) (by decide) (by decide))⟩) (run_all m ρ)

end Cert.KernelIdeal.NetValue

end
-- ==== Proof.RefValueInputs.lean ====
/-
  The reference program's reading of its two data arguments.

  The program slices position 0 of the feature array's third axis and flattens the first two axes, so that row r of
  its 262144 × 4 input is the feature vector at (r / 512, r % 512, 0): entry (r, k) sits at flat offset r · 4 + k of
  each intermediate layout. It flattens the mask the same way, converts each bit to the real number it denotes, and
  keeps it as a one-column array; every later use broadcasts that column along the 256 features. The count of valid
  rows is the sum of the column, bounded below by one.
-/
import proofs.«171056_j68092411510797_1_alg».proof.Proof.Gen.ReferenceIdeal.Read
import proofs.«171056_j68092411510797_1_alg».proof.Proof.Spec
import proofs.«171056_j68092411510797_1_alg».proof.Proof.Args

noncomputable section

namespace Cert.ReferenceIdeal.RefValue

open Cert.ReferenceIdeal Cert.ReferenceIdeal.Gen Cert.ReferenceIdeal.Read Cert.MaskedMlp
open Idealize.ShloMosaic Idealize.ShloMosaic.ValueIdx

/-- The shapes of the argument arrays. -/
abbrev Feat := (⟨S512x512x4x4, .f32⟩ : BufTy).Contents (Elt Ideal)
abbrev Bits := (⟨S512x512, .i1⟩ : BufTy).Contents (Elt Ideal)
abbrev Mat4 := (⟨S4x256, .f32⟩ : BufTy).Contents (Elt Ideal)
abbrev Mat256 := (⟨S256x256, .f32⟩ : BufTy).Contents (Elt Ideal)
abbrev Vec256 := (⟨S256, .f32⟩ : BufTy).Contents (Elt Ideal)

/-- The pair (r / 512, r % 512) of a row. -/
abbrev hi (r : Fin 262144) : Fin 512 := ⟨r.val / 512, by have h : r.val < 262144 := r.isLt; omega⟩
abbrev lo (r : Fin 262144) : Fin 512 := ⟨r.val % 512, Nat.mod_lt _ (by norm_num)⟩

/-- Entry (r, k) of the flattened input is entry (r / 512, r % 512, k) of the sliced and squeezed array. -/
theorem flat_index (r : Fin 262144) (k : Fin 4) : idx_main_v2 (ix2 r k) = ix3 (hi r) (lo r) k := by
  have hr : r.val < 262144 := r.isLt
  have hk : k.val < 4 := k.isLt
  funext a
  match a with
  | ⟨0, _⟩ => exact Fin.ext (by show (r.val * 4 + k.val) / 2048 = r.val / 512; omega)
  | ⟨1, _⟩ => exact Fin.ext (by show (r.val * 4 + k.val) / 4 % 512 = r.val % 512; omega)
  | ⟨2, _⟩ => exact Fin.ext (by show (r.val * 4 + k.val) % 4 = k.val; omega)

/-- Squeezing the unit third axis keeps the other three coordinates. -/
theorem squeeze_index (a b : Fin 512) (k : Fin 4) : idx_main_v1 (ix3 a b k) = ix4 a b (0 : Fin 1) k := by
  have ha : a.val < 512 := a.isLt
  have hb : b.val < 512 := b.isLt
  have hk : k.val < 4 := k.isLt
  funext d
  match d with
  | ⟨0, _⟩ => exact Fin.ext (by show ((a.val * 512 + b.val) * 4 + k.val) / 2048 = a.val; omega)
  | ⟨1, _⟩ => exact Fin.ext (by show ((a.val * 512 + b.val) * 4 + k.val) / 4 % 512 = b.val; omega)
  | ⟨2, _⟩ => rfl
  | ⟨3, _⟩ => exact Fin.ext (by show ((a.val * 512 + b.val) * 4 + k.val) % 4 = k.val; omega)

/-- The slice starts at 0 on every axis. -/
theorem slice_index (a b : Fin 512) (k : Fin 4) : idx_main_v0 (ix4 a b (0 : Fin 1) k) = ix4 a b (0 : Fin 4) k := by
  funext d
  match d with
  | ⟨0, _⟩ => rfl
  | ⟨1, _⟩ => rfl
  | ⟨2, _⟩ => rfl
  | ⟨3, _⟩ => rfl

/-- The program's 262144 × 4 input is the network's input. -/
theorem input_at (x0 : Feat) (r : Fin 262144) (k : Fin 4) :
    val_main_v2 (F := Ideal) x0 (ix2 r k) = rowsOf x0 r k := by
  rw [val_main_v2_apply, flat_index, val_main_v1_apply, squeeze_index, val_main_v0_apply, slice_index]
  rfl

/-- The flattened mask at r is the mask at (r / 512, r % 512). -/
theorem mask_index (r : Fin 262144) : idx_main_v3 (idx_main_v5 (ix2 r (0 : Fin 1))) = ix2 (hi r) (lo r) := by
  funext a
  match a with
  | ⟨0, _⟩ => rfl
  | ⟨1, _⟩ => rfl

/-- The mask column of the program is the network's mask. -/
theorem mask_at (x1 : Bits) (r : Fin 262144) :
    val_main_v5 (F := Ideal) x1 (ix2 r (0 : Fin 1)) = maskOf x1 r := by
  rw [val_main_v5_apply, val_main_v4_apply, val_main_v3_apply, mask_index]
  rfl

/-- The count of valid rows. -/
theorem count_at (x1 : Bits) (i : S_.Idx) :
    val_main_v7 (F := Ideal) x1 i = count (maskOf x1) := by
  rw [val_main_v7_apply, val_main_v6_apply, val_main_cst_apply, val_main_cst_0_apply]
  simp only [Ideal.maximumf_def, Ideal.ofBits_def, Ideal.ofBits_zero_f32, zero_add]
  have hsum : (∑ j : S262144x1.Idx, val_main_v5 (F := Ideal) x1 j) = ∑ r : Fin Rows, maskOf x1 r := by
    rw [sum_idx2]
    refine Finset.sum_congr rfl (fun r _ => ?_)
    rw [Fin.sum_univ_one]
    exact mask_at x1 r
  rw [hsum]
  rfl

/-- Each broadcast of the mask column along the features reads the mask of the row. -/
theorem column_index (r : Fin 262144) (j : Fin 256) : idx_main_v12 (ix2 r j) = ix2 r (0 : Fin 1) := by
  funext a
  match a with
  | ⟨0, _⟩ => rfl
  | ⟨1, _⟩ => rfl

theorem mask12_at (x1 : Bits) (r : Fin 262144) (j : Fin 256) :
    val_main_v12 (F := Ideal) x1 (ix2 r j) = maskOf x1 r := by
  rw [val_main_v12_apply, column_index]; exact mask_at x1 r

theorem mask21_at (x1 : Bits) (r : Fin 262144) (j : Fin 256) :
    val_main_v21 (F := Ideal) x1 (ix2 r j) = maskOf x1 r := by
  rw [val_main_v21_apply]; show val_main_v5 (F := Ideal) x1 (idx_main_v12 (ix2 r j)) = _
  rw [column_index]; exact mask_at x1 r

theorem mask46_at (x1 : Bits) (r : Fin 262144) (j : Fin 256) :
    val_main_v46 (F := Ideal) x1 (ix2 r j) = maskOf x1 r := by
  rw [val_main_v46_apply]; show val_main_v5 (F := Ideal) x1 (idx_main_v12 (ix2 r j)) = _
  rw [column_index]; exact mask_at x1 r

theorem mask55_at (x1 : Bits) (r : Fin 262144) (j : Fin 256) :
    val_main_v55 (F := Ideal) x1 (ix2 r j) = maskOf x1 r := by
  rw [val_main_v55_apply]; show val_main_v5 (F := Ideal) x1 (idx_main_v12 (ix2 r j)) = _
  rw [column_index]; exact mask_at x1 r

theorem mask80_at (x1 : Bits) (r : Fin 262144) (j : Fin 256) :
    val_main_v80 (F := Ideal) x1 (ix2 r j) = maskOf x1 r := by
  rw [val_main_v80_apply]; show val_main_v5 (F := Ideal) x1 (idx_main_v12 (ix2 r j)) = _
  rw [column_index]; exact mask_at x1 r

end Cert.ReferenceIdeal.RefValue

end
-- ==== Proof.RefValueParams.lean ====
/-
  The reference program's parameter vectors, its two constants, and the zero it rectifies against.

  A vector of 256 entries is first given a leading unit axis and then repeated along the 262144 rows, so entry (r, j)
  of the result is entry j of the vector. The word added to each variance is kept as the named constant; the
  rectifier's threshold is the zero word, which is the number 0.
-/
import proofs.«171056_j68092411510797_1_alg».proof.Proof.Gen.ReferenceIdeal.Read
import proofs.«171056_j68092411510797_1_alg».proof.Proof.Spec
import proofs.«171056_j68092411510797_1_alg».proof.Proof.Args

noncomputable section

namespace Cert.ReferenceIdeal.RefValue

open Cert.ReferenceIdeal Cert.ReferenceIdeal.Gen Cert.ReferenceIdeal.Read Cert.MaskedMlp
open Idealize.ShloMosaic Idealize.ShloMosaic.ValueIdx

/-- Entry (r, j) of the repeated vector is entry j: the first layer's bias. -/
theorem bias1_at (x3 : (⟨S256, .f32⟩ : BufTy).Contents (Elt Ideal)) (r : Fin 262144) (j : Fin 256) :
    val_main_v10 (F := Ideal) x3 (ix2 r j) = vecOf x3 j := by
  rw [val_main_v10_apply, val_main_v9_apply]
  exact congrArg x3 (funext fun a => match a with | ⟨0, _⟩ => rfl)

/-- Entry (r, j) of the repeated vector is entry j: the first normalisation's scale. -/
theorem scale1_at (x4 : (⟨S256, .f32⟩ : BufTy).Contents (Elt Ideal)) (r : Fin 262144) (j : Fin 256) :
    val_main_v36 (F := Ideal) x4 (ix2 r j) = vecOf x4 j := by
  rw [val_main_v36_apply, val_main_v35_apply]
  exact congrArg x4 (funext fun a => match a with | ⟨0, _⟩ => rfl)

/-- Entry (r, j) of the repeated vector is entry j: the first normalisation's shift. -/
theorem shift1_at (x5 : (⟨S256, .f32⟩ : BufTy).Contents (Elt Ideal)) (r : Fin 262144) (j : Fin 256) :
    val_main_v39 (F := Ideal) x5 (ix2 r j) = vecOf x5 j := by
  rw [val_main_v39_apply, val_main_v38_apply]
  exact congrArg x5 (funext fun a => match a with | ⟨0, _⟩ => rfl)

/-- Entry (r, j) of the repeated vector is entry j: the second layer's bias. -/
theorem bias2_at (x7 : (⟨S256, .f32⟩ : BufTy).Contents (Elt Ideal)) (r : Fin 262144) (j : Fin 256) :
    val_main_v44 (F := Ideal) x7 (ix2 r j) = vecOf x7 j := by
  rw [val_main_v44_apply, val_main_v43_apply]
  exact congrArg x7 (funext fun a => match a with | ⟨0, _⟩ => rfl)

/-- Entry (r, j) of the repeated vector is entry j: the second normalisation's scale. -/
theorem scale2_at (x8 : (⟨S256, .f32⟩ : BufTy).Contents (Elt Ideal)) (r : Fin 262144) (j : Fin 256) :
    val_main_v70 (F := Ideal) x8 (ix2 r j) = vecOf x8 j := by
  rw [val_main_v70_apply, val_main_v69_apply]
  exact congrArg x8 (funext fun a => match a with | ⟨0, _⟩ => rfl)

/-- Entry (r, j) of the repeated vector is entry j: the second normalisation's shift. -/
theorem shift2_at (x9 : (⟨S256, .f32⟩ : BufTy).Contents (Elt Ideal)) (r : Fin 262144) (j : Fin 256) :
    val_main_v73 (F := Ideal) x9 (ix2 r j) = vecOf x9 j := by
  rw [val_main_v73_apply, val_main_v72_apply]
  exact congrArg x9 (funext fun a => match a with | ⟨0, _⟩ => rfl)

/-- Entry (r, j) of the repeated vector is entry j: the last layer's bias. -/
theorem bias3_at (x11 : (⟨S256, .f32⟩ : BufTy).Contents (Elt Ideal)) (r : Fin 262144) (j : Fin 256) :
    val_main_v78 (F := Ideal) x11 (ix2 r j) = vecOf x11 j := by
  rw [val_main_v78_apply, val_main_v77_apply]
  exact congrArg x11 (funext fun a => match a with | ⟨0, _⟩ => rfl)

/-- The word added to the first variance. -/
theorem eps1_at (i : S256.Idx) : val_main_v29 (F := Ideal) i = eps := by
  rw [val_main_v29_apply, val_main_cst_3_apply, Ideal.ofBits_def]; rfl

/-- The word added to the second variance. -/
theorem eps2_at (i : S256.Idx) : val_main_v63 (F := Ideal) i = eps := by
  rw [val_main_v63_apply, val_main_cst_6_apply, Ideal.ofBits_def]; rfl

/-- The first rectifier's threshold is 0. -/
theorem zero1_at (i : S262144x256.Idx) : val_main_call0_v0 (F := Ideal) i = 0 := by
  rw [val_main_call0_v0_apply, val_main_call0_cst_apply, Ideal.ofBits_def, Ideal.ofBits_zero_f32]

/-- The second rectifier's threshold is 0. -/
theorem zero2_at (i : S262144x256.Idx) : val_main_call1_v0 (F := Ideal) i = 0 := by
  rw [val_main_call1_v0_apply, val_main_call1_cst_apply, Ideal.ofBits_def, Ideal.ofBits_zero_f32]

end Cert.ReferenceIdeal.RefValue

end
-- ==== Proof.RefValueLayer1.lean ====
/-
  The first layer of the reference program.

  The pre-activation is the input times the first weight matrix plus the bias. The column mean is the sum over the
  rows of (pre-activation · mask) over the count; the variance is the sum of ((deviation · deviation) · mask) over
  the count, the deviation taken from that mean; the activation is the deviation times the reciprocal square root of
  (variance + the small word), times the scale, plus the shift, rectified at 0. Each sum over the 262144 rows is
  carried as a sum and compared term by term.
-/
import proofs.«171056_j68092411510797_1_alg».proof.Proof.Gen.ReferenceIdeal.Read
import proofs.«171056_j68092411510797_1_alg».proof.Proof.Spec
import proofs.«171056_j68092411510797_1_alg».proof.Proof.Args
import proofs.«171056_j68092411510797_1_alg».proof.Proof.RefValueInputs
import proofs.«171056_j68092411510797_1_alg».proof.Proof.RefValueParams

noncomputable section

namespace Cert.ReferenceIdeal.RefValue

open Cert.ReferenceIdeal Cert.ReferenceIdeal.Gen Cert.ReferenceIdeal.Read Cert.MaskedMlp
open Idealize.ShloMosaic Idealize.ShloMosaic.ValueIdx

/-- The first pre-activation. -/
def pre1 (x0 : Feat) (x2 : Mat4) (x3 : Vec256) : Fin Rows → Fin 256 → EReal :=
  dense (rowsOf x0) (matOf x2) (vecOf x3)

/-- The first activation. -/
def act1 (x0 : Feat) (x1 : Bits) (x2 : Mat4) (x3 x4 x5 : Vec256) : Fin Rows → Fin 256 → EReal :=
  normRelu (varCentered (pre1 x0 x2 x3) (maskOf x1)) (pre1 x0 x2 x3) (maskOf x1) (vecOf x4) (vecOf x5)

theorem lhs8_index (r : Fin 262144) (j : Fin 256) (k : Fin 4) : lidx_main_v8 (ix2 r j) k = ix2 r k := by
  funext a
  match a with
  | ⟨0, _⟩ => rfl
  | ⟨1, _⟩ => rfl

theorem rhs8_index (r : Fin 262144) (j : Fin 256) (k : Fin 4) : ridx_main_v8 (ix2 r j) k = ix2 k j := by
  funext a
  match a with
  | ⟨0, _⟩ => rfl
  | ⟨1, _⟩ => rfl

/-- The first pre-activation: row r of the input against column j of the weights, plus the bias. -/
theorem pre1_at (x0 : Feat) (x2 : Mat4) (x3 : Vec256) (r : Fin 262144) (j : Fin 256) :
    val_main_v11 (F := Ideal) x0 x2 x3 (ix2 r j) = pre1 x0 x2 x3 r j := by
  rw [val_main_v11_apply, val_main_v8_apply, bias1_at, Ideal.addf_def]
  have hsum : (∑ k : Fin 4, val_main_v2 (F := Ideal) x0 (lidx_main_v8 (ix2 r j) k) * x2 (ridx_main_v8 (ix2 r j) k))
      = ∑ k : Fin 4, rowsOf x0 r k * matOf x2 k j :=
    Finset.sum_congr rfl (fun k _ => by rw [lhs8_index, rhs8_index, input_at]; rfl)
  rw [hsum]
  rfl

theorem sum14_index (j : Fin 256) (r : Fin 262144) : idx_main_v14 (ix1 j) r = ix2 r j := by
  funext a
  match a with
  | ⟨0, _⟩ => rfl
  | ⟨1, _⟩ => rfl

theorem sum23_index (j : Fin 256) (r : Fin 262144) : idx_main_v23 (ix1 j) r = ix2 r j := by
  funext a
  match a with
  | ⟨0, _⟩ => rfl
  | ⟨1, _⟩ => rfl

/-- The first mean. -/
theorem mean1_at (x0 : Feat) (x1 : Bits) (x2 : Mat4) (x3 : Vec256) (j : Fin 256) :
    val_main_v16 (F := Ideal) x0 x1 x2 x3 (ix1 j) = mean (pre1 x0 x2 x3) (maskOf x1) j := by
  rw [val_main_v16_apply, val_main_v14_apply, val_main_v15_apply, count_at, val_main_cst_1_apply,
    Ideal.hostDivf_def, Ideal.ofBits_def, Ideal.ofBits_zero_f32, zero_add]
  have hsum : (∑ k : Fin 262144, val_main_v13 (F := Ideal) x0 x1 x2 x3 (idx_main_v14 (ix1 j) k))
      = msum (pre1 x0 x2 x3) (maskOf x1) j :=
    Finset.sum_congr rfl (fun r _ => by
      rw [sum14_index, val_main_v13_apply, pre1_at, mask12_at, Ideal.mulf_def])
  rw [hsum]
  rfl

theorem vector17_index (r : Fin 262144) (j : Fin 256) : idx_main_v17 (idx_main_v18 (ix2 r j)) = ix1 j := by
  funext a
  match a with
  | ⟨0, _⟩ => rfl

theorem vector26_index (r : Fin 262144) (j : Fin 256) : idx_main_v26 (idx_main_v27 (ix2 r j)) = ix1 j := by
  funext a
  match a with
  | ⟨0, _⟩ => rfl

theorem vector32_index (r : Fin 262144) (j : Fin 256) : idx_main_v32 (idx_main_v33 (ix2 r j)) = ix1 j := by
  funext a
  match a with
  | ⟨0, _⟩ => rfl

/-- The first mean, repeated along the rows (its use in the variance). -/
theorem mean1_rows18_at (x0 : Feat) (x1 : Bits) (x2 : Mat4) (x3 : Vec256) (r : Fin 262144) (j : Fin 256) :
    val_main_v18 (F := Ideal) x0 x1 x2 x3 (ix2 r j) = mean (pre1 x0 x2 x3) (maskOf x1) j := by
  rw [val_main_v18_apply, val_main_v17_apply, vector17_index, mean1_at]

/-- The first mean, repeated along the rows (its use in the normalisation). -/
theorem mean1_rows27_at (x0 : Feat) (x1 : Bits) (x2 : Mat4) (x3 : Vec256) (r : Fin 262144) (j : Fin 256) :
    val_main_v27 (F := Ideal) x0 x1 x2 x3 (ix2 r j) = mean (pre1 x0 x2 x3) (maskOf x1) j := by
  rw [val_main_v27_apply, val_main_v26_apply, vector26_index, mean1_at]

/-- The first variance: the masked mean of the squared deviation. -/
theorem var1_at (x0 : Feat) (x1 : Bits) (x2 : Mat4) (x3 : Vec256) (j : Fin 256) :
    val_main_v25 (F := Ideal) x0 x1 x2 x3 (ix1 j) = varCentered (pre1 x0 x2 x3) (maskOf x1) j := by
  rw [val_main_v25_apply, val_main_v23_apply, val_main_v24_apply, count_at, val_main_cst_2_apply,
    Ideal.hostDivf_def, Ideal.ofBits_def, Ideal.ofBits_zero_f32, zero_add]
  have hsum : (∑ k : Fin 262144, val_main_v22 (F := Ideal) x0 x1 x2 x3 (idx_main_v23 (ix1 j) k))
      = ∑ r : Fin Rows, ((pre1 x0 x2 x3 r j - mean (pre1 x0 x2 x3) (maskOf x1) j)
          * (pre1 x0 x2 x3 r j - mean (pre1 x0 x2 x3) (maskOf x1) j)) * maskOf x1 r :=
    Finset.sum_congr rfl (fun r _ => by
      rw [sum23_index, val_main_v22_apply, val_main_v20_apply, val_main_v19_apply, pre1_at, mean1_rows18_at,
        mask21_at, Ideal.mulf_def, Ideal.mulf_def, Ideal.subf_def])
  rw [hsum]
  rfl

/-- The reciprocal square root of the first variance plus the small word, repeated along the rows. -/
theorem rstd1_at (x0 : Feat) (x1 : Bits) (x2 : Mat4) (x3 : Vec256) (r : Fin 262144) (j : Fin 256) :
    val_main_v33 (F := Ideal) x0 x1 x2 x3 (ix2 r j)
      = Ideal.rsqrt (varCentered (pre1 x0 x2 x3) (maskOf x1) j + eps) := by
  rw [val_main_v33_apply, val_main_v32_apply, vector32_index, val_main_v31_apply, val_main_v30_apply, var1_at,
    eps1_at, Ideal.hostUnary_rsqrt_def, Ideal.addf_def]

/-- The first activation. -/
theorem act1_at (x0 : Feat) (x1 : Bits) (x2 : Mat4) (x3 x4 x5 : Vec256) (r : Fin 262144) (j : Fin 256) :
    val_main_v41 (F := Ideal) x0 x1 x2 x3 x4 x5 (ix2 r j) = act1 x0 x1 x2 x3 x4 x5 r j := by
  rw [val_main_v41_apply, val_main_v40_apply, val_main_v37_apply, val_main_v34_apply, val_main_v28_apply, pre1_at,
    mean1_rows27_at, rstd1_at, scale1_at, shift1_at, zero1_at, Ideal.maximumf_def, Ideal.addf_def, Ideal.mulf_def,
    Ideal.mulf_def, Ideal.subf_def]
  rfl

end Cert.ReferenceIdeal.RefValue

end
-- ==== Proof.RefValueLayer2.lean ====
/-
  The second layer of the reference program.

  The same steps as the first layer, on the first activation: a 256 × 256 weight matrix and bias give the second
  pre-activation; its masked column mean and centred variance over the count normalise it; scale, shift and the
  rectifier give the second activation. Each sum over the 262144 rows, and each contraction over the 256 hidden
  features, is carried as a sum and compared term by term.
-/
import proofs.«171056_j68092411510797_1_alg».proof.Proof.Gen.ReferenceIdeal.Read
import proofs.«171056_j68092411510797_1_alg».proof.Proof.Spec
import proofs.«171056_j68092411510797_1_alg».proof.Proof.Args
import proofs.«171056_j68092411510797_1_alg».proof.Proof.RefValueInputs
import proofs.«171056_j68092411510797_1_alg».proof.Proof.RefValueParams
import proofs.«171056_j68092411510797_1_alg».proof.Proof.RefValueLayer1

noncomputable section

namespace Cert.ReferenceIdeal.RefValue

open Cert.ReferenceIdeal Cert.ReferenceIdeal.Gen Cert.ReferenceIdeal.Read Cert.MaskedMlp
open Idealize.ShloMosaic Idealize.ShloMosaic.ValueIdx

/-- The second pre-activation. -/
def pre2 (x0 : Feat) (x1 : Bits) (x2 : Mat4) (x3 x4 x5 : Vec256) (x6 : Mat256) (x7 : Vec256) : Fin Rows → Fin 256 → EReal :=
  dense (act1 x0 x1 x2 x3 x4 x5) (matOf x6) (vecOf x7)

/-- The second activation. -/
def act2 (x0 : Feat) (x1 : Bits) (x2 : Mat4) (x3 x4 x5 : Vec256) (x6 : Mat256) (x7 : Vec256) (x8 x9 : Vec256) : Fin Rows → Fin 256 → EReal :=
  normRelu (varCentered (pre2 x0 x1 x2 x3 x4 x5 x6 x7) (maskOf x1)) (pre2 x0 x1 x2 x3 x4 x5 x6 x7) (maskOf x1) (vecOf x8) (vecOf x9)

theorem lhs42_index (r : Fin 262144) (j : Fin 256) (k : Fin 256) : lidx_main_v42 (ix2 r j) k = ix2 r k := by
  funext a
  match a with
  | ⟨0, _⟩ => rfl
  | ⟨1, _⟩ => rfl

theorem rhs42_index (r : Fin 262144) (j : Fin 256) (k : Fin 256) : ridx_main_v42 (ix2 r j) k = ix2 k j := by
  funext a
  match a with
  | ⟨0, _⟩ => rfl
  | ⟨1, _⟩ => rfl

/-- The second pre-activation: row r of the first activation against column j of the weights, plus the bias. -/
theorem pre2_at (x0 : Feat) (x1 : Bits) (x2 : Mat4) (x3 x4 x5 : Vec256) (x6 : Mat256) (x7 : Vec256) (r : Fin 262144) (j : Fin 256) :
    val_main_v45 (F := Ideal) x0 x1 x2 x3 x4 x5 x6 x7 (ix2 r j) = pre2 x0 x1 x2 x3 x4 x5 x6 x7 r j := by
  rw [val_main_v45_apply, val_main_v42_apply, bias2_at, Ideal.addf_def]
  have hsum : (∑ k : Fin 256, val_main_v41 (F := Ideal) x0 x1 x2 x3 x4 x5 (lidx_main_v42 (ix2 r j) k)
        * x6 (ridx_main_v42 (ix2 r j) k))
      = ∑ k : Fin 256, act1 x0 x1 x2 x3 x4 x5 r k * matOf x6 k j :=
    Finset.sum_congr rfl (fun k _ => by rw [lhs42_index, rhs42_index, act1_at]; rfl)
  rw [hsum]
  rfl

theorem sum48_index (j : Fin 256) (r : Fin 262144) : idx_main_v48 (ix1 j) r = ix2 r j := by
  funext a
  match a with
  | ⟨0, _⟩ => rfl
  | ⟨1, _⟩ => rfl

theorem sum57_index (j : Fin 256) (r : Fin 262144) : idx_main_v57 (ix1 j) r = ix2 r j := by
  funext a
  match a with
  | ⟨0, _⟩ => rfl
  | ⟨1, _⟩ => rfl

/-- The second mean. -/
theorem mean2_at (x0 : Feat) (x1 : Bits) (x2 : Mat4) (x3 x4 x5 : Vec256) (x6 : Mat256) (x7 : Vec256) (j : Fin 256) :
    val_main_v50 (F := Ideal) x0 x1 x2 x3 x4 x5 x6 x7 (ix1 j) = mean (pre2 x0 x1 x2 x3 x4 x5 x6 x7) (maskOf x1) j := by
  rw [val_main_v50_apply, val_main_v48_apply, val_main_v49_apply, count_at, val_main_cst_4_apply,
    Ideal.hostDivf_def, Ideal.ofBits_def, Ideal.ofBits_zero_f32, zero_add]
  have hsum : (∑ k : Fin 262144, val_main_v47 (F := Ideal) x0 x1 x2 x3 x4 x5 x6 x7 (idx_main_v48 (ix1 j) k))
      = msum (pre2 x0 x1 x2 x3 x4 x5 x6 x7) (maskOf x1) j :=
    Finset.sum_congr rfl (fun r _ => by
      rw [sum48_index, val_main_v47_apply, pre2_at, mask46_at, Ideal.mulf_def])
  rw [hsum]
  rfl

theorem vector51_index (r : Fin 262144) (j : Fin 256) : idx_main_v51 (idx_main_v52 (ix2 r j)) = ix1 j := by
  funext a
  match a with
  | ⟨0, _⟩ => rfl

theorem vector60_index (r : Fin 262144) (j : Fin 256) : idx_main_v60 (idx_main_v61 (ix2 r j)) = ix1 j := by
  funext a
  match a with
  | ⟨0, _⟩ => rfl

theorem vector66_index (r : Fin 262144) (j : Fin 256) : idx_main_v66 (idx_main_v67 (ix2 r j)) = ix1 j := by
  funext a
  match a with
  | ⟨0, _⟩ => rfl

/-- The second mean, repeated along the rows (its use in the variance). -/
theorem mean2_rows52_at (x0 : Feat) (x1 : Bits) (x2 : Mat4) (x3 x4 x5 : Vec256) (x6 : Mat256) (x7 : Vec256) (r : Fin 262144) (j : Fin 256) :
    val_main_v52 (F := Ideal) x0 x1 x2 x3 x4 x5 x6 x7 (ix2 r j) = mean (pre2 x0 x1 x2 x3 x4 x5 x6 x7) (maskOf x1) j := by
  rw [val_main_v52_apply, val_main_v51_apply, vector51_index, mean2_at]

/-- The second mean, repeated along the rows (its use in the normalisation). -/
theorem mean2_rows61_at (x0 : Feat) (x1 : Bits) (x2 : Mat4) (x3 x4 x5 : Vec256) (x6 : Mat256) (x7 : Vec256) (r : Fin 262144) (j : Fin 256) :
    val_main_v61 (F := Ideal) x0 x1 x2 x3 x4 x5 x6 x7 (ix2 r j) = mean (pre2 x0 x1 x2 x3 x4 x5 x6 x7) (maskOf x1) j := by
  rw [val_main_v61_apply, val_main_v60_apply, vector60_index, mean2_at]

/-- The second variance: the masked mean of the squared deviation. -/
theorem var2_at (x0 : Feat) (x1 : Bits) (x2 : Mat4) (x3 x4 x5 : Vec256) (x6 : Mat256) (x7 : Vec256) (j : Fin 256) :
    val_main_v59 (F := Ideal) x0 x1 x2 x3 x4 x5 x6 x7 (ix1 j) = varCentered (pre2 x0 x1 x2 x3 x4 x5 x6 x7) (maskOf x1) j := by
  rw [val_main_v59_apply, val_main_v57_apply, val_main_v58_apply, count_at, val_main_cst_5_apply,
    Ideal.hostDivf_def, Ideal.ofBits_def, Ideal.ofBits_zero_f32, zero_add]
  have hsum : (∑ k : Fin 262144, val_main_v56 (F := Ideal) x0 x1 x2 x3 x4 x5 x6 x7 (idx_main_v57 (ix1 j) k))
      = ∑ r : Fin Rows, ((pre2 x0 x1 x2 x3 x4 x5 x6 x7 r j - mean (pre2 x0 x1 x2 x3 x4 x5 x6 x7) (maskOf x1) j)
          * (pre2 x0 x1 x2 x3 x4 x5 x6 x7 r j - mean (pre2 x0 x1 x2 x3 x4 x5 x6 x7) (maskOf x1) j)) * maskOf x1 r :=
    Finset.sum_congr rfl (fun r _ => by
      rw [sum57_index, val_main_v56_apply, val_main_v54_apply, val_main_v53_apply, pre2_at, mean2_rows52_at,
        mask55_at, Ideal.mulf_def, Ideal.mulf_def, Ideal.subf_def])
  rw [hsum]
  rfl

/-- The reciprocal square root of the second variance plus the small word, repeated along the rows. -/
theorem rstd2_at (x0 : Feat) (x1 : Bits) (x2 : Mat4) (x3 x4 x5 : Vec256) (x6 : Mat256) (x7 : Vec256) (r : Fin 262144) (j : Fin 256) :
    val_main_v67 (F := Ideal) x0 x1 x2 x3 x4 x5 x6 x7 (ix2 r j)
      = Ideal.rsqrt (varCentered (pre2 x0 x1 x2 x3 x4 x5 x6 x7) (maskOf x1) j + eps) := by
  rw [val_main_v67_apply, val_main_v66_apply, vector66_index, val_main_v65_apply, val_main_v64_apply, var2_at,
    eps2_at, Ideal.hostUnary_rsqrt_def, Ideal.addf_def]

/-- The second activation. -/
theorem act2_at (x0 : Feat) (x1 : Bits) (x2 : Mat4) (x3 x4 x5 : Vec256) (x6 : Mat256) (x7 : Vec256) (x8 x9 : Vec256) (r : Fin 262144) (j : Fin 256) :
    val_main_v75 (F := Ideal) x0 x1 x2 x3 x4 x5 x6 x7 x8 x9 (ix2 r j) = act2 x0 x1 x2 x3 x4 x5 x6 x7 x8 x9 r j := by
  rw [val_main_v75_apply, val_main_v74_apply, val_main_v71_apply, val_main_v68_apply, val_main_v62_apply, pre2_at,
    mean2_rows61_at, rstd2_at, scale2_at, shift2_at, zero2_at, Ideal.maximumf_def, Ideal.addf_def, Ideal.mulf_def,
    Ideal.mulf_def, Ideal.subf_def]
  rfl

end Cert.ReferenceIdeal.RefValue

end
-- ==== Proof.RefValue.lean ====
/-
  The reference program's result is the network with centred variances.

  The last layer is dense on the second activation; each row is then multiplied by its mask, which zeroes the invalid
  rows, and the 262144 × 256 result is laid out as 512 × 512 × 256: entry (a, b, j) is at flat offset
  (a · 512 + b) · 256 + j, that is row a · 512 + b, column j.
-/
import proofs.«171056_j68092411510797_1_alg».proof.Proof.Gen.ReferenceIdeal.Read
import proofs.«171056_j68092411510797_1_alg».proof.Proof.Spec
import proofs.«171056_j68092411510797_1_alg».proof.Proof.Args
import proofs.«171056_j68092411510797_1_alg».proof.Proof.RefValueInputs
import proofs.«171056_j68092411510797_1_alg».proof.Proof.RefValueParams
import proofs.«171056_j68092411510797_1_alg».proof.Proof.RefValueLayer1
import proofs.«171056_j68092411510797_1_alg».proof.Proof.RefValueLayer2

noncomputable section

namespace Cert.ReferenceIdeal.RefValue

open Cert.ReferenceIdeal Cert.ReferenceIdeal.Gen Cert.ReferenceIdeal.Read Cert.MaskedMlp
open Idealize.ShloMosaic Idealize.ShloMosaic.ValueIdx

theorem lhs76_index (r : Fin 262144) (j : Fin 256) (k : Fin 256) : lidx_main_v76 (ix2 r j) k = ix2 r k := by
  funext a
  match a with
  | ⟨0, _⟩ => rfl
  | ⟨1, _⟩ => rfl

theorem rhs76_index (r : Fin 262144) (j : Fin 256) (k : Fin 256) : ridx_main_v76 (ix2 r j) k = ix2 k j := by
  funext a
  match a with
  | ⟨0, _⟩ => rfl
  | ⟨1, _⟩ => rfl

/-- The network unfolds into its three layers. -/
theorem net_layers (x0 : Feat) (x1 : Bits) (x2 : Mat4) (x3 x4 x5 : Vec256) (x6 : Mat256) (x7 x8 x9 : Vec256) (x10 : Mat256) (x11 : Vec256) (r : Fin Rows) (j : Fin 256) :
    netCentered (rowsOf x0) (maskOf x1) (matOf x2) (vecOf x3) (vecOf x4) (vecOf x5) (matOf x6) (vecOf x7) (vecOf x8) (vecOf x9) (matOf x10) (vecOf x11) r j
      = ((∑ k : Fin 256, act2 x0 x1 x2 x3 x4 x5 x6 x7 x8 x9 r k * matOf x10 k j) + vecOf x11 j) * maskOf x1 r := rfl

/-- The masked last layer, before the final layout. -/
theorem out_at (x0 : Feat) (x1 : Bits) (x2 : Mat4) (x3 x4 x5 : Vec256) (x6 : Mat256) (x7 x8 x9 : Vec256) (x10 : Mat256) (x11 : Vec256) (r : Fin 262144) (j : Fin 256) :
    val_main_v81 (F := Ideal) x0 x1 x2 x3 x4 x5 x6 x7 x8 x9 x10 x11 (ix2 r j) = netCentered (rowsOf x0) (maskOf x1) (matOf x2) (vecOf x3) (vecOf x4) (vecOf x5) (matOf x6) (vecOf x7) (vecOf x8) (vecOf x9) (matOf x10) (vecOf x11) r j := by
  rw [val_main_v81_apply, val_main_v79_apply, val_main_v76_apply, bias3_at, mask80_at, Ideal.mulf_def, Ideal.addf_def]
  have hsum : (∑ k : Fin 256, val_main_v75 (F := Ideal) x0 x1 x2 x3 x4 x5 x6 x7 x8 x9 (lidx_main_v76 (ix2 r j) k)
        * x10 (ridx_main_v76 (ix2 r j) k))
      = ∑ k : Fin 256, act2 x0 x1 x2 x3 x4 x5 x6 x7 x8 x9 r k * matOf x10 k j :=
    Finset.sum_congr rfl (fun k _ => by rw [lhs76_index, rhs76_index, act2_at]; rfl)
  rw [hsum, net_layers]

/-- Entry (a, b, j) of the result is row a · 512 + b, column j of the flat result. -/
theorem out_index (i : S512x512x256.Idx) :
    idx_main_v82 i = ix2 (n0 := 262144) (n1 := 256) (rowOfOut i) (i 2) := by
  have h0 : (i 0).val < 512 := (i 0).isLt
  have h1 : (i 1).val < 512 := (i 1).isLt
  have h2 : (i 2).val < 256 := (i 2).isLt
  funext a
  match a with
  | ⟨0, _⟩ =>
    exact Fin.ext (by
      show (((i 0).val * 512 + (i 1).val) * 256 + (i 2).val) / 256 = (i 0).val * 512 + (i 1).val; omega)
  | ⟨1, _⟩ =>
    exact Fin.ext (by show (((i 0).val * 512 + (i 1).val) * 256 + (i 2).val) % 256 = (i 2).val; omega)

/-- The reference program computes the network with centred variances. -/
theorem ref_eq (x0 : Feat) (x1 : Bits) (x2 : Mat4) (x3 x4 x5 : Vec256) (x6 : Mat256) (x7 x8 x9 : Vec256) (x10 : Mat256) (x11 : Vec256) :
    val_main_v82 (F := Ideal) x0 x1 x2 x3 x4 x5 x6 x7 x8 x9 x10 x11
      = fun i => netCentered (rowsOf x0) (maskOf x1) (matOf x2) (vecOf x3) (vecOf x4) (vecOf x5) (matOf x6) (vecOf x7) (vecOf x8) (vecOf x9) (matOf x10) (vecOf x11) (rowOfOut i) (i 2) := by
  funext i
  rw [val_main_v82_apply, out_index]
  exact out_at x0 x1 x2 x3 x4 x5 x6 x7 x8 x9 x10 x11 (rowOfOut i) (i 2)

end Cert.ReferenceIdeal.RefValue

end
-- ==== Proof.LibReciprocal.lean ====
/-
  General lemmas on the extended reals: a product with the reciprocal of a nonzero divisor is the quotient by that
  divisor, infinite divisors included; and a quantity clamped below by the float literal one is never zero.

  The quotient here is the idealized float quotient: for a divisor `y ≠ 0` it is `x * y⁻¹`, with `(±∞)⁻¹ = 0`.
  Hence `1 / y = y⁻¹` and `x * (1 / y) = x * y⁻¹ = x / y` for every `x`, finite or not: no finiteness of `x` or `y`
  is needed, only `y ≠ 0`.
-/
import Idealize.ShloMosaic.PureOps.Ideal

noncomputable section

namespace Reciprocal

open Idealize.ShloMosaic

/-- The float literal `1.0` (single precision) denotes the real number one. -/
theorem one_f32 : Ideal.ofBits .f32 0x3F800000#32 = 1 := by
  simp [Ideal.ofBits, Ideal.ieee, -EReal.coe_mul]; norm_num

/-- The reciprocal of a nonzero extended real is its inverse. -/
theorem div_one_left (y : EReal) (hy : y ≠ 0) : Ideal.div 1 y = y⁻¹ := by
  rw [Ideal.div, if_neg hy, one_mul]

/-- Multiplying by the reciprocal of a nonzero divisor is dividing by it, at the infinities too. -/
theorem mul_div_one (x y : EReal) (hy : y ≠ 0) : x * Ideal.div 1 y = Ideal.div x y := by
  rw [div_one_left y hy, Ideal.div, if_neg hy]

/-- A quantity clamped below by the literal one is at least one, hence not zero. -/
theorem max_one_ne_zero (d : EReal) : max d (Ideal.ofBits .f32 0x3F800000#32) ≠ 0 := by
  rw [one_f32]
  intro h
  have h1 : (1 : EReal) ≤ max d 1 := le_max_right d 1
  rw [h] at h1
  exact absurd h1 (not_le.mpr zero_lt_one)

/-- The mean by a clamped count, written either way: the sum times the reciprocal of the clamped count is the sum
    divided by the clamped count. -/
theorem mul_recip_clamped (x d : EReal) :
    x * Ideal.div (Ideal.ofBits .f32 0x3F800000#32) (max d (Ideal.ofBits .f32 0x3F800000#32))
      = Ideal.div x (max d (Ideal.ofBits .f32 0x3F800000#32)) := by
  have h := mul_div_one x _ (max_one_ne_zero d)
  rw [one_f32] at h ⊢
  exact h

end Reciprocal

end
-- ==== Proof.MomentCount.lean ====
/-
  The number of valid rows.

  A mask whose entries are 0 or 1 sums to a natural number: 0 when no row is valid, and then every entry is 0;
  at least 1 otherwise. The count is that sum clamped below by 1, so it is a real number n ≥ 1, equal to 1 when no
  row is valid and to the sum of the mask otherwise.
-/
import Idealize.ShloMosaic.PureOps.Ideal
import proofs.«171056_j68092411510797_1_alg».proof.Proof.Spec
import proofs.«171056_j68092411510797_1_alg».proof.Proof.LibRealValued
import proofs.«171056_j68092411510797_1_alg».proof.Proof.LibMeanVariance
import proofs.«171056_j68092411510797_1_alg».proof.Proof.LibReciprocal

noncomputable section

open scoped BigOperators

namespace Cert.MaskedMlp

open Idealize.ShloMosaic Cert.RealValued

/-- The lower bound of the count is the number one. -/
theorem one_eq : one = 1 := Reciprocal.one_f32

/-- A mask value, 0 or 1, is the image of a real number that is 0 or 1. -/
theorem mask_real {x : EReal} (h : x = 0 ∨ x = 1) : ∃ m : ℝ, (m = 0 ∨ m = 1) ∧ x = (m : EReal) := by
  rcases h with h | h
  · exact ⟨0, Or.inl rfl, by rw [h, EReal.coe_zero]⟩
  · exact ⟨1, Or.inr rfl, by rw [h, EReal.coe_one]⟩

/-- Over the reals: a family of zeros and ones is all zero, or sums to at least 1. -/
theorem real_mask_sum {ι : Type*} [Fintype ι] (m : ι → ℝ) (hm : ∀ i, m i = 0 ∨ m i = 1) :
    (∀ i, m i = 0) ∨ 1 ≤ ∑ i, m i := by
  by_cases h : ∀ i, m i = 0
  · exact Or.inl h
  · right
    obtain ⟨i0, hi0⟩ := not_forall.mp h
    have h1 : m i0 = 1 := (hm i0).resolve_left hi0
    have hnn : ∀ i ∈ (Finset.univ : Finset ι), 0 ≤ m i := fun i _ => by
      rcases hm i with h | h <;> rw [h] <;> norm_num
    calc (1 : ℝ) = m i0 := h1.symm
      _ ≤ ∑ i, m i := Finset.single_le_sum hnn (Finset.mem_univ i0)

variable {R : ℕ}

/-- The count with its witnesses: real numbers m r for the mask, each 0 or 1, and a real n ≥ 1 for the count;
    either no row is valid (every m r is 0, and n = 1) or n is the sum of the m r. -/
theorem count_witness (M : Fin R → EReal) (hM : ∀ r, M r = 0 ∨ M r = 1) :
    ∃ (m : Fin R → ℝ) (n : ℝ), (∀ r, M r = (m r : EReal)) ∧ (∀ r, m r = 0 ∨ m r = 1) ∧ 1 ≤ n ∧ count M = (n : EReal) ∧
      (((∀ r, m r = 0) ∧ n = 1) ∨ ∑ r, m r = n) := by
  choose m hm using fun r => mask_real (hM r)
  have hs : ∑ r, M r = ((∑ r, m r : ℝ) : EReal) := by
    rw [MeanVariance.coe_sum]
    exact Finset.sum_congr rfl (fun r _ => (hm r).2)
  rcases real_mask_sum m (fun r => (hm r).1) with h0 | h1
  · refine ⟨m, 1, fun r => (hm r).2, fun r => (hm r).1, le_refl _, ?_, Or.inl ⟨h0, rfl⟩⟩
    have hz : (∑ r, m r : ℝ) = 0 := Finset.sum_eq_zero (fun r _ => h0 r)
    rw [count, hs, one_eq, hz, EReal.coe_zero, EReal.coe_one]
    exact max_eq_right zero_le_one
  · refine ⟨m, ∑ r, m r, fun r => (hm r).2, fun r => (hm r).1, h1, ?_, Or.inr rfl⟩
    rw [count, hs, one_eq]
    refine max_eq_left ?_
    rw [← EReal.coe_one]
    exact EReal.coe_le_coe_iff.mpr h1

/-- The count of valid rows is a real number, at least 1. -/
theorem count_real (M : Fin R → EReal) (hM : ∀ r, M r = 0 ∨ M r = 1) :
    ∃ n : ℝ, 1 ≤ n ∧ count M = (n : EReal) := by
  obtain ⟨_, n, _, _, hn, hc, _⟩ := count_witness M hM
  exact ⟨n, hn, hc⟩

/-- Either no row is valid and the count is 1, or the count is the sum of the mask. -/
theorem count_cases (M : Fin R → EReal) (hM : ∀ r, M r = 0 ∨ M r = 1) :
    (∑ r, M r = 0 ∧ count M = 1) ∨ (count M = ∑ r, M r) := by
  obtain ⟨m, n, hm, _, _, hc, h | h⟩ := count_witness M hM
  · left
    refine ⟨Finset.sum_eq_zero (fun r _ => by rw [hm r, h.1 r, EReal.coe_zero]), ?_⟩
    rw [hc, h.2, EReal.coe_one]
  · right
    rw [hc, ← h, MeanVariance.coe_sum]
    exact Finset.sum_congr rfl (fun r _ => (hm r).symm)

end Cert.MaskedMlp

end
-- ==== Proof.MomentLaw.lean ====
/-
  The law between the two forms of a masked variance, over the reals.

  For real entries a i, weights m i and a divisor n ≠ 0 write S1 = Σ a m, S2 = Σ a² m, s = Σ m and μ = S1 / n.
  Expanding the square, Σ (a − μ)² m = S2 − 2 μ S1 + μ² s, so
    (Σ (a − μ)² m) / n = S2 / n − 2 μ² + μ² (s / n),
  which is S2 / n − μ² as soon as μ² (s / n − 1) = 0: when every weight is 0 (then μ = 0), or when s = n.
  With weights 0 and 1 the masked mean of the squared deviations is nonnegative.
  Quotients by n are written as products with 1 / n.
-/
import Mathlib.Algebra.BigOperators.Ring.Finset
import Mathlib.Algebra.Order.BigOperators.Ring.Finset
import Mathlib.Data.Real.Basic
import Mathlib.Tactic.Ring
import Mathlib.Tactic.FieldSimp
import Mathlib.Tactic.Positivity

open scoped BigOperators

namespace Cert.MaskedMlp.RealLaw

variable {ι : Type*} [Fintype ι]

/-- The square expanded: Σ (a − μ)² m = Σ (a m) a − 2 μ Σ a m + μ² Σ m. -/
theorem sum_dev_sq (a m : ι → ℝ) (μ : ℝ) :
    ∑ i, ((a i - μ) * (a i - μ)) * m i
      = (∑ i, (a i * m i) * a i) - 2 * μ * (∑ i, a i * m i) + μ * μ * (∑ i, m i) := by
  have e : ∀ i, ((a i - μ) * (a i - μ)) * m i = (a i * m i) * a i - (2 * μ) * (a i * m i) + (μ * μ) * m i :=
    fun i => by ring
  simp only [e]
  rw [Finset.sum_add_distrib, Finset.sum_sub_distrib, ← Finset.mul_sum, ← Finset.mul_sum]

/-- THE LAW. The second moment over n minus the squared mean is the mean of the squared deviations, when
    every weight is 0 or the weights sum to n. -/
theorem moments_eq_centered (a m : ι → ℝ) (n : ℝ) (hn : n ≠ 0) (hcase : (∀ i, m i = 0) ∨ ∑ i, m i = n) :
    (∑ i, (a i * m i) * a i) * (1 / n) - ((∑ i, a i * m i) * (1 / n)) * ((∑ i, a i * m i) * (1 / n))
      = (∑ i, ((a i - (∑ i, a i * m i) * (1 / n)) * (a i - (∑ i, a i * m i) * (1 / n))) * m i) * (1 / n) := by
  rw [sum_dev_sq]
  rcases hcase with h0 | hs
  · have z1 : ∑ i, a i * m i = 0 := Finset.sum_eq_zero fun i _ => by rw [h0 i, mul_zero]
    have z2 : ∑ i, (a i * m i) * a i = 0 := Finset.sum_eq_zero fun i _ => by rw [h0 i, mul_zero, zero_mul]
    have z3 : ∑ i, m i = 0 := Finset.sum_eq_zero fun i _ => h0 i
    rw [z1, z2, z3]
    ring
  · rw [hs]
    field_simp
    ring

/-- With nonnegative weights and a positive divisor the masked mean of squared deviations is nonnegative. -/
theorem centered_nonneg (a m : ι → ℝ) (μ n : ℝ) (hm : ∀ i, 0 ≤ m i) (hn : 0 < n) :
    0 ≤ (∑ i, ((a i - μ) * (a i - μ)) * m i) * (1 / n) :=
  mul_nonneg (Finset.sum_nonneg fun i _ => mul_nonneg (mul_self_nonneg _) (hm i)) (le_of_lt (one_div_pos.mpr hn))

end Cert.MaskedMlp.RealLaw
-- ==== Proof.MomentCoe.lean ====
/-
  Masked means of real-valued data on the extended reals, as images of the real ones.

  For real entries a i, real weights m i and a real divisor n ≠ 0, each masked quotient both forms of the variance
  are built from — the masked mean, the masked second moment (each square formed as (a · m) · a), and the masked
  mean of the squared deviation from a real μ — is the image of the same expression over the reals: every term is
  the image of a real term, a finite sum of images is the image of the sum, and a quotient by a nonzero real is the
  product with its reciprocal.
-/
import Idealize.ShloMosaic.PureOps.Ideal
import proofs.«171056_j68092411510797_1_alg».proof.Proof.LibRealValued
import proofs.«171056_j68092411510797_1_alg».proof.Proof.LibMeanVariance

noncomputable section

open scoped BigOperators

namespace Cert.MaskedMlp.Coe

open Idealize.ShloMosaic Cert.RealValued

variable {ι : Type*} [Fintype ι]

/-- The masked sum of real entries. -/
theorem msum_coe (a m : ι → ℝ) :
    (∑ i, (a i : EReal) * (m i : EReal)) = ((∑ i, a i * m i : ℝ) : EReal) := by
  rw [MeanVariance.coe_sum]
  simp only [EReal.coe_mul]

/-- The masked mean of real entries. -/
theorem mean_coe (a m : ι → ℝ) (n : ℝ) (hn : n ≠ 0) :
    Ideal.div (∑ i, (a i : EReal) * (m i : EReal)) (n : EReal) = (((∑ i, a i * m i) * (1 / n) : ℝ) : EReal) := by
  rw [msum_coe, Ideal.div_coe hn, ← EReal.coe_mul]

/-- The masked second moment of real entries. -/
theorem meansq_coe (a m : ι → ℝ) (n : ℝ) (hn : n ≠ 0) :
    Ideal.div (∑ i, ((a i : EReal) * (m i : EReal)) * (a i : EReal)) (n : EReal)
      = (((∑ i, (a i * m i) * a i) * (1 / n) : ℝ) : EReal) := by
  have hs : (∑ i, ((a i : EReal) * (m i : EReal)) * (a i : EReal)) = ((∑ i, (a i * m i) * a i : ℝ) : EReal) := by
    rw [MeanVariance.coe_sum]
    simp only [EReal.coe_mul]
  rw [hs, Ideal.div_coe hn, ← EReal.coe_mul]

/-- The masked mean of the squared deviations of real entries from a real number. -/
theorem meandev_coe (a m : ι → ℝ) (μ n : ℝ) (hn : n ≠ 0) :
    Ideal.div (∑ i, (((a i : EReal) - (μ : EReal)) * ((a i : EReal) - (μ : EReal))) * (m i : EReal)) (n : EReal)
      = (((∑ i, ((a i - μ) * (a i - μ)) * m i) * (1 / n) : ℝ) : EReal) := by
  have hs : (∑ i, (((a i : EReal) - (μ : EReal)) * ((a i : EReal) - (μ : EReal))) * (m i : EReal))
      = ((∑ i, ((a i - μ) * (a i - μ)) * m i : ℝ) : EReal) := by
    rw [MeanVariance.coe_sum]
    simp only [EReal.coe_mul, EReal.coe_sub]
  rw [hs, Ideal.div_coe hn, ← EReal.coe_mul]

end Cert.MaskedMlp.Coe

end
-- ==== Proof.MomentVarEq.lean ====
/-
  The two forms of the masked variance agree on real-valued data.

  Take real witnesses for the entries of the column, for the mask and for the count n ≥ 1. Each side is then the
  image of a real expression, and the two real expressions are equal by the law over the reals: when no row is
  valid every weight is 0, otherwise the weights sum to n. The centred form is the image of a nonnegative real.
-/
import Idealize.ShloMosaic.PureOps.Ideal
import proofs.«171056_j68092411510797_1_alg».proof.Proof.Spec
import proofs.«171056_j68092411510797_1_alg».proof.Proof.LibRealValued
import proofs.«171056_j68092411510797_1_alg».proof.Proof.MomentCount
import proofs.«171056_j68092411510797_1_alg».proof.Proof.MomentLaw
import proofs.«171056_j68092411510797_1_alg».proof.Proof.MomentCoe

noncomputable section

open scoped BigOperators

namespace Cert.MaskedMlp

open Idealize.ShloMosaic Cert.RealValued

variable {R : ℕ}

/-- The masked mean of a real-valued column is the image of the real masked mean. -/
theorem mean_eq_coe (h : Fin R → Fin 256 → EReal) (M : Fin R → EReal) (j : Fin 256)
    (a m : Fin R → ℝ) (n : ℝ) (ha : ∀ r, h r j = (a r : EReal)) (hm : ∀ r, M r = (m r : EReal))
    (hn : n ≠ 0) (hc : count M = (n : EReal)) :
    mean h M j = (((∑ r, a r * m r) * (1 / n) : ℝ) : EReal) := by
  unfold mean msum
  simp only [ha, hm, hc]
  exact Coe.mean_coe a m n hn

/-- The centred variance of a real-valued column is the image of the real masked mean of squared deviations. -/
theorem varCentered_eq_coe (h : Fin R → Fin 256 → EReal) (M : Fin R → EReal) (j : Fin 256)
    (a m : Fin R → ℝ) (n : ℝ) (ha : ∀ r, h r j = (a r : EReal)) (hm : ∀ r, M r = (m r : EReal))
    (hn : n ≠ 0) (hc : count M = (n : EReal)) :
    varCentered h M j
      = (((∑ r, ((a r - (∑ r, a r * m r) * (1 / n)) * (a r - (∑ r, a r * m r) * (1 / n))) * m r) * (1 / n) : ℝ) : EReal) := by
  unfold varCentered
  rw [mean_eq_coe h M j a m n ha hm hn hc]
  simp only [ha, hm, hc]
  exact Coe.meandev_coe a m _ n hn

/-- The moment form of the variance of a real-valued column is the image of the real one. -/
theorem varMoments_eq_coe (h : Fin R → Fin 256 → EReal) (M : Fin R → EReal) (j : Fin 256)
    (a m : Fin R → ℝ) (n : ℝ) (ha : ∀ r, h r j = (a r : EReal)) (hm : ∀ r, M r = (m r : EReal))
    (hn : n ≠ 0) (hc : count M = (n : EReal)) :
    varMoments h M j
      = (((∑ r, (a r * m r) * a r) * (1 / n) - ((∑ r, a r * m r) * (1 / n)) * ((∑ r, a r * m r) * (1 / n)) : ℝ) : EReal) := by
  unfold varMoments
  rw [mean_eq_coe h M j a m n ha hm hn hc]
  unfold msumsq
  simp only [ha, hm, hc]
  rw [Coe.meansq_coe a m n hn, ← EReal.coe_mul, ← EReal.coe_sub]

/-- THE LAW between the two forms of the variance: on real-valued data under a 0/1 mask they are equal. -/
theorem var_eq (h : Fin R → Fin 256 → EReal) (M : Fin R → EReal)
    (hh : ∀ r j, IsReal (h r j)) (hM : ∀ r, M r = 0 ∨ M r = 1) :
    varMoments h M = varCentered h M := by
  funext j
  obtain ⟨m, n, hm, _, hn1, hc, hcase⟩ := count_witness M hM
  choose a ha using fun r => hh r j
  have hn : n ≠ 0 := ne_of_gt (lt_of_lt_of_le zero_lt_one hn1)
  rw [varMoments_eq_coe h M j a m n ha hm hn hc, varCentered_eq_coe h M j a m n ha hm hn hc]
  refine congrArg _ (RealLaw.moments_eq_centered a m n hn ?_)
  rcases hcase with ⟨h0, _⟩ | hs
  · exact Or.inl h0
  · exact Or.inr hs

/-- The centred variance of a real-valued column under a 0/1 mask is a nonnegative real number. -/
theorem varCentered_nonneg_real (h : Fin R → Fin 256 → EReal) (M : Fin R → EReal)
    (hh : ∀ r j, IsReal (h r j)) (hM : ∀ r, M r = 0 ∨ M r = 1) (j : Fin 256) :
    ∃ v : ℝ, 0 ≤ v ∧ varCentered h M j = (v : EReal) := by
  obtain ⟨m, n, hm, hm01, hn1, hc, _⟩ := count_witness M hM
  choose a ha using fun r => hh r j
  have hnpos : 0 < n := lt_of_lt_of_le zero_lt_one hn1
  refine ⟨_, ?_, varCentered_eq_coe h M j a m n ha hm (ne_of_gt hnpos) hc⟩
  refine RealLaw.centered_nonneg a m _ n (fun r => ?_) hnpos
  rcases hm01 r with e | e <;> rw [e] <;> norm_num

/-- The masked mean of a real-valued column is a real number. -/
theorem isReal_mean (h : Fin R → Fin 256 → EReal) (M : Fin R → EReal)
    (hh : ∀ r j, IsReal (h r j)) (hM : ∀ r, M r = 0 ∨ M r = 1) (j : Fin 256) : IsReal (mean h M j) := by
  obtain ⟨m, n, hm, _, hn1, hc, _⟩ := count_witness M hM
  choose a ha using fun r => hh r j
  exact ⟨_, mean_eq_coe h M j a m n ha hm (ne_of_gt (lt_of_lt_of_le zero_lt_one hn1)) hc⟩

end Cert.MaskedMlp

end
-- ==== Proof.RealLayer.lean ====
/-
  Real values pass through a layer.

  A dense layer of real inputs, weights and biases is real: each entry is a finite sum of products plus a bias.
  The word added to a variance denotes a positive real number, so a nonnegative real variance plus that word is a
  positive real, its reciprocal square root is a real number, and the normalised, scaled, shifted and rectified
  value is real whenever the column, its mean, the scale and the shift are.
-/
import Idealize.ShloMosaic.PureOps.Ideal
import proofs.«171056_j68092411510797_1_alg».proof.Proof.Spec
import proofs.«171056_j68092411510797_1_alg».proof.Proof.LibRealValued
import proofs.«171056_j68092411510797_1_alg».proof.Proof.MomentCount
import proofs.«171056_j68092411510797_1_alg».proof.Proof.MomentVarEq

noncomputable section

open scoped BigOperators

namespace Cert.MaskedMlp

open Idealize.ShloMosaic Cert.RealValued

/-- The difference of two real numbers is a real number. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The larger of two real numbers is a real number. -/
theorem isReal_max {x y : EReal} (hx : IsReal x) (hy : IsReal y) : IsReal (max x y) := by
  rcases le_total x y with h | h
  · rw [max_eq_right h]; exact hy
  · rw [max_eq_left h]; exact hx

variable {R K : ℕ}

/-- A dense layer of real inputs, weights and biases is real. -/
theorem isReal_dense (a : Fin R → Fin K → EReal) (W : Fin K → Fin 256 → EReal) (b : Fin 256 → EReal)
    (ha : ∀ r k, IsReal (a r k)) (hW : ∀ k j, IsReal (W k j)) (hb : ∀ j, IsReal (b j)) (r : Fin R) (j : Fin 256) :
    IsReal (dense a W b r j) :=
  (isReal_sum _ _ fun k _ => (ha r k).mul (hW k j)).add (hb j)

/-- The word added to a variance denotes 10995116 · 2⁻⁴⁰. -/
theorem eps_val : eps = ((10995116 / 1099511627776 : ℝ) : EReal) := by
  unfold eps
  simp [Ideal.ofBits, Ideal.ieee, -EReal.coe_mul]
  norm_num

/-- The word added to a variance denotes a positive real number. -/
theorem eps_pos_real : ∃ e : ℝ, 0 < e ∧ eps = (e : EReal) :=
  ⟨10995116 / 1099511627776, by norm_num, eps_val⟩

/-- The reciprocal square root of a positive real number is a real number. -/
theorem isReal_rsqrt_pos {x : ℝ} (hx : 0 < x) : IsReal (Ideal.rsqrt (x : EReal)) := by
  rw [Ideal.rsqrt_coe, if_neg (not_lt.mpr hx.le), if_neg (ne_of_gt hx)]
  exact isReal_coe _

/-- Normalising by a real mean and a nonnegative real variance keeps a real entry real. -/
theorem isReal_normReluWith (mu var g be : Fin 256 → EReal) (h : Fin R → Fin 256 → EReal) (r : Fin R) (j : Fin 256)
    (hmu : IsReal (mu j)) (hvar : ∃ v : ℝ, 0 ≤ v ∧ var j = (v : EReal)) (hg : IsReal (g j)) (hbe : IsReal (be j))
    (hh : IsReal (h r j)) : IsReal (normReluWith mu var g be h r j) := by
  obtain ⟨v, hv0, hv⟩ := hvar
  obtain ⟨e, he0, he⟩ := eps_pos_real
  unfold normReluWith
  rw [hv, he, ← EReal.coe_add]
  exact isReal_max
    ((((isReal_sub hh hmu).mul (isReal_rsqrt_pos (add_pos_of_nonneg_of_pos hv0 he0))).mul hg).add hbe) isReal_zero

/-- A normalised layer, with the variance in its centred form, is real on real data under a 0/1 mask. -/
theorem isReal_normRelu_centered (h : Fin R → Fin 256 → EReal) (M : Fin R → EReal) (g be : Fin 256 → EReal)
    (hh : ∀ r j, IsReal (h r j)) (hM : ∀ r, M r = 0 ∨ M r = 1) (hg : ∀ j, IsReal (g j)) (hbe : ∀ j, IsReal (be j))
    (r : Fin R) (j : Fin 256) : IsReal (normRelu (varCentered h M) h M g be r j) :=
  isReal_normReluWith _ _ _ _ _ r j (isReal_mean h M hh hM j) (varCentered_nonneg_real h M hh hM j) (hg j) (hbe j)
    (hh r j)

end Cert.MaskedMlp

end
-- ==== Proof.MomentNetEq.lean ====
/-
  The network computed with either form of the variance is the same function on real-valued data.

  The first layer's pre-activation is a dense layer of real data, so its two variances agree; with the centred
  variance the normalised first layer is real, hence so is the second layer's pre-activation, and its two variances
  agree as well. The last layer only consumes the second normalised layer, so its weights and bias may be anything.
-/
import Idealize.ShloMosaic.PureOps.Ideal
import proofs.«171056_j68092411510797_1_alg».proof.Proof.Spec
import proofs.«171056_j68092411510797_1_alg».proof.Proof.LibRealValued
import proofs.«171056_j68092411510797_1_alg».proof.Proof.MomentVarEq
import proofs.«171056_j68092411510797_1_alg».proof.Proof.RealLayer

noncomputable section

namespace Cert.MaskedMlp

open Idealize.ShloMosaic Cert.RealValued

variable {R K : ℕ}

/-- THE NETWORK LAW: moments or centred squares, the same network on real data under a 0/1 mask. -/
theorem net_eq (X : Fin R → Fin K → EReal) (M : Fin R → EReal)
    (W1 : Fin K → Fin 256 → EReal) (b1 g1 be1 : Fin 256 → EReal)
    (W2 : Fin 256 → Fin 256 → EReal) (b2 g2 be2 : Fin 256 → EReal)
    (W3 : Fin 256 → Fin 256 → EReal) (b3 : Fin 256 → EReal)
    (hX : ∀ r k, IsReal (X r k)) (hM : ∀ r, M r = 0 ∨ M r = 1)
    (hW1 : ∀ k j, IsReal (W1 k j)) (hb1 : ∀ j, IsReal (b1 j)) (hg1 : ∀ j, IsReal (g1 j)) (hbe1 : ∀ j, IsReal (be1 j))
    (hW2 : ∀ k j, IsReal (W2 k j)) (hb2 : ∀ j, IsReal (b2 j)) (hg2 : ∀ j, IsReal (g2 j)) (hbe2 : ∀ j, IsReal (be2 j)) :
    netMoments X M W1 b1 g1 be1 W2 b2 g2 be2 W3 b3 = netCentered X M W1 b1 g1 be1 W2 b2 g2 be2 W3 b3 := by
  have h1 : ∀ r j, IsReal (dense X W1 b1 r j) := isReal_dense X W1 b1 hX hW1 hb1
  have e1 : varMoments (dense X W1 b1) M = varCentered (dense X W1 b1) M := var_eq _ M h1 hM
  have h2 : ∀ r j, IsReal (dense (normRelu (varCentered (dense X W1 b1) M) (dense X W1 b1) M g1 be1) W2 b2 r j) :=
    isReal_dense _ W2 b2 (isReal_normRelu_centered _ M g1 be1 h1 hM hg1 hbe1) hW2 hb2
  have e2 := var_eq _ M h2 hM
  funext r j
  show net varMoments X M W1 b1 g1 be1 W2 b2 g2 be2 W3 b3 r j = net varCentered X M W1 b1 g1 be1 W2 b2 g2 be2 W3 b3 r j
  unfold net
  rw [e1, e2]

end Cert.MaskedMlp

end
-- ==== Proof.FiniteElement.lean ====
/-
  From "every absolute value is below the positive infinity" to "every entry is a real number".

  The word 0x7F800000 denotes the positive infinity. An extended real x with max x (−x) < +∞ is neither infinity,
  hence a real number. When a conjunction over a whole array of the tests |x i| < +∞ comes out 1, every test is 1,
  so every entry is a real number. A single bit read as a number is 0 or 1.
-/
import Idealize.ShloMosaic.PureOps.Ideal
import Idealize.ShloMosaic.PureOps.Ideal.Laws
import Idealize.ShloMosaic.Lib.ReduceAll
import proofs.«171056_j68092411510797_1_alg».proof.Proof.LibRealValued

noncomputable section

namespace Cert.MaskedMlp.Finite

open Idealize.ShloMosaic Cert.RealValued

/-- The word 0x7F800000 denotes the positive infinity. -/
theorem ofBits_inf : Ideal.ofBits .f32 0x7F800000#32 = (⊤ : EReal) := by
  simp [Ideal.ofBits, Ideal.ieee]

/-- An extended real whose absolute value is below the positive infinity is a real number. -/
theorem isReal_of_abs_lt_top (x : EReal) (h : max x (-x) < ⊤) : IsReal x := by
  induction x using EReal.rec with
  | bot => simp at h
  | coe r => exact ⟨r, rfl⟩
  | top => simp at h

/-- The test |x| < +∞ that came out 1. -/
theorem isReal_of_cmp (x : EReal) (h : Ideal.cmp .olt (max x (-x)) (Ideal.ofBits .f32 0x7F800000#32) = 1#1) :
    IsReal x := by
  rw [ofBits_inf] at h
  refine isReal_of_abs_lt_top x ?_
  by_contra hn
  unfold Ideal.cmp at h
  simp [hn] at h

/-- A conjunction over the whole array of the tests |x i| < +∞ that came out 1: every entry is a real number. -/
theorem allReal_of_all_finite {S T U : Shape} {axes : List (Fin S.rank)} [Subsingleton T.Idx]
    (x top : FVec Ideal S .f32) (htop : ∀ i, top i = Ideal.ofBits .f32 0x7F800000#32)
    (init : IVec U 1) (hr : S.ReducesTo axes T) (hu : 0 < U.numel) (j : T.Idx)
    (e : Host.reduce IntOp.andi (cmpf .olt (Host.absf x) top) init hr hu j = 1#1) : AllReal x := fun i => by
  have h := Host.reduce_andi_all _ init hr hu j e i
  have h' : Ideal.cmp .olt (max (x i) (-(x i))) (top i) = 1#1 := h
  rw [htop] at h'
  exact isReal_of_cmp _ h'

/-- A single bit read as a real number is 0 or 1. -/
theorem bit_zero_or_one (b : BitVec 1) : ((b.toNat : ℝ) : EReal) = 0 ∨ ((b.toNat : ℝ) : EReal) = 1 := by
  rcases BitVec.eq_zero_or_eq_one b with h | h
  · left; subst h; simp
  · right; subst h; simp

end Cert.MaskedMlp.Finite

end
-- ==== Proof.FiniteInputs.lean ====
/-
  Finite inputs: from the precondition to "every entry of every float argument is a real number".

  The precondition is a conjunction, nested to the left, of eleven tests, one per float argument: the conjunction
  over the whole array of |x i| < +∞. When it is 1 each of the eleven is 1, so every entry of every float argument
  is a real number. The mask argument is an array of bits, and a bit read as a number is 0 or 1.
-/
import proofs.«171056_j68092411510797_1_alg».proof.Defs
import Idealize.ShloMosaic.Lib.ValueIdx
import Idealize.ShloMosaic.Lib.ReduceAll
import proofs.«171056_j68092411510797_1_alg».proof.Proof.Args
import proofs.«171056_j68092411510797_1_alg».proof.Proof.LibRealValued
import proofs.«171056_j68092411510797_1_alg».proof.Proof.FiniteElement

noncomputable section

namespace Cert.MaskedMlp.Finite

open Idealize.ShloMosaic Idealize.SL.Sem Cert.RealValued Cert.Pre_finite_inputs

/-- The shape of a scalar has one index. -/
instance subsingleton_scalar_idx : Subsingleton S_.Idx := ⟨fun a b => funext fun d => d.elim0⟩

/-- The predicate over any twelve arrays of the arguments' shapes: when it is 1 every float array is real-valued. -/
theorem allReal_of_fn [Cert.Pre_finite_inputs.Facts]
    (a0 : FVec Ideal S512x512x4x4 .f32) (a1 : IVec S512x512 1) (a2 : FVec Ideal S4x256 .f32)
    (a3 a4 a5 : FVec Ideal S256 .f32) (a6 : FVec Ideal S256x256 .f32) (a7 a8 a9 : FVec Ideal S256 .f32)
    (a10 : FVec Ideal S256x256 .f32) (a11 : FVec Ideal S256 .f32)
    (h : Cert.Pre_finite_inputs.fn (F := Ideal) a0 a1 a2 a3 a4 a5 a6 a7 a8 a9 a10 a11 = fun _ => 1#1) :
    AllReal a0 ∧ AllReal a2 ∧ AllReal a3 ∧ AllReal a4 ∧ AllReal a5 ∧ AllReal a6 ∧ AllReal a7 ∧ AllReal a8 ∧ AllReal a9 ∧ AllReal a10 ∧ AllReal a11 := by
  have h0 := congrFun h ValueIdx.ix0
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨allReal_of_all_finite a0 _ (fun _ => rfl) _ _ _ _ e0,
    allReal_of_all_finite a2 _ (fun _ => rfl) _ _ _ _ e2,
    allReal_of_all_finite a3 _ (fun _ => rfl) _ _ _ _ e3,
    allReal_of_all_finite a4 _ (fun _ => rfl) _ _ _ _ e4,
    allReal_of_all_finite a5 _ (fun _ => rfl) _ _ _ _ e5,
    allReal_of_all_finite a6 _ (fun _ => rfl) _ _ _ _ e6,
    allReal_of_all_finite a7 _ (fun _ => rfl) _ _ _ _ e7,
    allReal_of_all_finite a8 _ (fun _ => rfl) _ _ _ _ e8,
    allReal_of_all_finite a9 _ (fun _ => rfl) _ _ _ _ e9,
    allReal_of_all_finite a10 _ (fun _ => rfl) _ _ _ _ e10,
    allReal_of_all_finite a11 _ (fun _ => rfl) _ _ _ _ e11⟩

/-- THE PRECONDITION GIVES REAL ARGUMENTS: on every core, every entry of each of the eleven float arguments is a
    real number. -/
theorem allReal_args [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (S := S512x512x4x4) (m ((c.tc : Thread Cert.KernelIdeal.nD Cert.KernelIdeal.τ).loc Cert.KernelIdeal.main_arg0))
    ∧ AllReal (S := S4x256) (m ((c.tc : Thread Cert.KernelIdeal.nD Cert.KernelIdeal.τ).loc Cert.KernelIdeal.main_arg2))
    ∧ AllReal (S := S256) (m ((c.tc : Thread Cert.KernelIdeal.nD Cert.KernelIdeal.τ).loc Cert.KernelIdeal.main_arg3))
    ∧ AllReal (S := S256) (m ((c.tc : Thread Cert.KernelIdeal.nD Cert.KernelIdeal.τ).loc Cert.KernelIdeal.main_arg4))
    ∧ AllReal (S := S256) (m ((c.tc : Thread Cert.KernelIdeal.nD Cert.KernelIdeal.τ).loc Cert.KernelIdeal.main_arg5))
    ∧ AllReal (S := S256x256) (m ((c.tc : Thread Cert.KernelIdeal.nD Cert.KernelIdeal.τ).loc Cert.KernelIdeal.main_arg6))
    ∧ AllReal (S := S256) (m ((c.tc : Thread Cert.KernelIdeal.nD Cert.KernelIdeal.τ).loc Cert.KernelIdeal.main_arg7))
    ∧ AllReal (S := S256) (m ((c.tc : Thread Cert.KernelIdeal.nD Cert.KernelIdeal.τ).loc Cert.KernelIdeal.main_arg8))
    ∧ AllReal (S := S256) (m ((c.tc : Thread Cert.KernelIdeal.nD Cert.KernelIdeal.τ).loc Cert.KernelIdeal.main_arg9))
    ∧ AllReal (S := S256x256) (m ((c.tc : Thread Cert.KernelIdeal.nD Cert.KernelIdeal.τ).loc Cert.KernelIdeal.main_arg10))
    ∧ AllReal (S := S256) (m ((c.tc : Thread Cert.KernelIdeal.nD Cert.KernelIdeal.τ).loc Cert.KernelIdeal.main_arg11)) :=
  allReal_of_fn _ _ _ _ _ _ _ _ _ _ _ _ (hpre c)

/-- A mask entry is 0 or 1. -/
theorem maskOf_zero_or_one (x : (⟨2, ![512, 512]⟩ : Shape).Idx → BitVec 1) (r : Fin Rows) :
    maskOf x r = 0 ∨ maskOf x r = 1 :=
  bit_zero_or_one _

/-- The network's input rows, read off a real-valued feature array, are real. -/
theorem isReal_rowsOf (x : (⟨4, ![512, 512, 4, 4]⟩ : Shape).Idx → EReal) (hx : AllReal x) (r : Fin Rows) (k : Fin 4) :
    IsReal (rowsOf x r k) := hx _

/-- A real-valued matrix read by row and column is real. -/
theorem isReal_matOf {a b : ℕ} (x : (⟨2, ![a, b]⟩ : Shape).Idx → EReal) (hx : AllReal x) (k : Fin a) (j : Fin b) :
    IsReal (matOf x k j) := hx _

/-- A real-valued vector read by its coordinate is real. -/
theorem isReal_vecOf {a : ℕ} (x : (⟨1, ![a]⟩ : Shape).Idx → EReal) (hx : AllReal x) (j : Fin a) :
    IsReal (vecOf x j) := hx _

end Cert.MaskedMlp.Finite

end
-- ==== Proof.FiniteNetEq.lean ====
/-
  The network law on finite inputs.

  When every entry of the feature array, of the first two layers' weights and biases and of the two scales and
  shifts is a real number, the network's inputs read off those arrays are real and the mask read off the bit array
  takes the values 0 and 1, so the network formed with either variance is the same function. Under the
  precondition that every float argument is finite this holds of the argument arrays on every core.
-/
import proofs.«171056_j68092411510797_1_alg».proof.Defs
import proofs.«171056_j68092411510797_1_alg».proof.Proof.Spec
import proofs.«171056_j68092411510797_1_alg».proof.Proof.Args
import proofs.«171056_j68092411510797_1_alg».proof.Proof.LibRealValued
import proofs.«171056_j68092411510797_1_alg».proof.Proof.MomentNetEq
import proofs.«171056_j68092411510797_1_alg».proof.Proof.FiniteInputs

noncomputable section

namespace Cert.MaskedMlp.Finite

open Idealize.ShloMosaic Idealize.SL.Sem Cert.RealValued

/-- The network law over twelve arrays of the arguments' shapes, the first ten float ones real-valued. -/
theorem net_eq_of_allReal
    (x0 : (⟨4, ![512, 512, 4, 4]⟩ : Shape).Idx → EReal) (x1 : (⟨2, ![512, 512]⟩ : Shape).Idx → BitVec 1)
    (x2 : (⟨2, ![4, 256]⟩ : Shape).Idx → EReal) (x3 x4 x5 : (⟨1, ![256]⟩ : Shape).Idx → EReal)
    (x6 : (⟨2, ![256, 256]⟩ : Shape).Idx → EReal) (x7 x8 x9 : (⟨1, ![256]⟩ : Shape).Idx → EReal)
    (x10 : (⟨2, ![256, 256]⟩ : Shape).Idx → EReal) (x11 : (⟨1, ![256]⟩ : Shape).Idx → EReal)
    (h0 : AllReal x0) (h2 : AllReal x2) (h3 : AllReal x3) (h4 : AllReal x4) (h5 : AllReal x5)
    (h6 : AllReal x6) (h7 : AllReal x7) (h8 : AllReal x8) (h9 : AllReal x9) :
    netMoments (rowsOf x0) (maskOf x1) (matOf x2) (vecOf x3) (vecOf x4) (vecOf x5) (matOf x6) (vecOf x7) (vecOf x8) (vecOf x9) (matOf x10) (vecOf x11)
      = netCentered (rowsOf x0) (maskOf x1) (matOf x2) (vecOf x3) (vecOf x4) (vecOf x5) (matOf x6) (vecOf x7) (vecOf x8) (vecOf x9) (matOf x10) (vecOf x11) :=
  net_eq _ _ _ _ _ _ _ _ _ _ _ _ (isReal_rowsOf x0 h0) (maskOf_zero_or_one x1)
    (isReal_matOf x2 h2) (isReal_vecOf x3 h3) (isReal_vecOf x4 h4) (isReal_vecOf x5 h5)
    (isReal_matOf x6 h6) (isReal_vecOf x7 h7) (isReal_vecOf x8 h8) (isReal_vecOf x9 h9)

/-- The network law of the argument arrays on every core, under the precondition that every float argument is finite. -/
theorem net_eq_args [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    netMoments
      (rowsOf (m ((c.tc : Thread Cert.KernelIdeal.nD Cert.KernelIdeal.τ).loc Cert.KernelIdeal.main_arg0)))
      (maskOf (m ((c.tc : Thread Cert.KernelIdeal.nD Cert.KernelIdeal.τ).loc Cert.KernelIdeal.main_arg1)))
      (matOf (m ((c.tc : Thread Cert.KernelIdeal.nD Cert.KernelIdeal.τ).loc Cert.KernelIdeal.main_arg2)))
      (vecOf (m ((c.tc : Thread Cert.KernelIdeal.nD Cert.KernelIdeal.τ).loc Cert.KernelIdeal.main_arg3)))
      (vecOf (m ((c.tc : Thread Cert.KernelIdeal.nD Cert.KernelIdeal.τ).loc Cert.KernelIdeal.main_arg4)))
      (vecOf (m ((c.tc : Thread Cert.KernelIdeal.nD Cert.KernelIdeal.τ).loc Cert.KernelIdeal.main_arg5)))
      (matOf (m ((c.tc : Thread Cert.KernelIdeal.nD Cert.KernelIdeal.τ).loc Cert.KernelIdeal.main_arg6)))
      (vecOf (m ((c.tc : Thread Cert.KernelIdeal.nD Cert.KernelIdeal.τ).loc Cert.KernelIdeal.main_arg7)))
      (vecOf (m ((c.tc : Thread Cert.KernelIdeal.nD Cert.KernelIdeal.τ).loc Cert.KernelIdeal.main_arg8)))
      (vecOf (m ((c.tc : Thread Cert.KernelIdeal.nD Cert.KernelIdeal.τ).loc Cert.KernelIdeal.main_arg9)))
      (matOf (m ((c.tc : Thread Cert.KernelIdeal.nD Cert.KernelIdeal.τ).loc Cert.KernelIdeal.main_arg10)))
      (vecOf (m ((c.tc : Thread Cert.KernelIdeal.nD Cert.KernelIdeal.τ).loc Cert.KernelIdeal.main_arg11)))
    = netCentered
      (rowsOf (m ((c.tc : Thread Cert.KernelIdeal.nD Cert.KernelIdeal.τ).loc Cert.KernelIdeal.main_arg0)))
      (maskOf (m ((c.tc : Thread Cert.KernelIdeal.nD Cert.KernelIdeal.τ).loc Cert.KernelIdeal.main_arg1)))
      (matOf (m ((c.tc : Thread Cert.KernelIdeal.nD Cert.KernelIdeal.τ).loc Cert.KernelIdeal.main_arg2)))
      (vecOf (m ((c.tc : Thread Cert.KernelIdeal.nD Cert.KernelIdeal.τ).loc Cert.KernelIdeal.main_arg3)))
      (vecOf (m ((c.tc : Thread Cert.KernelIdeal.nD Cert.KernelIdeal.τ).loc Cert.KernelIdeal.main_arg4)))
      (vecOf (m ((c.tc : Thread Cert.KernelIdeal.nD Cert.KernelIdeal.τ).loc Cert.KernelIdeal.main_arg5)))
      (matOf (m ((c.tc : Thread Cert.KernelIdeal.nD Cert.KernelIdeal.τ).loc Cert.KernelIdeal.main_arg6)))
      (vecOf (m ((c.tc : Thread Cert.KernelIdeal.nD Cert.KernelIdeal.τ).loc Cert.KernelIdeal.main_arg7)))
      (vecOf (m ((c.tc : Thread Cert.KernelIdeal.nD Cert.KernelIdeal.τ).loc Cert.KernelIdeal.main_arg8)))
      (vecOf (m ((c.tc : Thread Cert.KernelIdeal.nD Cert.KernelIdeal.τ).loc Cert.KernelIdeal.main_arg9)))
      (matOf (m ((c.tc : Thread Cert.KernelIdeal.nD Cert.KernelIdeal.τ).loc Cert.KernelIdeal.main_arg10)))
      (vecOf (m ((c.tc : Thread Cert.KernelIdeal.nD Cert.KernelIdeal.τ).loc Cert.KernelIdeal.main_arg11))) := by
  obtain ⟨h0, h2, h3, h4, h5, h6, h7, h8, h9, _, _⟩ := allReal_args m hpre c
  exact net_eq_of_allReal _ _ _ _ _ _ _ _ _ _ _ _ h0 h2 h3 h4 h5 h6 h7 h8 h9

end Cert.MaskedMlp.Finite

end
-- ==== Proof.Assembly.lean ====
/-
  The five claims. The two kernel programs' frames are the run of @main through its seven items; the plain program's frame is
  its run with the result dropped; the idealisation rewrote nothing. For the value: the tiled program ends at the network with
  each variance formed from moments, the plain program at the network with each variance formed from centred squares, of
  arguments that agree; under finite inputs every pre-activation is a real number and the mask is 0 or 1, so the two
  variances, hence the two networks, are equal.
-/
import proofs.«171056_j68092411510797_1_alg».proof.Defs
import proofs.«171056_j68092411510797_1_alg».proof.Proof.Gen.Kernel
import proofs.«171056_j68092411510797_1_alg».proof.Proof.Gen.KernelIdeal
import proofs.«171056_j68092411510797_1_alg».proof.Proof.Gen.ReferenceIdeal
import proofs.«171056_j68092411510797_1_alg».proof.Proof.Gen.Pre_finite_inputs
import proofs.«171056_j68092411510797_1_alg».proof.Proof.Gen.ReferenceIdeal.Read
import proofs.«171056_j68092411510797_1_alg».proof.Proof.KFrameWalk
import proofs.«171056_j68092411510797_1_alg».proof.Proof.KernelValue
import proofs.«171056_j68092411510797_1_alg».proof.Proof.RefValue
import proofs.«171056_j68092411510797_1_alg».proof.Proof.FiniteNetEq

set_option maxRecDepth 16384

noncomputable section

namespace Cert.Proof.Parts

open Idealize.ShloMosaic Idealize.ShloMosaic.TcCoe Idealize.SL.Sem Cert.MaskedMlp

attribute [local instance] Cert.Kernel.Gen.facts Cert.KernelIdeal.Gen.facts Cert.ReferenceIdeal.Gen.facts Cert.Pre_finite_inputs.Gen.facts

theorem frame_k : Cert.frame_Kernel := fun m ρ _ => Cert.Kernel.Frame.frame (F := Bits) m ρ

theorem frame_ki : Cert.frame_KernelIdeal := fun m ρ _ => Cert.KernelIdeal.Frame.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => fun i => netCentered (rowsOf (m ((c.tc : Thread Cert.KernelIdeal.nD Cert.KernelIdeal.τ).loc Cert.KernelIdeal.main_arg0))) (maskOf (m ((c.tc : Thread Cert.KernelIdeal.nD Cert.KernelIdeal.τ).loc Cert.KernelIdeal.main_arg1))) (matOf (m ((c.tc : Thread Cert.KernelIdeal.nD Cert.KernelIdeal.τ).loc Cert.KernelIdeal.main_arg2))) (vecOf (m ((c.tc : Thread Cert.KernelIdeal.nD Cert.KernelIdeal.τ).loc Cert.KernelIdeal.main_arg3))) (vecOf (m ((c.tc : Thread Cert.KernelIdeal.nD Cert.KernelIdeal.τ).loc Cert.KernelIdeal.main_arg4))) (vecOf (m ((c.tc : Thread Cert.KernelIdeal.nD Cert.KernelIdeal.τ).loc Cert.KernelIdeal.main_arg5))) (matOf (m ((c.tc : Thread Cert.KernelIdeal.nD Cert.KernelIdeal.τ).loc Cert.KernelIdeal.main_arg6))) (vecOf (m ((c.tc : Thread Cert.KernelIdeal.nD Cert.KernelIdeal.τ).loc Cert.KernelIdeal.main_arg7))) (vecOf (m ((c.tc : Thread Cert.KernelIdeal.nD Cert.KernelIdeal.τ).loc Cert.KernelIdeal.main_arg8))) (vecOf (m ((c.tc : Thread Cert.KernelIdeal.nD Cert.KernelIdeal.τ).loc Cert.KernelIdeal.main_arg9))) (matOf (m ((c.tc : Thread Cert.KernelIdeal.nD Cert.KernelIdeal.τ).loc Cert.KernelIdeal.main_arg10))) (vecOf (m ((c.tc : Thread Cert.KernelIdeal.nD Cert.KernelIdeal.τ).loc Cert.KernelIdeal.main_arg11))) (rowOfOut i) (i 2), ?_, ?_⟩
  · refine (θ_run Cert.KernelIdeal.defs _ _).mono (fun r h c => ⟨(h c).1.trans ?_, (h c).2⟩) (Cert.KernelIdeal.NetValue.run_value m ρ)
    funext i
    exact congrFun (congrFun (Cert.MaskedMlp.Finite.net_eq_args m hpre c) (rowOfOut i)) (i 2)
  · refine (θ_run Cert.ReferenceIdeal.defs _ _).mono (fun r h c => ⟨(h c).1.trans ?_, (h c).2⟩) (Cert.ReferenceIdeal.Value.run (F := Ideal) m' ρ')
    rw [Cert.ReferenceIdeal.Read.val_main_v82_eq, Cert.ReferenceIdeal.RefValue.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]
    rfl

end Cert.Proof.Parts

end
-- ==== Proof.lean ====
/-
  The certificate: a masked three-layer perceptron with two batch normalisations, computed by three tiled passes over the rows
  (two that accumulate column statistics block by block, one that writes the output) against the plain whole-array
  computation. Both programs run to the end leaving their arguments unchanged, and at the extended reals, under finite inputs,
  they end with the same result: the tiled program forms each variance as the second moment minus the squared mean, the plain
  one as the mean squared deviation, and the two agree for real-valued entries and a 0/1 mask. The parts are in Proof/Assembly.
-/
import proofs.«171056_j68092411510797_1_alg».proof.Defs
import proofs.«171056_j68092411510797_1_alg».proof.Proof.Gen.Kernel
import proofs.«171056_j68092411510797_1_alg».proof.Proof.Gen.Kernel.Skeleton
import proofs.«171056_j68092411510797_1_alg».proof.Proof.Gen.Kernel.Launch
import proofs.«171056_j68092411510797_1_alg».proof.Proof.Gen.Kernel.Regions
import proofs.«171056_j68092411510797_1_alg».proof.Proof.Gen.Kernel.Points
import proofs.«171056_j68092411510797_1_alg».proof.Proof.Gen.KernelIdeal
import proofs.«171056_j68092411510797_1_alg».proof.Proof.Gen.KernelIdeal.Skeleton
import proofs.«171056_j68092411510797_1_alg».proof.Proof.Gen.KernelIdeal.Launch
import proofs.«171056_j68092411510797_1_alg».proof.Proof.Gen.KernelIdeal.Regions
import proofs.«171056_j68092411510797_1_alg».proof.Proof.Gen.KernelIdeal.Points
import proofs.«171056_j68092411510797_1_alg».proof.Proof.Gen.ReferenceIdeal
import proofs.«171056_j68092411510797_1_alg».proof.Proof.Gen.Pre_finite_inputs
import proofs.«171056_j68092411510797_1_alg».proof.Proof.Gen.ReferenceIdeal.Read
import proofs.«171056_j68092411510797_1_alg».proof.Proof.Assembly
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Parts.frame_k, Cert.Proof.Parts.frame_ki, Cert.Proof.Parts.frame_ri, Cert.Proof.Parts.preserves, Cert.Proof.Parts.algebraic⟩

end Cert.Proof

end
